-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v57) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_v222) = v1 c
          ∧ r.2.mem ((c.tc : Thread Cert.ReferenceIdeal.nD Cert.ReferenceIdeal.τ).loc Cert.ReferenceIdeal.main_v214) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S8x1024x256 : Shape := ⟨3, ![8, 1024, 256]⟩
abbrev S8x1024x128 : Shape := ⟨3, ![8, 1024, 128]⟩
abbrev S8x64x512 : Shape := ⟨3, ![8, 64, 512]⟩
abbrev S8x64 : Shape := ⟨2, ![8, 64]⟩
abbrev S8x32x256 : Shape := ⟨3, ![8, 32, 256]⟩
abbrev S8x32 : Shape := ⟨2, ![8, 32]⟩
abbrev S8x16x128 : Shape := ⟨3, ![8, 16, 128]⟩
abbrev S8x16 : Shape := ⟨2, ![8, 16]⟩
abbrev S512x512 : Shape := ⟨2, ![512, 512]⟩
abbrev S512 : Shape := ⟨1, ![512]⟩
abbrev S1x1 : Shape := ⟨2, ![1, 1]⟩
abbrev S64x64 : Shape := ⟨2, ![64, 64]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S8x1024x256 : S_.BroadcastsInDim S8x1024x256 (![] : Fin 0 → Fin S8x1024x256.rank)
  reducesTo_S8x1024x256_S_d0_1_2 : S8x1024x256.ReducesTo [0, 1, 2] S_
  bcast_S_S8x1024x128 : S_.BroadcastsInDim S8x1024x128 (![] : Fin 0 → Fin S8x1024x128.rank)
  reducesTo_S8x1024x128_S_d0_1_2 : S8x1024x128.ReducesTo [0, 1, 2] S_
  bcast_S_S8x64x512 : S_.BroadcastsInDim S8x64x512 (![] : Fin 0 → Fin S8x64x512.rank)
  reducesTo_S8x64x512_S_d0_1_2 : S8x64x512.ReducesTo [0, 1, 2] S_
  bcast_S_S8x64 : S_.BroadcastsInDim S8x64 (![] : Fin 0 → Fin S8x64.rank)
  reducesTo_S8x64_S_d0_1 : S8x64.ReducesTo [0, 1] S_
  bcast_S_S8x32x256 : S_.BroadcastsInDim S8x32x256 (![] : Fin 0 → Fin S8x32x256.rank)
  reducesTo_S8x32x256_S_d0_1_2 : S8x32x256.ReducesTo [0, 1, 2] S_
  bcast_S_S8x32 : S_.BroadcastsInDim S8x32 (![] : Fin 0 → Fin S8x32.rank)
  reducesTo_S8x32_S_d0_1 : S8x32.ReducesTo [0, 1] S_
  bcast_S_S8x16x128 : S_.BroadcastsInDim S8x16x128 (![] : Fin 0 → Fin S8x16x128.rank)
  reducesTo_S8x16x128_S_d0_1_2 : S8x16x128.ReducesTo [0, 1, 2] S_
  bcast_S_S8x16 : S_.BroadcastsInDim S8x16 (![] : Fin 0 → Fin S8x16.rank)
  reducesTo_S8x16_S_d0_1 : S8x16.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x1 : S_.BroadcastsInDim S1x1 (![] : Fin 0 → Fin S1x1.rank)
  reducesTo_S1x1_S_d0_1 : S1x1.ReducesTo [0, 1] S_

variable [Facts]

def fn_part6 {F : FTy → Type} [FloatOps F] (main_arg21 : FVec F S1x1 .f32) (main_v98 : IVec S_ 1) (main_v101 : IVec S1x1 1) (main_c_39 : IVec S_ 1) : IVec S_ 1 :=
  let main_v102 : IVec S_ 1 := (fun x v => Host.reduce IntOp.andi x v reducesTo_S1x1_S_d0_1 h_S_) main_v101 main_c_39
  let main_v103 : IVec S_ 1 := andi main_v98 main_v102
  let main_v104 : FVec F S1x1 .f32 := Host.absf main_arg21
  let main_cst_40 : FVec F S_ .f32 := constant S_ .f32 0x7F800000#32
  let main_v105 : FVec F S1x1 .f32 := broadcastInDim S1x1 ![] bcast_S_S1x1 main_cst_40
  let main_v106 : IVec S1x1 1 := cmpf .olt main_v104 main_v105
  let main_c_41 : IVec S_ 1 := constantI S_ 1 1#1
  let main_v107 : IVec S_ 1 := (fun x v => Host.reduce IntOp.andi x v reducesTo_S1x1_S_d0_1 h_S_) main_v106 main_c_41
  let main_v108 : IVec S_ 1 := andi main_v103 main_v107
  main_v108

def fn_part5 {F : FTy → Type} [FloatOps F] (main_arg18 : FVec F S512 .f32) (main_arg19 : FVec F S1x1 .f32) (main_arg20 : FVec F S1x1 .f32) (main_arg21 : FVec F S1x1 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S1x1 .f32 := Host.absf main_arg19
  let main_cst_36 : FVec F S_ .f32 := constant S_ .f32 0x7F800000#32
  let main_v95 : FVec F S1x1 .f32 := broadcastInDim S1x1 ![] bcast_S_S1x1 main_cst_36
  let main_v96 : IVec S1x1 1 := cmpf .olt main_v94 main_v95
  let main_c_37 : IVec S_ 1 := constantI S_ 1 1#1
  let main_v97 : IVec S_ 1 := (fun x v => Host.reduce IntOp.andi x v reducesTo_S1x1_S_d0_1 h_S_) main_v96 main_c_37
  let main_v98 : IVec S_ 1 := andi main_v93 main_v97
  let main_v99 : FVec F S1x1 .f32 := Host.absf main_arg20
  let main_cst_38 : FVec F S_ .f32 := constant S_ .f32 0x7F800000#32
  let main_v100 : FVec F S1x1 .f32 := broadcastInDim S1x1 ![] bcast_S_S1x1 main_cst_38
  let main_v101 : IVec S1x1 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S8x16 .f32) (main_arg15 : FVec F S8x16x128 .f32) (main_arg16 : FVec F S8x16 .f32) (main_arg17 : FVec F S512x512 .f32) (main_arg18 : FVec F S512 .f32) (main_arg19 : FVec F S1x1 .f32) (main_arg20 : FVec F S1x1 .f32) (main_arg21 : FVec F S1x1 .f32) (main_v63 : IVec S_ 1) (main_v67 : IVec S_ 1) : IVec S_ 1 :=
  let main_v68 : IVec S_ 1 := andi main_v63 main_v67
  let main_v69 : FVec F S8x16 .f32 := Host.absf main_arg14
  let main_cst_26 : FVec F S_ .f32 := constant S_ .f32 0x7F800000#32
  let main_v70 : FVec F S8x16 .f32 := broadcastInDim S8x16 ![] bcast_S_S8x16 main_cst_26
  let main_v71 : IVec S8x16 1 := cmpf .olt main_v69 main_v70
  let main_c_27 : IVec S_ 1 := constantI S_ 1 1#1
  let main_v72 : IVec S_ 1 := (fun x v => Host.reduce IntOp.andi x v reducesTo_S8x16_S_d0_1 h_S_) main_v71 main_c_27
  let main_v73 : IVec S_ 1 := andi main_v68 main_v72
  let main_v74 : FVec F S8x16x128 .f32 := Host.absf main_arg15
  let main_cst_28 : FVec F S_ .f32 := constant S_ .f32 0x7F800000#32
  let main_v75 : FVec F S8x16x128 .f32 := broadcastInDim S8x16x128 ![] bcast_S_S8x16x128 main_cst_28
  let main_v76 : IVec S8x16x128 1 := cmpf .olt main_v74 main_v75
  let main_c_29 : IVec S_ 1 := constantI S_ 1 1#1
  let main_v77 : IVec S_ 1 := (fun x v => Host.reduce IntOp.andi x v reducesTo_S8x16x128_S_d0_1_2 h_S_) main_v76 main_c_29
  let main_v78 : IVec S_ 1 := andi main_v73 main_v77
  let main_v79 : FVec F S8x16 .f32 := Host.absf main_arg16
  let main_cst_30 : FVec F S_ .f32 := constant S_ .f32 0x7F800000#32
  let main_v80 : FVec F S8x16 .f32 := broadcastInDim S8x16 ![] bcast_S_S8x16 main_cst_30
  let main_v81 : IVec S8x16 1 := cmpf .olt main_v79 main_v80
  let main_c_31 : IVec S_ 1 := constantI S_ 1 1#1
  let main_v82 : IVec S_ 1 := (fun x v => Host.reduce IntOp.andi x v reducesTo_S8x16_S_d0_1 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S8x32x256 .f32) (main_arg12 : FVec F S8x32 .f32) (main_arg13 : FVec F S8x16x128 .f32) (main_arg14 : FVec F S8x16 .f32) (main_arg15 : FVec F S8x16x128 .f32) (main_arg16 : FVec F S8x16 .f32) (main_arg17 : FVec F S512x512 .f32) (main_arg18 : FVec F S512 .f32) (main_arg19 : FVec F S1x1 .f32) (main_arg20 : FVec F S1x1 .f32) (main_arg21 : FVec F S1x1 .f32) (main_v48 : IVec S_ 1) (main_v49 : FVec F S8x32 .f32) (main_v50 : FVec F S8x32 .f32) : IVec S_ 1 :=
  let main_v51 : IVec S8x32 1 := cmpf .olt main_v49 main_v50
  let main_c_19 : IVec S_ 1 := constantI S_ 1 1#1
  let main_v52 : IVec S_ 1 := (fun x v => Host.reduce IntOp.andi x v reducesTo_S8x32_S_d0_1 h_S_) main_v51 main_c_19
  let main_v53 : IVec S_ 1 := andi main_v48 main_v52
  let main_v54 : FVec F S8x32x256 .f32 := Host.absf main_arg11
  let main_cst_20 : FVec F S_ .f32 := constant S_ .f32 0x7F800000#32
  let main_v55 : FVec F S8x32x256 .f32 := broadcastInDim S8x32x256 ![] bcast_S_S8x32x256 main_cst_20
  let main_v56 : IVec S8x32x256 1 := cmpf .olt main_v54 main_v55
  let main_c_21 : IVec S_ 1 := constantI S_ 1 1#1
  let main_v57 : IVec S_ 1 := (fun x v => Host.reduce IntOp.andi x v reducesTo_S8x32x256_S_d0_1_2 h_S_) main_v56 main_c_21
  let main_v58 : IVec S_ 1 := andi main_v53 main_v57
  let main_v59 : FVec F S8x32 .f32 := Host.absf main_arg12
  let main_cst_22 : FVec F S_ .f32 := constant S_ .f32 0x7F800000#32
  let main_v60 : FVec F S8x32 .f32 := broadcastInDim S8x32 ![] bcast_S_S8x32 main_cst_22
  let main_v61 : IVec S8x32 1 := cmpf .olt main_v59 main_v60
  let main_c_23 : IVec S_ 1 := constantI S_ 1 1#1
  let main_v62 : IVec S_ 1 := (fun x v => Host.reduce IntOp.andi x v reducesTo_S8x32_S_d0_1 h_S_) main_v61 main_c_23
  let main_v63 : IVec S_ 1 := andi main_v58 main_v62
  let main_v64 : FVec F S8x16x128 .f32 := Host.absf main_arg13
  let main_cst_24 : FVec F S_ .f32 := constant S_ .f32 0x7F800000#32
  let main_v65 : FVec F S8x16x128 .f32 := broadcastInDim S8x16x128 ![] bcast_S_S8x16x128 main_cst_24
  let main_v66 : IVec S8x16x128 1 := cmpf .olt main_v64 main_v65
  let main_c_25 : IVec S_ 1 := constantI S_ 1 1#1
  let main_v67 : IVec S_ 1 := (fun x v => Host.reduce IntOp.andi x v reducesTo_S8x16x128_S_d0_1_2 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S8x64x512 .f32) (main_arg8 : FVec F S8x64 .f32) (main_arg9 : FVec F S8x32x256 .f32) (main_arg10 : FVec F S8x32 .f32) (main_arg11 : FVec F S8x32x256 .f32) (main_arg12 : FVec F S8x32 .f32) (main_arg13 : FVec F S8x16x128 .f32) (main_arg14 : FVec F S8x16 .f32) (main_arg15 : FVec F S8x16x128 .f32) (main_arg16 : FVec F S8x16 .f32) (main_arg17 : FVec F S512x512 .f32) (main_arg18 : FVec F S512 .f32) (main_arg19 : FVec F S1x1 .f32) (main_arg20 : FVec F S1x1 .f32) (main_arg21 : FVec F S1x1 .f32) (main_v33 : IVec S_ 1) : IVec S_ 1 :=
  let main_v34 : FVec F S8x64x512 .f32 := Host.absf main_arg7
  let main_cst_12 : FVec F S_ .f32 := constant S_ .f32 0x7F800000#32
  let main_v35 : FVec F S8x64x512 .f32 := broadcastInDim S8x64x512 ![] bcast_S_S8x64x512 main_cst_12
  let main_v36 : IVec S8x64x512 1 := cmpf .olt main_v34 main_v35
  let main_c_13 : IVec S_ 1 := constantI S_ 1 1#1
  let main_v37 : IVec S_ 1 := (fun x v => Host.reduce IntOp.andi x v reducesTo_S8x64x512_S_d0_1_2 h_S_) main_v36 main_c_13
  let main_v38 : IVec S_ 1 := andi main_v33 main_v37
  let main_v39 : FVec F S8x64 .f32 := Host.absf main_arg8
  let main_cst_14 : FVec F S_ .f32 := constant S_ .f32 0x7F800000#32
  let main_v40 : FVec F S8x64 .f32 := broadcastInDim S8x64 ![] bcast_S_S8x64 main_cst_14
  let main_v41 : IVec S8x64 1 := cmpf .olt main_v39 main_v40
  let main_c_15 : IVec S_ 1 := constantI S_ 1 1#1
  let main_v42 : IVec S_ 1 := (fun x v => Host.reduce IntOp.andi x v reducesTo_S8x64_S_d0_1 h_S_) main_v41 main_c_15
  let main_v43 : IVec S_ 1 := andi main_v38 main_v42
  let main_v44 : FVec F S8x32x256 .f32 := Host.absf main_arg9
  let main_cst_16 : FVec F S_ .f32 := constant S_ .f32 0x7F800000#32
  let main_v45 : FVec F S8x32x256 .f32 := broadcastInDim S8x32x256 ![] bcast_S_S8x32x256 main_cst_16
  let main_v46 : IVec S8x32x256 1 := cmpf .olt main_v44 main_v45
  let main_c_17 : IVec S_ 1 := constantI S_ 1 1#1
  let main_v47 : IVec S_ 1 := (fun x v => Host.reduce IntOp.andi x v reducesTo_S8x32x256_S_d0_1_2 h_S_) main_v46 main_c_17
  let main_v48 : IVec S_ 1 := andi main_v43 main_v47
  let main_v49 : FVec F S8x32 .f32 := Host.absf main_arg10
  let main_cst_18 : FVec F S_ .f32 := constant S_ .f32 0x7F800000#32
  let main_v50 : FVec F S8x32 .f32 := broadcastInDim S8x32 ![] bcast_S_S8x32 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S8x64 .f32) (main_arg5 : FVec F S8x64x512 .f32) (main_arg6 : FVec F S8x64 .f32) (main_arg7 : FVec F S8x64x512 .f32) (main_arg8 : FVec F S8x64 .f32) (main_arg9 : FVec F S8x32x256 .f32) (main_arg10 : FVec F S8x32 .f32) (main_arg11 : FVec F S8x32x256 .f32) (main_arg12 : FVec F S8x32 .f32) (main_arg13 : FVec F S8x16x128 .f32) (main_arg14 : FVec F S8x16 .f32) (main_arg15 : FVec F S8x16x128 .f32) (main_arg16 : FVec F S8x16 .f32) (main_arg17 : FVec F S512x512 .f32) (main_arg18 : FVec F S512 .f32) (main_arg19 : FVec F S1x1 .f32) (main_arg20 : FVec F S1x1 .f32) (main_arg21 : FVec F S1x1 .f32) (main_v13 : IVec S_ 1) (main_v16 : IVec S8x64x512 1) : IVec S_ 1 :=
  let main_c_5 : IVec S_ 1 := constantI S_ 1 1#1
  let main_v17 : IVec S_ 1 := (fun x v => Host.reduce IntOp.andi x v reducesTo_S8x64x512_S_d0_1_2 h_S_) main_v16 main_c_5
  let main_v18 : IVec S_ 1 := andi main_v13 main_v17
  let main_v19 : FVec F S8x64 .f32 := Host.absf main_arg4
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  let main_v24 : FVec F S8x64x512 .f32 := Host.absf main_arg5
  let main_cst_8 : FVec F S_ .f32 := constant S_ .f32 0x7F800000#32
  let main_v25 : FVec F S8x64x512 .f32 := broadcastInDim S8x64x512 ![] bcast_S_S8x64x512 main_cst_8
  let main_v26 : IVec S8x64x512 1 := cmpf .olt main_v24 main_v25
  let main_c_9 : IVec S_ 1 := constantI S_ 1 1#1
  let main_v27 : IVec S_ 1 := (fun x v => Host.reduce IntOp.andi x v reducesTo_S8x64x512_S_d0_1_2 h_S_) main_v26 main_c_9
  let main_v28 : IVec S_ 1 := andi main_v23 main_v27
  let main_v29 : FVec F S8x64 .f32 := Host.absf main_arg6
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8x1024x512 .f32) (main_arg1 : FVec F S8x1024x256 .f32) (main_arg2 : FVec F S8x1024x128 .f32) (main_arg3 : FVec F S8x64x512 .f32) (main_arg4 : FVec F S8x64 .f32) (main_arg5 : FVec F S8x64x512 .f32) (main_arg6 : FVec F S8x64 .f32) (main_arg7 : FVec F S8x64x512 .f32) (main_arg8 : FVec F S8x64 .f32) (main_arg9 : FVec F S8x32x256 .f32) (main_arg10 : FVec F S8x32 .f32) (main_arg11 : FVec F S8x32x256 .f32) (main_arg12 : FVec F S8x32 .f32) (main_arg13 : FVec F S8x16x128 .f32) (main_arg14 : FVec F S8x16 .f32) (main_arg15 : FVec F S8x16x128 .f32) (main_arg16 : FVec F S8x16 .f32) (main_arg17 : FVec F S512x512 .f32) (main_arg18 : FVec F S512 .f32) (main_arg19 : FVec F S1x1 .f32) (main_arg20 : FVec F S1x1 .f32) (main_arg21 : FVec F S1x1 .f32) (main_arg22 : IVec S64x64 32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S8x1024x256 .f32 := Host.absf main_arg1
  let main_cst_0 : FVec F S_ .f32 := constant S_ .f32 0x7F800000#32
  let main_v5 : FVec F S8x1024x256 .f32 := broadcastInDim S8x1024x256 ![] bcast_S_S8x1024x256 main_cst_0
  let main_v6 : IVec S8x1024x256 1 := cmpf .olt main_v4 main_v5
  let main_c_1 : IVec S_ 1 := constantI S_ 1 1#1
  let main_v7 : IVec S_ 1 := (fun x v => Host.reduce IntOp.andi x v reducesTo_S8x1024x256_S_d0_1_2 h_S_) main_v6 main_c_1
  let main_v8 : IVec S_ 1 := andi main_v3 main_v7
  let main_v9 : FVec F S8x1024x128 .f32 := Host.absf main_arg2
  let main_cst_2 : FVec F S_ .f32 := constant S_ .f32 0x7F800000#32
  let main_v10 : FVec F S8x1024x128 .f32 := broadcastInDim S8x1024x128 ![] bcast_S_S8x1024x128 main_cst_2
  let main_v11 : IVec S8x1024x128 1 := cmpf .olt main_v9 main_v10
  let main_c_3 : IVec S_ 1 := constantI S_ 1 1#1
  let main_v12 : IVec S_ 1 := (fun x v => Host.reduce IntOp.andi x v reducesTo_S8x1024x128_S_d0_1_2 h_S_) main_v11 main_c_3
  let main_v13 : IVec S_ 1 := andi main_v8 main_v12
  let main_v14 : FVec F S8x64x512 .f32 := Host.absf main_arg3
  let main_cst_4 : FVec F S_ .f32 := constant S_ .f32 0x7F800000#32
  let main_v15 : FVec F S8x64x512 .f32 := broadcastInDim S8x64x512 ![] bcast_S_S8x64x512 main_cst_4
  let main_v16 : IVec S8x64x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8x1024x512 : Shape := ⟨3, ![8, 1024, 512]⟩
abbrev S8x1024x256 : Shape := ⟨3, ![8, 1024, 256]⟩
abbrev S8x1024x128 : Shape := ⟨3, ![8, 1024, 128]⟩
abbrev S8x64x512 : Shape := ⟨3, ![8, 64, 512]⟩
abbrev S8x64 : Shape := ⟨2, ![8, 64]⟩
abbrev S8x32x256 : Shape := ⟨3, ![8, 32, 256]⟩
abbrev S8x32 : Shape := ⟨2, ![8, 32]⟩
abbrev S8x16x128 : Shape := ⟨3, ![8, 16, 128]⟩
abbrev S8x16 : Shape := ⟨2, ![8, 16]⟩
abbrev S512x512 : Shape := ⟨2, ![512, 512]⟩
abbrev S512 : Shape := ⟨1, ![512]⟩
abbrev S1x1 : Shape := ⟨2, ![1, 1]⟩
abbrev S64x64 : Shape := ⟨2, ![64, 64]⟩
abbrev S1x64x1x64 : Shape := ⟨4, ![1, 64, 1, 64]⟩
abbrev S1x64x8x64 : Shape := ⟨4, ![1, 64, 8, 64]⟩
abbrev S64x512 : Shape := ⟨2, ![64, 512]⟩
abbrev S8x64x8x64 : Shape := ⟨4, ![8, 64, 8, 64]⟩
abbrev S1x64x512 : Shape := ⟨3, ![1, 64, 512]⟩
abbrev S512x8x64 : Shape := ⟨3, ![512, 8, 64]⟩
abbrev S8x512x64 : Shape := ⟨3, ![8, 512, 64]⟩
abbrev S8x1x64 : Shape := ⟨3, ![8, 1, 64]⟩
abbrev S8x1x32 : Shape := ⟨3, ![8, 1, 32]⟩
abbrev S8x1x16 : Shape := ⟨3, ![8, 1, 16]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S8x8x1024x64 : Shape := ⟨4, ![8, 8, 1024, 64]⟩
abbrev S8x8x1024x1024 : Shape := ⟨4, ![8, 8, 1024, 1024]⟩
abbrev S1x1024x512 : Shape := ⟨3, ![1, 1024, 512]⟩
abbrev S1x1024x256 : Shape := ⟨3, ![1, 1024, 256]⟩
abbrev S1x1024x128 : Shape := ⟨3, ![1, 1024, 128]⟩
abbrev S1x1x64 : Shape := ⟨3, ![1, 1, 64]⟩
abbrev S1x32x256 : Shape := ⟨3, ![1, 32, 256]⟩
abbrev S1x1x32 : Shape := ⟨3, ![1, 1, 32]⟩
abbrev S1x16x128 : Shape := ⟨3, ![1, 16, 128]⟩
abbrev S1x1x16 : Shape := ⟨3, ![1, 1, 16]⟩
abbrev S1x512x64 : Shape := ⟨3, ![1, 512, 64]⟩
abbrev S1x1x1024x64 : Shape := ⟨4, ![1, 1, 1024, 64]⟩
abbrev S1x1x1024x1024 : Shape := ⟨4, ![1, 1, 1024, 1024]⟩
abbrev S1040x1040 : Shape := ⟨2, ![1040, 1040]⟩
abbrev S1024x512 : Shape := ⟨2, ![1024, 512]⟩
abbrev S1024x256 : Shape := ⟨2, ![1024, 256]⟩
abbrev S1024x128 : Shape := ⟨2, ![1024, 128]⟩
abbrev S512x64 : Shape := ⟨2, ![512, 64]⟩
abbrev S1024x64 : Shape := ⟨2, ![1024, 64]⟩
abbrev S64 : Shape := ⟨1, ![64]⟩
abbrev S1x64 : Shape := ⟨2, ![1, 64]⟩
abbrev S32x256 : Shape := ⟨2, ![32, 256]⟩
abbrev S256x32 : Shape := ⟨2, ![256, 32]⟩
abbrev S1024x32 : Shape := ⟨2, ![1024, 32]⟩
abbrev S32 : Shape := ⟨1, ![32]⟩
abbrev S1x32 : Shape := ⟨2, ![1, 32]⟩
abbrev S16x128 : Shape := ⟨2, ![16, 128]⟩
abbrev S128x16 : Shape := ⟨2, ![128, 16]⟩
abbrev S1024x16 : Shape := ⟨2, ![1024, 16]⟩
abbrev S16 : Shape := ⟨1, ![16]⟩
abbrev S1x16 : Shape := ⟨2, ![1, 16]⟩
abbrev S64x1024 : Shape := ⟨2, ![64, 1024]⟩
abbrev S32x1024 : Shape := ⟨2, ![32, 1024]⟩
abbrev S16x1024 : Shape := ⟨2, ![16, 1024]⟩
abbrev S1x512 : Shape := ⟨2, ![1, 512]⟩
abbrev S8x1024x8x64 : Shape := ⟨4, ![8, 1024, 8, 64]⟩
abbrev S8x1024x8x1024 : Shape := ⟨4, ![8, 1024, 8, 1024]⟩
abbrev S8x1024x8192 : Shape := ⟨3, ![8, 1024, 8192]⟩

abbrev nBuf : Space → Nat
  | .hbm => 89
  | .vmem => 44
  | .smem => 0
  | _ => 0

abbrev bufTy : (tb : Table) → Fin (tcTables nBuf tb) → BufTy
  | .hbm, ⟨0, _⟩ => ⟨S8x1024x512, .f32⟩
  | .hbm, ⟨1, _⟩ => ⟨S8x1024x256, .f32⟩
  | .hbm, ⟨2, _⟩ => ⟨S8x1024x128, .f32⟩
  | .hbm, ⟨3, _⟩ => ⟨S8x64x512, .f32⟩
  | .hbm, ⟨4, _⟩ => ⟨S8x64, .f32⟩
  | .hbm, ⟨5, _⟩ => ⟨S8x64x512, .f32⟩
  | .hbm, ⟨6, _⟩ => ⟨S8x64, .f32⟩
  | .hbm, ⟨7, _⟩ => ⟨S8x64x512, .f32⟩
  | .hbm, ⟨8, _⟩ => ⟨S8x64, .f32⟩
  | .hbm, ⟨9, _⟩ => ⟨S8x32x256, .f32⟩
  | .hbm, ⟨10, _⟩ => ⟨S8x32, .f32⟩
  | .hbm, ⟨11, _⟩ => ⟨S8x32x256, .f32⟩
  | .hbm, ⟨12, _⟩ => ⟨S8x32, .f32⟩
  | .hbm, ⟨13, _⟩ => ⟨S8x16x128, .f32⟩
  | .hbm, ⟨14, _⟩ => ⟨S8x16, .f32⟩
  | .hbm, ⟨15, _⟩ => ⟨S8x16x128, .f32⟩
  | .hbm, ⟨16, _⟩ => ⟨S8x16, .f32⟩
  | .hbm, ⟨17, _⟩ => ⟨S512x512, .f32⟩
  | .hbm, ⟨18, _⟩ => ⟨S512, .f32⟩
  | .hbm, ⟨19, _⟩ => ⟨S1x1, .f32⟩
  | .hbm, ⟨20, _⟩ => ⟨S1x1, .f32⟩
  | .hbm, ⟨21, _⟩ => ⟨S1x1, .f32⟩
  | .hbm, ⟨22, _⟩ => ⟨S64x64, .i32⟩
  | .hbm, ⟨23, _⟩ => ⟨S64x64, .f32⟩
  | .hbm, ⟨24, _⟩ => ⟨S1x64x1x64, .f32⟩
  | .hbm, ⟨25, _⟩ => ⟨S1x64x8x64, .f32⟩
  | .hbm, ⟨26, _⟩ => ⟨S64x512, .f32⟩
  | .hbm, ⟨27, _⟩ => ⟨S1x64x1x64, .f32⟩
  | .hbm, ⟨28, _⟩ => ⟨S8x64x8x64, .f32⟩
  | .hbm, ⟨29, _⟩ => ⟨S512x512, .f32⟩
  | .hbm, ⟨30, _⟩ => ⟨S1x64x512, .f32⟩
  | .hbm, ⟨31, _⟩ => ⟨S8x64x512, .f32⟩
  | .hbm, ⟨32, _⟩ => ⟨S8x64x512, .f32⟩
  | .hbm, ⟨33, _⟩ => ⟨S8x64x512, .bf16⟩
  | .hbm, ⟨34, _⟩ => ⟨S1x64x512, .f32⟩
  | .hbm, ⟨35, _⟩ => ⟨S8x64x512, .f32⟩
  | .hbm, ⟨36, _⟩ => ⟨S8x64x512, .f32⟩
  | .hbm, ⟨37, _⟩ => ⟨S8x64x512, .bf16⟩
  | .hbm, ⟨38, _⟩ => ⟨S1x64x512, .f32⟩
  | .hbm, ⟨39, _⟩ => ⟨S8x64x512, .f32⟩
  | .hbm, ⟨40, _⟩ => ⟨S8x64x512, .f32⟩
  | .hbm, ⟨41, _⟩ => ⟨S8x64x512, .bf16⟩
  | .hbm, ⟨42, _⟩ => ⟨S512x512, .f32⟩
  | .hbm, ⟨43, _⟩ => ⟨S512x8x64, .f32⟩
  | .hbm, ⟨44, _⟩ => ⟨S8x512x64, .f32⟩
  | .hbm, ⟨45, _⟩ => ⟨S8x512x64, .bf16⟩
  | .hbm, ⟨46, _⟩ => ⟨S8x32x256, .bf16⟩
  | .hbm, ⟨47, _⟩ => ⟨S8x32x256, .bf16⟩
  | .hbm, ⟨48, _⟩ => ⟨S8x16x128, .bf16⟩
  | .hbm, ⟨49, _⟩ => ⟨S8x16x128, .bf16⟩
  | .hbm, ⟨50, _⟩ => ⟨S8x1x64, .f32⟩
  | .hbm, ⟨51, _⟩ => ⟨S8x1x64, .f32⟩
  | .hbm, ⟨52, _⟩ => ⟨S8x1x64, .f32⟩
  | .hbm, ⟨53, _⟩ => ⟨S8x1x32, .f32⟩
  | .hbm, ⟨54, _⟩ => ⟨S8x1x32, .f32⟩
  | .hbm, ⟨55, _⟩ => ⟨S8x1x16, .f32⟩
  | .hbm, ⟨56, _⟩ => ⟨S8x1x16, .f32⟩
  | .hbm, ⟨57, _⟩ => ⟨S1024, .i32⟩
  | .hbm, ⟨58, _⟩ => ⟨S1024x1, .i32⟩
  | .hbm, ⟨59, _⟩ => ⟨S1x1024, .i32⟩
  | .hbm, ⟨60, _⟩ => ⟨S1024x1024, .i32⟩
  | .hbm, ⟨61, _⟩ => ⟨S1024x1024, .i32⟩
  | .hbm, ⟨62, _⟩ => ⟨S1024x1024, .i32⟩
  | .hbm, ⟨63, _⟩ => ⟨S1024x1, .i32⟩
  | .hbm, ⟨64, _⟩ => ⟨S1x1024, .i32⟩
  | .hbm, ⟨65, _⟩ => ⟨S1024x1024, .i32⟩
  | .hbm, ⟨66, _⟩ => ⟨S1024x1024, .i32⟩
  | .hbm, ⟨67, _⟩ => ⟨S1024x1024, .i32⟩
  | .hbm, ⟨68, _⟩ => ⟨S_, .i32⟩
  | .hbm, ⟨69, _⟩ => ⟨S1024x1024, .i32⟩
  | .hbm, ⟨70, _⟩ => ⟨S1024x1024, .i32⟩
  | .hbm, ⟨71, _⟩ => ⟨S_, .i32⟩
  | .hbm, ⟨72, _⟩ => ⟨S1024x1024, .i32⟩
  | .hbm, ⟨73, _⟩ => ⟨S1024x1024, .i32⟩
  | .hbm, ⟨74, _⟩ => ⟨S_, .i32⟩
  | .hbm, ⟨75, _⟩ => ⟨S1024x1024, .i32⟩
  | .hbm, ⟨76, _⟩ => ⟨S1024x1024, .i32⟩
  | .hbm, ⟨77, _⟩ => ⟨S1024x1024, .i32⟩
  | .hbm, ⟨78, _⟩ => ⟨S_, .i32⟩
  | .hbm, ⟨79, _⟩ => ⟨S1024x1024, .i32⟩
  | .hbm, ⟨80, _⟩ => ⟨S1024x1024, .i32⟩
  | .hbm, ⟨81, _⟩ => ⟨S1024x1024, .f32⟩
  | .hbm, ⟨82, _⟩ => ⟨S8x1024x512, .f32⟩
  | .hbm, ⟨83, _⟩ => ⟨S8x8x1024x64, .f32⟩
  | .hbm, ⟨84, _⟩ => ⟨S8x8x1024x1024, .f32⟩
  | .hbm, ⟨85, _⟩ => ⟨S8x1024x8x64, .f32⟩
  | .hbm, ⟨86, _⟩ => ⟨S8x1024x512, .f32⟩
  | .hbm, ⟨87, _⟩ => ⟨S8x1024x8x1024, .f32⟩
  | .hbm, ⟨88, _⟩ => ⟨S8x1024x8192, .f32⟩
  | .local _ .vmem, ⟨0, _⟩ => ⟨S1x1024x512, .f32⟩
  | .local _ .vmem, ⟨1, _⟩ => ⟨S1x1024x256, .f32⟩
  | .local _ .vmem, ⟨2, _⟩ => ⟨S1x1024x128, .f32⟩
  | .local _ .vmem, ⟨3, _⟩ => ⟨S1x64x512, .bf16⟩
  | .local _ .vmem, ⟨4, _⟩ => ⟨S1x64x512, .bf16⟩
  | .local _ .vmem, ⟨5, _⟩ => ⟨S1x1x64, .f32⟩
  | .local _ .vmem, ⟨6, _⟩ => ⟨S1x1x64, .f32⟩
  | .local _ .vmem, ⟨7, _⟩ => ⟨S1x64x512, .bf16⟩
  | .local _ .vmem, ⟨8, _⟩ => ⟨S1x64x512, .bf16⟩
  | .local _ .vmem, ⟨9, _⟩ => ⟨S1x1x64, .f32⟩
  | .local _ .vmem, ⟨10, _⟩ => ⟨S1x1x64, .f32⟩
  | .local _ .vmem, ⟨11, _⟩ => ⟨S1x64x512, .bf16⟩
  | .local _ .vmem, ⟨12, _⟩ => ⟨S1x64x512, .bf16⟩
  | .local _ .vmem, ⟨13, _⟩ => ⟨S1x1x64, .f32⟩
  | .local _ .vmem, ⟨14, _⟩ => ⟨S1x1x64, .f32⟩
  | .local _ .vmem, ⟨15, _⟩ => ⟨S1x32x256, .bf16⟩
  | .local _ .vmem, ⟨16, _⟩ => ⟨S1x32x256, .bf16⟩
  | .local _ .vmem, ⟨17, _⟩ => ⟨S1x1x32, .f32⟩
  | .local _ .vmem, ⟨18, _⟩ => ⟨S1x1x32, .f32⟩
  | .local _ .vmem, ⟨19, _⟩ => ⟨S1x32x256, .bf16⟩
  | .local _ .vmem, ⟨20, _⟩ => ⟨S1x32x256, .bf16⟩
  | .local _ .vmem, ⟨21, _⟩ => ⟨S1x1x32, .f32⟩
  | .local _ .vmem, ⟨22, _⟩ => ⟨S1x1x32, .f32⟩
  | .local _ .vmem, ⟨23, _⟩ => ⟨S1x16x128, .bf16⟩
  | .local _ .vmem, ⟨24, _⟩ => ⟨S1x16x128, .bf16⟩
  | .local _ .vmem, ⟨25, _⟩ => ⟨S1x1x16, .f32⟩
  | .local _ .vmem, ⟨26, _⟩ => ⟨S1x1x16, .f32⟩
  | .local _ .vmem, ⟨27, _⟩ => ⟨S1x16x128, .bf16⟩
  | .local _ .vmem, ⟨28, _⟩ => ⟨S1x16x128, .bf16⟩
  | .local _ .vmem, ⟨29, _⟩ => ⟨S1x1x16, .f32⟩
  | .local _ .vmem, ⟨30, _⟩ => ⟨S1x1x16, .f32⟩
  | .local _ .vmem, ⟨31, _⟩ => ⟨S1x512x64, .bf16⟩
  | .local _ .vmem, ⟨32, _⟩ => ⟨S1x512x64, .bf16⟩
  | .local _ .vmem, ⟨33, _⟩ => ⟨S512, .f32⟩
  | .local _ .vmem, ⟨34, _⟩ => ⟨S1x1, .f32⟩
  | .local _ .vmem, ⟨35, _⟩ => ⟨S1x1, .f32⟩
  | .local _ .vmem, ⟨36, _⟩ => ⟨S1x1, .f32⟩
  | .local _ .vmem, ⟨37, _⟩ => ⟨S1024x1024, .f32⟩
  | .local _ .vmem, ⟨38, _⟩ => ⟨S1x1024x512, .f32⟩
  | .local _ .vmem, ⟨39, _⟩ => ⟨S1x1x1024x64, .f32⟩
  | .local _ .vmem, ⟨40, _⟩ => ⟨S1x1x1024x64, .f32⟩
  | .local _ .vmem, ⟨41, _⟩ => ⟨S1x1x1024x1024, .f32⟩
  | .local _ .vmem, ⟨42, _⟩ => ⟨S1x1x1024x1024, .f32⟩
  | .local _ .vmem, ⟨43, _⟩ => ⟨S1040x1040, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c : Ref sig .tc := ⟨.hbm, 68, rfl⟩
abbrev main_v45 : Ref sig .tc := ⟨.hbm, 69, rfl⟩
abbrev main_v46 : Ref sig .tc := ⟨.hbm, 70, rfl⟩
abbrev main_c_0 : Ref sig .tc := ⟨.hbm, 71, rfl⟩
abbrev main_v47 : Ref sig .tc := ⟨.hbm, 72, rfl⟩
abbrev main_v48 : Ref sig .tc := ⟨.hbm, 73, rfl⟩
abbrev main_c_1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_2 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55_0 : Ref sig .tc := ⟨.hbm, 82, rfl⟩
abbrev main_v55_1 : Ref sig .tc := ⟨.hbm, 83, rfl⟩
abbrev main_v55_2 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg25_1 : Ref sig .tc := ⟨.vmem, 42, rfl⟩
abbrev cc0_scratch0 : Ref sig .tc := ⟨.vmem, 43, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem19_0 : DmaSem sig := 34
abbrev cc0_sem20_0 : DmaSem sig := 35
abbrev cc0_sem21_0 : DmaSem sig := 36
abbrev cc0_sem22_0 : DmaSem sig := 37
abbrev cc0_sem23_0 : DmaSem sig := 38
abbrev cc0_sem24_0 : DmaSem sig := 39
abbrev cc0_sem24_1 : DmaSem sig := 40
abbrev cc0_sem25_0 : DmaSem sig := 41
abbrev cc0_sem25_1 : DmaSem sig := 42

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_18 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_25 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x32x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x32x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x16x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x16x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x1x16 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1x512x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 1 → Memref sig .tc .vmem S512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1024x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x1024x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true, false]

abbrev stage0_24 : Fin 2 → Memref sig .tc .vmem S1x1x1024x64 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1x1024x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

class Facts₀ : Prop where
  shapeCasts_S64x64_S1x64x1x64 : S64x64.ShapeCasts S1x64x1x64
  bcast_S1x64x1x64_S1x64x8x64_0_1_2_3 : S1x64x1x64.BroadcastsInDim S1x64x8x64 (![0, 1, 2, 3] : Fin 4 → Fin S1x64x8x64.rank)
  shapeCasts_S1x64x8x64_S64x512 : S1x64x8x64.ShapeCasts S64x512
  bcast_S1x64x1x64_S8x64x8x64_0_1_2_3 : S1x64x1x64.BroadcastsInDim S8x64x8x64 (![0, 1, 2, 3] : Fin 4 → Fin S8x64x8x64.rank)
  shapeCasts_S8x64x8x64_S512x512 : S8x64x8x64.ShapeCasts S512x512
  bcast_S64x512_S1x64x512_1_2 : S64x512.BroadcastsInDim S1x64x512 (![1, 2] : Fin 2 → Fin S1x64x512.rank)
  bcast_S1x64x512_S8x64x512_0_1_2 : S1x64x512.BroadcastsInDim S8x64x512 (![0, 1, 2] : Fin 3 → Fin S8x64x512.rank)
  bitsLt_bf16_f32 : FTy.bits .bf16 < FTy.bits .f32
  shapeCasts_S512x512_S512x8x64 : S512x512.ShapeCasts S512x8x64
  transposes_S512x8x64_S8x512x64_1_0_2 : S512x8x64.Transposes [1, 0, 2] S8x512x64
  shapeCasts_S8x64_S8x1x64 : S8x64.ShapeCasts S8x1x64
  shapeCasts_S8x32_S8x1x32 : S8x32.ShapeCasts S8x1x32
  shapeCasts_S8x16_S8x1x16 : S8x16.ShapeCasts S8x1x16
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  transposes_S64x512_p1_0_S512x64 : S64x512.Transposes [1, 0] S512x64
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x64 : S64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  transposes_S32x256_p1_0_S256x32 : S32x256.Transposes [1, 0] S256x32
  inb_S1x1x32_S1x1x32_0_0_0 : ∀ a, (![0, 0, 0] : Fin 3 → Nat) a + S1x1x32.size a ≤ S1x1x32.size a
  h_S1x1x32 : 0 < S1x1x32.numel
  shapeCasts_S1x1x32_S32 : S1x1x32.ShapeCasts S32
  shapeCasts_S32_S1x32 : S32.ShapeCasts S1x32
  broadcasts_S1x32_S1024x32 : S1x32.Broadcasts S1024x32
  reduces_S1024x32_S1024 : S1024x32.Reduces [1] S1024
  broadcasts_S1024x1_S1024x32 : S1024x1.Broadcasts S1024x32
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  transposes_S16x128_p1_0_S128x16 : S16x128.Transposes [1, 0] S128x16
  inb_S1x1x16_S1x1x16_0_0_0 : ∀ a, (![0, 0, 0] : Fin 3 → Nat) a + S1x1x16.size a ≤ S1x1x16.size a
  h_S1x1x16 : 0 < S1x1x16.numel
  shapeCasts_S1x1x16_S16 : S1x1x16.ShapeCasts S16
  shapeCasts_S16_S1x16 : S16.ShapeCasts S1x16
  broadcasts_S1x16_S1024x16 : S1x16.Broadcasts S1024x16
  reduces_S1024x16_S1024 : S1024x16.Reduces [1] S1024
  broadcasts_S1024x1_S1024x16 : S1024x1.Broadcasts S1024x16
  transposes_S1024x64_p1_0_S64x1024 : S1024x64.Transposes [1, 0] S64x1024
  inb_S1040x1040_S1040x1040_0_0 : ∀ a, (![0, 0] : Fin 2 → Nat) a + S1040x1040.size a ≤ S1040x1040.size a
  h_S1040x1040 : 0 < S1040x1040.numel
  shapeCasts_S1040x1040_S1040x1040 : S1040x1040.ShapeCasts S1040x1040
  inb_S1040x1040_S1024x1024_8_8 : ∀ a, (![8, 8] : Fin 2 → Nat) a + S1024x1024.size a ≤ S1040x1040.size a
  h_S1024x1024 : 0 < S1024x1024.numel
  shapeCasts_S1024x1024_S1024x1024 : S1024x1024.ShapeCasts S1024x1024
  inb_S1040x1040_S1024x1024_0_0 : ∀ a, (![0, 0] : Fin 2 → Nat) a + S1024x1024.size a ≤ S1040x1040.size a
  inb_S1040x1040_S1024x1024_1_1 : ∀ a, (![1, 1] : Fin 2 → Nat) a + S1024x1024.size a ≤ S1040x1040.size a
  inb_S1040x1040_S1024x1024_2_2 : ∀ a, (![2, 2] : Fin 2 → Nat) a + S1024x1024.size a ≤ S1040x1040.size a
  inb_S1040x1040_S1024x1024_3_3 : ∀ a, (![3, 3] : Fin 2 → Nat) a + S1024x1024.size a ≤ S1040x1040.size a
  inb_S1040x1040_S1024x1024_4_4 : ∀ a, (![4, 4] : Fin 2 → Nat) a + S1024x1024.size a ≤ S1040x1040.size a
  inb_S1040x1040_S1024x1024_5_5 : ∀ a, (![5, 5] : Fin 2 → Nat) a + S1024x1024.size a ≤ S1040x1040.size a
  inb_S1040x1040_S1024x1024_6_6 : ∀ a, (![6, 6] : Fin 2 → Nat) a + S1024x1024.size a ≤ S1040x1040.size a
  inb_S1040x1040_S1024x1024_7_7 : ∀ a, (![7, 7] : Fin 2 → Nat) a + S1024x1024.size a ≤ S1040x1040.size a
  inb_S1040x1040_S1024x1024_9_9 : ∀ a, (![9, 9] : Fin 2 → Nat) a + S1024x1024.size a ≤ S1040x1040.size a
  inb_S1040x1040_S1024x1024_10_10 : ∀ a, (![10, 10] : Fin 2 → Nat) a + S1024x1024.size a ≤ S1040x1040.size a
  inb_S1040x1040_S1024x1024_11_11 : ∀ a, (![11, 11] : Fin 2 → Nat) a + S1024x1024.size a ≤ S1040x1040.size a
  inb_S1040x1040_S1024x1024_12_12 : ∀ a, (![12, 12] : Fin 2 → Nat) a + S1024x1024.size a ≤ S1040x1040.size a
  inb_S1040x1040_S1024x1024_13_13 : ∀ a, (![13, 13] : Fin 2 → Nat) a + S1024x1024.size a ≤ S1040x1040.size a
  inb_S1040x1040_S1024x1024_14_14 : ∀ a, (![14, 14] : Fin 2 → Nat) a + S1024x1024.size a ≤ S1040x1040.size a
  inb_S1040x1040_S1024x1024_15_15 : ∀ a, (![15, 15] : Fin 2 → Nat) a + S1024x1024.size a ≤ S1040x1040.size a
  inb_S1040x1040_S1024x1024_16_16 : ∀ a, (![16, 16] : Fin 2 → Nat) a + S1024x1024.size a ≤ S1040x1040.size a
  transposes_S1024x32_p1_0_S32x1024 : S1024x32.Transposes [1, 0] S32x1024
  transposes_S1024x16_p1_0_S16x1024 : S1024x16.Transposes [1, 0] S16x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x1024_S1024x1024_0_0 : ∀ a, (![0, 0] : Fin 2 → Nat) a + S1024x1024.size a ≤ S1024x1024.size a
  reduces_S1024x1024_S1024 : S1024x1024.Reduces [1] S1024
  broadcasts_S1024x1_S1024x1024 : S1024x1.Broadcasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  shapeCasts_S1024x64_S1x1x1024x64 : S1024x64.ShapeCasts S1x1x1024x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  transposes_S8x8x1024x64_S8x1024x8x64_0_2_1_3 : S8x8x1024x64.Transposes [0, 2, 1, 3] S8x1024x8x64
  shapeCasts_S8x1024x8x64_S8x1024x512 : S8x1024x8x64.ShapeCasts S8x1024x512
  transposes_S8x8x1024x1024_S8x1024x8x1024_0_2_1_3 : S8x8x1024x1024.Transposes [0, 2, 1, 3] S8x1024x8x1024
  shapeCasts_S8x1024x8x1024_S8x1024x8192 : S8x1024x8x1024.ShapeCasts S8x1024x8192
  dot_S1024x512_S512x64_S1024x64_1_0_0_1_n_n_wf : DotDims.WF S1024x512 S512x64 S1024x64 [1] [0] [0] [1] [] []
  dot_S1024x256_S256x32_S1024x32_1_0_0_1_n_n_wf : DotDims.WF S1024x256 S256x32 S1024x32 [1] [0] [0] [1] [] []
  dot_S1024x128_S128x16_S1024x16_1_0_0_1_n_n_wf : DotDims.WF S1024x128 S128x16 S1024x16 [1] [0] [0] [1] [] []
  dot_S1024x64_S64x1024_S1024x1024_1_0_0_1_n_n_wf : DotDims.WF S1024x64 S64x1024 S1024x1024 [1] [0] [0] [1] [] []
  dot_S1024x32_S32x1024_S1024x1024_1_0_0_1_n_n_wf : DotDims.WF S1024x32 S32x1024 S1024x1024 [1] [0] [0] [1] [] []
  dot_S1024x16_S16x1024_S1024x1024_1_0_0_1_n_n_wf : DotDims.WF S1024x16 S16x1024 S1024x1024 [1] [0] [0] [1] [] []
  dot_S1024x1024_S1024x64_S1024x64_1_0_0_1_n_n_wf : DotDims.WF S1024x1024 S1024x64 S1024x64 [1] [0] [0] [1] [] []
  dot_S1024x64_S64x512_S1024x512_1_0_0_1_n_n_wf : DotDims.WF S1024x64 S64x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x1024x256.size a
  hwx0_1 : ∀ i : grid0.Coords, EltTy.bits .f32 = 32 ∨ (Rect.block (s := S8x1024x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S8x1024x128.size a
  hwx0_2 : ∀ i : grid0.Coords, EltTy.bits .f32 = 32 ∨ (Rect.block (s := S8x1024x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S8x64x512.size a
  hwx0_3 : ∀ i : grid0.Coords, EltTy.bits .bf16 = 32 ∨ (Rect.block (s := S8x64x512) S1x64x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S8x1x64.size a
  hwx0_4 : ∀ i : grid0.Coords, EltTy.bits .f32 = 32 ∨ (Rect.block (s := S8x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x512.size a ≤ S8x64x512.size a
  hwx0_5 : ∀ i : grid0.Coords, EltTy.bits .bf16 = 32 ∨ (Rect.block (s := S8x64x512) S1x64x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S8x1x64.size a
  hwx0_6 : ∀ i : grid0.Coords, EltTy.bits .f32 = 32 ∨ (Rect.block (s := S8x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x512.size a ≤ S8x64x512.size a
  hwx0_7 : ∀ i : grid0.Coords, EltTy.bits .bf16 = 32 ∨ (Rect.block (s := S8x64x512) S1x64x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x64.size a ≤ S8x1x64.size a
  hwx0_8 : ∀ i : grid0.Coords, EltTy.bits .f32 = 32 ∨ (Rect.block (s := S8x1x64) S1x1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x32x256.size a ≤ S8x32x256.size a
  hwx0_9 : ∀ i : grid0.Coords, EltTy.bits .bf16 = 32 ∨ (Rect.block (s := S8x32x256) S1x32x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x32.size a ≤ S8x1x32.size a
  hwx0_10 : ∀ i : grid0.Coords, EltTy.bits .f32 = 32 ∨ (Rect.block (s := S8x1x32) S1x1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x32x256.size a ≤ S8x32x256.size a
  hwx0_11 : ∀ i : grid0.Coords, EltTy.bits .bf16 = 32 ∨ (Rect.block (s := S8x32x256) S1x32x256.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x32.size a ≤ S8x1x32.size a
  hwx0_12 : ∀ i : grid0.Coords, EltTy.bits .f32 = 32 ∨ (Rect.block (s := S8x1x32) S1x1x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x16x128.size a ≤ S8x16x128.size a
  hwx0_13 : ∀ i : grid0.Coords, EltTy.bits .bf16 = 32 ∨ (Rect.block (s := S8x16x128) S1x16x128.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x16.size a ≤ S8x1x16.size a
  hwx0_14 : ∀ i : grid0.Coords, EltTy.bits .f32 = 32 ∨ (Rect.block (s := S8x1x16) S1x1x16.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x16x128.size a ≤ S8x16x128.size a
  hwx0_15 : ∀ i : grid0.Coords, EltTy.bits .bf16 = 32 ∨ (Rect.block (s := S8x16x128) S1x16x128.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1x16.size a ≤ S8x1x16.size a
  hwx0_16 : ∀ i : grid0.Coords, EltTy.bits .f32 = 32 ∨ (Rect.block (s := S8x1x16) S1x1x16.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x512x64.size a ≤ S8x512x64.size a
  hwx0_17 : ∀ i : grid0.Coords, EltTy.bits .bf16 = 32 ∨ (Rect.block (s := S8x512x64) S1x512x64.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512.size a ≤ S512.size a
  hwx0_18 : ∀ i : grid0.Coords, EltTy.bits .f32 = 32 ∨ (Rect.block (s := S512) S512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x1.size a ≤ S1x1.size a
  hwx0_20 : ∀ i : grid0.Coords, EltTy.bits .f32 = 32 ∨ (Rect.block (s := S1x1) S1x1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x1.size a ≤ S1x1.size a
  hwx0_21 : ∀ i : grid0.Coords, EltTy.bits .f32 = 32 ∨ (Rect.block (s := S1x1) S1x1.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1024x1024.size a ≤ S1024x1024.size a
  hwx0_22 : ∀ i : grid0.Coords, EltTy.bits .f32 = 32 ∨ (Rect.block (s := S1024x1024) S1024x1024.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x1024x512.size a ≤ S8x1024x512.size a
  hwx0_23 : ∀ i : grid0.Coords, EltTy.bits .f32 = 32 ∨ (Rect.block (s := S8x1024x512) S1x1024x512.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1x1x1024x64.size a ≤ S8x8x1024x64.size a
  hwx0_24 : ∀ i : grid0.Coords, EltTy.bits .f32 = 32 ∨ (Rect.block (s := S8x8x1024x64) S1x1x1024x64.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1x1x1024x1024.size a ≤ S8x8x1024x1024.size a
  hwx0_25 : ∀ i : grid0.Coords, EltTy.bits .f32 = 32 ∨ (Rect.block (s := S8x8x1024x1024) S1x1x1024x1024.size (cc0_transform_25 i) (hinb0_25 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S1024x128_S128x16_S1024x16_1_0_0_1_n_n : DotDims S1024x128 S128x16 S1024x16 where
  lhsContracting := [1]
  rhsContracting := [0]
  lhsNonContracting := [0]
  rhsNonContracting := [1]
  lhsBatch := []
  rhsBatch := []
  wf := dot_S1024x128_S128x16_S1024x16_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf

abbrev win0_0 : Pipeline.Window sig grid0 :=
  Pipeline.Window.ofSpec (Memref.whole main_arg0) S1x1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x64x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x1x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x64x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x1x64.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v23) S1x32x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v30) S1x1x32.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v24) S1x32x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v31) S1x1x32.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v25) S1x16x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v32) S1x1x16.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v26) S1x16x128.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v33) S1x1x16.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v22) S1x512x64.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S1x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S1x1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v54) S1024x1024.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v55_0) S1x1024x512.size cc0_transform_23 reads0_23 true true 1 stage0_23 sem0_23
    hrank0 hreads0_23 hinb0_23 nbuf0_23 (Memref.isWhole_whole _) hwx0_23 hstage0_23

abbrev win0_24 : Pipeline.Window sig grid0 :=
  Pipeline.Window.ofSpec (Memref.whole main_v55_1) S1x1x1024x64.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v55_2) S1x1x1024x1024.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S8x1024x512 : Shape := ⟨3, ![8, 1024, 512]⟩
abbrev S8x1024x256 : Shape := ⟨3, ![8, 1024, 256]⟩
abbrev S8x1024x128 : Shape := ⟨3, ![8, 1024, 128]⟩
abbrev S8x64x512 : Shape := ⟨3, ![8, 64, 512]⟩
abbrev S8x64 : Shape := ⟨2, ![8, 64]⟩
abbrev S8x32x256 : Shape := ⟨3, ![8, 32, 256]⟩
abbrev S8x32 : Shape := ⟨2, ![8, 32]⟩
abbrev S8x16x128 : Shape := ⟨3, ![8, 16, 128]⟩
abbrev S8x16 : Shape := ⟨2, ![8, 16]⟩
abbrev S512x512 : Shape := ⟨2, ![512, 512]⟩
abbrev S512 : Shape := ⟨1, ![512]⟩
abbrev S1x1 : Shape := ⟨2, ![1, 1]⟩
abbrev S64x64 : Shape := ⟨2, ![64, 64]⟩
abbrev S0 : Shape := ⟨1, ![0]⟩
abbrev S1x64x1x64 : Shape := ⟨4, ![1, 64, 1, 64]⟩
abbrev S1x64x8x64 : Shape := ⟨4, ![1, 64, 8, 64]⟩
abbrev S64x512 : Shape := ⟨2, ![64, 512]⟩
abbrev S8x64x8x64 : Shape := ⟨4, ![8, 64, 8, 64]⟩
abbrev S1x64x512 : Shape := ⟨3, ![1, 64, 512]⟩
abbrev S8x64x8x1024 : Shape := ⟨4, ![8, 64, 8, 1024]⟩
abbrev S8x8x1024x64 : Shape := ⟨4, ![8, 8, 1024, 64]⟩
abbrev S1x8x1x64 : Shape := ⟨4, ![1, 8, 1, 64]⟩
abbrev S_ : Shape := ⟨0, ![]⟩
abbrev S8x8x1024 : Shape := ⟨3, ![8, 8, 1024]⟩
abbrev S8x8x1024x1 : Shape := ⟨4, ![8, 8, 1024, 1]⟩
abbrev S8x8x1024x1024 : Shape := ⟨4, ![8, 8, 1024, 1024]⟩
abbrev S8x8x1016x1016 : Shape := ⟨4, ![8, 8, 1016, 1016]⟩
abbrev S1 : Shape := ⟨1, ![1]⟩
abbrev S2 : Shape := ⟨1, ![2]⟩
abbrev S8x8x1017x1017 : Shape := ⟨4, ![8, 8, 1017, 1017]⟩
abbrev S8x8x1018x1018 : Shape := ⟨4, ![8, 8, 1018, 1018]⟩
abbrev S8x8x1019x1019 : Shape := ⟨4, ![8, 8, 1019, 1019]⟩
abbrev S8x8x1020x1020 : Shape := ⟨4, ![8, 8, 1020, 1020]⟩
abbrev S8x8x1021x1021 : Shape := ⟨4, ![8, 8, 1021, 1021]⟩
abbrev S8x8x1022x1022 : Shape := ⟨4, ![8, 8, 1022, 1022]⟩
abbrev S8x8x1023x1023 : Shape := ⟨4, ![8, 8, 1023, 1023]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1x1x1024x1024 : Shape := ⟨4, ![1, 1, 1024, 1024]⟩
abbrev S8x32x8x1024 : Shape := ⟨4, ![8, 32, 8, 1024]⟩
abbrev S8x8x1024x32 : Shape := ⟨4, ![8, 8, 1024, 32]⟩
abbrev S1x8x1x32 : Shape := ⟨4, ![1, 8, 1, 32]⟩
abbrev S8x16x8x1024 : Shape := ⟨4, ![8, 16, 8, 1024]⟩
abbrev S8x8x1024x16 : Shape := ⟨4, ![8, 8, 1024, 16]⟩
abbrev S1x8x1x16 : Shape := ⟨4, ![1, 8, 1, 16]⟩
abbrev S8x1024x8x64 : Shape := ⟨4, ![8, 1024, 8, 64]⟩
abbrev S1x1x512 : Shape := ⟨3, ![1, 1, 512]⟩
abbrev S8x1024x8x1024 : Shape := ⟨4, ![8, 1024, 8, 1024]⟩
abbrev S8x1024x8192 : Shape := ⟨3, ![8, 1024, 8192]⟩

abbrev nBuf : Space → Nat
  | .hbm => 317
  | .vmem => 0
  | .smem => 0
  | _ => 0

abbrev hbmTy0_0 (i : Nat) : BufTy := match i % 128 with
  | 0 => ⟨S8x1024x512, .f32⟩
  | 1 => ⟨S8x1024x256, .f32⟩
  | 2 => ⟨S8x1024x128, .f32⟩
  | 3 => ⟨S8x64x512, .f32⟩
  | 4 => ⟨S8x64, .f32⟩
  | 5 => ⟨S8x64x512, .f32⟩
  | 6 => ⟨S8x64, .f32⟩
  | 7 => ⟨S8x64x512, .f32⟩
  | 8 => ⟨S8x64, .f32⟩
  | 9 => ⟨S8x32x256, .f32⟩
  | 10 => ⟨S8x32, .f32⟩
  | 11 => ⟨S8x32x256, .f32⟩
  | 12 => ⟨S8x32, .f32⟩
  | 13 => ⟨S8x16x128, .f32⟩
  | 14 => ⟨S8x16, .f32⟩
  | 15 => ⟨S8x16x128, .f32⟩
  | 16 => ⟨S8x16, .f32⟩
  | 17 => ⟨S512x512, .f32⟩
  | 18 => ⟨S512, .f32⟩
  | 19 => ⟨S1x1, .f32⟩
  | 20 => ⟨S1x1, .f32⟩
  | 21 => ⟨S1x1, .f32⟩
  | 22 => ⟨S64x64, .i32⟩
  | 23 => ⟨S0, .i32⟩
  | 24 => ⟨S64x64, .f32⟩
  | 25 => ⟨S1x64x1x64, .f32⟩
  | 26 => ⟨S1x64x8x64, .f32⟩
  | 27 => ⟨S64x512, .f32⟩
  | 28 => ⟨S1x64x1x64, .f32⟩
  | 29 => ⟨S8x64x8x64, .f32⟩
  | 30 => ⟨S512x512, .f32⟩
  | 31 => ⟨S1x64x512, .f32⟩
  | 32 => ⟨S8x64x512, .f32⟩
  | 33 => ⟨S8x64x512, .f32⟩
  | 34 => ⟨S8x64x8x1024, .f32⟩
  | 35 => ⟨S8x8x1024x64, .f32⟩
  | 36 => ⟨S1x8x1x64, .f32⟩
  | 37 => ⟨S8x8x1024x64, .f32⟩
  | 38 => ⟨S8x8x1024x64, .f32⟩
  | 39 => ⟨S8x8x1024x64, .f32⟩
  | 40 => ⟨S_, .f32⟩
  | 41 => ⟨S8x8x1024, .f32⟩
  | 42 => ⟨S8x8x1024x1, .f32⟩
  | 43 => ⟨S8x8x1024x1, .f32⟩
  | 44 => ⟨S_, .f32⟩
  | 45 => ⟨S8x8x1024x1, .f32⟩
  | 46 => ⟨S8x8x1024x1, .f32⟩
  | 47 => ⟨S8x8x1024x64, .f32⟩
  | 48 => ⟨S8x8x1024x64, .f32⟩
  | 49 => ⟨S1x64x512, .f32⟩
  | 50 => ⟨S8x64x512, .f32⟩
  | 51 => ⟨S8x64x512, .f32⟩
  | 52 => ⟨S8x64x8x1024, .f32⟩
  | 53 => ⟨S8x8x1024x64, .f32⟩
  | 54 => ⟨S1x8x1x64, .f32⟩
  | 55 => ⟨S8x8x1024x64, .f32⟩
  | 56 => ⟨S8x8x1024x64, .f32⟩
  | 57 => ⟨S8x8x1024x64, .f32⟩
  | 58 => ⟨S_, .f32⟩
  | 59 => ⟨S8x8x1024, .f32⟩
  | 60 => ⟨S8x8x1024x1, .f32⟩
  | 61 => ⟨S8x8x1024x1, .f32⟩
  | 62 => ⟨S_, .f32⟩
  | 63 => ⟨S8x8x1024x1, .f32⟩
  | 64 => ⟨S8x8x1024x1, .f32⟩
  | 65 => ⟨S8x8x1024x64, .f32⟩
  | 66 => ⟨S8x8x1024x64, .f32⟩
  | 67 => ⟨S1x64x512, .f32⟩
  | 68 => ⟨S8x64x512, .f32⟩
  | 69 => ⟨S8x64x512, .f32⟩
  | 70 => ⟨S8x64x8x1024, .f32⟩
  | 71 => ⟨S8x8x1024x64, .f32⟩
  | 72 => ⟨S1x8x1x64, .f32⟩
  | 73 => ⟨S8x8x1024x64, .f32⟩
  | 74 => ⟨S8x8x1024x64, .f32⟩
  | 75 => ⟨S8x8x1024x1024, .f32⟩
  | 76 => ⟨S_, .f32⟩
  | 77 => ⟨S8x8x1024x1024, .f32⟩
  | 78 => ⟨S8x8x1016x1016, .f32⟩
  | 79 => ⟨S_, .i32⟩
  | 80 => ⟨S1, .i32⟩
  | 81 => ⟨S_, .i32⟩
  | 82 => ⟨S1, .i32⟩
  | 83 => ⟨S2, .i32⟩
  | 84 => ⟨S8x8x1024x1024, .f32⟩
  | 85 => ⟨S8x8x1017x1017, .f32⟩
  | 86 => ⟨S_, .i32⟩
  | 87 => ⟨S1, .i32⟩
  | 88 => ⟨S_, .i32⟩
  | 89 => ⟨S1, .i32⟩
  | 90 => ⟨S2, .i32⟩
  | 91 => ⟨S8x8x1024x1024, .f32⟩
  | 92 => ⟨S8x8x1018x1018, .f32⟩
  | 93 => ⟨S_, .i32⟩
  | 94 => ⟨S1, .i32⟩
  | 95 => ⟨S_, .i32⟩
  | 96 => ⟨S1, .i32⟩
  | 97 => ⟨S2, .i32⟩
  | 98 => ⟨S8x8x1024x1024, .f32⟩
  | 99 => ⟨S8x8x1019x1019, .f32⟩
  | 100 => ⟨S_, .i32⟩
  | 101 => ⟨S1, .i32⟩
  | 102 => ⟨S_, .i32⟩
  | 103 => ⟨S1, .i32⟩
  | 104 => ⟨S2, .i32⟩
  | 105 => ⟨S8x8x1024x1024, .f32⟩
  | 106 => ⟨S8x8x1020x1020, .f32⟩
  | 107 => ⟨S_, .i32⟩
  | 108 => ⟨S1, .i32⟩
  | 109 => ⟨S_, .i32⟩
  | 110 => ⟨S1, .i32⟩
  | 111 => ⟨S2, .i32⟩
  | 112 => ⟨S8x8x1024x1024, .f32⟩
  | 113 => ⟨S8x8x1021x1021, .f32⟩
  | 114 => ⟨S_, .i32⟩
  | 115 => ⟨S1, .i32⟩
  | 116 => ⟨S_, .i32⟩
  | 117 => ⟨S1, .i32⟩
  | 118 => ⟨S2, .i32⟩
  | 119 => ⟨S8x8x1024x1024, .f32⟩
  | 120 => ⟨S8x8x1022x1022, .f32⟩
  | 121 => ⟨S_, .i32⟩
  | 122 => ⟨S1, .i32⟩
  | 123 => ⟨S_, .i32⟩
  | 124 => ⟨S1, .i32⟩
  | 125 => ⟨S2, .i32⟩
  | 126 => ⟨S8x8x1024x1024, .f32⟩
  | 127 => ⟨S8x8x1023x1023, .f32⟩
  | _ => ⟨S8x1024x512, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S8x8x1024x1024, .f32⟩
  | 6 => ⟨S8x8x1024x1024, .f32⟩
  | 7 => ⟨S8x8x1023x1023, .f32⟩
  | 8 => ⟨S_, .i32⟩
  | 9 => ⟨S1, .i32⟩
  | 10 => ⟨S_, .i32⟩
  | 11 => ⟨S1, .i32⟩
  | 12 => ⟨S2, .i32⟩
  | 13 => ⟨S8x8x1024x1024, .f32⟩
  | 14 => ⟨S8x8x1022x1022, .f32⟩
  | 15 => ⟨S_, .i32⟩
  | 16 => ⟨S1, .i32⟩
  | 17 => ⟨S_, .i32⟩
  | 18 => ⟨S1, .i32⟩
  | 19 => ⟨S2, .i32⟩
  | 20 => ⟨S8x8x1024x1024, .f32⟩
  | 21 => ⟨S8x8x1021x1021, .f32⟩
  | 22 => ⟨S_, .i32⟩
  | 23 => ⟨S1, .i32⟩
  | 24 => ⟨S_, .i32⟩
  | 25 => ⟨S1, .i32⟩
  | 26 => ⟨S2, .i32⟩
  | 27 => ⟨S8x8x1024x1024, .f32⟩
  | 28 => ⟨S8x8x1020x1020, .f32⟩
  | 29 => ⟨S_, .i32⟩
  | 30 => ⟨S1, .i32⟩
  | 31 => ⟨S_, .i32⟩
  | 32 => ⟨S1, .i32⟩
  | 33 => ⟨S2, .i32⟩
  | 34 => ⟨S8x8x1024x1024, .f32⟩
  | 35 => ⟨S8x8x1019x1019, .f32⟩
  | 36 => ⟨S_, .i32⟩
  | 37 => ⟨S1, .i32⟩
  | 38 => ⟨S_, .i32⟩
  | 39 => ⟨S1, .i32⟩
  | 40 => ⟨S2, .i32⟩
  | 41 => ⟨S8x8x1024x1024, .f32⟩
  | 42 => ⟨S8x8x1018x1018, .f32⟩
  | 43 => ⟨S_, .i32⟩
  | 44 => ⟨S1, .i32⟩
  | 45 => ⟨S_, .i32⟩
  | 46 => ⟨S1, .i32⟩
  | 47 => ⟨S2, .i32⟩
  | 48 => ⟨S8x8x1024x1024, .f32⟩
  | 49 => ⟨S8x8x1017x1017, .f32⟩
  | 50 => ⟨S_, .i32⟩
  | 51 => ⟨S1, .i32⟩
  | 52 => ⟨S_, .i32⟩
  | 53 => ⟨S1, .i32⟩
  | 54 => ⟨S2, .i32⟩
  | 55 => ⟨S8x8x1024x1024, .f32⟩
  | 56 => ⟨S8x8x1016x1016, .f32⟩
  | 57 => ⟨S_, .i32⟩
  | 58 => ⟨S1, .i32⟩
  | 59 => ⟨S_, .i32⟩
  | 60 => ⟨S1, .i32⟩
  | 61 => ⟨S2, .i32⟩
  | 62 => ⟨S8x8x1024x1024, .f32⟩
  | 63 => ⟨S1024, .i32⟩
  | 64 => ⟨S1024x1, .i32⟩
  | 65 => ⟨S1x1024, .i32⟩
  | 66 => ⟨S1024x1024, .i32⟩
  | 67 => ⟨S1024x1024, .i32⟩
  | 68 => ⟨S1024x1024, .i32⟩
  | 69 => ⟨S1024x1, .i32⟩
  | 70 => ⟨S1x1024, .i32⟩
  | 71 => ⟨S1024x1024, .i32⟩
  | 72 => ⟨S1024x1024, .i32⟩
  | 73 => ⟨S1024x1024, .i32⟩
  | 74 => ⟨S_, .i32⟩
  | 75 => ⟨S1024x1024, .i32⟩
  | 76 => ⟨S1024x1024, .i32⟩
  | 77 => ⟨S_, .i32⟩
  | 78 => ⟨S1024x1024, .i32⟩
  | 79 => ⟨S1024x1024, .i32⟩
  | 80 => ⟨S_, .i32⟩
  | 81 => ⟨S1024x1024, .i32⟩
  | 82 => ⟨S1024x1024, .i32⟩
  | 83 => ⟨S1024x1024, .i32⟩
  | 84 => ⟨S_, .i32⟩
  | 85 => ⟨S1024x1024, .i32⟩
  | 86 => ⟨S1024x1024, .i32⟩
  | 87 => ⟨S1024x1024, .f32⟩
  | 88 => ⟨S1x1x1024x1024, .f32⟩
  | 89 => ⟨S8x8x1024x1024, .f32⟩
  | 90 => ⟨S8x8x1024x1024, .f32⟩
  | 91 => ⟨S8x32x8x1024, .f32⟩
  | 92 => ⟨S8x8x1024x32, .f32⟩
  | 93 => ⟨S1x8x1x32, .f32⟩
  | 94 => ⟨S8x8x1024x32, .f32⟩
  | 95 => ⟨S8x8x1024x32, .f32⟩
  | 96 => ⟨S8x8x1024x32, .f32⟩
  | 97 => ⟨S_, .f32⟩
  | 98 => ⟨S8x8x1024, .f32⟩
  | 99 => ⟨S8x8x1024x1, .f32⟩
  | 100 => ⟨S8x8x1024x1, .f32⟩
  | 101 => ⟨S_, .f32⟩
  | 102 => ⟨S8x8x1024x1, .f32⟩
  | 103 => ⟨S8x8x1024x1, .f32⟩
  | 104 => ⟨S8x8x1024x32, .f32⟩
  | 105 => ⟨S8x8x1024x32, .f32⟩
  | 106 => ⟨S8x32x8x1024, .f32⟩
  | 107 => ⟨S8x8x1024x32, .f32⟩
  | 108 => ⟨S1x8x1x32, .f32⟩
  | 109 => ⟨S8x8x1024x32, .f32⟩
  | 110 => ⟨S8x8x1024x32, .f32⟩
  | 111 => ⟨S8x8x1024x32, .f32⟩
  | 112 => ⟨S_, .f32⟩
  | 113 => ⟨S8x8x1024, .f32⟩
  | 114 => ⟨S8x8x1024x1, .f32⟩
  | 115 => ⟨S8x8x1024x1, .f32⟩
  | 116 => ⟨S_, .f32⟩
  | 117 => ⟨S8x8x1024x1, .f32⟩
  | 118 => ⟨S8x8x1024x1, .f32⟩
  | 119 => ⟨S8x8x1024x32, .f32⟩
  | 120 => ⟨S8x8x1024x32, .f32⟩
  | 121 => ⟨S8x16x8x1024, .f32⟩
  | 122 => ⟨S8x8x1024x16, .f32⟩
  | 123 => ⟨S1x8x1x16, .f32⟩
  | 124 => ⟨S8x8x1024x16, .f32⟩
  | 125 => ⟨S8x8x1024x16, .f32⟩
  | 126 => ⟨S8x8x1024x16, .f32⟩
  | 127 => ⟨S_, .f32⟩
  | _ => ⟨S8x1024x512, .f32⟩

abbrev hbmTy0_2 (i : Nat) : BufTy := match i % 128 with
  | 0 => ⟨S8x8x1024, .f32⟩
  | 1 => ⟨S8x8x1024x1, .f32⟩
  | 2 => ⟨S8x8x1024x1, .f32⟩
  | 3 => ⟨S_, .f32⟩
  | 4 => ⟨S8x8x1024x1, .f32⟩
  | 5 => ⟨S8x8x1024x1, .f32⟩
  | 6 => ⟨S8x8x1024x16, .f32⟩
  | 7 => ⟨S8x8x1024x16, .f32⟩
  | 8 => ⟨S8x16x8x1024, .f32⟩
  | 9 => ⟨S8x8x1024x16, .f32⟩
  | 10 => ⟨S1x8x1x16, .f32⟩
  | 11 => ⟨S8x8x1024x16, .f32⟩
  | 12 => ⟨S8x8x1024x16, .f32⟩
  | 13 => ⟨S8x8x1024x16, .f32⟩
  | 14 => ⟨S_, .f32⟩
  | 15 => ⟨S8x8x1024, .f32⟩
  | 16 => ⟨S8x8x1024x1, .f32⟩
  | 17 => ⟨S8x8x1024x1, .f32⟩
  | 18 => ⟨S_, .f32⟩
  | 19 => ⟨S8x8x1024x1, .f32⟩
  | 20 => ⟨S8x8x1024x1, .f32⟩
  | 21 => ⟨S8x8x1024x16, .f32⟩
  | 22 => ⟨S8x8x1024x16, .f32⟩
  | 23 => ⟨S_, .f32⟩
  | 24 => ⟨S8x8x1024x1024, .f32⟩
  | 25 => ⟨S8x8x1024x1024, .f32⟩
  | 26 => ⟨S_, .f32⟩
  | 27 => ⟨S8x8x1024x1024, .f32⟩
  | 28 => ⟨S8x8x1024x1024, .f32⟩
  | 29 => ⟨S8x8x1024x1024, .f32⟩
  | 30 => ⟨S8x8x1024x1024, .f32⟩
  | 31 => ⟨S_, .f32⟩
  | 32 => ⟨S8x8x1024x1024, .f32⟩
  | 33 => ⟨S8x8x1024x1024, .f32⟩
  | 34 => ⟨S8x8x1024x1024, .f32⟩
  | 35 => ⟨S8x8x1024x1024, .f32⟩
  | 36 => ⟨S_, .f32⟩
  | 37 => ⟨S8x8x1024, .f32⟩
  | 38 => ⟨S_, .f32⟩
  | 39 => ⟨S8x8x1024, .f32⟩
  | 40 => ⟨S8x8x1024, .f32⟩
  | 41 => ⟨S8x8x1024x1, .f32⟩
  | 42 => ⟨S8x8x1024x1024, .f32⟩
  | 43 => ⟨S8x8x1024x1024, .f32⟩
  | 44 => ⟨S8x8x1024x1024, .f32⟩
  | 45 => ⟨S_, .f32⟩
  | 46 => ⟨S8x8x1024, .f32⟩
  | 47 => ⟨S8x8x1024x1, .f32⟩
  | 48 => ⟨S8x8x1024x1024, .f32⟩
  | 49 => ⟨S8x8x1024x1024, .f32⟩
  | 50 => ⟨S8x8x1024x64, .f32⟩
  | 51 => ⟨S8x1024x8x64, .f32⟩
  | 52 => ⟨S8x1024x512, .f32⟩
  | 53 => ⟨S512x512, .f32⟩
  | 54 => ⟨S8x1024x512, .f32⟩
  | 55 => ⟨S8x1024x512, .f32⟩
  | 56 => ⟨S1x1x512, .f32⟩
  | 57 => ⟨S8x1024x512, .f32⟩
  | 58 => ⟨S8x1024x512, .f32⟩
  | 59 => ⟨S8x1024x8x1024, .f32⟩
  | 60 => ⟨S8x1024x8192, .f32⟩
  | _ => ⟨S8x1024x512, .f32⟩

abbrev hbmTy (i : Nat) : BufTy := match i / 128 with
  | 0 => hbmTy0_0 i
  | 1 => hbmTy0_1 i
  | 2 => hbmTy0_2 i
  | _ => ⟨S8x1024x512, .f32⟩

abbrev bufTy : (tb : Table) → Fin (tcTables nBuf tb) → BufTy
  | .hbm, ⟨i, _⟩ => hbmTy i
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_call0_v2 : Ref sig .tc := ⟨.hbm, 42, rfl⟩
abbrev main_v15 : Ref sig .tc := ⟨.hbm, 43, rfl⟩
abbrev main_cst : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_call1_v0 : Ref sig .tc := ⟨.hbm, 57, rfl⟩
abbrev main_call1_cst : Ref sig .tc := ⟨.hbm, 58, rfl⟩
abbrev main_call1_v1 : Ref sig .tc := ⟨.hbm, 59, rfl⟩
abbrev main_call1_v2 : Ref sig .tc := ⟨.hbm, 60, rfl⟩
abbrev main_v28 : Ref sig .tc := ⟨.hbm, 61, rfl⟩
abbrev main_cst_0 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_1 : Ref sig .tc := ⟨.hbm, 76, rfl⟩
abbrev main_v42 : Ref sig .tc := ⟨.hbm, 77, rfl⟩
abbrev main_v43 : Ref sig .tc := ⟨.hbm, 78, rfl⟩
abbrev main_c_2 : Ref sig .tc := ⟨.hbm, 79, rfl⟩
abbrev main_v44 : Ref sig .tc := ⟨.hbm, 80, rfl⟩
abbrev main_c_3 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_c_4 : Ref sig .tc := ⟨.hbm, 86, rfl⟩
abbrev main_v49 : Ref sig .tc := ⟨.hbm, 87, rfl⟩
abbrev main_c_5 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_6 : Ref sig .tc := ⟨.hbm, 93, rfl⟩
abbrev main_v54 : Ref sig .tc := ⟨.hbm, 94, rfl⟩
abbrev main_c_7 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_8 : Ref sig .tc := ⟨.hbm, 100, rfl⟩
abbrev main_v59 : Ref sig .tc := ⟨.hbm, 101, rfl⟩
abbrev main_c_9 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_c_10 : Ref sig .tc := ⟨.hbm, 107, rfl⟩
abbrev main_v64 : Ref sig .tc := ⟨.hbm, 108, rfl⟩
abbrev main_c_11 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_c_12 : Ref sig .tc := ⟨.hbm, 114, rfl⟩
abbrev main_v69 : Ref sig .tc := ⟨.hbm, 115, rfl⟩
abbrev main_c_13 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_c_14 : Ref sig .tc := ⟨.hbm, 121, rfl⟩
abbrev main_v74 : Ref sig .tc := ⟨.hbm, 122, rfl⟩
abbrev main_c_15 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_c_16 : Ref sig .tc := ⟨.hbm, 128, rfl⟩
abbrev main_v79 : Ref sig .tc := ⟨.hbm, 129, rfl⟩
abbrev main_c_17 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_c_18 : Ref sig .tc := ⟨.hbm, 136, rfl⟩
abbrev main_v85 : Ref sig .tc := ⟨.hbm, 137, rfl⟩
abbrev main_c_19 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_c_20 : Ref sig .tc := ⟨.hbm, 143, rfl⟩
abbrev main_v90 : Ref sig .tc := ⟨.hbm, 144, rfl⟩
abbrev main_c_21 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_c_22 : Ref sig .tc := ⟨.hbm, 150, rfl⟩
abbrev main_v95 : Ref sig .tc := ⟨.hbm, 151, rfl⟩
abbrev main_c_23 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_c_24 : Ref sig .tc := ⟨.hbm, 157, rfl⟩
abbrev main_v100 : Ref sig .tc := ⟨.hbm, 158, rfl⟩
abbrev main_c_25 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_c_26 : Ref sig .tc := ⟨.hbm, 164, rfl⟩
abbrev main_v105 : Ref sig .tc := ⟨.hbm, 165, rfl⟩
abbrev main_c_27 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_c_28 : Ref sig .tc := ⟨.hbm, 171, rfl⟩
abbrev main_v110 : Ref sig .tc := ⟨.hbm, 172, rfl⟩
abbrev main_c_29 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_c_30 : Ref sig .tc := ⟨.hbm, 178, rfl⟩
abbrev main_v115 : Ref sig .tc := ⟨.hbm, 179, rfl⟩
abbrev main_c_31 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_c_32 : Ref sig .tc := ⟨.hbm, 185, rfl⟩
abbrev main_v120 : Ref sig .tc := ⟨.hbm, 186, rfl⟩
abbrev main_c_33 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_c_34 : Ref sig .tc := ⟨.hbm, 202, rfl⟩
abbrev main_v135 : Ref sig .tc := ⟨.hbm, 203, rfl⟩
abbrev main_v136 : Ref sig .tc := ⟨.hbm, 204, rfl⟩
abbrev main_c_35 : Ref sig .tc := ⟨.hbm, 205, rfl⟩
abbrev main_v137 : Ref sig .tc := ⟨.hbm, 206, rfl⟩
abbrev main_v138 : Ref sig .tc := ⟨.hbm, 207, rfl⟩
abbrev main_c_36 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_c_37 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_call2_v0 : Ref sig .tc := ⟨.hbm, 224, rfl⟩
abbrev main_call2_cst : Ref sig .tc := ⟨.hbm, 225, rfl⟩
abbrev main_call2_v1 : Ref sig .tc := ⟨.hbm, 226, rfl⟩
abbrev main_call2_v2 : Ref sig .tc := ⟨.hbm, 227, rfl⟩
abbrev main_v153 : Ref sig .tc := ⟨.hbm, 228, rfl⟩
abbrev main_cst_38 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_call3_v0 : Ref sig .tc := ⟨.hbm, 239, rfl⟩
abbrev main_call3_cst : Ref sig .tc := ⟨.hbm, 240, rfl⟩
abbrev main_call3_v1 : Ref sig .tc := ⟨.hbm, 241, rfl⟩
abbrev main_call3_v2 : Ref sig .tc := ⟨.hbm, 242, rfl⟩
abbrev main_v163 : Ref sig .tc := ⟨.hbm, 243, rfl⟩
abbrev main_cst_39 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_call4_v0 : Ref sig .tc := ⟨.hbm, 254, rfl⟩
abbrev main_call4_cst : Ref sig .tc := ⟨.hbm, 255, rfl⟩
abbrev main_call4_v1 : Ref sig .tc := ⟨.hbm, 256, rfl⟩
abbrev main_call4_v2 : Ref sig .tc := ⟨.hbm, 257, rfl⟩
abbrev main_v173 : Ref sig .tc := ⟨.hbm, 258, rfl⟩
abbrev main_cst_40 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_call5_v0 : Ref sig .tc := ⟨.hbm, 269, rfl⟩
abbrev main_call5_cst : Ref sig .tc := ⟨.hbm, 270, rfl⟩
abbrev main_call5_v1 : Ref sig .tc := ⟨.hbm, 271, rfl⟩
abbrev main_call5_v2 : Ref sig .tc := ⟨.hbm, 272, rfl⟩
abbrev main_v183 : Ref sig .tc := ⟨.hbm, 273, rfl⟩
abbrev main_cst_41 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_cst_42 : Ref sig .tc := ⟨.hbm, 292, rfl⟩
abbrev main_v201 : Ref sig .tc := ⟨.hbm, 293, rfl⟩
abbrev main_cst_43 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_cst_44 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩

abbrev nD : Nat := 1
abbrev τ : Topo := Topo.v7x

variable {F : FTy → Type} [FloatOps F]

class Facts₀ : Prop where
  hz_S0 : S0.numel = 0
  shapeCasts_S64x64_S1x64x1x64 : S64x64.ShapeCasts S1x64x1x64
  bcast_S1x64x1x64_S1x64x8x64_0_1_2_3 : S1x64x1x64.BroadcastsInDim S1x64x8x64 (![0, 1, 2, 3] : Fin 4 → Fin S1x64x8x64.rank)
  shapeCasts_S1x64x8x64_S64x512 : S1x64x8x64.ShapeCasts S64x512
  bcast_S1x64x1x64_S8x64x8x64_0_1_2_3 : S1x64x1x64.BroadcastsInDim S8x64x8x64 (![0, 1, 2, 3] : Fin 4 → Fin S8x64x8x64.rank)
  shapeCasts_S8x64x8x64_S512x512 : S8x64x8x64.ShapeCasts S512x512
  bcast_S64x512_S1x64x512_1_2 : S64x512.BroadcastsInDim S1x64x512 (![1, 2] : Fin 2 → Fin S1x64x512.rank)
  bcast_S1x64x512_S8x64x512_0_1_2 : S1x64x512.BroadcastsInDim S8x64x512 (![0, 1, 2] : Fin 3 → Fin S8x64x512.rank)
  transposes_S8x64x8x1024_S8x8x1024x64_2_0_3_1 : S8x64x8x1024.Transposes [2, 0, 3, 1] S8x8x1024x64
  bcast_S8x64_S1x8x1x64_1_3 : S8x64.BroadcastsInDim S1x8x1x64 (![1, 3] : Fin 2 → Fin S1x8x1x64.rank)
  bcast_S1x8x1x64_S8x8x1024x64_0_1_2_3 : S1x8x1x64.BroadcastsInDim S8x8x1024x64 (![0, 1, 2, 3] : Fin 4 → Fin S8x8x1024x64.rank)
  reducesTo_S8x8x1024x64_S8x8x1024_d3 : S8x8x1024x64.ReducesTo [3] S8x8x1024
  h_S_ : 0 < S_.numel
  bcast_S8x8x1024_S8x8x1024x1_0_1_2 : S8x8x1024.BroadcastsInDim S8x8x1024x1 (![0, 1, 2] : Fin 3 → Fin S8x8x1024x1.rank)
  bcast_S_S8x8x1024x1 : S_.BroadcastsInDim S8x8x1024x1 (![] : Fin 0 → Fin S8x8x1024x1.rank)
  bcast_S8x8x1024x1_S8x8x1024x64_0_1_2_3 : S8x8x1024x1.BroadcastsInDim S8x8x1024x64 (![0, 1, 2, 3] : Fin 4 → Fin S8x8x1024x64.rank)
  bcast_S_S8x8x1024x1024 : S_.BroadcastsInDim S8x8x1024x1024 (![] : Fin 0 → Fin S8x8x1024x1024.rank)
  slices_S8x8x1024x1024_S8x8x1016x1016_0_0_0_0 : S8x8x1024x1024.Slices ![0, 0, 0, 0] S8x8x1016x1016
  bcast_S_S1 : S_.BroadcastsInDim S1 (![] : Fin 0 → Fin S1.rank)
  concatenates_S1_S1_S2_d0 : Shape.Concatenates [S1, S1] S2 0
  slices_S8x8x1024x1024_S8x8x1017x1017_0_0_0_0 : S8x8x1024x1024.Slices ![0, 0, 0, 0] S8x8x1017x1017
  slices_S8x8x1024x1024_S8x8x1018x1018_0_0_0_0 : S8x8x1024x1024.Slices ![0, 0, 0, 0] S8x8x1018x1018
  slices_S8x8x1024x1024_S8x8x1019x1019_0_0_0_0 : S8x8x1024x1024.Slices ![0, 0, 0, 0] S8x8x1019x1019
  slices_S8x8x1024x1024_S8x8x1020x1020_0_0_0_0 : S8x8x1024x1024.Slices ![0, 0, 0, 0] S8x8x1020x1020
  slices_S8x8x1024x1024_S8x8x1021x1021_0_0_0_0 : S8x8x1024x1024.Slices ![0, 0, 0, 0] S8x8x1021x1021
  slices_S8x8x1024x1024_S8x8x1022x1022_0_0_0_0 : S8x8x1024x1024.Slices ![0, 0, 0, 0] S8x8x1022x1022
  slices_S8x8x1024x1024_S8x8x1023x1023_0_0_0_0 : S8x8x1024x1024.Slices ![0, 0, 0, 0] S8x8x1023x1023
  slices_S8x8x1024x1024_S8x8x1023x1023_0_0_1_1 : S8x8x1024x1024.Slices ![0, 0, 1, 1] S8x8x1023x1023
  slices_S8x8x1024x1024_S8x8x1022x1022_0_0_2_2 : S8x8x1024x1024.Slices ![0, 0, 2, 2] S8x8x1022x1022
  slices_S8x8x1024x1024_S8x8x1021x1021_0_0_3_3 : S8x8x1024x1024.Slices ![0, 0, 3, 3] S8x8x1021x1021
  slices_S8x8x1024x1024_S8x8x1020x1020_0_0_4_4 : S8x8x1024x1024.Slices ![0, 0, 4, 4] S8x8x1020x1020
  slices_S8x8x1024x1024_S8x8x1019x1019_0_0_5_5 : S8x8x1024x1024.Slices ![0, 0, 5, 5] S8x8x1019x1019
  slices_S8x8x1024x1024_S8x8x1018x1018_0_0_6_6 : S8x8x1024x1024.Slices ![0, 0, 6, 6] S8x8x1018x1018
  slices_S8x8x1024x1024_S8x8x1017x1017_0_0_7_7 : S8x8x1024x1024.Slices ![0, 0, 7, 7] S8x8x1017x1017
  slices_S8x8x1024x1024_S8x8x1016x1016_0_0_8_8 : S8x8x1024x1024.Slices ![0, 0, 8, 8] S8x8x1016x1016
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S1024x1024_S1x1x1024x1024_2_3 : S1024x1024.BroadcastsInDim S1x1x1024x1024 (![2, 3] : Fin 2 → Fin S1x1x1024x1024.rank)
  bcast_S1x1x1024x1024_S8x8x1024x1024_0_1_2_3 : S1x1x1024x1024.BroadcastsInDim S8x8x1024x1024 (![0, 1, 2, 3] : Fin 4 → Fin S8x8x1024x1024.rank)
  transposes_S8x32x8x1024_S8x8x1024x32_2_0_3_1 : S8x32x8x1024.Transposes [2, 0, 3, 1] S8x8x1024x32
  bcast_S8x32_S1x8x1x32_1_3 : S8x32.BroadcastsInDim S1x8x1x32 (![1, 3] : Fin 2 → Fin S1x8x1x32.rank)
  bcast_S1x8x1x32_S8x8x1024x32_0_1_2_3 : S1x8x1x32.BroadcastsInDim S8x8x1024x32 (![0, 1, 2, 3] : Fin 4 → Fin S8x8x1024x32.rank)
  reducesTo_S8x8x1024x32_S8x8x1024_d3 : S8x8x1024x32.ReducesTo [3] S8x8x1024
  bcast_S8x8x1024x1_S8x8x1024x32_0_1_2_3 : S8x8x1024x1.BroadcastsInDim S8x8x1024x32 (![0, 1, 2, 3] : Fin 4 → Fin S8x8x1024x32.rank)
  transposes_S8x16x8x1024_S8x8x1024x16_2_0_3_1 : S8x16x8x1024.Transposes [2, 0, 3, 1] S8x8x1024x16
  bcast_S8x16_S1x8x1x16_1_3 : S8x16.BroadcastsInDim S1x8x1x16 (![1, 3] : Fin 2 → Fin S1x8x1x16.rank)
  bcast_S1x8x1x16_S8x8x1024x16_0_1_2_3 : S1x8x1x16.BroadcastsInDim S8x8x1024x16 (![0, 1, 2, 3] : Fin 4 → Fin S8x8x1024x16.rank)
  reducesTo_S8x8x1024x16_S8x8x1024_d3 : S8x8x1024x16.ReducesTo [3] S8x8x1024
  bcast_S8x8x1024x1_S8x8x1024x16_0_1_2_3 : S8x8x1024x1.BroadcastsInDim S8x8x1024x16 (![0, 1, 2, 3] : Fin 4 → Fin S8x8x1024x16.rank)
  shapeCasts_S1x1_S_ : S1x1.ShapeCasts S_
  reducesTo_S8x8x1024x1024_S8x8x1024_d3 : S8x8x1024x1024.ReducesTo [3] S8x8x1024
  bcast_S_S8x8x1024 : S_.BroadcastsInDim S8x8x1024 (![] : Fin 0 → Fin S8x8x1024.rank)
  bcast_S8x8x1024x1_S8x8x1024x1024_0_1_2_3 : S8x8x1024x1.BroadcastsInDim S8x8x1024x1024 (![0, 1, 2, 3] : Fin 4 → Fin S8x8x1024x1024.rank)
  transposes_S8x8x1024x64_S8x1024x8x64_0_2_1_3 : S8x8x1024x64.Transposes [0, 2, 1, 3] S8x1024x8x64
  shapeCasts_S8x1024x8x64_S8x1024x512 : S8x1024x8x64.ShapeCasts S8x1024x512
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  transposes_S8x8x1024x1024_S8x1024x8x1024_0_2_1_3 : S8x8x1024x1024.Transposes [0, 2, 1, 3] S8x1024x8x1024
  shapeCasts_S8x1024x8x1024_S8x1024x8192 : S8x1024x8x1024.ShapeCasts S8x1024x8192
  dot_S8x64x512_S8x1024x512_S8x64x8x1024_2_2_01_01_n_n_wf : DotDims.WF S8x64x512 S8x1024x512 S8x64x8x1024 [2] [2] [0, 1] [0, 1] [] []
  dot_S8x8x1024x64_S8x8x1024x64_S8x8x1024x1024_3_3_2_2_01_01_wf : DotDims.WF S8x8x1024x64 S8x8x1024x64 S8x8x1024x1024 [3] [3] [2] [2] [0, 1] [0, 1]
  scatter_S8x8x1024x1024_S2_S8x8x1016x1016_0123_n_23_0_wf : ScatterDims.WF S8x8x1024x1024 S2 S8x8x1016x1016 [0, 1, 2, 3] [] [2, 3] 0
  scatter_S8x8x1024x1024_S2_S8x8x1017x1017_0123_n_23_0_wf : ScatterDims.WF S8x8x1024x1024 S2 S8x8x1017x1017 [0, 1, 2, 3] [] [2, 3] 0
  scatter_S8x8x1024x1024_S2_S8x8x1018x1018_0123_n_23_0_wf : ScatterDims.WF S8x8x1024x1024 S2 S8x8x1018x1018 [0, 1, 2, 3] [] [2, 3] 0
  scatter_S8x8x1024x1024_S2_S8x8x1019x1019_0123_n_23_0_wf : ScatterDims.WF S8x8x1024x1024 S2 S8x8x1019x1019 [0, 1, 2, 3] [] [2, 3] 0
  scatter_S8x8x1024x1024_S2_S8x8x1020x1020_0123_n_23_0_wf : ScatterDims.WF S8x8x1024x1024 S2 S8x8x1020x1020 [0, 1, 2, 3] [] [2, 3] 0
  scatter_S8x8x1024x1024_S2_S8x8x1021x1021_0123_n_23_0_wf : ScatterDims.WF S8x8x1024x1024 S2 S8x8x1021x1021 [0, 1, 2, 3] [] [2, 3] 0
  scatter_S8x8x1024x1024_S2_S8x8x1022x1022_0123_n_23_0_wf : ScatterDims.WF S8x8x1024x1024 S2 S8x8x1022x1022 [0, 1, 2, 3] [] [2, 3] 0
  scatter_S8x8x1024x1024_S2_S8x8x1023x1023_0123_n_23_0_wf : ScatterDims.WF S8x8x1024x1024 S2 S8x8x1023x1023 [0, 1, 2, 3] [] [2, 3] 0
  scatter_S8x8x1024x1024_S0_S8x8x1024x1024_0123_n_n_0_wf : ScatterDims.WF S8x8x1024x1024 S0 S8x8x1024x1024 [0, 1, 2, 3] [] [] 0
  dot_S8x32x256_S8x1024x256_S8x32x8x1024_2_2_01_01_n_n_wf : DotDims.WF S8x32x256 S8x1024x256 S8x32x8x1024 [2] [2] [0, 1] [0, 1] [] []
  dot_S8x16x128_S8x1024x128_S8x16x8x1024_2_2_01_01_n_n_wf : DotDims.WF S8x16x128 S8x1024x128 S8x16x8x1024 [2] [2] [0, 1] [0, 1] [] []
  dot_S8x8x1024x32_S8x8x1024x32_S8x8x1024x1024_3_3_2_2_01_01_wf : DotDims.WF S8x8x1024x32 S8x8x1024x32 S8x8x1024x1024 [3] [3] [2] [2] [0, 1] [0, 1]
  dot_S8x8x1024x16_S8x8x1024x16_S8x8x1024x1024_3_3_2_2_01_01_wf : DotDims.WF S8x8x1024x16 S8x8x1024x16 S8x8x1024x1024 [3] [3] [2] [2] [0, 1] [0, 1]
  dot_S8x8x1024x1024_S8x8x1024x64_S8x8x1024x64_3_2_2_3_01_01_wf : DotDims.WF S8x8x1024x1024 S8x8x1024x64 S8x8x1024x64 [3] [2] [2] [3] [0, 1] [0, 1]
  dot_S8x1024x512_S512x512_S8x1024x512_2_1_01_0_n_n_wf : DotDims.WF S8x1024x512 S512x512 S8x1024x512 [2] [1] [0, 1] [0] [] []

variable [Facts₀]

def dot_S8x64x512_S8x1024x512_S8x64x8x1024_2_2_01_01_n_n : DotDims S8x64x512 S8x1024x512 S8x64x8x1024 where
  lhsContracting := [2]
  rhsContracting := [2]
  lhsNonContracting := [0, 1]
  rhsNonContracting := [0, 1]
  lhsBatch := []
  rhsBatch := []
  wf := dot_S8x64x512_S8x1024x512_S8x64x8x1024_2_2_01_01_n_n_wf
def dot_S8x8x1024x64_S8x8x1024x64_S8x8x1024x1024_3_3_2_2_01_01 : DotDims S8x8x1024x64 S8x8x1024x64 S8x8x1024x1024 where
  lhsContracting := [3]
  rhsContracting := [3]
  lhsNonContracting := [2]
  rhsNonContracting := [2]
  lhsBatch := [0, 1]
  rhsBatch := [0, 1]
  wf := dot_S8x8x1024x64_S8x8x1024x64_S8x8x1024x1024_3_3_2_2_01_01_wf
def scatter_S8x8x1024x1024_S2_S8x8x1016x1016_0123_n_23_0 : ScatterDims S8x8x1024x1024 S2 S8x8x1016x1016 where
  updateWindowDims := [0, 1, 2, 3]
  insertedWindowDims := []
  scatterDimsToOperandDims := [2, 3]
  indexVectorDim := 0
  wf := scatter_S8x8x1024x1024_S2_S8x8x1016x1016_0123_n_23_0_wf
def scatter_S8x8x1024x1024_S2_S8x8x1017x1017_0123_n_23_0 : ScatterDims S8x8x1024x1024 S2 S8x8x1017x1017 where
  updateWindowDims := [0, 1, 2, 3]
  insertedWindowDims := []
  scatterDimsToOperandDims := [2, 3]
  indexVectorDim := 0
  wf := scatter_S8x8x1024x1024_S2_S8x8x1017x1017_0123_n_23_0_wf
def scatter_S8x8x1024x1024_S2_S8x8x1018x1018_0123_n_23_0 : ScatterDims S8x8x1024x1024 S2 S8x8x1018x1018 where
  updateWindowDims := [0, 1, 2, 3]
  insertedWindowDims := []
  scatterDimsToOperandDims := [2, 3]
  indexVectorDim := 0
  wf := scatter_S8x8x1024x1024_S2_S8x8x1018x1018_0123_n_23_0_wf
def scatter_S8x8x1024x1024_S2_S8x8x1019x1019_0123_n_23_0 : ScatterDims S8x8x1024x1024 S2 S8x8x1019x1019 where
  updateWindowDims := [0, 1, 2, 3]
  insertedWindowDims := []
  scatterDimsToOperandDims := [2, 3]
  indexVectorDim := 0
  wf := scatter_S8x8x1024x1024_S2_S8x8x1019x1019_0123_n_23_0_wf
def scatter_S8x8x1024x1024_S2_S8x8x1020x1020_0123_n_23_0 : ScatterDims S8x8x1024x1024 S2 S8x8x1020x1020 where
  updateWindowDims := [0, 1, 2, 3]
  insertedWindowDims := []
  scatterDimsToOperandDims := [2, 3]
  indexVectorDim := 0
  wf := scatter_S8x8x1024x1024_S2_S8x8x1020x1020_0123_n_23_0_wf
def scatter_S8x8x1024x1024_S2_S8x8x1021x1021_0123_n_23_0 : ScatterDims S8x8x1024x1024 S2 S8x8x1021x1021 where
  updateWindowDims := [0, 1, 2, 3]
  insertedWindowDims := []
  scatterDimsToOperandDims := [2, 3]
  indexVectorDim := 0
  wf := scatter_S8x8x1024x1024_S2_S8x8x1021x1021_0123_n_23_0_wf
def scatter_S8x8x1024x1024_S2_S8x8x1022x1022_0123_n_23_0 : ScatterDims S8x8x1024x1024 S2 S8x8x1022x1022 where
  updateWindowDims := [0, 1, 2, 3]
  insertedWindowDims := []
  scatterDimsToOperandDims := [2, 3]
  indexVectorDim := 0
  wf := scatter_S8x8x1024x1024_S2_S8x8x1022x1022_0123_n_23_0_wf
def scatter_S8x8x1024x1024_S2_S8x8x1023x1023_0123_n_23_0 : ScatterDims S8x8x1024x1024 S2 S8x8x1023x1023 where
  updateWindowDims := [0, 1, 2, 3]
  insertedWindowDims := []
  scatterDimsToOperandDims := [2, 3]
  indexVectorDim := 0
  wf := scatter_S8x8x1024x1024_S2_S8x8x1023x1023_0123_n_23_0_wf
def scatter_S8x8x1024x1024_S0_S8x8x1024x1024_0123_n_n_0 : ScatterDims S8x8x1024x1024 S0 S8x8x1024x1024 where
  updateWindowDims := [0, 1, 2, 3]
  insertedWindowDims := []
  scatterDimsToOperandDims := []
  indexVectorDim := 0
  wf := scatter_S8x8x1024x1024_S0_S8x8x1024x1024_0123_n_n_0_wf
def dot_S8x32x256_S8x1024x256_S8x32x8x1024_2_2_01_01_n_n : DotDims S8x32x256 S8x1024x256 S8x32x8x1024 where
  lhsContracting := [2]
  rhsContracting := [2]
  lhsNonContracting := [0, 1]
  rhsNonContracting := [0, 1]
  lhsBatch := []
  rhsBatch := []
  wf := dot_S8x32x256_S8x1024x256_S8x32x8x1024_2_2_01_01_n_n_wf
def dot_S8x16x128_S8x1024x128_S8x16x8x1024_2_2_01_01_n_n : DotDims S8x16x128 S8x1024x128 S8x16x8x1024 where
  lhsContracting := [2]
  rhsContracting := [2]
  lhsNonContracting := [0, 1]
  rhsNonContracting := [0, 1]
  lhsBatch := []
  rhsBatch := []
  wf := dot_S8x16x128_S8x1024x128_S8x16x8x1024_2_2_01_01_n_n_wf
def dot_S8x8x1024x32_S8x8x1024x32_S8x8x1024x1024_3_3_2_2_01_01 : DotDims S8x8x1024x32 S8x8x1024x32 S8x8x1024x1024 where
  lhsContracting := [3]
  rhsContracting := [3]
  lhsNonContracting := [2]
  rhsNonContracting := [2]
  lhsBatch := [0, 1]
  rhsBatch := [0, 1]
  wf := dot_S8x8x1024x32_S8x8x1024x32_S8x8x1024x1024_3_3_2_2_01_01_wf
def dot_S8x8x1024x16_S8x8x1024x16_S8x8x1024x1024_3_3_2_2_01_01 : DotDims S8x8x1024x16 S8x8x1024x16 S8x8x1024x1024 where
  lhsContracting := [3]
  rhsContracting := [3]
  lhsNonContracting := [2]
  rhsNonContracting := [2]
  lhsBatch := [0, 1]
  rhsBatch := [0, 1]
  wf := dot_S8x8x1024x16_S8x8x1024x16_S8x8x1024x1024_3_3_2_2_01_01_wf
def dot_S8x8x1024x1024_S8x8x1024x64_S8x8x1024x64_3_2_2_3_01_01 : DotDims S8x8x1024x1024 S8x8x1024x64 S8x8x1024x64 where
  lhsContracting := [3]
  rhsContracting := [2]
  lhsNonContracting := [2]
  rhsNonContracting := [3]
  lhsBatch := [0, 1]
  rhsBatch := [0, 1]
  wf := dot_S8x8x1024x1024_S8x8x1024x64_S8x8x1024x64_3_2_2_3_01_01_wf
def dot_S8x1024x512_S512x512_S8x1024x512_2_1_01_0_n_n : DotDims S8x1024x512 S512x512 S8x1024x512 where
  lhsContracting := [2]
  rhsContracting := [1]
  lhsNonContracting := [0, 1]
  rhsNonContracting := [0]
  lhsBatch := []
  rhsBatch := []
  wf := dot_S8x1024x512_S512x512_S8x1024x512_2_1_01_0_n_n_wf

class Facts : Prop extends Facts₀ where

variable [Facts]
-- ==== Proof.Spec.lean ====
/-
  The mathematics both programs compute, stated once over the extended reals.

  Inputs, indexed by plain coordinates: the three token streams `x`, `aux`, `pos` (batch, time, feature); per head
  a weight matrix and a bias for each projection (the content weights already multiplied by the dependency mask);
  the masked output matrix `MO` and its bias; three scalar mixing weights; and the table `cnt` of how many
  diagonal neighbours each pair of positions has.

  Per batch `b` and head `h`:
    * a projection is `proj X W β t k = (∑ m, X t m · W k m) + β k`;
    * `l2n` divides each row by the larger of its Euclidean norm and `eps`;
    * `gram A B t s = ∑ k, A t k · B s k`;
    * `band S a b` adds the seventeen entries `S (a+i-8) (b+i-8)`, `i = 0 … 16`, that lie inside the square, in
      that order, starting from zero (an entry outside contributes zero);
    * the similarity is `w · (band / cnt) + wa · gramA + wp · gramP`, and `softmax` normalises the exponentials of
      each row after subtracting the row maximum;
    * `det = attn · V`, and head `h` contributes `con h t e = ∑ k, det t k · MO e (64 h + k)` to the output,
      which is `((0 + con 0 + … + con 7) + x) + bO`.
-/
import Idealize.ShloMosaic.PureOps.Ideal
import Idealize.ShloMosaic.PureOps.Ideal.Laws

noncomputable section

namespace GsaSpec

open Idealize.ShloMosaic

/-- The norm floor, the most negative value and zero, as the bit patterns both programs print. -/
abbrev eps : EReal := Ideal.ofBits .f32 0x2B8CBCCC#32
abbrev ninf : EReal := Ideal.ofBits .f32 0xFF800000#32

/-- A linear map with bias: row `t` of `X` against row `k` of `W`, plus `β k`. -/
def proj {T K M : Nat} (X : Fin T → Fin M → EReal) (W : Fin K → Fin M → EReal) (β : Fin K → EReal) :
    Fin T → Fin K → EReal :=
  fun t k => (∑ m : Fin M, X t m * W k m) + β k

/-- Each row divided by the larger of its Euclidean norm and `eps`. -/
def l2n {T K : Nat} (V : Fin T → Fin K → EReal) : Fin T → Fin K → EReal :=
  fun t k => Ideal.div (V t k) (max (Ideal.sqrt (∑ k' : Fin K, V t k' * V t k')) eps)

/-- All pairwise inner products of the rows of `A` with the rows of `B`. -/
def gram {T K : Nat} (A B : Fin T → Fin K → EReal) : Fin T → Fin T → EReal :=
  fun t s => ∑ k : Fin K, A t k * B s k

/-- The `i`-th diagonal neighbour of `(a, b)`: `S (a+i-8) (b+i-8)` when that lies in the square, else zero. -/
def tap (S : Fin 1024 → Fin 1024 → EReal) (a b : Fin 1024) (i : Nat) : EReal :=
  if h : 8 ≤ a.val + i ∧ a.val + i < 1032 ∧ 8 ≤ b.val + i ∧ b.val + i < 1032 then
    S ⟨a.val + i - 8, by omega⟩ ⟨b.val + i - 8, by omega⟩
  else 0

/-- The seventeen diagonal neighbours added from zero, nearest-to-the-top-left first. -/
def band (S : Fin 1024 → Fin 1024 → EReal) (a b : Fin 1024) : EReal :=
  0 + tap S a b 0 + tap S a b 1 + tap S a b 2 + tap S a b 3 + tap S a b 4 + tap S a b 5 + tap S a b 6 + tap S a b 7
    + tap S a b 8 + tap S a b 9 + tap S a b 10 + tap S a b 11 + tap S a b 12 + tap S a b 13 + tap S a b 14
    + tap S a b 15 + tap S a b 16

/-- The mixed similarity of positions `t` and `s`. -/
def simf (w wa wp : EReal) (cnt S GA GP : Fin 1024 → Fin 1024 → EReal) : Fin 1024 → Fin 1024 → EReal :=
  fun t s => w * Ideal.div (band S t s) (cnt t s) + wa * GA t s + wp * GP t s

/-- The largest entry of row `t` (never below `ninf`). -/
def rowmax (X : Fin 1024 → Fin 1024 → EReal) (t : Fin 1024) : EReal :=
  (Finset.univ : Finset (Fin 1024)).fold max ninf (X t)

/-- Row-wise softmax, shifted by the row maximum. -/
def softmax (X : Fin 1024 → Fin 1024 → EReal) : Fin 1024 → Fin 1024 → EReal :=
  fun t s => Ideal.div (Ideal.exp (X t s - rowmax X t)) (∑ s' : Fin 1024, Ideal.exp (X t s' - rowmax X t))

/-- Position `64 h + k` of the model axis: feature `k` of head `h`. -/
abbrev hk (h : Fin 8) (k : Fin 64) : Fin 512 := ⟨64 * h.val + k.val, by omega⟩

/-- Everything the two programs are given, by plain coordinates. -/
structure Inputs where
  x : Fin 8 → Fin 1024 → Fin 512 → EReal
  aux : Fin 8 → Fin 1024 → Fin 256 → EReal
  pos : Fin 8 → Fin 1024 → Fin 128 → EReal
  MQ : Fin 8 → Fin 64 → Fin 512 → EReal
  bq : Fin 8 → Fin 64 → EReal
  MK : Fin 8 → Fin 64 → Fin 512 → EReal
  bk : Fin 8 → Fin 64 → EReal
  MV : Fin 8 → Fin 64 → Fin 512 → EReal
  bv : Fin 8 → Fin 64 → EReal
  Wqa : Fin 8 → Fin 32 → Fin 256 → EReal
  bqa : Fin 8 → Fin 32 → EReal
  Wka : Fin 8 → Fin 32 → Fin 256 → EReal
  bka : Fin 8 → Fin 32 → EReal
  Wqp : Fin 8 → Fin 16 → Fin 128 → EReal
  bqp : Fin 8 → Fin 16 → EReal
  Wkp : Fin 8 → Fin 16 → Fin 128 → EReal
  bkp : Fin 8 → Fin 16 → EReal
  MO : Fin 512 → Fin 512 → EReal
  bO : Fin 512 → EReal
  w : EReal
  wa : EReal
  wp : EReal
  cnt : Fin 1024 → Fin 1024 → EReal

variable (I : Inputs)

def Qn (b h : Fin 8) : Fin 1024 → Fin 64 → EReal := l2n (proj (I.x b) (I.MQ h) (I.bq h))
def Kn (b h : Fin 8) : Fin 1024 → Fin 64 → EReal := l2n (proj (I.x b) (I.MK h) (I.bk h))
def Vv (b h : Fin 8) : Fin 1024 → Fin 64 → EReal := proj (I.x b) (I.MV h) (I.bv h)
def QAn (b h : Fin 8) : Fin 1024 → Fin 32 → EReal := l2n (proj (I.aux b) (I.Wqa h) (I.bqa h))
def KAn (b h : Fin 8) : Fin 1024 → Fin 32 → EReal := l2n (proj (I.aux b) (I.Wka h) (I.bka h))
def QPn (b h : Fin 8) : Fin 1024 → Fin 16 → EReal := l2n (proj (I.pos b) (I.Wqp h) (I.bqp h))
def KPn (b h : Fin 8) : Fin 1024 → Fin 16 → EReal := l2n (proj (I.pos b) (I.Wkp h) (I.bkp h))

/-- The mixed similarity matrix of batch `b`, head `h`. -/
def sim (b h : Fin 8) : Fin 1024 → Fin 1024 → EReal :=
  simf I.w I.wa I.wp I.cnt (gram (Qn I b h) (Kn I b h)) (gram (QAn I b h) (KAn I b h)) (gram (QPn I b h) (KPn I b h))

/-- The attention matrix of batch `b`, head `h`. -/
def att (b h : Fin 8) : Fin 1024 → Fin 1024 → EReal := softmax (sim I b h)

/-- Attention applied to the values. -/
def det (b h : Fin 8) : Fin 1024 → Fin 64 → EReal :=
  fun t k => ∑ s : Fin 1024, att I b h t s * Vv I b h s k

/-- Head `h`'s share of the output projection. -/
def con (b h : Fin 8) : Fin 1024 → Fin 512 → EReal :=
  fun t e => ∑ k : Fin 64, det I b h t k * I.MO e (hk h k)

/-- The output: the heads' shares added in order from zero, then the residual, then the bias. -/
def out (b : Fin 8) : Fin 1024 → Fin 512 → EReal :=
  fun t e => (0 + con I b 0 t e + con I b 1 t e + con I b 2 t e + con I b 3 t e + con I b 4 t e + con I b 5 t e
    + con I b 6 t e + con I b 7 t e) + I.x b t e + I.bO e

/-! ## Two regroupings of sums -/

/-- A sum over the model axis is the sum over heads of the sums over each head's features. -/
theorem sum_model (f : Fin 512 → EReal) : ∑ d : Fin 512, f d = ∑ h : Fin 8, ∑ k : Fin 64, f (hk h k) := by
  rw [← Fintype.sum_prod_type']
  refine (Fintype.sum_equiv (finProdFinEquiv (m := 8) (n := 64)) _ _ (fun p => ?_)).symm
  refine congrArg f (Fin.ext ?_)
  show 64 * p.1.val + p.2.val = p.2.val + 64 * p.1.val
  omega

/-- Eight shares added in order from zero and then the residual: the residual plus their sum. -/
theorem heads_then_residual (c : Fin 8 → EReal) (r : EReal) :
    (0 + c 0 + c 1 + c 2 + c 3 + c 4 + c 5 + c 6 + c 7) + r = r + ∑ h : Fin 8, c h := by
  rw [Fin.sum_univ_eight, zero_add, add_comm]

end GsaSpec

end
-- ==== Proof.KerPay.lean ====
/-
  The kernel body's arithmetic, stage by stage, read at an index.

  Each pure stage of the body is a composition of layout operations (shape casts, transposes, broadcasts),
  contractions into a zero accumulator, lane reductions and pointwise arithmetic.  Read at the ideal values
  (the extended reals) and at explicit coordinates, each stage is one of the specification's functions:
  a projection `proj`, a row normalisation `l2n`, a Gram matrix `gram`, a row softmax `softmax`, or a
  plain sum of products.
-/
import proofs.«105714_j66872640798820_2_alg».proof.Proof.Gen.KernelIdeal.Skeleton
import proofs.«105714_j66872640798820_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## Squeezes and format changes -/

/-- The token block with its unit batch axis dropped (the narrowing to bf16 is the identity on extended reals). -/
theorem pay6_apply (v3 : Vec Ideal S1x1024x512 .f32) (t : Fin 1024) (m : Fin 512) :
    k0_pay6 (F := Ideal) v3 (ix2 t m) = v3 (ix3 0 t m) := by
  unfold k0_pay6
  exact shapeCast_1ab_ab_apply v3 _ t m

theorem pay4_apply (v5 : Vec Ideal S1x1024x256 .f32) (t : Fin 1024) (m : Fin 256) :
    k0_pay4 (F := Ideal) v5 (ix2 t m) = v5 (ix3 0 t m) := by
  unfold k0_pay4
  exact shapeCast_1ab_ab_apply v5 _ t m

theorem pay5_apply (v7 : Vec Ideal S1x1024x128 .f32) (t : Fin 1024) (m : Fin 128) :
    k0_pay5 (F := Ideal) v7 (ix2 t m) = v7 (ix3 0 t m) := by
  unfold k0_pay5
  exact shapeCast_1ab_ab_apply v7 _ t m

theorem pay12_apply (v6 : FVec Ideal S1024x256 .f32) (t : Fin 1024) (m : Fin 256) :
    k0_pay12 (F := Ideal) v6 (ix2 t m) = v6 (ix2 t m) := rfl

theorem pay15_apply (v8 : FVec Ideal S1024x128 .f32) (t : Fin 1024) (m : Fin 128) :
    k0_pay15 (F := Ideal) v8 (ix2 t m) = v8 (ix2 t m) := rfl

/-! ## Operations that are not pointwise, read at coordinates once and for all sizes -/

section Generic
variable {α : Type}

/-- A contraction `[M, K] × [K, N]` into the zero accumulator is the sum of products over the shared axis. -/
theorem matmul_plain_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- A vector `[a]` viewed as a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array viewed as a vector `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of a `[T, K]` vector: at row `t`, the sum over `k` of the entries `(t, k)`. -/
theorem rowsum_apply {T K : ℕ} (src : FVec Ideal ⟨2, ![T, K]⟩ .f32) (h : (⟨2, ![T, K]⟩ : Shape).Reduces [1] ⟨1, ![T]⟩)
    (hφ : FKind.Formats .f32) (hacc : (0x00000000#32 : BitVec 32) = FKind.add.neutral .f32 hφ) (t : Fin T) :
    multiReduction (F := Ideal) .add [1] ⟨1, ![T]⟩ src 0x00000000#32 h hφ hacc (ix1 t) = ∑ k : Fin K, src (ix2 t k) := by
  refine (Ideal.multiReduction_add_single src 0x00000000#32 h hφ hacc (ix1 t)).trans ?_
  refine Finset.sum_congr rfl fun k _ => congrArg src ?_
  funext a
  match a with
  | ⟨0, _⟩ => rfl
  | ⟨1, _⟩ => rfl

/-- The maximum along the rows of a `[T, K]` vector: at row `t`, the fold of `max` from the accumulator's value. -/
theorem rowmax_apply {T K : ℕ} (src : FVec Ideal ⟨2, ![T, K]⟩ .f32) (h : (⟨2, ![T, K]⟩ : Shape).Reduces [1] ⟨1, ![T]⟩)
    (hφ : FKind.Formats .f32) (hacc : (0xFF800000#32 : BitVec 32) = FKind.maximumf.neutral .f32 hφ) (t : Fin T) :
    multiReduction (F := Ideal) .maximumf [1] ⟨1, ![T]⟩ src 0xFF800000#32 h hφ hacc (ix1 t)
      = (Finset.univ : Finset (Fin K)).fold max (Ideal.ofBits .f32 0xFF800000#32) (fun k => src (ix2 t k)) := by
  refine (Ideal.multiReduction_maximumf_single src 0xFF800000#32 h hφ hacc (ix1 t)).trans ?_
  refine congrArg ((Finset.univ : Finset (Fin K)).fold max (Ideal.ofBits .f32 0xFF800000#32)) ?_
  funext k
  refine congrArg src ?_
  funext a
  match a with
  | ⟨0, _⟩ => rfl
  | ⟨1, _⟩ => rfl

end Generic

/-! ## Projections -/

section Stages

/-- A projection stage: tokens `[T, M]` against a weight block `[1, K, M]` (squeezed, then transposed), plus the
bias row `[1, 1, K]` broadcast down the rows. -/
theorem proj_stage_apply {T M K : ℕ} (X : FVec Ideal ⟨2, ![T, M]⟩ .bf16) (W : Vec Ideal ⟨3, ![1, K, M]⟩ .bf16)
    (β : Vec Ideal ⟨3, ![1, 1, K]⟩ .f32)
    (h1 : (⟨3, ![1, K, M]⟩ : Shape).ShapeCasts ⟨2, ![K, M]⟩) (h2 : (⟨2, ![K, M]⟩ : Shape).Transposes [1, 0] ⟨2, ![M, K]⟩)
    (h3 : (⟨3, ![1, 1, K]⟩ : Shape).ShapeCasts ⟨1, ![K]⟩) (h4 : (⟨1, ![K]⟩ : Shape).ShapeCasts ⟨2, ![1, K]⟩)
    (h5 : (⟨2, ![1, K]⟩ : Shape).Broadcasts ⟨2, ![T, K]⟩) (t : Fin T) (k : Fin K) :
    addf (F := Ideal) (φ := .f32)
        (FloatOps.matmul (DotDims.plain T M K) none X
          (transpose ⟨2, ![M, K]⟩ [1, 0] (shapeCast ⟨2, ![K, M]⟩ W h1 : FVec Ideal ⟨2, ![K, M]⟩ .bf16) h2 : FVec Ideal ⟨2, ![M, K]⟩ .bf16)
          (constant (F := Ideal) ⟨2, ![T, K]⟩ .f32 0x00000000#32))
        (broadcastTo ⟨2, ![T, K]⟩ (shapeCast ⟨2, ![1, K]⟩ (shapeCast ⟨1, ![K]⟩ β h3) h4) h5) (ix2 t k)
      = GsaSpec.proj (fun t m => X (ix2 t m)) (fun k m => W (ix3 0 k m)) (fun k => β (ix3 0 0 k)) t k := by
  refine (addf_apply _ _ (ix2 t k)).trans ?_
  rw [matmul_plain_apply, broadcastTo_1b_ab_apply, shapeCast_a_1a_apply, shapeCast_11a_a_apply]
  unfold GsaSpec.proj
  refine congrArg (· + β (ix3 0 0 k)) (Finset.sum_congr rfl fun m _ => ?_)
  rw [transpose_ix2_apply, shapeCast_1ab_ab_apply]

end Stages

theorem pay7_apply (v3 : Vec Ideal S1x1024x512 .f32) (v10 : Vec Ideal S1x64x512 .bf16) (v14 : Vec Ideal S1x1x64 .f32)
    (t : Fin 1024) (k : Fin 64) :
    k0_pay7 (F := Ideal) v3 v10 v14 (ix2 t k)
      = GsaSpec.proj (fun t m => v3 (ix3 0 t m)) (fun k m => v10 (ix3 0 k m)) (fun k => v14 (ix3 0 0 k)) t k := by
  unfold k0_pay7
  refine (proj_stage_apply (T := 1024) (M := 512) (K := 64) (k0_pay6 (F := Ideal) v3) v10 v14 _ _ _ _ _ t k).trans ?_
  unfold GsaSpec.proj
  refine congrArg (· + v14 (ix3 0 0 k)) (Finset.sum_congr rfl fun m _ => ?_)
  show k0_pay6 (F := Ideal) v3 (ix2 t m) * v10 (ix3 0 k m) = v3 (ix3 0 t m) * v10 (ix3 0 k m)
  rw [pay6_apply]

theorem pay8_apply (v3 : Vec Ideal S1x1024x512 .f32) (v19 : Vec Ideal S1x64x512 .bf16) (v23 : Vec Ideal S1x1x64 .f32)
    (t : Fin 1024) (k : Fin 64) :
    k0_pay8 (F := Ideal) v3 v19 v23 (ix2 t k)
      = GsaSpec.proj (fun t m => v3 (ix3 0 t m)) (fun k m => v19 (ix3 0 k m)) (fun k => v23 (ix3 0 0 k)) t k := by
  unfold k0_pay8
  refine (proj_stage_apply (T := 1024) (M := 512) (K := 64) (k0_pay6 (F := Ideal) v3) v19 v23 _ _ _ _ _ t k).trans ?_
  unfold GsaSpec.proj
  refine congrArg (· + v23 (ix3 0 0 k)) (Finset.sum_congr rfl fun m _ => ?_)
  show k0_pay6 (F := Ideal) v3 (ix2 t m) * v19 (ix3 0 k m) = v3 (ix3 0 t m) * v19 (ix3 0 k m)
  rw [pay6_apply]

theorem pay9_apply (v9 : FVec Ideal S1024x512 .bf16) (v28 : Vec Ideal S1x64x512 .bf16) (v32 : Vec Ideal S1x1x64 .f32)
    (t : Fin 1024) (k : Fin 64) :
    k0_pay9 (F := Ideal) v9 v28 v32 (ix2 t k)
      = GsaSpec.proj (fun t m => v9 (ix2 t m)) (fun k m => v28 (ix3 0 k m)) (fun k => v32 (ix3 0 0 k)) t k := by
  unfold k0_pay9
  exact proj_stage_apply (T := 1024) (M := 512) (K := 64) v9 v28 v32 _ _ _ _ _ t k

/-! ## Row normalisations -/

/-- A row normalisation stage: each entry divided by the larger of its row's Euclidean norm and the floor. -/
theorem l2n_stage_apply {T K : ℕ} (x : FVec Ideal ⟨2, ![T, K]⟩ .f32)
    (h1 : (⟨2, ![T, K]⟩ : Shape).Reduces [1] ⟨1, ![T]⟩) (hφ : FKind.Formats .f32)
    (hacc : (0x00000000#32 : BitVec 32) = FKind.add.neutral .f32 hφ)
    (h2 : (⟨1, ![T]⟩ : Shape).ShapeCasts ⟨2, ![T, 1]⟩) (h3 : (⟨2, ![T, 1]⟩ : Shape).Broadcasts ⟨2, ![T, K]⟩)
    (t : Fin T) (k : Fin K) :
    divf (F := Ideal) x
        (broadcastTo ⟨2, ![T, K]⟩
          (maximumf (F := Ideal) (φ := .f32)
            (sqrt (F := Ideal) (φ := .f32)
              (shapeCast ⟨2, ![T, 1]⟩ (multiReduction (F := Ideal) .add [1] ⟨1, ![T]⟩ (mulf x x) 0x00000000#32 h1 hφ hacc) h2))
            (broadcast ⟨2, ![T, 1]⟩ (Scalar.ofBits (F := Ideal) .f32 0x2B8CBCCC#32)))
          h3) (ix2 t k)
      = GsaSpec.l2n (fun t k => x (ix2 t k)) t k := by
  refine (divf_apply _ _ (ix2 t k)).trans ?_
  rw [broadcastTo_a1_ab_apply]
  refine congrArg (Ideal.div (x (ix2 t k))) ?_
  refine (maximumf_apply _ _ (ix2 t (0 : Fin 1))).trans ?_
  show max (Ideal.sqrt (shapeCast ⟨2, ![T, 1]⟩ _ h2 (ix2 t (0 : Fin 1)))) GsaSpec.eps = _
  rw [shapeCast_a_a1_apply, rowsum_apply]
  rfl

theorem pay10_apply (v18 : FVec Ideal S1024x64 .f32) (t : Fin 1024) (k : Fin 64) :
    k0_pay10 (F := Ideal) v18 (ix2 t k) = GsaSpec.l2n (fun t k => v18 (ix2 t k)) t k := by
  unfold k0_pay10
  exact l2n_stage_apply (T := 1024) (K := 64) v18 _ _ _ _ _ t k

theorem pay11_apply (v27 : FVec Ideal S1024x64 .f32) (t : Fin 1024) (k : Fin 64) :
    k0_pay11 (F := Ideal) v27 (ix2 t k) = GsaSpec.l2n (fun t k => v27 (ix2 t k)) t k := by
  unfold k0_pay11
  exact l2n_stage_apply (T := 1024) (K := 64) v27 _ _ _ _ _ t k

/-! ## Projections followed by normalisations -/

theorem pay13_apply (v6 : FVec Ideal S1024x256 .f32) (v54 : Vec Ideal S1x32x256 .bf16) (v58 : Vec Ideal S1x1x32 .f32)
    (t : Fin 1024) (k : Fin 32) :
    k0_pay13 (F := Ideal) v6 v54 v58 (ix2 t k)
      = GsaSpec.l2n (GsaSpec.proj (fun t m => v6 (ix2 t m)) (fun k m => v54 (ix3 0 k m)) (fun k => v58 (ix3 0 0 k))) t k := by
  unfold k0_pay13
  refine (l2n_stage_apply (T := 1024) (K := 32) _ _ _ _ _ _ t k).trans ?_
  refine congrArg (fun V => GsaSpec.l2n V t k) (funext fun t' => funext fun k' => ?_)
  exact proj_stage_apply (T := 1024) (M := 256) (K := 32) (k0_pay12 (F := Ideal) v6) v54 v58 _ _ _ _ _ t' k'

theorem pay14_apply (v53 : FVec Ideal S1024x256 .bf16) (v71 : Vec Ideal S1x32x256 .bf16) (v75 : Vec Ideal S1x1x32 .f32)
    (t : Fin 1024) (k : Fin 32) :
    k0_pay14 (F := Ideal) v53 v71 v75 (ix2 t k)
      = GsaSpec.l2n (GsaSpec.proj (fun t m => v53 (ix2 t m)) (fun k m => v71 (ix3 0 k m)) (fun k => v75 (ix3 0 0 k))) t k := by
  unfold k0_pay14
  refine (l2n_stage_apply (T := 1024) (K := 32) _ _ _ _ _ _ t k).trans ?_
  refine congrArg (fun V => GsaSpec.l2n V t k) (funext fun t' => funext fun k' => ?_)
  exact proj_stage_apply (T := 1024) (M := 256) (K := 32) v53 v71 v75 _ _ _ _ _ t' k'

theorem pay16_apply (v8 : FVec Ideal S1024x128 .f32) (v89 : Vec Ideal S1x16x128 .bf16) (v93 : Vec Ideal S1x1x16 .f32)
    (t : Fin 1024) (k : Fin 16) :
    k0_pay16 (F := Ideal) v8 v89 v93 (ix2 t k)
      = GsaSpec.l2n (GsaSpec.proj (fun t m => v8 (ix2 t m)) (fun k m => v89 (ix3 0 k m)) (fun k => v93 (ix3 0 0 k))) t k := by
  unfold k0_pay16
  refine (l2n_stage_apply (T := 1024) (K := 16) _ _ _ _ _ _ t k).trans ?_
  refine congrArg (fun V => GsaSpec.l2n V t k) (funext fun t' => funext fun k' => ?_)
  exact proj_stage_apply (T := 1024) (M := 128) (K := 16) (k0_pay15 (F := Ideal) v8) v89 v93 _ _ _ _ _ t' k'

/-- The position keys before their bias: tokens against the squeezed, transposed weight block. -/
theorem pay17_apply (v8 : FVec Ideal S1024x128 .f32) (v106 : Vec Ideal S1x16x128 .bf16) (t : Fin 1024) (k : Fin 16) :
    k0_pay17 (F := Ideal) v8 v106 (ix2 t k) = ∑ m : Fin 128, v8 (ix2 t m) * v106 (ix3 0 k m) := by
  unfold k0_pay17
  refine (matmul_plain_apply (M := 1024) (K := 128) (N := 16) none (k0_pay15 (F := Ideal) v8) _ t k).trans ?_
  refine Finset.sum_congr rfl fun m _ => ?_
  refine congrArg₂ (· * ·) (pay15_apply v8 t m) ?_
  refine (transpose_ix2_apply _ _ m k).trans ?_
  exact shapeCast_1ab_ab_apply v106 _ k m

/-- The bias row added, then the rows normalised. -/
theorem pay18_apply (v109 : FVec Ideal S1024x16 .f32) (v110 : Vec Ideal S1x1x16 .f32) (t : Fin 1024) (k : Fin 16) :
    k0_pay18 (F := Ideal) v109 v110 (ix2 t k) = GsaSpec.l2n (fun t k => v109 (ix2 t k) + v110 (ix3 0 0 k)) t k := by
  unfold k0_pay18
  refine (l2n_stage_apply (T := 1024) (K := 16) _ _ _ _ _ _ t k).trans ?_
  refine congrArg (fun V => GsaSpec.l2n V t k) (funext fun t' => funext fun k' => ?_)
  refine (addf_apply _ _ (ix2 t' k')).trans ?_
  refine congrArg (v109 (ix2 t' k') + ·) ?_
  refine (broadcastTo_1b_ab_apply _ _ t' k').trans ?_
  refine (shapeCast_a_1a_apply _ _ 0 k').trans ?_
  exact shapeCast_11a_a_apply v110 _ k'

/-! ## Gram matrices -/

/-- A Gram stage: the rows of `A` against the rows of `B` (transposed for the contraction). -/
theorem gram_stage_apply {T K : ℕ} (A B : FVec Ideal ⟨2, ![T, K]⟩ .f32) (hb : FTy.bits .bf16 < FTy.bits .f32)
    (h : (⟨2, ![T, K]⟩ : Shape).Transposes [1, 0] ⟨2, ![K, T]⟩) (t s : Fin T) :
    FloatOps.matmul (DotDims.plain T K T) none (truncf .bf16 A hb)
        (transpose ⟨2, ![K, T]⟩ [1, 0] (truncf .bf16 B hb) h) (constant (F := Ideal) ⟨2, ![T, T]⟩ .f32 0x00000000#32) (ix2 t s)
      = GsaSpec.gram (fun t k => A (ix2 t k)) (fun t k => B (ix2 t k)) t s := by
  refine (matmul_plain_apply none _ _ t s).trans ?_
  unfold GsaSpec.gram
  refine Finset.sum_congr rfl fun k _ => ?_
  refine congrArg₂ (· * ·) (truncf_apply A hb (ix2 t k)) ?_
  refine (transpose_ix2_apply _ _ k s).trans ?_
  exact truncf_apply B hb (ix2 s k)

theorem pay20_apply (v44 v52 : FVec Ideal S1024x64 .f32) (t s : Fin 1024) :
    k0_pay20 (F := Ideal) v44 v52 (ix2 t s) = GsaSpec.gram (fun t k => v44 (ix2 t k)) (fun t k => v52 (ix2 t k)) t s := by
  unfold k0_pay20
  refine (congrFun (shapeCast_self _ _) (ix2 t s)).trans ?_
  exact gram_stage_apply (T := 1024) (K := 64) v44 v52 _ _ t s

theorem pay23_apply (v70 v87 : FVec Ideal S1024x32 .f32) (t s : Fin 1024) :
    k0_pay23 (F := Ideal) v70 v87 (ix2 t s) = GsaSpec.gram (fun t k => v70 (ix2 t k)) (fun t k => v87 (ix2 t k)) t s := by
  unfold k0_pay23
  exact gram_stage_apply (T := 1024) (K := 32) v70 v87 _ _ t s

theorem pay24_apply (v105 v122 : FVec Ideal S1024x16 .f32) (t s : Fin 1024) :
    k0_pay24 (F := Ideal) v105 v122 (ix2 t s) = GsaSpec.gram (fun t k => v105 (ix2 t k)) (fun t k => v122 (ix2 t k)) t s := by
  unfold k0_pay24
  exact gram_stage_apply (T := 1024) (K := 16) v105 v122 _ _ t s

/-! ## Sums of diagonal neighbours, and the zero fills -/

theorem pay21_apply (v135 v137 v139 v141 v143 : Vec Ideal S1024x1024 .f32) (i : S1024x1024.Idx) :
    k0_pay21 (F := Ideal) v135 v137 v139 v141 v143 i = 0 + v135 i + v137 i + v139 i + v141 i + v143 i := by
  unfold k0_pay21
  show Ideal.ofBits .f32 0x00000000#32 + v135 i + v137 i + v139 i + v141 i + v143 i = _
  rw [Ideal.ofBits_zero_f32]

theorem pay22_apply (v144 : FVec Ideal S1024x1024 .f32)
    (v145 v147 v149 v151 v153 v155 v157 v159 v161 v163 v165 v167 : Vec Ideal S1024x1024 .f32) (i : S1024x1024.Idx) :
    k0_pay22 (F := Ideal) v144 v145 v147 v149 v151 v153 v155 v157 v159 v161 v163 v165 v167 i
      = v144 i + v145 i + v147 i + v149 i + v151 i + v153 i + v155 i + v157 i + v159 i + v161 i + v163 i + v165 i
        + v167 i := rfl

theorem pay19_apply (i : S1040x1040.Idx) : k0_pay19 (F := Ideal) i = 0 := by
  unfold k0_pay19
  refine (congrFun (shapeCast_self _ _) i).trans ?_
  exact Ideal.ofBits_zero_f32

theorem pay3_apply (i : S1x1024x512.Idx) : k0_pay3 (F := Ideal) i = 0 := by
  unfold k0_pay3
  show Ideal.ofBits .f32 0x00000000#32 = 0
  exact Ideal.ofBits_zero_f32

/-! ## The softmax of the mixed similarity -/

section Softmax
variable {α : Type}

/-- A matrix `[a, b]` stored as a `[1, 1, a, b]` block reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

/-- The one entry of a `[1, 1]` block. -/
theorem extractAt_00_apply (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => ?_)
  match a with
  | ⟨0, _⟩ => rfl
  | ⟨1, _⟩ => rfl

/-- A row softmax stage: the exponentials of the entries less their row's maximum, over their row's sum. -/
theorem softmax_stage_apply (X : FVec Ideal S1024x1024 .f32) (h1 : S1024x1024.Reduces [1] S1024) (hφ : FKind.Formats .f32)
    (haccm : (0xFF800000#32 : BitVec 32) = FKind.maximumf.neutral .f32 hφ)
    (hacca : (0x00000000#32 : BitVec 32) = FKind.add.neutral .f32 hφ)
    (h2 : S1024.ShapeCasts S1024x1) (h3 : S1024x1.Broadcasts S1024x1024) (t s : Fin 1024) :
    divf (F := Ideal)
        (exp (F := Ideal) (φ := .f32) (subf X (broadcastTo S1024x1024
          (shapeCast S1024x1 (multiReduction (F := Ideal) .maximumf [1] S1024 X 0xFF800000#32 h1 hφ haccm) h2) h3)))
        (broadcastTo S1024x1024 (shapeCast S1024x1 (multiReduction (F := Ideal) .add [1] S1024
          (exp (F := Ideal) (φ := .f32) (subf X (broadcastTo S1024x1024
            (shapeCast S1024x1 (multiReduction (F := Ideal) .maximumf [1] S1024 X 0xFF800000#32 h1 hφ haccm) h2) h3)))
          0x00000000#32 h1 hφ hacca) h2) h3) (ix2 t s)
      = GsaSpec.softmax (fun t s => X (ix2 t s)) t s := by
  have hM : ∀ t' s' : Fin 1024, broadcastTo S1024x1024
      (shapeCast S1024x1 (multiReduction (F := Ideal) .maximumf [1] S1024 X 0xFF800000#32 h1 hφ haccm) h2) h3 (ix2 t' s')
        = GsaSpec.rowmax (fun t s => X (ix2 t s)) t' := fun t' s' => by
    refine (broadcastTo_a1_ab_apply _ _ t' s').trans ?_
    refine (shapeCast_a_a1_apply _ _ t' 0).trans ?_
    exact rowmax_apply X h1 hφ haccm t'
  have hE : ∀ t' s' : Fin 1024, exp (F := Ideal) (φ := .f32) (subf X (broadcastTo S1024x1024
      (shapeCast S1024x1 (multiReduction (F := Ideal) .maximumf [1] S1024 X 0xFF800000#32 h1 hφ haccm) h2) h3)) (ix2 t' s')
        = Ideal.exp (X (ix2 t' s') - GsaSpec.rowmax (fun t s => X (ix2 t s)) t') := fun t' s' =>
    congrArg (fun m => Ideal.exp (X (ix2 t' s') - m)) (hM t' s')
  refine (divf_apply _ _ (ix2 t s)).trans ?_
  unfold GsaSpec.softmax
  refine congrArg₂ Ideal.div (hE t s) ?_
  refine (broadcastTo_a1_ab_apply _ _ t s).trans ?_
  refine (shapeCast_a_a1_apply _ _ t 0).trans ?_
  refine (rowsum_apply _ h1 hφ hacca t).trans ?_
  exact Finset.sum_congr rfl fun s' _ => hE t s'

end Softmax

theorem pay25_apply (v168 v172 v176 : FVec Ideal S1024x1024 .f32) (v177 v179 v181 : Vec Ideal S1x1 .f32)
    (v183 : Vec Ideal S1024x1024 .f32) (t s : Fin 1024) :
    k0_pay25 (F := Ideal) v168 v172 v176 v177 v179 v181 v183 (ix2 t s)
      = GsaSpec.softmax (fun t s => v177 (ix2 0 0) * Ideal.div (v168 (ix2 t s)) (v183 (ix2 t s))
          + v179 (ix2 0 0) * v172 (ix2 t s) + v181 (ix2 0 0) * v176 (ix2 t s)) t s := by
  unfold k0_pay25
  refine (softmax_stage_apply _ _ _ _ _ _ _ t s).trans ?_
  refine congrArg (fun V => GsaSpec.softmax V t s) (funext fun t' => funext fun s' => ?_)
  show extractAt ![0, 0] v177 inpos_S1x1_p0_0 * Ideal.div (v168 (ix2 t' s')) (shapeCast S1024x1024 v183 shapeCasts_S1024x1024_S1024x1024 (ix2 t' s'))
      + extractAt ![0, 0] v179 inpos_S1x1_p0_0 * v172 (ix2 t' s') + extractAt ![0, 0] v181 inpos_S1x1_p0_0 * v176 (ix2 t' s') = _
  rw [extractAt_00_apply, extractAt_00_apply, extractAt_00_apply, shapeCast_self]

theorem pay26_apply (v168 v172 v176 : FVec Ideal S1024x1024 .f32) (v177 v179 v181 : Vec Ideal S1x1 .f32)
    (v183 : Vec Ideal S1024x1024 .f32) (t s : Fin 1024) :
    k0_pay26 (F := Ideal) v168 v172 v176 v177 v179 v181 v183 (ix4 0 0 t s)
      = k0_pay25 (F := Ideal) v168 v172 v176 v177 v179 v181 v183 (ix2 t s) := by
  unfold k0_pay26
  exact shapeCast_ab_11ab_apply _ _ 0 0 t s

/-! ## Attention applied to the values, and the output projection's operand -/

theorem pay27_apply (v36 : FVec Ideal S1024x64 .f32) (v168 v172 v176 : FVec Ideal S1024x1024 .f32)
    (v177 v179 v181 : Vec Ideal S1x1 .f32) (v183 : Vec Ideal S1024x1024 .f32) (t : Fin 1024) (k : Fin 64) :
    k0_pay27 (F := Ideal) v36 v168 v172 v176 v177 v179 v181 v183 (ix2 t k)
      = ∑ s : Fin 1024, k0_pay25 (F := Ideal) v168 v172 v176 v177 v179 v181 v183 (ix2 t s) * v36 (ix2 s k) := by
  unfold k0_pay27
  generalize k0_pay25 (F := Ideal) v168 v172 v176 v177 v179 v181 v183 = A
  refine (matmul_plain_apply (M := 1024) (K := 1024) (N := 64) none (truncf .bf16 A bitsLt_bf16_f32)
    (truncf .bf16 v36 bitsLt_bf16_f32) t k).trans ?_
  exact Finset.sum_congr rfl fun s _ =>
    congrArg₂ (· * ·) (truncf_apply A bitsLt_bf16_f32 (ix2 t s)) (truncf_apply v36 bitsLt_bf16_f32 (ix2 s k))

theorem pay28_apply (v36 : FVec Ideal S1024x64 .f32) (v168 v172 v176 : FVec Ideal S1024x1024 .f32)
    (v177 v179 v181 : Vec Ideal S1x1 .f32) (v183 : Vec Ideal S1024x1024 .f32) (t : Fin 1024) (k : Fin 64) :
    k0_pay28 (F := Ideal) v36 v168 v172 v176 v177 v179 v181 v183 (ix4 0 0 t k)
      = k0_pay27 (F := Ideal) v36 v168 v172 v176 v177 v179 v181 v183 (ix2 t k) := by
  unfold k0_pay28
  exact shapeCast_ab_11ab_apply _ _ 0 0 t k

theorem pay29_apply (v36 : FVec Ideal S1024x64 .f32) (v168 v172 v176 : FVec Ideal S1024x1024 .f32)
    (v177 v179 v181 : Vec Ideal S1x1 .f32) (v183 : Vec Ideal S1024x1024 .f32) (t : Fin 1024) (k : Fin 64) :
    k0_pay29 (F := Ideal) v36 v168 v172 v176 v177 v179 v181 v183 (ix2 t k)
      = k0_pay27 (F := Ideal) v36 v168 v172 v176 v177 v179 v181 v183 (ix2 t k) := by
  unfold k0_pay29
  exact truncf_apply _ bitsLt_bf16_f32 (ix2 t k)

/-- The head's slice of the output matrix, squeezed and transposed. -/
theorem pay30_apply (v213 : Vec Ideal S1x512x64 .bf16) (k : Fin 64) (e : Fin 512) :
    k0_pay30 (F := Ideal) v213 (ix2 k e) = v213 (ix3 0 e k) := by
  unfold k0_pay30
  refine (transpose_ix2_apply _ _ k e).trans ?_
  exact shapeCast_1ab_ab_apply v213 _ e k

/-! ## The output block: a head's share added, and the residual and bias at the last head -/

theorem pay1_apply (v212 : FVec Ideal S1024x64 .bf16) (v215 : FVec Ideal S64x512 .bf16) (v217 : Vec Ideal S1x1024x512 .f32)
    (t : Fin 1024) (e : Fin 512) :
    k0_pay1 (F := Ideal) v212 v215 v217 (ix3 0 t e)
      = v217 (ix3 0 t e) + ∑ k : Fin 64, v212 (ix2 t k) * v215 (ix2 k e) := by
  unfold k0_pay1
  refine (shapeCast_ab_1ab_apply _ _ 0 t e).trans ?_
  refine (addf_apply _ _ (ix2 t e)).trans ?_
  exact congrArg₂ (· + ·) (shapeCast_1ab_ab_apply v217 _ t e)
    (matmul_plain_apply (M := 1024) (K := 64) (N := 512) none v212 v215 t e)

theorem pay2_apply (v226 v228 : Vec Ideal S1x1024x512 .f32) (v231 : Vec Ideal S512 .f32) (t : Fin 1024) (e : Fin 512) :
    k0_pay2 (F := Ideal) v226 v228 v231 (ix3 0 t e) = v226 (ix3 0 t e) + v228 (ix3 0 t e) + v231 (ix1 e) := by
  unfold k0_pay2
  refine (shapeCast_ab_1ab_apply _ _ 0 t e).trans ?_
  refine (addf_apply _ _ (ix2 t e)).trans ?_
  refine congrArg₂ (· + ·) ?_ ?_
  · refine (addf_apply _ _ (ix2 t e)).trans ?_
    exact congrArg₂ (· + ·) (shapeCast_1ab_ab_apply v226 _ t e) (shapeCast_1ab_ab_apply v228 _ t e)
  · refine (broadcastTo_1b_ab_apply _ _ t e).trans ?_
    exact shapeCast_a_1a_apply v231 _ 0 e

end Cert.KernelIdeal.Pay

end
-- ==== Proof.BlockSpec.lean ====
/-
  One grid point's share of the specification, over the blocks the body is handed there: the token blocks `x0`,
  `x1`, `x2` of one batch, one head's weights and biases `x3 … x16`, that head's slice `x17` of the output matrix
  (entry (e, k) at (0, e, k)), and the operands handed over whole (`x18` the output bias, `x19 x20 x21` the mixing
  weights, `x22` the count table). The formulas are GsaSpec's, with the blocks in the place of the arrays.
-/
import proofs.«105714_j66872640798820_2_alg».proof.KernelIdeal
import proofs.«105714_j66872640798820_2_alg».proof.Proof.Spec
import Idealize.ShloMosaic.Lib.ValueIdx

noncomputable section

namespace Cert.KernelIdeal.BlkSpec

open Idealize.ShloMosaic Idealize.ShloMosaic.ValueIdx Cert.KernelIdeal

variable (x0 : Vec Ideal S1x1024x512 .f32) (x1 : Vec Ideal S1x1024x256 .f32) (x2 : Vec Ideal S1x1024x128 .f32)
  (x3 : Vec Ideal S1x64x512 .bf16) (x4 : Vec Ideal S1x1x64 .f32) (x5 : Vec Ideal S1x64x512 .bf16) (x6 : Vec Ideal S1x1x64 .f32)
  (x7 : Vec Ideal S1x64x512 .bf16) (x8 : Vec Ideal S1x1x64 .f32) (x9 : Vec Ideal S1x32x256 .bf16) (x10 : Vec Ideal S1x1x32 .f32)
  (x11 : Vec Ideal S1x32x256 .bf16) (x12 : Vec Ideal S1x1x32 .f32) (x13 : Vec Ideal S1x16x128 .bf16) (x14 : Vec Ideal S1x1x16 .f32)
  (x15 : Vec Ideal S1x16x128 .bf16) (x16 : Vec Ideal S1x1x16 .f32) (x17 : Vec Ideal S1x512x64 .bf16) (x18 : Vec Ideal S512 .f32)
  (x19 x20 x21 : Vec Ideal S1x1 .f32) (x22 : Vec Ideal S1024x1024 .f32)

/-- The three content projections of the token block, the two of the auxiliary block, the two of the positional block. -/
def prQ : Fin 1024 → Fin 64 → EReal := GsaSpec.proj (fun t q => x0 (ix3 0 t q)) (fun k q => x3 (ix3 0 k q)) (fun k => x4 (ix3 0 0 k))
def prK : Fin 1024 → Fin 64 → EReal := GsaSpec.proj (fun t q => x0 (ix3 0 t q)) (fun k q => x5 (ix3 0 k q)) (fun k => x6 (ix3 0 0 k))
def prV : Fin 1024 → Fin 64 → EReal := GsaSpec.proj (fun t q => x0 (ix3 0 t q)) (fun k q => x7 (ix3 0 k q)) (fun k => x8 (ix3 0 0 k))
def prQA : Fin 1024 → Fin 32 → EReal := GsaSpec.proj (fun t q => x1 (ix3 0 t q)) (fun k q => x9 (ix3 0 k q)) (fun k => x10 (ix3 0 0 k))
def prKA : Fin 1024 → Fin 32 → EReal := GsaSpec.proj (fun t q => x1 (ix3 0 t q)) (fun k q => x11 (ix3 0 k q)) (fun k => x12 (ix3 0 0 k))
def prQP : Fin 1024 → Fin 16 → EReal := GsaSpec.proj (fun t q => x2 (ix3 0 t q)) (fun k q => x13 (ix3 0 k q)) (fun k => x14 (ix3 0 0 k))
def prKP : Fin 1024 → Fin 16 → EReal := GsaSpec.proj (fun t q => x2 (ix3 0 t q)) (fun k q => x15 (ix3 0 k q)) (fun k => x16 (ix3 0 0 k))

/-- The mixed similarity, the attention, its product with the values, and the head's share of the output. -/
def simB : Fin 1024 → Fin 1024 → EReal :=
  GsaSpec.simf (x19 (ix2 0 0)) (x20 (ix2 0 0)) (x21 (ix2 0 0)) (fun a b => x22 (ix2 a b))
    (GsaSpec.gram (GsaSpec.l2n (prQ x0 x3 x4)) (GsaSpec.l2n (prK x0 x5 x6)))
    (GsaSpec.gram (GsaSpec.l2n (prQA x1 x9 x10)) (GsaSpec.l2n (prKA x1 x11 x12)))
    (GsaSpec.gram (GsaSpec.l2n (prQP x2 x13 x14)) (GsaSpec.l2n (prKP x2 x15 x16)))

def attB : Fin 1024 → Fin 1024 → EReal :=
  GsaSpec.softmax (simB x0 x1 x2 x3 x4 x5 x6 x9 x10 x11 x12 x13 x14 x15 x16 x19 x20 x21 x22)

def detB : Fin 1024 → Fin 64 → EReal :=
  fun t k => ∑ s : Fin 1024, attB x0 x1 x2 x3 x4 x5 x6 x9 x10 x11 x12 x13 x14 x15 x16 x19 x20 x21 x22 t s * prV x0 x7 x8 s k

def conB : Fin 1024 → Fin 512 → EReal :=
  fun t e => ∑ k : Fin 64, detB x0 x1 x2 x3 x4 x5 x6 x7 x8 x9 x10 x11 x12 x13 x14 x15 x16 x19 x20 x21 x22 t k * x17 (ix3 0 e k)

/-! ## From the blocks to the arrays

When the blocks are those of batch `b` and head `h` of inputs `I` — entry by entry — the point's share is the
specification's at `(b, h)`. -/

section ToSpec

variable (I : GsaSpec.Inputs) (b h : Fin 8)

theorem prQ_eq (h0 : ∀ t q, x0 (ix3 0 t q) = I.x b t q) (h3 : ∀ k q, x3 (ix3 0 k q) = I.MQ h k q)
    (h4 : ∀ k, x4 (ix3 0 0 k) = I.bq h k) : prQ x0 x3 x4 = GsaSpec.proj (I.x b) (I.MQ h) (I.bq h) := by
  have e0 : (fun t q => x0 (ix3 0 t q)) = I.x b := funext fun t => funext fun q => h0 t q
  have e3 : (fun k q => x3 (ix3 0 k q)) = I.MQ h := funext fun k => funext fun q => h3 k q
  have e4 : (fun k => x4 (ix3 0 0 k)) = I.bq h := funext fun k => h4 k
  unfold prQ; rw [e0, e3, e4]

theorem prK_eq (h0 : ∀ t q, x0 (ix3 0 t q) = I.x b t q) (h5 : ∀ k q, x5 (ix3 0 k q) = I.MK h k q)
    (h6 : ∀ k, x6 (ix3 0 0 k) = I.bk h k) : prK x0 x5 x6 = GsaSpec.proj (I.x b) (I.MK h) (I.bk h) := by
  have e0 : (fun t q => x0 (ix3 0 t q)) = I.x b := funext fun t => funext fun q => h0 t q
  have e3 : (fun k q => x5 (ix3 0 k q)) = I.MK h := funext fun k => funext fun q => h5 k q
  have e4 : (fun k => x6 (ix3 0 0 k)) = I.bk h := funext fun k => h6 k
  unfold prK; rw [e0, e3, e4]

theorem prV_eq (h0 : ∀ t q, x0 (ix3 0 t q) = I.x b t q) (h7 : ∀ k q, x7 (ix3 0 k q) = I.MV h k q)
    (h8 : ∀ k, x8 (ix3 0 0 k) = I.bv h k) : prV x0 x7 x8 = GsaSpec.Vv I b h := by
  have e0 : (fun t q => x0 (ix3 0 t q)) = I.x b := funext fun t => funext fun q => h0 t q
  have e3 : (fun k q => x7 (ix3 0 k q)) = I.MV h := funext fun k => funext fun q => h7 k q
  have e4 : (fun k => x8 (ix3 0 0 k)) = I.bv h := funext fun k => h8 k
  unfold prV GsaSpec.Vv; rw [e0, e3, e4]

theorem prQA_eq (h1 : ∀ t q, x1 (ix3 0 t q) = I.aux b t q) (h9 : ∀ k q, x9 (ix3 0 k q) = I.Wqa h k q)
    (h10 : ∀ k, x10 (ix3 0 0 k) = I.bqa h k) : prQA x1 x9 x10 = GsaSpec.proj (I.aux b) (I.Wqa h) (I.bqa h) := by
  have e0 : (fun t q => x1 (ix3 0 t q)) = I.aux b := funext fun t => funext fun q => h1 t q
  have e3 : (fun k q => x9 (ix3 0 k q)) = I.Wqa h := funext fun k => funext fun q => h9 k q
  have e4 : (fun k => x10 (ix3 0 0 k)) = I.bqa h := funext fun k => h10 k
  unfold prQA; rw [e0, e3, e4]

theorem prKA_eq (h1 : ∀ t q, x1 (ix3 0 t q) = I.aux b t q) (h11 : ∀ k q, x11 (ix3 0 k q) = I.Wka h k q)
    (h12 : ∀ k, x12 (ix3 0 0 k) = I.bka h k) : prKA x1 x11 x12 = GsaSpec.proj (I.aux b) (I.Wka h) (I.bka h) := by
  have e0 : (fun t q => x1 (ix3 0 t q)) = I.aux b := funext fun t => funext fun q => h1 t q
  have e3 : (fun k q => x11 (ix3 0 k q)) = I.Wka h := funext fun k => funext fun q => h11 k q
  have e4 : (fun k => x12 (ix3 0 0 k)) = I.bka h := funext fun k => h12 k
  unfold prKA; rw [e0, e3, e4]

theorem prQP_eq (h2 : ∀ t q, x2 (ix3 0 t q) = I.pos b t q) (h13 : ∀ k q, x13 (ix3 0 k q) = I.Wqp h k q)
    (h14 : ∀ k, x14 (ix3 0 0 k) = I.bqp h k) : prQP x2 x13 x14 = GsaSpec.proj (I.pos b) (I.Wqp h) (I.bqp h) := by
  have e0 : (fun t q => x2 (ix3 0 t q)) = I.pos b := funext fun t => funext fun q => h2 t q
  have e3 : (fun k q => x13 (ix3 0 k q)) = I.Wqp h := funext fun k => funext fun q => h13 k q
  have e4 : (fun k => x14 (ix3 0 0 k)) = I.bqp h := funext fun k => h14 k
  unfold prQP; rw [e0, e3, e4]

theorem prKP_eq (h2 : ∀ t q, x2 (ix3 0 t q) = I.pos b t q) (h15 : ∀ k q, x15 (ix3 0 k q) = I.Wkp h k q)
    (h16 : ∀ k, x16 (ix3 0 0 k) = I.bkp h k) : prKP x2 x15 x16 = GsaSpec.proj (I.pos b) (I.Wkp h) (I.bkp h) := by
  have e0 : (fun t q => x2 (ix3 0 t q)) = I.pos b := funext fun t => funext fun q => h2 t q
  have e3 : (fun k q => x15 (ix3 0 k q)) = I.Wkp h := funext fun k => funext fun q => h15 k q
  have e4 : (fun k => x16 (ix3 0 0 k)) = I.bkp h := funext fun k => h16 k
  unfold prKP; rw [e0, e3, e4]

variable (h0 : ∀ t q, x0 (ix3 0 t q) = I.x b t q) (h1 : ∀ t q, x1 (ix3 0 t q) = I.aux b t q)
  (h2 : ∀ t q, x2 (ix3 0 t q) = I.pos b t q)
  (h3 : ∀ k q, x3 (ix3 0 k q) = I.MQ h k q) (h4 : ∀ k, x4 (ix3 0 0 k) = I.bq h k)
  (h5 : ∀ k q, x5 (ix3 0 k q) = I.MK h k q) (h6 : ∀ k, x6 (ix3 0 0 k) = I.bk h k)
  (h7 : ∀ k q, x7 (ix3 0 k q) = I.MV h k q) (h8 : ∀ k, x8 (ix3 0 0 k) = I.bv h k)
  (h9 : ∀ k q, x9 (ix3 0 k q) = I.Wqa h k q) (h10 : ∀ k, x10 (ix3 0 0 k) = I.bqa h k)
  (h11 : ∀ k q, x11 (ix3 0 k q) = I.Wka h k q) (h12 : ∀ k, x12 (ix3 0 0 k) = I.bka h k)
  (h13 : ∀ k q, x13 (ix3 0 k q) = I.Wqp h k q) (h14 : ∀ k, x14 (ix3 0 0 k) = I.bqp h k)
  (h15 : ∀ k q, x15 (ix3 0 k q) = I.Wkp h k q) (h16 : ∀ k, x16 (ix3 0 0 k) = I.bkp h k)
  (h17 : ∀ e k, x17 (ix3 0 e k) = I.MO e (GsaSpec.hk h k))
  (h19 : x19 (ix2 0 0) = I.w) (h20 : x20 (ix2 0 0) = I.wa) (h21 : x21 (ix2 0 0) = I.wp)
  (h22 : ∀ a c, x22 (ix2 a c) = I.cnt a c)

include h0 h1 h2 h3 h4 h5 h6 h9 h10 h11 h12 h13 h14 h15 h16 h19 h20 h21 h22 in
theorem simB_eq : simB x0 x1 x2 x3 x4 x5 x6 x9 x10 x11 x12 x13 x14 x15 x16 x19 x20 x21 x22 = GsaSpec.sim I b h := by
  have e22 : (fun a c => x22 (ix2 a c)) = I.cnt := funext fun a => funext fun c => h22 a c
  unfold simB GsaSpec.sim GsaSpec.Qn GsaSpec.Kn GsaSpec.QAn GsaSpec.KAn GsaSpec.QPn GsaSpec.KPn
  rw [prQ_eq x0 x3 x4 I b h h0 h3 h4, prK_eq x0 x5 x6 I b h h0 h5 h6, prQA_eq x1 x9 x10 I b h h1 h9 h10,
    prKA_eq x1 x11 x12 I b h h1 h11 h12, prQP_eq x2 x13 x14 I b h h2 h13 h14, prKP_eq x2 x15 x16 I b h h2 h15 h16,
    e22, h19, h20, h21]

include h0 h1 h2 h3 h4 h5 h6 h9 h10 h11 h12 h13 h14 h15 h16 h19 h20 h21 h22 in
theorem attB_eq : attB x0 x1 x2 x3 x4 x5 x6 x9 x10 x11 x12 x13 x14 x15 x16 x19 x20 x21 x22 = GsaSpec.att I b h := by
  unfold attB GsaSpec.att
  rw [simB_eq x0 x1 x2 x3 x4 x5 x6 x9 x10 x11 x12 x13 x14 x15 x16 x19 x20 x21 x22 I b h h0 h1 h2 h3 h4 h5 h6 h9 h10 h11 h12 h13 h14 h15 h16 h19 h20 h21 h22]

include h0 h1 h2 h3 h4 h5 h6 h7 h8 h9 h10 h11 h12 h13 h14 h15 h16 h19 h20 h21 h22 in
theorem detB_eq : detB x0 x1 x2 x3 x4 x5 x6 x7 x8 x9 x10 x11 x12 x13 x14 x15 x16 x19 x20 x21 x22 = GsaSpec.det I b h := by
  unfold detB GsaSpec.det
  rw [attB_eq x0 x1 x2 x3 x4 x5 x6 x9 x10 x11 x12 x13 x14 x15 x16 x19 x20 x21 x22 I b h h0 h1 h2 h3 h4 h5 h6 h9 h10 h11 h12 h13 h14 h15 h16 h19 h20 h21 h22,
    prV_eq x0 x7 x8 I b h h0 h7 h8]

include h0 h1 h2 h3 h4 h5 h6 h7 h8 h9 h10 h11 h12 h13 h14 h15 h16 h17 h19 h20 h21 h22 in
theorem conB_eq : conB x0 x1 x2 x3 x4 x5 x6 x7 x8 x9 x10 x11 x12 x13 x14 x15 x16 x17 x19 x20 x21 x22 = GsaSpec.con I b h := by
  unfold conB GsaSpec.con
  rw [detB_eq x0 x1 x2 x3 x4 x5 x6 x7 x8 x9 x10 x11 x12 x13 x14 x15 x16 x19 x20 x21 x22 I b h h0 h1 h2 h3 h4 h5 h6 h7 h8 h9 h10 h11 h12 h13 h14 h15 h16 h19 h20 h21 h22]
  funext t e
  exact Finset.sum_congr rfl fun k _ => by rw [h17 e k]

end ToSpec

end Cert.KernelIdeal.BlkSpec

end
-- ==== Proof.KerBody.lean ====
/-
  The body's stages composed. The body normalises three pairs of projections, forms their Gram matrices, stages the
  content one in the padded square and adds its seventeen shifted reads `l0 … l16`, mixes, takes the softmax,
  multiplies by the values and by the head's slice of the output matrix. Given that the shifted reads are the
  diagonal neighbours of the content Gram matrix, the stages are the block-level specification.
-/
import proofs.«105714_j66872640798820_2_alg».proof.Proof.KerPay
import proofs.«105714_j66872640798820_2_alg».proof.Proof.BlockSpec

noncomputable section

namespace Cert.KernelIdeal.Body

open Idealize.ShloMosaic Idealize.ShloMosaic.ValueIdx Cert.KernelIdeal Cert.KernelIdeal.Gen Cert.KernelIdeal.Pay
open Cert.KernelIdeal.BlkSpec

variable (x0 : Vec Ideal S1x1024x512 .f32) (x1 : Vec Ideal S1x1024x256 .f32) (x2 : Vec Ideal S1x1024x128 .f32)
  (x3 : Vec Ideal S1x64x512 .bf16) (x4 : Vec Ideal S1x1x64 .f32) (x5 : Vec Ideal S1x64x512 .bf16) (x6 : Vec Ideal S1x1x64 .f32)
  (x7 : Vec Ideal S1x64x512 .bf16) (x8 : Vec Ideal S1x1x64 .f32) (x9 : Vec Ideal S1x32x256 .bf16) (x10 : Vec Ideal S1x1x32 .f32)
  (x11 : Vec Ideal S1x32x256 .bf16) (x12 : Vec Ideal S1x1x32 .f32) (x13 : Vec Ideal S1x16x128 .bf16) (x14 : Vec Ideal S1x1x16 .f32)
  (x15 : Vec Ideal S1x16x128 .bf16) (x16 : Vec Ideal S1x1x16 .f32) (x17 : Vec Ideal S1x512x64 .bf16) (x18 : Vec Ideal S512 .f32)
  (x19 x20 x21 : Vec Ideal S1x1 .f32) (x22 : Vec Ideal S1024x1024 .f32)

/-! ### The seven projections -/

theorem qn_eq : (fun t k => k0_pay10 (F := Ideal) (k0_pay7 x0 x3 x4) (ix2 t k)) = GsaSpec.l2n (prQ x0 x3 x4) :=
  funext fun t => funext fun k => (pay10_apply _ t k).trans
    (congrArg (fun f => GsaSpec.l2n f t k) (funext fun t => funext fun k => pay7_apply x0 x3 x4 t k))

theorem kn_eq : (fun t k => k0_pay11 (F := Ideal) (k0_pay8 x0 x5 x6) (ix2 t k)) = GsaSpec.l2n (prK x0 x5 x6) :=
  funext fun t => funext fun k => (pay11_apply _ t k).trans
    (congrArg (fun f => GsaSpec.l2n f t k) (funext fun t => funext fun k => pay8_apply x0 x5 x6 t k))

theorem v_eq : (fun t k => k0_pay9 (F := Ideal) (k0_pay6 x0) x7 x8 (ix2 t k)) = prV x0 x7 x8 :=
  funext fun t => funext fun k => (pay9_apply _ x7 x8 t k).trans
    (congrArg (fun f => GsaSpec.proj f (fun k q => x7 (ix3 0 k q)) (fun k => x8 (ix3 0 0 k)) t k)
      (funext fun t => funext fun q => pay6_apply x0 t q))

theorem qa_eq : (fun t k => k0_pay13 (F := Ideal) (k0_pay4 x1) x9 x10 (ix2 t k)) = GsaSpec.l2n (prQA x1 x9 x10) :=
  funext fun t => funext fun k => (pay13_apply _ x9 x10 t k).trans
    (congrArg (fun f => GsaSpec.l2n (GsaSpec.proj f (fun k q => x9 (ix3 0 k q)) (fun k => x10 (ix3 0 0 k))) t k)
      (funext fun t => funext fun q => pay4_apply x1 t q))

theorem ka_eq : (fun t k => k0_pay14 (F := Ideal) (k0_pay12 (k0_pay4 x1)) x11 x12 (ix2 t k)) = GsaSpec.l2n (prKA x1 x11 x12) :=
  funext fun t => funext fun k => (pay14_apply _ x11 x12 t k).trans
    (congrArg (fun f => GsaSpec.l2n (GsaSpec.proj f (fun k q => x11 (ix3 0 k q)) (fun k => x12 (ix3 0 0 k))) t k)
      (funext fun t => funext fun q => (pay12_apply _ t q).trans (pay4_apply x1 t q)))

theorem qp_eq : (fun t k => k0_pay16 (F := Ideal) (k0_pay5 x2) x13 x14 (ix2 t k)) = GsaSpec.l2n (prQP x2 x13 x14) :=
  funext fun t => funext fun k => (pay16_apply _ x13 x14 t k).trans
    (congrArg (fun f => GsaSpec.l2n (GsaSpec.proj f (fun k q => x13 (ix3 0 k q)) (fun k => x14 (ix3 0 0 k))) t k)
      (funext fun t => funext fun q => pay5_apply x2 t q))

theorem kp_eq : (fun t k => k0_pay18 (F := Ideal) (k0_pay17 (k0_pay5 x2) x15) x16 (ix2 t k)) = GsaSpec.l2n (prKP x2 x15 x16) :=
  funext fun t => funext fun k => (pay18_apply _ x16 t k).trans
    (congrArg (fun f => GsaSpec.l2n f t k) (funext fun t => funext fun k => by
      show k0_pay17 (F := Ideal) (k0_pay5 x2) x15 (ix2 t k) + x16 (ix3 0 0 k) = prKP x2 x15 x16 t k
      rw [pay17_apply]
      show _ = (∑ q : Fin 128, x2 (ix3 0 t q) * x15 (ix3 0 k q)) + x16 (ix3 0 0 k)
      exact congrArg (· + x16 (ix3 0 0 k)) (Finset.sum_congr rfl fun q _ => by rw [pay5_apply])))

/-! ### The three Gram matrices -/

theorem gramS_eq : (fun t s => k0_pay20 (F := Ideal) (k0_pay10 (k0_pay7 x0 x3 x4)) (k0_pay11 (k0_pay8 x0 x5 x6)) (ix2 t s))
    = GsaSpec.gram (GsaSpec.l2n (prQ x0 x3 x4)) (GsaSpec.l2n (prK x0 x5 x6)) :=
  funext fun t => funext fun s => (pay20_apply _ _ t s).trans (by rw [qn_eq, kn_eq])

theorem gramA_eq : (fun t s => k0_pay23 (F := Ideal) (k0_pay13 (k0_pay4 x1) x9 x10) (k0_pay14 (k0_pay12 (k0_pay4 x1)) x11 x12) (ix2 t s))
    = GsaSpec.gram (GsaSpec.l2n (prQA x1 x9 x10)) (GsaSpec.l2n (prKA x1 x11 x12)) :=
  funext fun t => funext fun s => (pay23_apply _ _ t s).trans (by rw [qa_eq, ka_eq])

theorem gramP_eq : (fun t s => k0_pay24 (F := Ideal) (k0_pay16 (k0_pay5 x2) x13 x14) (k0_pay18 (k0_pay17 (k0_pay5 x2) x15) x16) (ix2 t s))
    = GsaSpec.gram (GsaSpec.l2n (prQP x2 x13 x14)) (GsaSpec.l2n (prKP x2 x15 x16)) :=
  funext fun t => funext fun s => (pay24_apply _ _ t s).trans (by rw [qp_eq, kp_eq])

/-! ### The band, the attention, the value product, the head's share -/

variable (l0 l1 l2 l3 l4 l5 l6 l7 l8 l9 l10 l11 l12 l13 l14 l15 l16 : Vec Ideal S1024x1024 .f32)

/-- The seventeen shifted reads added in order from zero. -/
abbrev accV : FVec Ideal S1024x1024 .f32 :=
  k0_pay22 (k0_pay21 l0 l1 l2 l3 l4) l5 l6 l7 l8 l9 l10 l11 l12 l13 l14 l15 l16

/-- The seventeen reads are the diagonal neighbours of `S`. -/
def Taps (S : Fin 1024 → Fin 1024 → EReal) : Prop :=
  ∀ a b : Fin 1024, l0 (ix2 a b) = GsaSpec.tap S a b 0 ∧ l1 (ix2 a b) = GsaSpec.tap S a b 1 ∧ l2 (ix2 a b) = GsaSpec.tap S a b 2
    ∧ l3 (ix2 a b) = GsaSpec.tap S a b 3 ∧ l4 (ix2 a b) = GsaSpec.tap S a b 4 ∧ l5 (ix2 a b) = GsaSpec.tap S a b 5
    ∧ l6 (ix2 a b) = GsaSpec.tap S a b 6 ∧ l7 (ix2 a b) = GsaSpec.tap S a b 7 ∧ l8 (ix2 a b) = GsaSpec.tap S a b 8
    ∧ l9 (ix2 a b) = GsaSpec.tap S a b 9 ∧ l10 (ix2 a b) = GsaSpec.tap S a b 10 ∧ l11 (ix2 a b) = GsaSpec.tap S a b 11
    ∧ l12 (ix2 a b) = GsaSpec.tap S a b 12 ∧ l13 (ix2 a b) = GsaSpec.tap S a b 13 ∧ l14 (ix2 a b) = GsaSpec.tap S a b 14
    ∧ l15 (ix2 a b) = GsaSpec.tap S a b 15 ∧ l16 (ix2 a b) = GsaSpec.tap S a b 16

theorem accV_apply (S : Fin 1024 → Fin 1024 → EReal) (hl : Taps l0 l1 l2 l3 l4 l5 l6 l7 l8 l9 l10 l11 l12 l13 l14 l15 l16 S) (a b : Fin 1024) :
    accV l0 l1 l2 l3 l4 l5 l6 l7 l8 l9 l10 l11 l12 l13 l14 l15 l16 (ix2 a b) = GsaSpec.band S a b := by
  obtain ⟨h0, h1, h2, h3, h4, h5, h6, h7, h8, h9, h10, h11, h12, h13, h14, h15, h16⟩ := hl a b
  show k0_pay22 (F := Ideal) (k0_pay21 l0 l1 l2 l3 l4) l5 l6 l7 l8 l9 l10 l11 l12 l13 l14 l15 l16 (ix2 a b) = _
  rw [pay22_apply, pay21_apply, h0, h1, h2, h3, h4, h5, h6, h7, h8, h9, h10, h11, h12, h13, h14, h15, h16]
  rfl

/-- The attention block the body stores. -/
abbrev attV : FVec Ideal S1024x1024 .f32 :=
  k0_pay25 (accV l0 l1 l2 l3 l4 l5 l6 l7 l8 l9 l10 l11 l12 l13 l14 l15 l16) (k0_pay23 (k0_pay13 (k0_pay4 x1) x9 x10) (k0_pay14 (k0_pay12 (k0_pay4 x1)) x11 x12))
    (k0_pay24 (k0_pay16 (k0_pay5 x2) x13 x14) (k0_pay18 (k0_pay17 (k0_pay5 x2) x15) x16)) x19 x20 x21 x22

theorem attV_eq (hl : Taps l0 l1 l2 l3 l4 l5 l6 l7 l8 l9 l10 l11 l12 l13 l14 l15 l16 (GsaSpec.gram (GsaSpec.l2n (prQ x0 x3 x4)) (GsaSpec.l2n (prK x0 x5 x6)))) :
    (fun t s => attV x1 x2 x9 x10 x11 x12 x13 x14 x15 x16 x19 x20 x21 x22 l0 l1 l2 l3 l4 l5 l6 l7 l8 l9 l10 l11 l12 l13 l14 l15 l16 (ix2 t s))
      = attB x0 x1 x2 x3 x4 x5 x6 x9 x10 x11 x12 x13 x14 x15 x16 x19 x20 x21 x22 := by
  funext t s
  refine (pay25_apply _ _ _ x19 x20 x21 x22 t s).trans ?_
  unfold attB simB GsaSpec.simf
  refine congrArg (fun f => GsaSpec.softmax f t s) ?_
  funext t s
  rw [accV_apply l0 l1 l2 l3 l4 l5 l6 l7 l8 l9 l10 l11 l12 l13 l14 l15 l16 _ hl t s, ← gramA_eq x1 x9 x10 x11 x12, ← gramP_eq x2 x13 x14 x15 x16]

/-- The value product the body stores. -/
abbrev detV : FVec Ideal S1024x64 .f32 :=
  k0_pay27 (k0_pay9 (k0_pay6 x0) x7 x8) (accV l0 l1 l2 l3 l4 l5 l6 l7 l8 l9 l10 l11 l12 l13 l14 l15 l16) (k0_pay23 (k0_pay13 (k0_pay4 x1) x9 x10) (k0_pay14 (k0_pay12 (k0_pay4 x1)) x11 x12))
    (k0_pay24 (k0_pay16 (k0_pay5 x2) x13 x14) (k0_pay18 (k0_pay17 (k0_pay5 x2) x15) x16)) x19 x20 x21 x22

theorem detV_eq (hl : Taps l0 l1 l2 l3 l4 l5 l6 l7 l8 l9 l10 l11 l12 l13 l14 l15 l16 (GsaSpec.gram (GsaSpec.l2n (prQ x0 x3 x4)) (GsaSpec.l2n (prK x0 x5 x6)))) :
    (fun t k => detV x0 x1 x2 x7 x8 x9 x10 x11 x12 x13 x14 x15 x16 x19 x20 x21 x22 l0 l1 l2 l3 l4 l5 l6 l7 l8 l9 l10 l11 l12 l13 l14 l15 l16 (ix2 t k))
      = detB x0 x1 x2 x3 x4 x5 x6 x7 x8 x9 x10 x11 x12 x13 x14 x15 x16 x19 x20 x21 x22 := by
  funext t k
  refine (pay27_apply _ _ _ _ x19 x20 x21 x22 t k).trans ?_
  unfold detB
  refine Finset.sum_congr rfl fun s _ => ?_
  have e1 := congrFun (congrFun (attV_eq x0 x1 x2 x3 x4 x5 x6 x9 x10 x11 x12 x13 x14 x15 x16 x19 x20 x21 x22 l0 l1 l2 l3 l4 l5 l6 l7 l8 l9 l10 l11 l12 l13 l14 l15 l16 hl) t) s
  have e2 := congrFun (congrFun (v_eq x0 x7 x8) s) k
  exact congrArg₂ (· * ·) e1 e2

/-- The head's share of the output: the value product, as the body hands it on, against the head's slice of the
    output matrix. -/
theorem con_sum (hl : Taps l0 l1 l2 l3 l4 l5 l6 l7 l8 l9 l10 l11 l12 l13 l14 l15 l16 (GsaSpec.gram (GsaSpec.l2n (prQ x0 x3 x4)) (GsaSpec.l2n (prK x0 x5 x6))))
    (t : Fin 1024) (e : Fin 512) :
    (∑ k : Fin 64, k0_pay29 (F := Ideal) (k0_pay9 (k0_pay6 x0) x7 x8) (accV l0 l1 l2 l3 l4 l5 l6 l7 l8 l9 l10 l11 l12 l13 l14 l15 l16) (k0_pay23 (k0_pay13 (k0_pay4 x1) x9 x10) (k0_pay14 (k0_pay12 (k0_pay4 x1)) x11 x12))
        (k0_pay24 (k0_pay16 (k0_pay5 x2) x13 x14) (k0_pay18 (k0_pay17 (k0_pay5 x2) x15) x16)) x19 x20 x21 x22 (ix2 t k) * k0_pay30 (F := Ideal) x17 (ix2 k e))
      = conB x0 x1 x2 x3 x4 x5 x6 x7 x8 x9 x10 x11 x12 x13 x14 x15 x16 x17 x19 x20 x21 x22 t e := by
  unfold conB
  refine Finset.sum_congr rfl fun k _ => ?_
  rw [pay29_apply, pay30_apply]
  exact congrArg (· * x17 (ix3 0 e k))
    (congrFun (congrFun (detV_eq x0 x1 x2 x3 x4 x5 x6 x7 x8 x9 x10 x11 x12 x13 x14 x15 x16 x19 x20 x21 x22 l0 l1 l2 l3 l4 l5 l6 l7 l8 l9 l10 l11 l12 l13 l14 l15 l16 hl) t) k)

end Cert.KernelIdeal.Body

end
-- ==== Proof.Scratch.lean ====
/-
  The padded square. A 1040 × 1040 buffer is first filled with zeros and then the 1024 × 1024 matrix `S` is
  stored at offset (8, 8). Read through the 1024 × 1024 window at offset (i, i), `i ≤ 16`, its entry (a, b) is
  `S (a+i-8) (b+i-8)` when that position lies inside the square and zero otherwise: the `i`-th diagonal neighbour
  `GsaSpec.tap S a b i`. The contents two stores leave are the later store's payload on its rectangle and the
  earlier one's elsewhere.
-/
import Idealize.ShloMosaic.Lib.Pipeline.FrameBody
import Idealize.ShloMosaic.Lib.Pipeline.Value
import Idealize.ShloMosaic.Lib.ValueIdx
import proofs.«105714_j66872640798820_2_alg».proof.Proof.Spec

noncomputable section

namespace GsaScratch

open Idealize.ShloMosaic Idealize.ShloMosaic.ValueIdx

/-- The padded shape and the matrix's shape. -/
abbrev P : Shape := ⟨2, ![1040, 1040]⟩
abbrev Q : Shape := ⟨2, ![1024, 1024]⟩

theorem read_padded (inb8 : ∀ a, (![8, 8] : Fin 2 → Nat) a + Q.size a ≤ P.size a)
    (inb0 : ∀ a, (![0, 0] : Fin 2 → Nat) a + P.size a ≤ P.size a)
    (S : (Rect.unit (s := P) ![8, 8] Q.size inb8).shape.Idx → Elt Ideal .f32)
    (Z : (Rect.unit (s := P) ![0, 0] P.size inb0).shape.Idx → Elt Ideal .f32) (hZ : ∀ y, Z y = (0 : EReal))
    (i : Nat) (inbi : ∀ a, (![i, i] : Fin 2 → Nat) a + Q.size a ≤ P.size a) (a b : Fin 1024) :
    View.canon (Val := Elt Ideal) [⟨Rect.unit (s := P) ![8, 8] Q.size inb8, S⟩, ⟨Rect.unit (s := P) ![0, 0] P.size inb0, Z⟩]
        ((Rect.unit (s := P) ![i, i] Q.size inbi).idx (ix2 a b))
      = GsaSpec.tap (fun t s => S (ix2 t s)) a b i := by
  have hi : i ≤ 16 := by have := inbi 0; simpa using this
  unfold GsaSpec.tap
  by_cases h : 8 ≤ a.val + i ∧ a.val + i < 1032 ∧ 8 ≤ b.val + i ∧ b.val + i < 1032
  · rw [dif_pos h]
    have e : (Rect.unit (s := P) ![i, i] Q.size inbi).idx (ix2 a b)
        = (Rect.unit (s := P) ![8, 8] Q.size inb8).emb (ix2 (⟨a.val + i - 8, by omega⟩ : Fin 1024) (⟨b.val + i - 8, by omega⟩ : Fin 1024)) := by
      funext d
      refine Fin.ext ?_
      match d with
      | ⟨0, _⟩ => show i + 1 * a.val = 8 + 1 * (a.val + i - 8); omega
      | ⟨1, _⟩ => show i + 1 * b.val = 8 + 1 * (b.val + i - 8); omega
    rw [e, View.canon_cons_emb]
  · rw [dif_neg h]
    rw [View.canon_cons_of_not_mem]
    · have e : (Rect.unit (s := P) ![i, i] Q.size inbi).idx (ix2 a b)
          = (Rect.unit (s := P) ![0, 0] P.size inb0).emb (ix2 (⟨a.val + i, by omega⟩ : Fin 1040) (⟨b.val + i, by omega⟩ : Fin 1040)) := by
        funext d
        refine Fin.ext ?_
        match d with
        | ⟨0, _⟩ => show i + 1 * a.val = 0 + 1 * (a.val + i); omega
        | ⟨1, _⟩ => show i + 1 * b.val = 0 + 1 * (b.val + i); omega
      rw [e, View.canon_cons_emb, hZ]
    · rw [Rect.mem_set_unit]
      intro hm
      have h0 := hm 0
      have h1 := hm 1
      have e0 : (((Rect.unit (s := P) ![i, i] Q.size inbi).idx (ix2 a b)) 0 : Nat) = i + 1 * a.val := rfl
      have e1 : (((Rect.unit (s := P) ![i, i] Q.size inbi).idx (ix2 a b)) 1 : Nat) = i + 1 * b.val := rfl
      rw [e0] at h0
      rw [e1] at h1
      have q0 : (![8, 8] : Fin 2 → Nat) 0 = 8 := rfl
      have q1 : (![8, 8] : Fin 2 → Nat) 1 = 8 := rfl
      have s0 : Q.size 0 = 1024 := rfl
      have s1 : Q.size 1 = 1024 := rfl
      rw [q0, s0] at h0
      rw [q1, s1] at h1
      omega

end GsaScratch

end
-- ==== Proof.KerCases.lean ====
/-
  What the body leaves in each output block, case by case. In every case the attention block and the value-product
  block are single stores of the body's stages; the output block is the head's share added to zero (first head),
  to what the previous head left (middle heads), or to that and then the residual and the bias (last head). The
  seventeen shifted reads of the padded square are the diagonal neighbours of the content Gram matrix.
-/
import proofs.«105714_j66872640798820_2_alg».proof.Proof.Patched.KernelIdeal.Frame
import proofs.«105714_j66872640798820_2_alg».proof.Proof.KerBody
import proofs.«105714_j66872640798820_2_alg».proof.Proof.Scratch

set_option maxRecDepth 16384

noncomputable section

namespace Cert.KernelIdeal.Cases

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.Pay Cert.KernelIdeal.Body Cert.KernelIdeal.BlkSpec

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ### The padded square -/

/-- The shifted read at offset (i, i) of the padded square holding `S` over zeros. -/
abbrev spadRead (arg28 : Memref sig .tc .vmem S1040x1040 .f32) (S : FVec Ideal S1024x1024 .f32) (i : Nat)
    (inbi : ∀ a, (![i, i] : Fin 2 → Nat) a + S1024x1024.size a ≤ S1040x1040.size a) : Vec Ideal S1024x1024 .f32 :=
  arg28.view.readCov [⟨Rect.unit (s := S1040x1040) ![8, 8] S1024x1024.size inb_S1040x1040_S1024x1024_8_8, S⟩,
    ⟨Rect.unit (s := S1040x1040) ![0, 0] S1040x1040.size inb_S1040x1040_S1040x1040_0_0, k0_pay19 (F := Ideal)⟩]
    (Rect.unit (s := S1040x1040) ![i, i] S1024x1024.size inbi).toLoadRect

theorem spad_cover (S : FVec Ideal S1024x1024 .f32) : ∀ y : S1040x1040.Idx,
    ∃ p ∈ ([⟨Rect.unit (s := S1040x1040) ![8, 8] S1024x1024.size inb_S1040x1040_S1024x1024_8_8, S⟩,
      ⟨Rect.unit (s := S1040x1040) ![0, 0] S1040x1040.size inb_S1040x1040_S1040x1040_0_0, k0_pay19 (F := Ideal)⟩] : List (View.Piece (Elt Ideal) S1040x1040 .f32)), y ∈ p.1.set :=
  fun y => ⟨_, List.mem_cons_of_mem _ (List.mem_singleton_self _), View.mem_set_unit_zero (S := S1040x1040) hz2 inb_S1040x1040_S1040x1040_0_0 y⟩

theorem spadRead_apply (arg28 : Memref sig .tc .vmem S1040x1040 .f32) (S : FVec Ideal S1024x1024 .f32) (i : Nat)
    (inbi : ∀ a, (![i, i] : Fin 2 → Nat) a + S1024x1024.size a ≤ S1040x1040.size a) (a b : Fin 1024) :
    spadRead arg28 S i inbi (ix2 a b) = GsaSpec.tap (fun t s => S (ix2 t s)) a b i := by
  show arg28.view.readCov _ (Rect.unit (s := S1040x1040) ![i, i] S1024x1024.size inbi).toLoadRect (ix2 a b) = _
  rw [View.readCov_eq_canon_ld _ _ _ (spad_cover S)]
  exact GsaScratch.read_padded _ _ S (k0_pay19 (F := Ideal)) (fun y => pay19_apply y) i inbi a b

/-- The seventeen reads of the square holding the content Gram matrix are its diagonal neighbours. -/
theorem taps_of (arg28 : Memref sig .tc .vmem S1040x1040 .f32) (x0 : Vec Ideal S1x1024x512 .f32) (x3 : Vec Ideal S1x64x512 .bf16)
    (x4 : Vec Ideal S1x1x64 .f32) (x5 : Vec Ideal S1x64x512 .bf16) (x6 : Vec Ideal S1x1x64 .f32) :
    Taps (spadRead arg28 (k0_pay20 (F := Ideal) (k0_pay10 (k0_pay7 x0 x3 x4)) (k0_pay11 (k0_pay8 x0 x5 x6))) 0 inb_S1040x1040_S1024x1024_0_0) (spadRead arg28 (k0_pay20 (F := Ideal) (k0_pay10 (k0_pay7 x0 x3 x4)) (k0_pay11 (k0_pay8 x0 x5 x6))) 1 inb_S1040x1040_S1024x1024_1_1) (spadRead arg28 (k0_pay20 (F := Ideal) (k0_pay10 (k0_pay7 x0 x3 x4)) (k0_pay11 (k0_pay8 x0 x5 x6))) 2 inb_S1040x1040_S1024x1024_2_2) (spadRead arg28 (k0_pay20 (F := Ideal) (k0_pay10 (k0_pay7 x0 x3 x4)) (k0_pay11 (k0_pay8 x0 x5 x6))) 3 inb_S1040x1040_S1024x1024_3_3) (spadRead arg28 (k0_pay20 (F := Ideal) (k0_pay10 (k0_pay7 x0 x3 x4)) (k0_pay11 (k0_pay8 x0 x5 x6))) 4 inb_S1040x1040_S1024x1024_4_4) (spadRead arg28 (k0_pay20 (F := Ideal) (k0_pay10 (k0_pay7 x0 x3 x4)) (k0_pay11 (k0_pay8 x0 x5 x6))) 5 inb_S1040x1040_S1024x1024_5_5) (spadRead arg28 (k0_pay20 (F := Ideal) (k0_pay10 (k0_pay7 x0 x3 x4)) (k0_pay11 (k0_pay8 x0 x5 x6))) 6 inb_S1040x1040_S1024x1024_6_6) (spadRead arg28 (k0_pay20 (F := Ideal) (k0_pay10 (k0_pay7 x0 x3 x4)) (k0_pay11 (k0_pay8 x0 x5 x6))) 7 inb_S1040x1040_S1024x1024_7_7) (spadRead arg28 (k0_pay20 (F := Ideal) (k0_pay10 (k0_pay7 x0 x3 x4)) (k0_pay11 (k0_pay8 x0 x5 x6))) 8 inb_S1040x1040_S1024x1024_8_8) (spadRead arg28 (k0_pay20 (F := Ideal) (k0_pay10 (k0_pay7 x0 x3 x4)) (k0_pay11 (k0_pay8 x0 x5 x6))) 9 inb_S1040x1040_S1024x1024_9_9) (spadRead arg28 (k0_pay20 (F := Ideal) (k0_pay10 (k0_pay7 x0 x3 x4)) (k0_pay11 (k0_pay8 x0 x5 x6))) 10 inb_S1040x1040_S1024x1024_10_10) (spadRead arg28 (k0_pay20 (F := Ideal) (k0_pay10 (k0_pay7 x0 x3 x4)) (k0_pay11 (k0_pay8 x0 x5 x6))) 11 inb_S1040x1040_S1024x1024_11_11) (spadRead arg28 (k0_pay20 (F := Ideal) (k0_pay10 (k0_pay7 x0 x3 x4)) (k0_pay11 (k0_pay8 x0 x5 x6))) 12 inb_S1040x1040_S1024x1024_12_12) (spadRead arg28 (k0_pay20 (F := Ideal) (k0_pay10 (k0_pay7 x0 x3 x4)) (k0_pay11 (k0_pay8 x0 x5 x6))) 13 inb_S1040x1040_S1024x1024_13_13) (spadRead arg28 (k0_pay20 (F := Ideal) (k0_pay10 (k0_pay7 x0 x3 x4)) (k0_pay11 (k0_pay8 x0 x5 x6))) 14 inb_S1040x1040_S1024x1024_14_14) (spadRead arg28 (k0_pay20 (F := Ideal) (k0_pay10 (k0_pay7 x0 x3 x4)) (k0_pay11 (k0_pay8 x0 x5 x6))) 15 inb_S1040x1040_S1024x1024_15_15) (spadRead arg28 (k0_pay20 (F := Ideal) (k0_pay10 (k0_pay7 x0 x3 x4)) (k0_pay11 (k0_pay8 x0 x5 x6))) 16 inb_S1040x1040_S1024x1024_16_16)
      (GsaSpec.gram (GsaSpec.l2n (prQ x0 x3 x4)) (GsaSpec.l2n (prK x0 x5 x6))) := by
  rw [← gramS_eq x0 x3 x4 x5 x6]
  intro a b
  exact ⟨spadRead_apply arg28 _ 0 _ a b, spadRead_apply arg28 _ 1 _ a b, spadRead_apply arg28 _ 2 _ a b, spadRead_apply arg28 _ 3 _ a b, spadRead_apply arg28 _ 4 _ a b, spadRead_apply arg28 _ 5 _ a b, spadRead_apply arg28 _ 6 _ a b, spadRead_apply arg28 _ 7 _ a b, spadRead_apply arg28 _ 8 _ a b, spadRead_apply arg28 _ 9 _ a b, spadRead_apply arg28 _ 10 _ a b, spadRead_apply arg28 _ 11 _ a b, spadRead_apply arg28 _ 12 _ a b, spadRead_apply arg28 _ 13 _ a b, spadRead_apply arg28 _ 14 _ a b, spadRead_apply arg28 _ 15 _ a b, spadRead_apply arg28 _ 16 _ a b⟩

set_option maxHeartbeats 4000000 in
theorem caseA_25 (c : Dev nD) (i : grid0.Coords) (arg2 : Memref sig .tc .vmem S1x1024x512 .f32) (harg2 : arg2.IsWhole) (arg3 : Memref sig .tc .vmem S1x1024x256 .f32) (harg3 : arg3.IsWhole) (arg4 : Memref sig .tc .vmem S1x1024x128 .f32) (harg4 : arg4.IsWhole) (arg5 : Memref sig .tc .vmem S1x64x512 .bf16) (harg5 : arg5.IsWhole) (arg6 : Memref sig .tc .vmem S1x1x64 .f32) (harg6 : arg6.IsWhole) (arg7 : Memref sig .tc .vmem S1x64x512 .bf16) (harg7 : arg7.IsWhole) (arg8 : Memref sig .tc .vmem S1x1x64 .f32) (harg8 : arg8.IsWhole) (arg9 : Memref sig .tc .vmem S1x64x512 .bf16) (harg9 : arg9.IsWhole) (arg10 : Memref sig .tc .vmem S1x1x64 .f32) (harg10 : arg10.IsWhole) (arg11 : Memref sig .tc .vmem S1x32x256 .bf16) (harg11 : arg11.IsWhole) (arg12 : Memref sig .tc .vmem S1x1x32 .f32) (harg12 : arg12.IsWhole) (arg13 : Memref sig .tc .vmem S1x32x256 .bf16) (harg13 : arg13.IsWhole) (arg14 : Memref sig .tc .vmem S1x1x32 .f32) (harg14 : arg14.IsWhole) (arg15 : Memref sig .tc .vmem S1x16x128 .bf16) (harg15 : arg15.IsWhole) (arg16 : Memref sig .tc .vmem S1x1x16 .f32) (harg16 : arg16.IsWhole) (arg17 : Memref sig .tc .vmem S1x16x128 .bf16) (harg17 : arg17.IsWhole) (arg18 : Memref sig .tc .vmem S1x1x16 .f32) (harg18 : arg18.IsWhole) (arg19 : Memref sig .tc .vmem S1x512x64 .bf16) (harg19 : arg19.IsWhole) (arg20 : Memref sig .tc .vmem S512 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1024x1024 .f32) (harg24 : arg24.IsWhole) (arg25 : Memref sig .tc .vmem S1x1024x512 .f32) (harg25 : arg25.IsWhole) (arg26 : Memref sig .tc .vmem S1x1x1024x64 .f32) (harg26 : arg26.IsWhole) (arg27 : Memref sig .tc .vmem S1x1x1024x1024 .f32) (harg27 : arg27.IsWhole) (arg28 : Memref sig .tc .vmem S1040x1040 .f32) (harg28 : arg28.IsWhole) (hc0 : cond0_0 i) (hc1 : ¬cond0_1 i) (x0 : Vec Ideal S1x1024x512 .f32) (x1 : Vec Ideal S1x1024x256 .f32) (x2 : Vec Ideal S1x1024x128 .f32) (x3 : Vec Ideal S1x64x512 .bf16) (x4 : Vec Ideal S1x1x64 .f32) (x5 : Vec Ideal S1x64x512 .bf16) (x6 : Vec Ideal S1x1x64 .f32) (x7 : Vec Ideal S1x64x512 .bf16) (x8 : Vec Ideal S1x1x64 .f32) (x9 : Vec Ideal S1x32x256 .bf16) (x10 : Vec Ideal S1x1x32 .f32) (x11 : Vec Ideal S1x32x256 .bf16) (x12 : Vec Ideal S1x1x32 .f32) (x13 : Vec Ideal S1x16x128 .bf16) (x14 : Vec Ideal S1x1x16 .f32) (x15 : Vec Ideal S1x16x128 .bf16) (x16 : Vec Ideal S1x1x16 .f32) (x17 : Vec Ideal S1x512x64 .bf16) (x18 : Vec Ideal S512 .f32) (x19 : Vec Ideal S1x1 .f32) (x20 : Vec Ideal S1x1 .f32) (x21 : Vec Ideal S1x1 .f32) (x22 : Vec Ideal S1024x1024 .f32) (t s : Fin 1024) :
    out0_A_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 (ix4 0 0 t s) = attB x0 x1 x2 x3 x4 x5 x6 x9 x10 x11 x12 x13 x14 x15 x16 x19 x20 x21 x22 t s := by
  unfold out0_A_25
  rw [View.read_writes_eq_canon _ _ _ (cover0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, View.ld_unit_zero (S := S1x1024x512) hz3, View.ld_unit_zero (S := S1x1024x256) hz3, View.ld_unit_zero (S := S1x1024x128) hz3, View.ld_unit_zero (S := S1x64x512) hz3, View.ld_unit_zero (S := S1x1x64) hz3, View.ld_unit_zero (S := S1x32x256) hz3, View.ld_unit_zero (S := S1x1x32) hz3, View.ld_unit_zero (S := S1x16x128) hz3, View.ld_unit_zero (S := S1x1x16) hz3, View.ld_unit_zero (S := S1x512x64) hz3, View.ld_unit_zero (S := S512) hz1, View.ld_unit_zero (S := S1x1) hz2, View.ld_unit_zero (S := S1024x1024) hz2]
  refine (pay26_apply _ _ _ _ _ _ _ t s).trans ?_
  exact congrFun (congrFun (attV_eq x0 x1 x2 x3 x4 x5 x6 x9 x10 x11 x12 x13 x14 x15 x16 x19 x20 x21 x22 _ _ _ _ _ _ _ _ _ _ _ _ _ _ _ _ _ (taps_of arg28 x0 x3 x4 x5 x6)) t) s

set_option maxHeartbeats 4000000 in
theorem caseA_24 (c : Dev nD) (i : grid0.Coords) (arg2 : Memref sig .tc .vmem S1x1024x512 .f32) (harg2 : arg2.IsWhole) (arg3 : Memref sig .tc .vmem S1x1024x256 .f32) (harg3 : arg3.IsWhole) (arg4 : Memref sig .tc .vmem S1x1024x128 .f32) (harg4 : arg4.IsWhole) (arg5 : Memref sig .tc .vmem S1x64x512 .bf16) (harg5 : arg5.IsWhole) (arg6 : Memref sig .tc .vmem S1x1x64 .f32) (harg6 : arg6.IsWhole) (arg7 : Memref sig .tc .vmem S1x64x512 .bf16) (harg7 : arg7.IsWhole) (arg8 : Memref sig .tc .vmem S1x1x64 .f32) (harg8 : arg8.IsWhole) (arg9 : Memref sig .tc .vmem S1x64x512 .bf16) (harg9 : arg9.IsWhole) (arg10 : Memref sig .tc .vmem S1x1x64 .f32) (harg10 : arg10.IsWhole) (arg11 : Memref sig .tc .vmem S1x32x256 .bf16) (harg11 : arg11.IsWhole) (arg12 : Memref sig .tc .vmem S1x1x32 .f32) (harg12 : arg12.IsWhole) (arg13 : Memref sig .tc .vmem S1x32x256 .bf16) (harg13 : arg13.IsWhole) (arg14 : Memref sig .tc .vmem S1x1x32 .f32) (harg14 : arg14.IsWhole) (arg15 : Memref sig .tc .vmem S1x16x128 .bf16) (harg15 : arg15.IsWhole) (arg16 : Memref sig .tc .vmem S1x1x16 .f32) (harg16 : arg16.IsWhole) (arg17 : Memref sig .tc .vmem S1x16x128 .bf16) (harg17 : arg17.IsWhole) (arg18 : Memref sig .tc .vmem S1x1x16 .f32) (harg18 : arg18.IsWhole) (arg19 : Memref sig .tc .vmem S1x512x64 .bf16) (harg19 : arg19.IsWhole) (arg20 : Memref sig .tc .vmem S512 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1024x1024 .f32) (harg24 : arg24.IsWhole) (arg25 : Memref sig .tc .vmem S1x1024x512 .f32) (harg25 : arg25.IsWhole) (arg26 : Memref sig .tc .vmem S1x1x1024x64 .f32) (harg26 : arg26.IsWhole) (arg27 : Memref sig .tc .vmem S1x1x1024x1024 .f32) (harg27 : arg27.IsWhole) (arg28 : Memref sig .tc .vmem S1040x1040 .f32) (harg28 : arg28.IsWhole) (hc0 : cond0_0 i) (hc1 : ¬cond0_1 i) (x0 : Vec Ideal S1x1024x512 .f32) (x1 : Vec Ideal S1x1024x256 .f32) (x2 : Vec Ideal S1x1024x128 .f32) (x3 : Vec Ideal S1x64x512 .bf16) (x4 : Vec Ideal S1x1x64 .f32) (x5 : Vec Ideal S1x64x512 .bf16) (x6 : Vec Ideal S1x1x64 .f32) (x7 : Vec Ideal S1x64x512 .bf16) (x8 : Vec Ideal S1x1x64 .f32) (x9 : Vec Ideal S1x32x256 .bf16) (x10 : Vec Ideal S1x1x32 .f32) (x11 : Vec Ideal S1x32x256 .bf16) (x12 : Vec Ideal S1x1x32 .f32) (x13 : Vec Ideal S1x16x128 .bf16) (x14 : Vec Ideal S1x1x16 .f32) (x15 : Vec Ideal S1x16x128 .bf16) (x16 : Vec Ideal S1x1x16 .f32) (x17 : Vec Ideal S1x512x64 .bf16) (x18 : Vec Ideal S512 .f32) (x19 : Vec Ideal S1x1 .f32) (x20 : Vec Ideal S1x1 .f32) (x21 : Vec Ideal S1x1 .f32) (x22 : Vec Ideal S1024x1024 .f32) (t : Fin 1024) (k : Fin 64) :
    out0_A_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 (ix4 0 0 t k) = detB x0 x1 x2 x3 x4 x5 x6 x7 x8 x9 x10 x11 x12 x13 x14 x15 x16 x19 x20 x21 x22 t k := by
  unfold out0_A_24
  rw [View.read_writes_eq_canon _ _ _ (cover0_A_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, View.ld_unit_zero (S := S1x1024x512) hz3, View.ld_unit_zero (S := S1x1024x256) hz3, View.ld_unit_zero (S := S1x1024x128) hz3, View.ld_unit_zero (S := S1x64x512) hz3, View.ld_unit_zero (S := S1x1x64) hz3, View.ld_unit_zero (S := S1x32x256) hz3, View.ld_unit_zero (S := S1x1x32) hz3, View.ld_unit_zero (S := S1x16x128) hz3, View.ld_unit_zero (S := S1x1x16) hz3, View.ld_unit_zero (S := S1x512x64) hz3, View.ld_unit_zero (S := S512) hz1, View.ld_unit_zero (S := S1x1) hz2, View.ld_unit_zero (S := S1024x1024) hz2]
  refine (pay28_apply _ _ _ _ _ _ _ _ t k).trans ?_
  exact congrFun (congrFun (detV_eq x0 x1 x2 x3 x4 x5 x6 x7 x8 x9 x10 x11 x12 x13 x14 x15 x16 x19 x20 x21 x22 _ _ _ _ _ _ _ _ _ _ _ _ _ _ _ _ _ (taps_of arg28 x0 x3 x4 x5 x6)) t) k

set_option maxHeartbeats 4000000 in
theorem caseB_25 (c : Dev nD) (i : grid0.Coords) (arg2 : Memref sig .tc .vmem S1x1024x512 .f32) (harg2 : arg2.IsWhole) (arg3 : Memref sig .tc .vmem S1x1024x256 .f32) (harg3 : arg3.IsWhole) (arg4 : Memref sig .tc .vmem S1x1024x128 .f32) (harg4 : arg4.IsWhole) (arg5 : Memref sig .tc .vmem S1x64x512 .bf16) (harg5 : arg5.IsWhole) (arg6 : Memref sig .tc .vmem S1x1x64 .f32) (harg6 : arg6.IsWhole) (arg7 : Memref sig .tc .vmem S1x64x512 .bf16) (harg7 : arg7.IsWhole) (arg8 : Memref sig .tc .vmem S1x1x64 .f32) (harg8 : arg8.IsWhole) (arg9 : Memref sig .tc .vmem S1x64x512 .bf16) (harg9 : arg9.IsWhole) (arg10 : Memref sig .tc .vmem S1x1x64 .f32) (harg10 : arg10.IsWhole) (arg11 : Memref sig .tc .vmem S1x32x256 .bf16) (harg11 : arg11.IsWhole) (arg12 : Memref sig .tc .vmem S1x1x32 .f32) (harg12 : arg12.IsWhole) (arg13 : Memref sig .tc .vmem S1x32x256 .bf16) (harg13 : arg13.IsWhole) (arg14 : Memref sig .tc .vmem S1x1x32 .f32) (harg14 : arg14.IsWhole) (arg15 : Memref sig .tc .vmem S1x16x128 .bf16) (harg15 : arg15.IsWhole) (arg16 : Memref sig .tc .vmem S1x1x16 .f32) (harg16 : arg16.IsWhole) (arg17 : Memref sig .tc .vmem S1x16x128 .bf16) (harg17 : arg17.IsWhole) (arg18 : Memref sig .tc .vmem S1x1x16 .f32) (harg18 : arg18.IsWhole) (arg19 : Memref sig .tc .vmem S1x512x64 .bf16) (harg19 : arg19.IsWhole) (arg20 : Memref sig .tc .vmem S512 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1024x1024 .f32) (harg24 : arg24.IsWhole) (arg25 : Memref sig .tc .vmem S1x1024x512 .f32) (harg25 : arg25.IsWhole) (arg26 : Memref sig .tc .vmem S1x1x1024x64 .f32) (harg26 : arg26.IsWhole) (arg27 : Memref sig .tc .vmem S1x1x1024x1024 .f32) (harg27 : arg27.IsWhole) (arg28 : Memref sig .tc .vmem S1040x1040 .f32) (harg28 : arg28.IsWhole) (hc0 : ¬cond0_0 i) (hc1 : ¬cond0_1 i) (x0 : Vec Ideal S1x1024x512 .f32) (x1 : Vec Ideal S1x1024x256 .f32) (x2 : Vec Ideal S1x1024x128 .f32) (x3 : Vec Ideal S1x64x512 .bf16) (x4 : Vec Ideal S1x1x64 .f32) (x5 : Vec Ideal S1x64x512 .bf16) (x6 : Vec Ideal S1x1x64 .f32) (x7 : Vec Ideal S1x64x512 .bf16) (x8 : Vec Ideal S1x1x64 .f32) (x9 : Vec Ideal S1x32x256 .bf16) (x10 : Vec Ideal S1x1x32 .f32) (x11 : Vec Ideal S1x32x256 .bf16) (x12 : Vec Ideal S1x1x32 .f32) (x13 : Vec Ideal S1x16x128 .bf16) (x14 : Vec Ideal S1x1x16 .f32) (x15 : Vec Ideal S1x16x128 .bf16) (x16 : Vec Ideal S1x1x16 .f32) (x17 : Vec Ideal S1x512x64 .bf16) (x18 : Vec Ideal S512 .f32) (x19 : Vec Ideal S1x1 .f32) (x20 : Vec Ideal S1x1 .f32) (x21 : Vec Ideal S1x1 .f32) (x22 : Vec Ideal S1024x1024 .f32) (xo23 : Vec Ideal S1x1024x512 .f32) (t s : Fin 1024) :
    out0_B_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 xo23 (ix4 0 0 t s) = attB x0 x1 x2 x3 x4 x5 x6 x9 x10 x11 x12 x13 x14 x15 x16 x19 x20 x21 x22 t s := by
  unfold out0_B_25
  rw [View.read_writes_eq_canon _ _ _ (cover0_B_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 xo23)]
  unfold kernelRun0_B
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, View.ld_unit_zero (S := S1x1024x512) hz3, View.ld_unit_zero (S := S1x1024x256) hz3, View.ld_unit_zero (S := S1x1024x128) hz3, View.ld_unit_zero (S := S1x64x512) hz3, View.ld_unit_zero (S := S1x1x64) hz3, View.ld_unit_zero (S := S1x32x256) hz3, View.ld_unit_zero (S := S1x1x32) hz3, View.ld_unit_zero (S := S1x16x128) hz3, View.ld_unit_zero (S := S1x1x16) hz3, View.ld_unit_zero (S := S1x512x64) hz3, View.ld_unit_zero (S := S512) hz1, View.ld_unit_zero (S := S1x1) hz2, View.ld_unit_zero (S := S1024x1024) hz2]
  refine (pay26_apply _ _ _ _ _ _ _ t s).trans ?_
  exact congrFun (congrFun (attV_eq x0 x1 x2 x3 x4 x5 x6 x9 x10 x11 x12 x13 x14 x15 x16 x19 x20 x21 x22 _ _ _ _ _ _ _ _ _ _ _ _ _ _ _ _ _ (taps_of arg28 x0 x3 x4 x5 x6)) t) s

set_option maxHeartbeats 4000000 in
theorem caseB_24 (c : Dev nD) (i : grid0.Coords) (arg2 : Memref sig .tc .vmem S1x1024x512 .f32) (harg2 : arg2.IsWhole) (arg3 : Memref sig .tc .vmem S1x1024x256 .f32) (harg3 : arg3.IsWhole) (arg4 : Memref sig .tc .vmem S1x1024x128 .f32) (harg4 : arg4.IsWhole) (arg5 : Memref sig .tc .vmem S1x64x512 .bf16) (harg5 : arg5.IsWhole) (arg6 : Memref sig .tc .vmem S1x1x64 .f32) (harg6 : arg6.IsWhole) (arg7 : Memref sig .tc .vmem S1x64x512 .bf16) (harg7 : arg7.IsWhole) (arg8 : Memref sig .tc .vmem S1x1x64 .f32) (harg8 : arg8.IsWhole) (arg9 : Memref sig .tc .vmem S1x64x512 .bf16) (harg9 : arg9.IsWhole) (arg10 : Memref sig .tc .vmem S1x1x64 .f32) (harg10 : arg10.IsWhole) (arg11 : Memref sig .tc .vmem S1x32x256 .bf16) (harg11 : arg11.IsWhole) (arg12 : Memref sig .tc .vmem S1x1x32 .f32) (harg12 : arg12.IsWhole) (arg13 : Memref sig .tc .vmem S1x32x256 .bf16) (harg13 : arg13.IsWhole) (arg14 : Memref sig .tc .vmem S1x1x32 .f32) (harg14 : arg14.IsWhole) (arg15 : Memref sig .tc .vmem S1x16x128 .bf16) (harg15 : arg15.IsWhole) (arg16 : Memref sig .tc .vmem S1x1x16 .f32) (harg16 : arg16.IsWhole) (arg17 : Memref sig .tc .vmem S1x16x128 .bf16) (harg17 : arg17.IsWhole) (arg18 : Memref sig .tc .vmem S1x1x16 .f32) (harg18 : arg18.IsWhole) (arg19 : Memref sig .tc .vmem S1x512x64 .bf16) (harg19 : arg19.IsWhole) (arg20 : Memref sig .tc .vmem S512 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1024x1024 .f32) (harg24 : arg24.IsWhole) (arg25 : Memref sig .tc .vmem S1x1024x512 .f32) (harg25 : arg25.IsWhole) (arg26 : Memref sig .tc .vmem S1x1x1024x64 .f32) (harg26 : arg26.IsWhole) (arg27 : Memref sig .tc .vmem S1x1x1024x1024 .f32) (harg27 : arg27.IsWhole) (arg28 : Memref sig .tc .vmem S1040x1040 .f32) (harg28 : arg28.IsWhole) (hc0 : ¬cond0_0 i) (hc1 : ¬cond0_1 i) (x0 : Vec Ideal S1x1024x512 .f32) (x1 : Vec Ideal S1x1024x256 .f32) (x2 : Vec Ideal S1x1024x128 .f32) (x3 : Vec Ideal S1x64x512 .bf16) (x4 : Vec Ideal S1x1x64 .f32) (x5 : Vec Ideal S1x64x512 .bf16) (x6 : Vec Ideal S1x1x64 .f32) (x7 : Vec Ideal S1x64x512 .bf16) (x8 : Vec Ideal S1x1x64 .f32) (x9 : Vec Ideal S1x32x256 .bf16) (x10 : Vec Ideal S1x1x32 .f32) (x11 : Vec Ideal S1x32x256 .bf16) (x12 : Vec Ideal S1x1x32 .f32) (x13 : Vec Ideal S1x16x128 .bf16) (x14 : Vec Ideal S1x1x16 .f32) (x15 : Vec Ideal S1x16x128 .bf16) (x16 : Vec Ideal S1x1x16 .f32) (x17 : Vec Ideal S1x512x64 .bf16) (x18 : Vec Ideal S512 .f32) (x19 : Vec Ideal S1x1 .f32) (x20 : Vec Ideal S1x1 .f32) (x21 : Vec Ideal S1x1 .f32) (x22 : Vec Ideal S1024x1024 .f32) (xo23 : Vec Ideal S1x1024x512 .f32) (t : Fin 1024) (k : Fin 64) :
    out0_B_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 xo23 (ix4 0 0 t k) = detB x0 x1 x2 x3 x4 x5 x6 x7 x8 x9 x10 x11 x12 x13 x14 x15 x16 x19 x20 x21 x22 t k := by
  unfold out0_B_24
  rw [View.read_writes_eq_canon _ _ _ (cover0_B_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 xo23)]
  unfold kernelRun0_B
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, View.ld_unit_zero (S := S1x1024x512) hz3, View.ld_unit_zero (S := S1x1024x256) hz3, View.ld_unit_zero (S := S1x1024x128) hz3, View.ld_unit_zero (S := S1x64x512) hz3, View.ld_unit_zero (S := S1x1x64) hz3, View.ld_unit_zero (S := S1x32x256) hz3, View.ld_unit_zero (S := S1x1x32) hz3, View.ld_unit_zero (S := S1x16x128) hz3, View.ld_unit_zero (S := S1x1x16) hz3, View.ld_unit_zero (S := S1x512x64) hz3, View.ld_unit_zero (S := S512) hz1, View.ld_unit_zero (S := S1x1) hz2, View.ld_unit_zero (S := S1024x1024) hz2]
  refine (pay28_apply _ _ _ _ _ _ _ _ t k).trans ?_
  exact congrFun (congrFun (detV_eq x0 x1 x2 x3 x4 x5 x6 x7 x8 x9 x10 x11 x12 x13 x14 x15 x16 x19 x20 x21 x22 _ _ _ _ _ _ _ _ _ _ _ _ _ _ _ _ _ (taps_of arg28 x0 x3 x4 x5 x6)) t) k

set_option maxHeartbeats 4000000 in
theorem caseC_25 (c : Dev nD) (i : grid0.Coords) (arg2 : Memref sig .tc .vmem S1x1024x512 .f32) (harg2 : arg2.IsWhole) (arg3 : Memref sig .tc .vmem S1x1024x256 .f32) (harg3 : arg3.IsWhole) (arg4 : Memref sig .tc .vmem S1x1024x128 .f32) (harg4 : arg4.IsWhole) (arg5 : Memref sig .tc .vmem S1x64x512 .bf16) (harg5 : arg5.IsWhole) (arg6 : Memref sig .tc .vmem S1x1x64 .f32) (harg6 : arg6.IsWhole) (arg7 : Memref sig .tc .vmem S1x64x512 .bf16) (harg7 : arg7.IsWhole) (arg8 : Memref sig .tc .vmem S1x1x64 .f32) (harg8 : arg8.IsWhole) (arg9 : Memref sig .tc .vmem S1x64x512 .bf16) (harg9 : arg9.IsWhole) (arg10 : Memref sig .tc .vmem S1x1x64 .f32) (harg10 : arg10.IsWhole) (arg11 : Memref sig .tc .vmem S1x32x256 .bf16) (harg11 : arg11.IsWhole) (arg12 : Memref sig .tc .vmem S1x1x32 .f32) (harg12 : arg12.IsWhole) (arg13 : Memref sig .tc .vmem S1x32x256 .bf16) (harg13 : arg13.IsWhole) (arg14 : Memref sig .tc .vmem S1x1x32 .f32) (harg14 : arg14.IsWhole) (arg15 : Memref sig .tc .vmem S1x16x128 .bf16) (harg15 : arg15.IsWhole) (arg16 : Memref sig .tc .vmem S1x1x16 .f32) (harg16 : arg16.IsWhole) (arg17 : Memref sig .tc .vmem S1x16x128 .bf16) (harg17 : arg17.IsWhole) (arg18 : Memref sig .tc .vmem S1x1x16 .f32) (harg18 : arg18.IsWhole) (arg19 : Memref sig .tc .vmem S1x512x64 .bf16) (harg19 : arg19.IsWhole) (arg20 : Memref sig .tc .vmem S512 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1024x1024 .f32) (harg24 : arg24.IsWhole) (arg25 : Memref sig .tc .vmem S1x1024x512 .f32) (harg25 : arg25.IsWhole) (arg26 : Memref sig .tc .vmem S1x1x1024x64 .f32) (harg26 : arg26.IsWhole) (arg27 : Memref sig .tc .vmem S1x1x1024x1024 .f32) (harg27 : arg27.IsWhole) (arg28 : Memref sig .tc .vmem S1040x1040 .f32) (harg28 : arg28.IsWhole) (hc0 : ¬cond0_0 i) (hc1 : cond0_1 i) (x0 : Vec Ideal S1x1024x512 .f32) (x1 : Vec Ideal S1x1024x256 .f32) (x2 : Vec Ideal S1x1024x128 .f32) (x3 : Vec Ideal S1x64x512 .bf16) (x4 : Vec Ideal S1x1x64 .f32) (x5 : Vec Ideal S1x64x512 .bf16) (x6 : Vec Ideal S1x1x64 .f32) (x7 : Vec Ideal S1x64x512 .bf16) (x8 : Vec Ideal S1x1x64 .f32) (x9 : Vec Ideal S1x32x256 .bf16) (x10 : Vec Ideal S1x1x32 .f32) (x11 : Vec Ideal S1x32x256 .bf16) (x12 : Vec Ideal S1x1x32 .f32) (x13 : Vec Ideal S1x16x128 .bf16) (x14 : Vec Ideal S1x1x16 .f32) (x15 : Vec Ideal S1x16x128 .bf16) (x16 : Vec Ideal S1x1x16 .f32) (x17 : Vec Ideal S1x512x64 .bf16) (x18 : Vec Ideal S512 .f32) (x19 : Vec Ideal S1x1 .f32) (x20 : Vec Ideal S1x1 .f32) (x21 : Vec Ideal S1x1 .f32) (x22 : Vec Ideal S1024x1024 .f32) (xo23 : Vec Ideal S1x1024x512 .f32) (t s : Fin 1024) :
    out0_C_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 xo23 (ix4 0 0 t s) = attB x0 x1 x2 x3 x4 x5 x6 x9 x10 x11 x12 x13 x14 x15 x16 x19 x20 x21 x22 t s := by
  unfold out0_C_25
  rw [View.read_writes_eq_canon _ _ _ (cover0_C_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 xo23)]
  unfold kernelRun0_C
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, View.ld_unit_zero (S := S1x1024x512) hz3, View.ld_unit_zero (S := S1x1024x256) hz3, View.ld_unit_zero (S := S1x1024x128) hz3, View.ld_unit_zero (S := S1x64x512) hz3, View.ld_unit_zero (S := S1x1x64) hz3, View.ld_unit_zero (S := S1x32x256) hz3, View.ld_unit_zero (S := S1x1x32) hz3, View.ld_unit_zero (S := S1x16x128) hz3, View.ld_unit_zero (S := S1x1x16) hz3, View.ld_unit_zero (S := S1x512x64) hz3, View.ld_unit_zero (S := S512) hz1, View.ld_unit_zero (S := S1x1) hz2, View.ld_unit_zero (S := S1024x1024) hz2]
  refine (pay26_apply _ _ _ _ _ _ _ t s).trans ?_
  exact congrFun (congrFun (attV_eq x0 x1 x2 x3 x4 x5 x6 x9 x10 x11 x12 x13 x14 x15 x16 x19 x20 x21 x22 _ _ _ _ _ _ _ _ _ _ _ _ _ _ _ _ _ (taps_of arg28 x0 x3 x4 x5 x6)) t) s

set_option maxHeartbeats 4000000 in
theorem caseC_24 (c : Dev nD) (i : grid0.Coords) (arg2 : Memref sig .tc .vmem S1x1024x512 .f32) (harg2 : arg2.IsWhole) (arg3 : Memref sig .tc .vmem S1x1024x256 .f32) (harg3 : arg3.IsWhole) (arg4 : Memref sig .tc .vmem S1x1024x128 .f32) (harg4 : arg4.IsWhole) (arg5 : Memref sig .tc .vmem S1x64x512 .bf16) (harg5 : arg5.IsWhole) (arg6 : Memref sig .tc .vmem S1x1x64 .f32) (harg6 : arg6.IsWhole) (arg7 : Memref sig .tc .vmem S1x64x512 .bf16) (harg7 : arg7.IsWhole) (arg8 : Memref sig .tc .vmem S1x1x64 .f32) (harg8 : arg8.IsWhole) (arg9 : Memref sig .tc .vmem S1x64x512 .bf16) (harg9 : arg9.IsWhole) (arg10 : Memref sig .tc .vmem S1x1x64 .f32) (harg10 : arg10.IsWhole) (arg11 : Memref sig .tc .vmem S1x32x256 .bf16) (harg11 : arg11.IsWhole) (arg12 : Memref sig .tc .vmem S1x1x32 .f32) (harg12 : arg12.IsWhole) (arg13 : Memref sig .tc .vmem S1x32x256 .bf16) (harg13 : arg13.IsWhole) (arg14 : Memref sig .tc .vmem S1x1x32 .f32) (harg14 : arg14.IsWhole) (arg15 : Memref sig .tc .vmem S1x16x128 .bf16) (harg15 : arg15.IsWhole) (arg16 : Memref sig .tc .vmem S1x1x16 .f32) (harg16 : arg16.IsWhole) (arg17 : Memref sig .tc .vmem S1x16x128 .bf16) (harg17 : arg17.IsWhole) (arg18 : Memref sig .tc .vmem S1x1x16 .f32) (harg18 : arg18.IsWhole) (arg19 : Memref sig .tc .vmem S1x512x64 .bf16) (harg19 : arg19.IsWhole) (arg20 : Memref sig .tc .vmem S512 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1024x1024 .f32) (harg24 : arg24.IsWhole) (arg25 : Memref sig .tc .vmem S1x1024x512 .f32) (harg25 : arg25.IsWhole) (arg26 : Memref sig .tc .vmem S1x1x1024x64 .f32) (harg26 : arg26.IsWhole) (arg27 : Memref sig .tc .vmem S1x1x1024x1024 .f32) (harg27 : arg27.IsWhole) (arg28 : Memref sig .tc .vmem S1040x1040 .f32) (harg28 : arg28.IsWhole) (hc0 : ¬cond0_0 i) (hc1 : cond0_1 i) (x0 : Vec Ideal S1x1024x512 .f32) (x1 : Vec Ideal S1x1024x256 .f32) (x2 : Vec Ideal S1x1024x128 .f32) (x3 : Vec Ideal S1x64x512 .bf16) (x4 : Vec Ideal S1x1x64 .f32) (x5 : Vec Ideal S1x64x512 .bf16) (x6 : Vec Ideal S1x1x64 .f32) (x7 : Vec Ideal S1x64x512 .bf16) (x8 : Vec Ideal S1x1x64 .f32) (x9 : Vec Ideal S1x32x256 .bf16) (x10 : Vec Ideal S1x1x32 .f32) (x11 : Vec Ideal S1x32x256 .bf16) (x12 : Vec Ideal S1x1x32 .f32) (x13 : Vec Ideal S1x16x128 .bf16) (x14 : Vec Ideal S1x1x16 .f32) (x15 : Vec Ideal S1x16x128 .bf16) (x16 : Vec Ideal S1x1x16 .f32) (x17 : Vec Ideal S1x512x64 .bf16) (x18 : Vec Ideal S512 .f32) (x19 : Vec Ideal S1x1 .f32) (x20 : Vec Ideal S1x1 .f32) (x21 : Vec Ideal S1x1 .f32) (x22 : Vec Ideal S1024x1024 .f32) (xo23 : Vec Ideal S1x1024x512 .f32) (t : Fin 1024) (k : Fin 64) :
    out0_C_24 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 xo23 (ix4 0 0 t k) = detB x0 x1 x2 x3 x4 x5 x6 x7 x8 x9 x10 x11 x12 x13 x14 x15 x16 x19 x20 x21 x22 t k := by
  unfold out0_C_24
  rw [View.read_writes_eq_canon _ _ _ (cover0_C_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 xo23)]
  unfold kernelRun0_C
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, View.ld_unit_zero (S := S1x1024x512) hz3, View.ld_unit_zero (S := S1x1024x256) hz3, View.ld_unit_zero (S := S1x1024x128) hz3, View.ld_unit_zero (S := S1x64x512) hz3, View.ld_unit_zero (S := S1x1x64) hz3, View.ld_unit_zero (S := S1x32x256) hz3, View.ld_unit_zero (S := S1x1x32) hz3, View.ld_unit_zero (S := S1x16x128) hz3, View.ld_unit_zero (S := S1x1x16) hz3, View.ld_unit_zero (S := S1x512x64) hz3, View.ld_unit_zero (S := S512) hz1, View.ld_unit_zero (S := S1x1) hz2, View.ld_unit_zero (S := S1024x1024) hz2]
  refine (pay28_apply _ _ _ _ _ _ _ _ t k).trans ?_
  exact congrFun (congrFun (detV_eq x0 x1 x2 x3 x4 x5 x6 x7 x8 x9 x10 x11 x12 x13 x14 x15 x16 x19 x20 x21 x22 _ _ _ _ _ _ _ _ _ _ _ _ _ _ _ _ _ (taps_of arg28 x0 x3 x4 x5 x6)) t) k

set_option maxHeartbeats 4000000 in
theorem caseA_23 (c : Dev nD) (i : grid0.Coords) (arg2 : Memref sig .tc .vmem S1x1024x512 .f32) (harg2 : arg2.IsWhole) (arg3 : Memref sig .tc .vmem S1x1024x256 .f32) (harg3 : arg3.IsWhole) (arg4 : Memref sig .tc .vmem S1x1024x128 .f32) (harg4 : arg4.IsWhole) (arg5 : Memref sig .tc .vmem S1x64x512 .bf16) (harg5 : arg5.IsWhole) (arg6 : Memref sig .tc .vmem S1x1x64 .f32) (harg6 : arg6.IsWhole) (arg7 : Memref sig .tc .vmem S1x64x512 .bf16) (harg7 : arg7.IsWhole) (arg8 : Memref sig .tc .vmem S1x1x64 .f32) (harg8 : arg8.IsWhole) (arg9 : Memref sig .tc .vmem S1x64x512 .bf16) (harg9 : arg9.IsWhole) (arg10 : Memref sig .tc .vmem S1x1x64 .f32) (harg10 : arg10.IsWhole) (arg11 : Memref sig .tc .vmem S1x32x256 .bf16) (harg11 : arg11.IsWhole) (arg12 : Memref sig .tc .vmem S1x1x32 .f32) (harg12 : arg12.IsWhole) (arg13 : Memref sig .tc .vmem S1x32x256 .bf16) (harg13 : arg13.IsWhole) (arg14 : Memref sig .tc .vmem S1x1x32 .f32) (harg14 : arg14.IsWhole) (arg15 : Memref sig .tc .vmem S1x16x128 .bf16) (harg15 : arg15.IsWhole) (arg16 : Memref sig .tc .vmem S1x1x16 .f32) (harg16 : arg16.IsWhole) (arg17 : Memref sig .tc .vmem S1x16x128 .bf16) (harg17 : arg17.IsWhole) (arg18 : Memref sig .tc .vmem S1x1x16 .f32) (harg18 : arg18.IsWhole) (arg19 : Memref sig .tc .vmem S1x512x64 .bf16) (harg19 : arg19.IsWhole) (arg20 : Memref sig .tc .vmem S512 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1024x1024 .f32) (harg24 : arg24.IsWhole) (arg25 : Memref sig .tc .vmem S1x1024x512 .f32) (harg25 : arg25.IsWhole) (arg26 : Memref sig .tc .vmem S1x1x1024x64 .f32) (harg26 : arg26.IsWhole) (arg27 : Memref sig .tc .vmem S1x1x1024x1024 .f32) (harg27 : arg27.IsWhole) (arg28 : Memref sig .tc .vmem S1040x1040 .f32) (harg28 : arg28.IsWhole) (hc0 : cond0_0 i) (hc1 : ¬cond0_1 i) (x0 : Vec Ideal S1x1024x512 .f32) (x1 : Vec Ideal S1x1024x256 .f32) (x2 : Vec Ideal S1x1024x128 .f32) (x3 : Vec Ideal S1x64x512 .bf16) (x4 : Vec Ideal S1x1x64 .f32) (x5 : Vec Ideal S1x64x512 .bf16) (x6 : Vec Ideal S1x1x64 .f32) (x7 : Vec Ideal S1x64x512 .bf16) (x8 : Vec Ideal S1x1x64 .f32) (x9 : Vec Ideal S1x32x256 .bf16) (x10 : Vec Ideal S1x1x32 .f32) (x11 : Vec Ideal S1x32x256 .bf16) (x12 : Vec Ideal S1x1x32 .f32) (x13 : Vec Ideal S1x16x128 .bf16) (x14 : Vec Ideal S1x1x16 .f32) (x15 : Vec Ideal S1x16x128 .bf16) (x16 : Vec Ideal S1x1x16 .f32) (x17 : Vec Ideal S1x512x64 .bf16) (x18 : Vec Ideal S512 .f32) (x19 : Vec Ideal S1x1 .f32) (x20 : Vec Ideal S1x1 .f32) (x21 : Vec Ideal S1x1 .f32) (x22 : Vec Ideal S1024x1024 .f32) (t : Fin 1024) (e : Fin 512) :
    out0_A_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 (ix3 0 t e) = 0 + conB x0 x1 x2 x3 x4 x5 x6 x7 x8 x9 x10 x11 x12 x13 x14 x15 x16 x17 x19 x20 x21 x22 t e := by
  unfold out0_A_23
  rw [View.read_writes_eq_canon _ _ _ (cover0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22)]
  unfold kernelRun0_A
  dsimp only
  sl_unfold_words
  rw [View.canon_cons_unit_zero (S := S1x1024x512) hz3, View.readCov_unit_zero (S := S1x1024x512) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, View.ld_unit_zero (S := S1x1024x512) hz3, View.ld_unit_zero (S := S1x1024x256) hz3, View.ld_unit_zero (S := S1x1024x128) hz3, View.ld_unit_zero (S := S1x64x512) hz3, View.ld_unit_zero (S := S1x1x64) hz3, View.ld_unit_zero (S := S1x32x256) hz3, View.ld_unit_zero (S := S1x1x32) hz3, View.ld_unit_zero (S := S1x16x128) hz3, View.ld_unit_zero (S := S1x1x16) hz3, View.ld_unit_zero (S := S1x512x64) hz3, View.ld_unit_zero (S := S512) hz1, View.ld_unit_zero (S := S1x1) hz2, View.ld_unit_zero (S := S1024x1024) hz2]
  refine (pay1_apply _ _ _ t e).trans ?_
  rw [pay3_apply]
  exact congrArg (0 + ·) (con_sum x0 x1 x2 x3 x4 x5 x6 x7 x8 x9 x10 x11 x12 x13 x14 x15 x16 x17 x19 x20 x21 x22 _ _ _ _ _ _ _ _ _ _ _ _ _ _ _ _ _ (taps_of arg28 x0 x3 x4 x5 x6) t e)

set_option maxHeartbeats 4000000 in
theorem caseB_23 (c : Dev nD) (i : grid0.Coords) (arg2 : Memref sig .tc .vmem S1x1024x512 .f32) (harg2 : arg2.IsWhole) (arg3 : Memref sig .tc .vmem S1x1024x256 .f32) (harg3 : arg3.IsWhole) (arg4 : Memref sig .tc .vmem S1x1024x128 .f32) (harg4 : arg4.IsWhole) (arg5 : Memref sig .tc .vmem S1x64x512 .bf16) (harg5 : arg5.IsWhole) (arg6 : Memref sig .tc .vmem S1x1x64 .f32) (harg6 : arg6.IsWhole) (arg7 : Memref sig .tc .vmem S1x64x512 .bf16) (harg7 : arg7.IsWhole) (arg8 : Memref sig .tc .vmem S1x1x64 .f32) (harg8 : arg8.IsWhole) (arg9 : Memref sig .tc .vmem S1x64x512 .bf16) (harg9 : arg9.IsWhole) (arg10 : Memref sig .tc .vmem S1x1x64 .f32) (harg10 : arg10.IsWhole) (arg11 : Memref sig .tc .vmem S1x32x256 .bf16) (harg11 : arg11.IsWhole) (arg12 : Memref sig .tc .vmem S1x1x32 .f32) (harg12 : arg12.IsWhole) (arg13 : Memref sig .tc .vmem S1x32x256 .bf16) (harg13 : arg13.IsWhole) (arg14 : Memref sig .tc .vmem S1x1x32 .f32) (harg14 : arg14.IsWhole) (arg15 : Memref sig .tc .vmem S1x16x128 .bf16) (harg15 : arg15.IsWhole) (arg16 : Memref sig .tc .vmem S1x1x16 .f32) (harg16 : arg16.IsWhole) (arg17 : Memref sig .tc .vmem S1x16x128 .bf16) (harg17 : arg17.IsWhole) (arg18 : Memref sig .tc .vmem S1x1x16 .f32) (harg18 : arg18.IsWhole) (arg19 : Memref sig .tc .vmem S1x512x64 .bf16) (harg19 : arg19.IsWhole) (arg20 : Memref sig .tc .vmem S512 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1024x1024 .f32) (harg24 : arg24.IsWhole) (arg25 : Memref sig .tc .vmem S1x1024x512 .f32) (harg25 : arg25.IsWhole) (arg26 : Memref sig .tc .vmem S1x1x1024x64 .f32) (harg26 : arg26.IsWhole) (arg27 : Memref sig .tc .vmem S1x1x1024x1024 .f32) (harg27 : arg27.IsWhole) (arg28 : Memref sig .tc .vmem S1040x1040 .f32) (harg28 : arg28.IsWhole) (hc0 : ¬cond0_0 i) (hc1 : ¬cond0_1 i) (x0 : Vec Ideal S1x1024x512 .f32) (x1 : Vec Ideal S1x1024x256 .f32) (x2 : Vec Ideal S1x1024x128 .f32) (x3 : Vec Ideal S1x64x512 .bf16) (x4 : Vec Ideal S1x1x64 .f32) (x5 : Vec Ideal S1x64x512 .bf16) (x6 : Vec Ideal S1x1x64 .f32) (x7 : Vec Ideal S1x64x512 .bf16) (x8 : Vec Ideal S1x1x64 .f32) (x9 : Vec Ideal S1x32x256 .bf16) (x10 : Vec Ideal S1x1x32 .f32) (x11 : Vec Ideal S1x32x256 .bf16) (x12 : Vec Ideal S1x1x32 .f32) (x13 : Vec Ideal S1x16x128 .bf16) (x14 : Vec Ideal S1x1x16 .f32) (x15 : Vec Ideal S1x16x128 .bf16) (x16 : Vec Ideal S1x1x16 .f32) (x17 : Vec Ideal S1x512x64 .bf16) (x18 : Vec Ideal S512 .f32) (x19 : Vec Ideal S1x1 .f32) (x20 : Vec Ideal S1x1 .f32) (x21 : Vec Ideal S1x1 .f32) (x22 : Vec Ideal S1024x1024 .f32) (xo23 : Vec Ideal S1x1024x512 .f32) (t : Fin 1024) (e : Fin 512) :
    out0_B_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 xo23 (ix3 0 t e) = xo23 (ix3 0 t e) + conB x0 x1 x2 x3 x4 x5 x6 x7 x8 x9 x10 x11 x12 x13 x14 x15 x16 x17 x19 x20 x21 x22 t e := by
  unfold out0_B_23
  rw [View.read_writes_eq_canon _ _ _ (cover0_B_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 xo23)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, View.ld_unit_zero (S := S1x1024x512) hz3, View.ld_unit_zero (S := S1x1024x256) hz3, View.ld_unit_zero (S := S1x1024x128) hz3, View.ld_unit_zero (S := S1x64x512) hz3, View.ld_unit_zero (S := S1x1x64) hz3, View.ld_unit_zero (S := S1x32x256) hz3, View.ld_unit_zero (S := S1x1x32) hz3, View.ld_unit_zero (S := S1x16x128) hz3, View.ld_unit_zero (S := S1x1x16) hz3, View.ld_unit_zero (S := S1x512x64) hz3, View.ld_unit_zero (S := S512) hz1, View.ld_unit_zero (S := S1x1) hz2, View.ld_unit_zero (S := S1024x1024) hz2]
  refine (pay1_apply _ _ _ t e).trans ?_
  exact congrArg (xo23 (ix3 0 t e) + ·) (con_sum x0 x1 x2 x3 x4 x5 x6 x7 x8 x9 x10 x11 x12 x13 x14 x15 x16 x17 x19 x20 x21 x22 _ _ _ _ _ _ _ _ _ _ _ _ _ _ _ _ _ (taps_of arg28 x0 x3 x4 x5 x6) t e)

set_option maxHeartbeats 4000000 in
theorem caseC_23 (c : Dev nD) (i : grid0.Coords) (arg2 : Memref sig .tc .vmem S1x1024x512 .f32) (harg2 : arg2.IsWhole) (arg3 : Memref sig .tc .vmem S1x1024x256 .f32) (harg3 : arg3.IsWhole) (arg4 : Memref sig .tc .vmem S1x1024x128 .f32) (harg4 : arg4.IsWhole) (arg5 : Memref sig .tc .vmem S1x64x512 .bf16) (harg5 : arg5.IsWhole) (arg6 : Memref sig .tc .vmem S1x1x64 .f32) (harg6 : arg6.IsWhole) (arg7 : Memref sig .tc .vmem S1x64x512 .bf16) (harg7 : arg7.IsWhole) (arg8 : Memref sig .tc .vmem S1x1x64 .f32) (harg8 : arg8.IsWhole) (arg9 : Memref sig .tc .vmem S1x64x512 .bf16) (harg9 : arg9.IsWhole) (arg10 : Memref sig .tc .vmem S1x1x64 .f32) (harg10 : arg10.IsWhole) (arg11 : Memref sig .tc .vmem S1x32x256 .bf16) (harg11 : arg11.IsWhole) (arg12 : Memref sig .tc .vmem S1x1x32 .f32) (harg12 : arg12.IsWhole) (arg13 : Memref sig .tc .vmem S1x32x256 .bf16) (harg13 : arg13.IsWhole) (arg14 : Memref sig .tc .vmem S1x1x32 .f32) (harg14 : arg14.IsWhole) (arg15 : Memref sig .tc .vmem S1x16x128 .bf16) (harg15 : arg15.IsWhole) (arg16 : Memref sig .tc .vmem S1x1x16 .f32) (harg16 : arg16.IsWhole) (arg17 : Memref sig .tc .vmem S1x16x128 .bf16) (harg17 : arg17.IsWhole) (arg18 : Memref sig .tc .vmem S1x1x16 .f32) (harg18 : arg18.IsWhole) (arg19 : Memref sig .tc .vmem S1x512x64 .bf16) (harg19 : arg19.IsWhole) (arg20 : Memref sig .tc .vmem S512 .f32) (harg20 : arg20.IsWhole) (arg21 : Memref sig .tc .vmem S1x1 .f32) (harg21 : arg21.IsWhole) (arg22 : Memref sig .tc .vmem S1x1 .f32) (harg22 : arg22.IsWhole) (arg23 : Memref sig .tc .vmem S1x1 .f32) (harg23 : arg23.IsWhole) (arg24 : Memref sig .tc .vmem S1024x1024 .f32) (harg24 : arg24.IsWhole) (arg25 : Memref sig .tc .vmem S1x1024x512 .f32) (harg25 : arg25.IsWhole) (arg26 : Memref sig .tc .vmem S1x1x1024x64 .f32) (harg26 : arg26.IsWhole) (arg27 : Memref sig .tc .vmem S1x1x1024x1024 .f32) (harg27 : arg27.IsWhole) (arg28 : Memref sig .tc .vmem S1040x1040 .f32) (harg28 : arg28.IsWhole) (hc0 : ¬cond0_0 i) (hc1 : cond0_1 i) (x0 : Vec Ideal S1x1024x512 .f32) (x1 : Vec Ideal S1x1024x256 .f32) (x2 : Vec Ideal S1x1024x128 .f32) (x3 : Vec Ideal S1x64x512 .bf16) (x4 : Vec Ideal S1x1x64 .f32) (x5 : Vec Ideal S1x64x512 .bf16) (x6 : Vec Ideal S1x1x64 .f32) (x7 : Vec Ideal S1x64x512 .bf16) (x8 : Vec Ideal S1x1x64 .f32) (x9 : Vec Ideal S1x32x256 .bf16) (x10 : Vec Ideal S1x1x32 .f32) (x11 : Vec Ideal S1x32x256 .bf16) (x12 : Vec Ideal S1x1x32 .f32) (x13 : Vec Ideal S1x16x128 .bf16) (x14 : Vec Ideal S1x1x16 .f32) (x15 : Vec Ideal S1x16x128 .bf16) (x16 : Vec Ideal S1x1x16 .f32) (x17 : Vec Ideal S1x512x64 .bf16) (x18 : Vec Ideal S512 .f32) (x19 : Vec Ideal S1x1 .f32) (x20 : Vec Ideal S1x1 .f32) (x21 : Vec Ideal S1x1 .f32) (x22 : Vec Ideal S1024x1024 .f32) (xo23 : Vec Ideal S1x1024x512 .f32) (t : Fin 1024) (e : Fin 512) :
    out0_C_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 xo23 (ix3 0 t e) = xo23 (ix3 0 t e) + conB x0 x1 x2 x3 x4 x5 x6 x7 x8 x9 x10 x11 x12 x13 x14 x15 x16 x17 x19 x20 x21 x22 t e + x0 (ix3 0 t e) + x18 (ix1 e) := by
  unfold out0_C_23
  rw [View.read_writes_eq_canon _ _ _ (cover0_C_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 x22 xo23)]
  unfold kernelRun0_C
  dsimp only
  sl_unfold_words
  rw [View.canon_cons_unit_zero (S := S1x1024x512) hz3, View.readCov_unit_zero (S := S1x1024x512) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, View.ld_unit_zero (S := S1x1024x512) hz3, View.ld_unit_zero (S := S1x1024x256) hz3, View.ld_unit_zero (S := S1x1024x128) hz3, View.ld_unit_zero (S := S1x64x512) hz3, View.ld_unit_zero (S := S1x1x64) hz3, View.ld_unit_zero (S := S1x32x256) hz3, View.ld_unit_zero (S := S1x1x32) hz3, View.ld_unit_zero (S := S1x16x128) hz3, View.ld_unit_zero (S := S1x1x16) hz3, View.ld_unit_zero (S := S1x512x64) hz3, View.ld_unit_zero (S := S512) hz1, View.ld_unit_zero (S := S1x1) hz2, View.ld_unit_zero (S := S1024x1024) hz2]
  refine (pay2_apply _ _ _ t e).trans ?_
  rw [pay1_apply]
  rw [con_sum x0 x1 x2 x3 x4 x5 x6 x7 x8 x9 x10 x11 x12 x13 x14 x15 x16 x17 x19 x20 x21 x22 _ _ _ _ _ _ _ _ _ _ _ _ _ _ _ _ _ (taps_of arg28 x0 x3 x4 x5 x6) t e]

end Cert.KernelIdeal.Cases

end
-- ==== Proof.KerIdx.lean ====
/-
  The blocks the kernel is handed at a grid point. The grid has 64 points; point `t` works on batch `t / 8` and head
  `t % 8`. Each operand's index map is decided once over the grid; from it, entry (0, p, q) of the block of a
  per-batch operand at point `t` is entry (t / 8, p, q) of the operand's array, entry (0, p, q) of a per-head operand's
  block is entry (t % 8, p, q), and the operands that are handed over whole are read in place.
-/
import proofs.«105714_j66872640798820_2_alg».proof.Proof.Patched.KernelIdeal.Runs
import Idealize.ShloMosaic.Lib.ValueIdx
import Idealize.ShloMosaic.Lib.Pipeline.Value

noncomputable section

namespace Cert.KernelIdeal.Blk

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

theorem lt64 (t : Fin cfg0.N) : t.val < 64 := lt_of_lt_of_eq t.isLt (show cfg0.N = 64 from N_0)

/-- The batch and the head a grid point works on. -/
def bOf (t : Fin cfg0.N) : Fin 8 := ⟨t.val / 8, by have := lt64 t; omega⟩
def hOf (t : Fin cfg0.N) : Fin 8 := ⟨t.val % 8, by omega⟩

theorem idx0 : ∀ t : Fin cfg0.N, win0_0.index t (0 : Fin 3) = t.val / 8 ∧ win0_0.index t (1 : Fin 3) = 0 ∧ win0_0.index t (2 : Fin 3) = 0 :=
  (by decide +kernel : ∀ t : Fin grid0.N, _)

theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)

theorem idx2 : ∀ t : Fin cfg0.N, win0_2.index t (0 : Fin 3) = t.val / 8 ∧ win0_2.index t (1 : Fin 3) = 0 ∧ win0_2.index t (2 : Fin 3) = 0 :=
  (by decide +kernel : ∀ t : Fin grid0.N, _)

theorem idx3 : ∀ t : Fin cfg0.N, win0_3.index t (0 : Fin 3) = t.val % 8 ∧ win0_3.index t (1 : Fin 3) = 0 ∧ win0_3.index t (2 : Fin 3) = 0 :=
  (by decide +kernel : ∀ t : Fin grid0.N, _)

theorem idx4 : ∀ t : Fin cfg0.N, win0_4.index t (0 : Fin 3) = t.val % 8 ∧ win0_4.index t (1 : Fin 3) = 0 ∧ win0_4.index t (2 : Fin 3) = 0 :=
  (by decide +kernel : ∀ t : Fin grid0.N, _)

theorem idx5 : ∀ t : Fin cfg0.N, win0_5.index t (0 : Fin 3) = t.val % 8 ∧ win0_5.index t (1 : Fin 3) = 0 ∧ win0_5.index t (2 : Fin 3) = 0 :=
  (by decide +kernel : ∀ t : Fin grid0.N, _)

theorem idx6 : ∀ t : Fin cfg0.N, win0_6.index t (0 : Fin 3) = t.val % 8 ∧ win0_6.index t (1 : Fin 3) = 0 ∧ win0_6.index t (2 : Fin 3) = 0 :=
  (by decide +kernel : ∀ t : Fin grid0.N, _)

theorem idx7 : ∀ t : Fin cfg0.N, win0_7.index t (0 : Fin 3) = t.val % 8 ∧ win0_7.index t (1 : Fin 3) = 0 ∧ win0_7.index t (2 : Fin 3) = 0 :=
  (by decide +kernel : ∀ t : Fin grid0.N, _)

theorem idx8 : ∀ t : Fin cfg0.N, win0_8.index t (0 : Fin 3) = t.val % 8 ∧ win0_8.index t (1 : Fin 3) = 0 ∧ win0_8.index t (2 : Fin 3) = 0 :=
  (by decide +kernel : ∀ t : Fin grid0.N, _)

theorem idx9 : ∀ t : Fin cfg0.N, win0_9.index t (0 : Fin 3) = t.val % 8 ∧ win0_9.index t (1 : Fin 3) = 0 ∧ win0_9.index t (2 : Fin 3) = 0 :=
  (by decide +kernel : ∀ t : Fin grid0.N, _)

theorem idx10 : ∀ t : Fin cfg0.N, win0_10.index t (0 : Fin 3) = t.val % 8 ∧ win0_10.index t (1 : Fin 3) = 0 ∧ win0_10.index t (2 : Fin 3) = 0 :=
  (by decide +kernel : ∀ t : Fin grid0.N, _)

theorem idx11 : ∀ t : Fin cfg0.N, win0_11.index t (0 : Fin 3) = t.val % 8 ∧ win0_11.index t (1 : Fin 3) = 0 ∧ win0_11.index t (2 : Fin 3) = 0 :=
  (by decide +kernel : ∀ t : Fin grid0.N, _)

theorem idx12 : ∀ t : Fin cfg0.N, win0_12.index t (0 : Fin 3) = t.val % 8 ∧ win0_12.index t (1 : Fin 3) = 0 ∧ win0_12.index t (2 : Fin 3) = 0 :=
  (by decide +kernel : ∀ t : Fin grid0.N, _)

theorem idx13 : ∀ t : Fin cfg0.N, win0_13.index t (0 : Fin 3) = t.val % 8 ∧ win0_13.index t (1 : Fin 3) = 0 ∧ win0_13.index t (2 : Fin 3) = 0 :=
  (by decide +kernel : ∀ t : Fin grid0.N, _)

theorem idx14 : ∀ t : Fin cfg0.N, win0_14.index t (0 : Fin 3) = t.val % 8 ∧ win0_14.index t (1 : Fin 3) = 0 ∧ win0_14.index t (2 : Fin 3) = 0 :=
  (by decide +kernel : ∀ t : Fin grid0.N, _)

theorem idx15 : ∀ t : Fin cfg0.N, win0_15.index t (0 : Fin 3) = t.val % 8 ∧ win0_15.index t (1 : Fin 3) = 0 ∧ win0_15.index t (2 : Fin 3) = 0 :=
  (by decide +kernel : ∀ t : Fin grid0.N, _)

theorem idx16 : ∀ t : Fin cfg0.N, win0_16.index t (0 : Fin 3) = t.val % 8 ∧ win0_16.index t (1 : Fin 3) = 0 ∧ win0_16.index t (2 : Fin 3) = 0 :=
  (by decide +kernel : ∀ t : Fin grid0.N, _)

theorem idx17 : ∀ t : Fin cfg0.N, win0_17.index t (0 : Fin 3) = t.val % 8 ∧ win0_17.index t (1 : Fin 3) = 0 ∧ win0_17.index t (2 : Fin 3) = 0 :=
  (by decide +kernel : ∀ t : Fin grid0.N, _)

theorem idx18 : ∀ t : Fin cfg0.N, win0_18.index t (0 : Fin 1) = 0 :=
  (by decide +kernel : ∀ t : Fin grid0.N, _)

theorem idx19 : ∀ t : Fin cfg0.N, win0_19.index t (0 : Fin 2) = 0 ∧ win0_19.index t (1 : Fin 2) = 0 :=
  (by decide +kernel : ∀ t : Fin grid0.N, _)

theorem idx20 : ∀ t : Fin cfg0.N, win0_20.index t (0 : Fin 2) = 0 ∧ win0_20.index t (1 : Fin 2) = 0 :=
  (by decide +kernel : ∀ t : Fin grid0.N, _)

theorem idx21 : ∀ t : Fin cfg0.N, win0_21.index t (0 : Fin 2) = 0 ∧ win0_21.index t (1 : Fin 2) = 0 :=
  (by decide +kernel : ∀ t : Fin grid0.N, _)

theorem idx22 : ∀ t : Fin cfg0.N, win0_22.index t (0 : Fin 2) = 0 ∧ win0_22.index t (1 : Fin 2) = 0 :=
  (by decide +kernel : ∀ t : Fin grid0.N, _)

theorem idx23 : ∀ t : Fin cfg0.N, win0_23.index t (0 : Fin 3) = t.val / 8 ∧ win0_23.index t (1 : Fin 3) = 0 ∧ win0_23.index t (2 : Fin 3) = 0 :=
  (by decide +kernel : ∀ t : Fin grid0.N, _)

theorem idx24 : ∀ t : Fin cfg0.N, win0_24.index t (0 : Fin 4) = t.val / 8 ∧ win0_24.index t (1 : Fin 4) = t.val % 8 ∧ win0_24.index t (2 : Fin 4) = 0 ∧ win0_24.index t (3 : Fin 4) = 0 :=
  (by decide +kernel : ∀ t : Fin grid0.N, _)

theorem idx25 : ∀ t : Fin cfg0.N, win0_25.index t (0 : Fin 4) = t.val / 8 ∧ win0_25.index t (1 : Fin 4) = t.val % 8 ∧ win0_25.index t (2 : Fin 4) = 0 ∧ win0_25.index t (3 : Fin 4) = 0 :=
  (by decide +kernel : ∀ t : Fin grid0.N, _)

end Cert.KernelIdeal.Blk

end
-- ==== Proof.KerBlocksA.lean ====
/-
  Blocks of the per-batch operands and of the content projections' per-head operands, read off their arrays
  (see KerIdx for the index maps).
-/
import proofs.«105714_j66872640798820_2_alg».proof.Proof.KerIdx
import Idealize.ShloMosaic.Lib.ValueIdx
import Idealize.ShloMosaic.Lib.Pipeline.Value

noncomputable section

namespace Cert.KernelIdeal.Blk

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

theorem iblk0_apply (c : Dev nD) (t : Fin cfg0.N) (p : Fin 1024) (q : Fin 512) :
    (iblk m c 0 t : Vec F S1x1024x512 .f32) (ix3 0 p q) = V m c main_arg0 (ix3 (bOf t) p q) := by
  obtain ⟨e0, e1, e2⟩ := idx0 t
  unfold iblk
  rw [View.read_apply]
  show V m c main_arg0 _ = V m c main_arg0 _
  congr 1
  funext a
  apply Fin.ext
  match a with
  | ⟨0, _⟩ => show win0_0.index t (0 : Fin 3) * 1 + 1 * 0 = t.val / 8; rw [e0]; omega
  | ⟨1, _⟩ => show win0_0.index t (1 : Fin 3) * 1024 + 1 * p.val = p.val; rw [e1]; omega
  | ⟨2, _⟩ => show win0_0.index t (2 : Fin 3) * 512 + 1 * q.val = q.val; rw [e2]; omega

theorem iblk1_apply (c : Dev nD) (t : Fin cfg0.N) (p : Fin 1024) (q : Fin 256) :
    (iblk m c 1 t : Vec F S1x1024x256 .f32) (ix3 0 p q) = V m c main_arg1 (ix3 (bOf t) p q) := by
  obtain ⟨e0, e1, e2⟩ := idx1 t
  unfold iblk
  rw [View.read_apply]
  show V m c main_arg1 _ = V m c main_arg1 _
  congr 1
  funext a
  apply Fin.ext
  match a with
  | ⟨0, _⟩ => show win0_1.index t (0 : Fin 3) * 1 + 1 * 0 = t.val / 8; rw [e0]; omega
  | ⟨1, _⟩ => show win0_1.index t (1 : Fin 3) * 1024 + 1 * p.val = p.val; rw [e1]; omega
  | ⟨2, _⟩ => show win0_1.index t (2 : Fin 3) * 256 + 1 * q.val = q.val; rw [e2]; omega

theorem iblk2_apply (c : Dev nD) (t : Fin cfg0.N) (p : Fin 1024) (q : Fin 128) :
    (iblk m c 2 t : Vec F S1x1024x128 .f32) (ix3 0 p q) = V m c main_arg2 (ix3 (bOf t) p q) := by
  obtain ⟨e0, e1, e2⟩ := idx2 t
  unfold iblk
  rw [View.read_apply]
  show V m c main_arg2 _ = V m c main_arg2 _
  congr 1
  funext a
  apply Fin.ext
  match a with
  | ⟨0, _⟩ => show win0_2.index t (0 : Fin 3) * 1 + 1 * 0 = t.val / 8; rw [e0]; omega
  | ⟨1, _⟩ => show win0_2.index t (1 : Fin 3) * 1024 + 1 * p.val = p.val; rw [e1]; omega
  | ⟨2, _⟩ => show win0_2.index t (2 : Fin 3) * 128 + 1 * q.val = q.val; rw [e2]; omega

theorem iblk3_apply (c : Dev nD) (t : Fin cfg0.N) (p : Fin 64) (q : Fin 512) :
    (iblk m c 3 t : Vec F S1x64x512 .bf16) (ix3 0 p q) = V m c main_v10 (ix3 (hOf t) p q) := by
  obtain ⟨e0, e1, e2⟩ := idx3 t
  unfold iblk
  rw [View.read_apply]
  show V m c main_v10 _ = V m c main_v10 _
  congr 1
  funext a
  apply Fin.ext
  match a with
  | ⟨0, _⟩ => show win0_3.index t (0 : Fin 3) * 1 + 1 * 0 = t.val % 8; rw [e0]; omega
  | ⟨1, _⟩ => show win0_3.index t (1 : Fin 3) * 64 + 1 * p.val = p.val; rw [e1]; omega
  | ⟨2, _⟩ => show win0_3.index t (2 : Fin 3) * 512 + 1 * q.val = q.val; rw [e2]; omega

theorem iblk4_apply (c : Dev nD) (t : Fin cfg0.N) (p : Fin 1) (q : Fin 64) :
    (iblk m c 4 t : Vec F S1x1x64 .f32) (ix3 0 p q) = V m c main_v27 (ix3 (hOf t) p q) := by
  obtain ⟨e0, e1, e2⟩ := idx4 t
  unfold iblk
  rw [View.read_apply]
  show V m c main_v27 _ = V m c main_v27 _
  congr 1
  funext a
  apply Fin.ext
  match a with
  | ⟨0, _⟩ => show win0_4.index t (0 : Fin 3) * 1 + 1 * 0 = t.val % 8; rw [e0]; omega
  | ⟨1, _⟩ => show win0_4.index t (1 : Fin 3) * 1 + 1 * p.val = p.val; rw [e1]; omega
  | ⟨2, _⟩ => show win0_4.index t (2 : Fin 3) * 64 + 1 * q.val = q.val; rw [e2]; omega

theorem iblk5_apply (c : Dev nD) (t : Fin cfg0.N) (p : Fin 64) (q : Fin 512) :
    (iblk m c 5 t : Vec F S1x64x512 .bf16) (ix3 0 p q) = V m c main_v14 (ix3 (hOf t) p q) := by
  obtain ⟨e0, e1, e2⟩ := idx5 t
  unfold iblk
  rw [View.read_apply]
  show V m c main_v14 _ = V m c main_v14 _
  congr 1
  funext a
  apply Fin.ext
  match a with
  | ⟨0, _⟩ => show win0_5.index t (0 : Fin 3) * 1 + 1 * 0 = t.val % 8; rw [e0]; omega
  | ⟨1, _⟩ => show win0_5.index t (1 : Fin 3) * 64 + 1 * p.val = p.val; rw [e1]; omega
  | ⟨2, _⟩ => show win0_5.index t (2 : Fin 3) * 512 + 1 * q.val = q.val; rw [e2]; omega

theorem iblk6_apply (c : Dev nD) (t : Fin cfg0.N) (p : Fin 1) (q : Fin 64) :
    (iblk m c 6 t : Vec F S1x1x64 .f32) (ix3 0 p q) = V m c main_v28 (ix3 (hOf t) p q) := by
  obtain ⟨e0, e1, e2⟩ := idx6 t
  unfold iblk
  rw [View.read_apply]
  show V m c main_v28 _ = V m c main_v28 _
  congr 1
  funext a
  apply Fin.ext
  match a with
  | ⟨0, _⟩ => show win0_6.index t (0 : Fin 3) * 1 + 1 * 0 = t.val % 8; rw [e0]; omega
  | ⟨1, _⟩ => show win0_6.index t (1 : Fin 3) * 1 + 1 * p.val = p.val; rw [e1]; omega
  | ⟨2, _⟩ => show win0_6.index t (2 : Fin 3) * 64 + 1 * q.val = q.val; rw [e2]; omega

theorem iblk7_apply (c : Dev nD) (t : Fin cfg0.N) (p : Fin 64) (q : Fin 512) :
    (iblk m c 7 t : Vec F S1x64x512 .bf16) (ix3 0 p q) = V m c main_v18 (ix3 (hOf t) p q) := by
  obtain ⟨e0, e1, e2⟩ := idx7 t
  unfold iblk
  rw [View.read_apply]
  show V m c main_v18 _ = V m c main_v18 _
  congr 1
  funext a
  apply Fin.ext
  match a with
  | ⟨0, _⟩ => show win0_7.index t (0 : Fin 3) * 1 + 1 * 0 = t.val % 8; rw [e0]; omega
  | ⟨1, _⟩ => show win0_7.index t (1 : Fin 3) * 64 + 1 * p.val = p.val; rw [e1]; omega
  | ⟨2, _⟩ => show win0_7.index t (2 : Fin 3) * 512 + 1 * q.val = q.val; rw [e2]; omega

theorem iblk8_apply (c : Dev nD) (t : Fin cfg0.N) (p : Fin 1) (q : Fin 64) :
    (iblk m c 8 t : Vec F S1x1x64 .f32) (ix3 0 p q) = V m c main_v29 (ix3 (hOf t) p q) := by
  obtain ⟨e0, e1, e2⟩ := idx8 t
  unfold iblk
  rw [View.read_apply]
  show V m c main_v29 _ = V m c main_v29 _
  congr 1
  funext a
  apply Fin.ext
  match a with
  | ⟨0, _⟩ => show win0_8.index t (0 : Fin 3) * 1 + 1 * 0 = t.val % 8; rw [e0]; omega
  | ⟨1, _⟩ => show win0_8.index t (1 : Fin 3) * 1 + 1 * p.val = p.val; rw [e1]; omega
  | ⟨2, _⟩ => show win0_8.index t (2 : Fin 3) * 64 + 1 * q.val = q.val; rw [e2]; omega

end Cert.KernelIdeal.Blk

end
-- ==== Proof.KerBlocksB.lean ====
/-
  Blocks of the auxiliary and positional projections' per-head operands, of the output matrix, and the operands
  handed over whole, read off their arrays (see KerIdx for the index maps).
-/
import proofs.«105714_j66872640798820_2_alg».proof.Proof.KerIdx
import Idealize.ShloMosaic.Lib.ValueIdx
import Idealize.ShloMosaic.Lib.Pipeline.Value

noncomputable section

namespace Cert.KernelIdeal.Blk

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

theorem iblk9_apply (c : Dev nD) (t : Fin cfg0.N) (p : Fin 32) (q : Fin 256) :
    (iblk m c 9 t : Vec F S1x32x256 .bf16) (ix3 0 p q) = V m c main_v23 (ix3 (hOf t) p q) := by
  obtain ⟨e0, e1, e2⟩ := idx9 t
  unfold iblk
  rw [View.read_apply]
  show V m c main_v23 _ = V m c main_v23 _
  congr 1
  funext a
  apply Fin.ext
  match a with
  | ⟨0, _⟩ => show win0_9.index t (0 : Fin 3) * 1 + 1 * 0 = t.val % 8; rw [e0]; omega
  | ⟨1, _⟩ => show win0_9.index t (1 : Fin 3) * 32 + 1 * p.val = p.val; rw [e1]; omega
  | ⟨2, _⟩ => show win0_9.index t (2 : Fin 3) * 256 + 1 * q.val = q.val; rw [e2]; omega

theorem iblk10_apply (c : Dev nD) (t : Fin cfg0.N) (p : Fin 1) (q : Fin 32) :
    (iblk m c 10 t : Vec F S1x1x32 .f32) (ix3 0 p q) = V m c main_v30 (ix3 (hOf t) p q) := by
  obtain ⟨e0, e1, e2⟩ := idx10 t
  unfold iblk
  rw [View.read_apply]
  show V m c main_v30 _ = V m c main_v30 _
  congr 1
  funext a
  apply Fin.ext
  match a with
  | ⟨0, _⟩ => show win0_10.index t (0 : Fin 3) * 1 + 1 * 0 = t.val % 8; rw [e0]; omega
  | ⟨1, _⟩ => show win0_10.index t (1 : Fin 3) * 1 + 1 * p.val = p.val; rw [e1]; omega
  | ⟨2, _⟩ => show win0_10.index t (2 : Fin 3) * 32 + 1 * q.val = q.val; rw [e2]; omega

theorem iblk11_apply (c : Dev nD) (t : Fin cfg0.N) (p : Fin 32) (q : Fin 256) :
    (iblk m c 11 t : Vec F S1x32x256 .bf16) (ix3 0 p q) = V m c main_v24 (ix3 (hOf t) p q) := by
  obtain ⟨e0, e1, e2⟩ := idx11 t
  unfold iblk
  rw [View.read_apply]
  show V m c main_v24 _ = V m c main_v24 _
  congr 1
  funext a
  apply Fin.ext
  match a with
  | ⟨0, _⟩ => show win0_11.index t (0 : Fin 3) * 1 + 1 * 0 = t.val % 8; rw [e0]; omega
  | ⟨1, _⟩ => show win0_11.index t (1 : Fin 3) * 32 + 1 * p.val = p.val; rw [e1]; omega
  | ⟨2, _⟩ => show win0_11.index t (2 : Fin 3) * 256 + 1 * q.val = q.val; rw [e2]; omega

theorem iblk12_apply (c : Dev nD) (t : Fin cfg0.N) (p : Fin 1) (q : Fin 32) :
    (iblk m c 12 t : Vec F S1x1x32 .f32) (ix3 0 p q) = V m c main_v31 (ix3 (hOf t) p q) := by
  obtain ⟨e0, e1, e2⟩ := idx12 t
  unfold iblk
  rw [View.read_apply]
  show V m c main_v31 _ = V m c main_v31 _
  congr 1
  funext a
  apply Fin.ext
  match a with
  | ⟨0, _⟩ => show win0_12.index t (0 : Fin 3) * 1 + 1 * 0 = t.val % 8; rw [e0]; omega
  | ⟨1, _⟩ => show win0_12.index t (1 : Fin 3) * 1 + 1 * p.val = p.val; rw [e1]; omega
  | ⟨2, _⟩ => show win0_12.index t (2 : Fin 3) * 32 + 1 * q.val = q.val; rw [e2]; omega

theorem iblk13_apply (c : Dev nD) (t : Fin cfg0.N) (p : Fin 16) (q : Fin 128) :
    (iblk m c 13 t : Vec F S1x16x128 .bf16) (ix3 0 p q) = V m c main_v25 (ix3 (hOf t) p q) := by
  obtain ⟨e0, e1, e2⟩ := idx13 t
  unfold iblk
  rw [View.read_apply]
  show V m c main_v25 _ = V m c main_v25 _
  congr 1
  funext a
  apply Fin.ext
  match a with
  | ⟨0, _⟩ => show win0_13.index t (0 : Fin 3) * 1 + 1 * 0 = t.val % 8; rw [e0]; omega
  | ⟨1, _⟩ => show win0_13.index t (1 : Fin 3) * 16 + 1 * p.val = p.val; rw [e1]; omega
  | ⟨2, _⟩ => show win0_13.index t (2 : Fin 3) * 128 + 1 * q.val = q.val; rw [e2]; omega

theorem iblk14_apply (c : Dev nD) (t : Fin cfg0.N) (p : Fin 1) (q : Fin 16) :
    (iblk m c 14 t : Vec F S1x1x16 .f32) (ix3 0 p q) = V m c main_v32 (ix3 (hOf t) p q) := by
  obtain ⟨e0, e1, e2⟩ := idx14 t
  unfold iblk
  rw [View.read_apply]
  show V m c main_v32 _ = V m c main_v32 _
  congr 1
  funext a
  apply Fin.ext
  match a with
  | ⟨0, _⟩ => show win0_14.index t (0 : Fin 3) * 1 + 1 * 0 = t.val % 8; rw [e0]; omega
  | ⟨1, _⟩ => show win0_14.index t (1 : Fin 3) * 1 + 1 * p.val = p.val; rw [e1]; omega
  | ⟨2, _⟩ => show win0_14.index t (2 : Fin 3) * 16 + 1 * q.val = q.val; rw [e2]; omega

theorem iblk15_apply (c : Dev nD) (t : Fin cfg0.N) (p : Fin 16) (q : Fin 128) :
    (iblk m c 15 t : Vec F S1x16x128 .bf16) (ix3 0 p q) = V m c main_v26 (ix3 (hOf t) p q) := by
  obtain ⟨e0, e1, e2⟩ := idx15 t
  unfold iblk
  rw [View.read_apply]
  show V m c main_v26 _ = V m c main_v26 _
  congr 1
  funext a
  apply Fin.ext
  match a with
  | ⟨0, _⟩ => show win0_15.index t (0 : Fin 3) * 1 + 1 * 0 = t.val % 8; rw [e0]; omega
  | ⟨1, _⟩ => show win0_15.index t (1 : Fin 3) * 16 + 1 * p.val = p.val; rw [e1]; omega
  | ⟨2, _⟩ => show win0_15.index t (2 : Fin 3) * 128 + 1 * q.val = q.val; rw [e2]; omega

theorem iblk16_apply (c : Dev nD) (t : Fin cfg0.N) (p : Fin 1) (q : Fin 16) :
    (iblk m c 16 t : Vec F S1x1x16 .f32) (ix3 0 p q) = V m c main_v33 (ix3 (hOf t) p q) := by
  obtain ⟨e0, e1, e2⟩ := idx16 t
  unfold iblk
  rw [View.read_apply]
  show V m c main_v33 _ = V m c main_v33 _
  congr 1
  funext a
  apply Fin.ext
  match a with
  | ⟨0, _⟩ => show win0_16.index t (0 : Fin 3) * 1 + 1 * 0 = t.val % 8; rw [e0]; omega
  | ⟨1, _⟩ => show win0_16.index t (1 : Fin 3) * 1 + 1 * p.val = p.val; rw [e1]; omega
  | ⟨2, _⟩ => show win0_16.index t (2 : Fin 3) * 16 + 1 * q.val = q.val; rw [e2]; omega

theorem iblk17_apply (c : Dev nD) (t : Fin cfg0.N) (p : Fin 512) (q : Fin 64) :
    (iblk m c 17 t : Vec F S1x512x64 .bf16) (ix3 0 p q) = V m c main_v22 (ix3 (hOf t) p q) := by
  obtain ⟨e0, e1, e2⟩ := idx17 t
  unfold iblk
  rw [View.read_apply]
  show V m c main_v22 _ = V m c main_v22 _
  congr 1
  funext a
  apply Fin.ext
  match a with
  | ⟨0, _⟩ => show win0_17.index t (0 : Fin 3) * 1 + 1 * 0 = t.val % 8; rw [e0]; omega
  | ⟨1, _⟩ => show win0_17.index t (1 : Fin 3) * 512 + 1 * p.val = p.val; rw [e1]; omega
  | ⟨2, _⟩ => show win0_17.index t (2 : Fin 3) * 64 + 1 * q.val = q.val; rw [e2]; omega

theorem iblk18_apply (c : Dev nD) (t : Fin cfg0.N) (e : Fin 512) :
    (iblk m c 18 t : Vec F S512 .f32) (ix1 e) = V m c main_arg18 (ix1 e) := by
  have e0 := idx18 t
  unfold iblk
  rw [View.read_apply]
  show V m c main_arg18 _ = V m c main_arg18 _
  congr 1
  funext a
  apply Fin.ext
  match a with
  | ⟨0, _⟩ => show win0_18.index t (0 : Fin 1) * 512 + 1 * e.val = e.val; rw [e0]; omega

theorem iblk19_apply (c : Dev nD) (t : Fin cfg0.N) :
    (iblk m c 19 t : Vec F S1x1 .f32) (ix2 0 0) = V m c main_arg19 (ix2 0 0) := by
  obtain ⟨e0, e1⟩ := idx19 t
  unfold iblk
  rw [View.read_apply]
  show V m c main_arg19 _ = V m c main_arg19 _
  congr 1
  funext a
  apply Fin.ext
  match a with
  | ⟨0, _⟩ => show win0_19.index t (0 : Fin 2) * 1 + 1 * 0 = 0; rw [e0]
  | ⟨1, _⟩ => show win0_19.index t (1 : Fin 2) * 1 + 1 * 0 = 0; rw [e1]

theorem iblk20_apply (c : Dev nD) (t : Fin cfg0.N) :
    (iblk m c 20 t : Vec F S1x1 .f32) (ix2 0 0) = V m c main_arg20 (ix2 0 0) := by
  obtain ⟨e0, e1⟩ := idx20 t
  unfold iblk
  rw [View.read_apply]
  show V m c main_arg20 _ = V m c main_arg20 _
  congr 1
  funext a
  apply Fin.ext
  match a with
  | ⟨0, _⟩ => show win0_20.index t (0 : Fin 2) * 1 + 1 * 0 = 0; rw [e0]
  | ⟨1, _⟩ => show win0_20.index t (1 : Fin 2) * 1 + 1 * 0 = 0; rw [e1]

theorem iblk21_apply (c : Dev nD) (t : Fin cfg0.N) :
    (iblk m c 21 t : Vec F S1x1 .f32) (ix2 0 0) = V m c main_arg21 (ix2 0 0) := by
  obtain ⟨e0, e1⟩ := idx21 t
  unfold iblk
  rw [View.read_apply]
  show V m c main_arg21 _ = V m c main_arg21 _
  congr 1
  funext a
  apply Fin.ext
  match a with
  | ⟨0, _⟩ => show win0_21.index t (0 : Fin 2) * 1 + 1 * 0 = 0; rw [e0]
  | ⟨1, _⟩ => show win0_21.index t (1 : Fin 2) * 1 + 1 * 0 = 0; rw [e1]

theorem iblk22_apply (c : Dev nD) (t : Fin cfg0.N) (a b : Fin 1024) :
    (iblk m c 22 t : Vec F S1024x1024 .f32) (ix2 a b) = V m c main_v54 (ix2 a b) := by
  obtain ⟨e0, e1⟩ := idx22 t
  unfold iblk
  rw [View.read_apply]
  show V m c main_v54 _ = V m c main_v54 _
  congr 1
  funext d
  apply Fin.ext
  match d with
  | ⟨0, _⟩ => show win0_22.index t (0 : Fin 2) * 1024 + 1 * a.val = a.val; rw [e0]; omega
  | ⟨1, _⟩ => show win0_22.index t (1 : Fin 2) * 1024 + 1 * b.val = b.val; rw [e1]; omega

end Cert.KernelIdeal.Blk

end
-- ==== Proof.KerInputs.lean ====
/-
  What the kernel is given, as the specification's inputs: each array the region is handed, as it stands at the
  region's entry, read by plain coordinates. The per-head biases arrive as [8, 1, n] arrays, and the masked output
  matrix arrives head-major, as [8, 512, 64]: its entry (e, 64 h + k) sits at (h, e, k).
-/
import proofs.«105714_j66872640798820_2_alg».proof.Proof.Patched.KernelIdeal.Runs
import proofs.«105714_j66872640798820_2_alg».proof.Proof.Spec
import Idealize.ShloMosaic.Lib.ValueIdx

noncomputable section

namespace Cert.KernelIdeal.KIn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

def kin (c : Dev nD) : GsaSpec.Inputs where
  x := fun b t q => V m c main_arg0 (ix3 b t q)
  aux := fun b t q => V m c main_arg1 (ix3 b t q)
  pos := fun b t q => V m c main_arg2 (ix3 b t q)
  MQ := fun h k q => V m c main_v10 (ix3 h k q)
  bq := fun h k => V m c main_v27 (ix3 h 0 k)
  MK := fun h k q => V m c main_v14 (ix3 h k q)
  bk := fun h k => V m c main_v28 (ix3 h 0 k)
  MV := fun h k q => V m c main_v18 (ix3 h k q)
  bv := fun h k => V m c main_v29 (ix3 h 0 k)
  Wqa := fun h k q => V m c main_v23 (ix3 h k q)
  bqa := fun h k => V m c main_v30 (ix3 h 0 k)
  Wka := fun h k q => V m c main_v24 (ix3 h k q)
  bka := fun h k => V m c main_v31 (ix3 h 0 k)
  Wqp := fun h k q => V m c main_v25 (ix3 h k q)
  bqp := fun h k => V m c main_v32 (ix3 h 0 k)
  Wkp := fun h k q => V m c main_v26 (ix3 h k q)
  bkp := fun h k => V m c main_v33 (ix3 h 0 k)
  MO := fun e d => V m c main_v22 (ix3 (⟨d.val / 64, by omega⟩ : Fin 8) e (⟨d.val % 64, by omega⟩ : Fin 64))
  bO := fun e => V m c main_arg18 (ix1 e)
  w := V m c main_arg19 (ix2 0 0)
  wa := V m c main_arg20 (ix2 0 0)
  wp := V m c main_arg21 (ix2 0 0)
  cnt := fun a b => V m c main_v54 (ix2 a b)

/-! ### The fields, spelt out (so that nothing has to be found by unfolding the arrays) -/

theorem kin_x (c : Dev nD) (a : Fin 8) (b : Fin 1024) (q : Fin 512) : (kin m c).x a b q = V m c main_arg0 (ix3 a b q) := by unfold kin; rfl
theorem kin_aux (c : Dev nD) (a : Fin 8) (b : Fin 1024) (q : Fin 256) : (kin m c).aux a b q = V m c main_arg1 (ix3 a b q) := by unfold kin; rfl
theorem kin_pos (c : Dev nD) (a : Fin 8) (b : Fin 1024) (q : Fin 128) : (kin m c).pos a b q = V m c main_arg2 (ix3 a b q) := by unfold kin; rfl
theorem kin_MQ (c : Dev nD) (a : Fin 8) (b : Fin 64) (q : Fin 512) : (kin m c).MQ a b q = V m c main_v10 (ix3 a b q) := by unfold kin; rfl
theorem kin_MK (c : Dev nD) (a : Fin 8) (b : Fin 64) (q : Fin 512) : (kin m c).MK a b q = V m c main_v14 (ix3 a b q) := by unfold kin; rfl
theorem kin_MV (c : Dev nD) (a : Fin 8) (b : Fin 64) (q : Fin 512) : (kin m c).MV a b q = V m c main_v18 (ix3 a b q) := by unfold kin; rfl
theorem kin_Wqa (c : Dev nD) (a : Fin 8) (b : Fin 32) (q : Fin 256) : (kin m c).Wqa a b q = V m c main_v23 (ix3 a b q) := by unfold kin; rfl
theorem kin_Wka (c : Dev nD) (a : Fin 8) (b : Fin 32) (q : Fin 256) : (kin m c).Wka a b q = V m c main_v24 (ix3 a b q) := by unfold kin; rfl
theorem kin_Wqp (c : Dev nD) (a : Fin 8) (b : Fin 16) (q : Fin 128) : (kin m c).Wqp a b q = V m c main_v25 (ix3 a b q) := by unfold kin; rfl
theorem kin_Wkp (c : Dev nD) (a : Fin 8) (b : Fin 16) (q : Fin 128) : (kin m c).Wkp a b q = V m c main_v26 (ix3 a b q) := by unfold kin; rfl
theorem kin_bq (c : Dev nD) (h : Fin 8) (k : Fin 64) : (kin m c).bq h k = V m c main_v27 (ix3 h 0 k) := by unfold kin; rfl
theorem kin_bk (c : Dev nD) (h : Fin 8) (k : Fin 64) : (kin m c).bk h k = V m c main_v28 (ix3 h 0 k) := by unfold kin; rfl
theorem kin_bv (c : Dev nD) (h : Fin 8) (k : Fin 64) : (kin m c).bv h k = V m c main_v29 (ix3 h 0 k) := by unfold kin; rfl
theorem kin_bqa (c : Dev nD) (h : Fin 8) (k : Fin 32) : (kin m c).bqa h k = V m c main_v30 (ix3 h 0 k) := by unfold kin; rfl
theorem kin_bka (c : Dev nD) (h : Fin 8) (k : Fin 32) : (kin m c).bka h k = V m c main_v31 (ix3 h 0 k) := by unfold kin; rfl
theorem kin_bqp (c : Dev nD) (h : Fin 8) (k : Fin 16) : (kin m c).bqp h k = V m c main_v32 (ix3 h 0 k) := by unfold kin; rfl
theorem kin_bkp (c : Dev nD) (h : Fin 8) (k : Fin 16) : (kin m c).bkp h k = V m c main_v33 (ix3 h 0 k) := by unfold kin; rfl
theorem kin_bO (c : Dev nD) (e : Fin 512) : (kin m c).bO e = V m c main_arg18 (ix1 e) := by unfold kin; rfl
theorem kin_w (c : Dev nD) : (kin m c).w = V m c main_arg19 (ix2 0 0) := by unfold kin; rfl
theorem kin_wa (c : Dev nD) : (kin m c).wa = V m c main_arg20 (ix2 0 0) := by unfold kin; rfl
theorem kin_wp (c : Dev nD) : (kin m c).wp = V m c main_arg21 (ix2 0 0) := by unfold kin; rfl
theorem kin_cnt (c : Dev nD) (a b : Fin 1024) : (kin m c).cnt a b = V m c main_v54 (ix2 a b) := by unfold kin; rfl

/-- The masked output matrix at feature `k` of head `h`. -/
theorem MO_hk (c : Dev nD) (e : Fin 512) (h : Fin 8) (k : Fin 64) :
    (kin m c).MO e (GsaSpec.hk h k) = V m c main_v22 (ix3 h e k) := by
  show V m c main_v22 (ix3 _ e _) = V m c main_v22 (ix3 h e k)
  have e1 : (⟨(GsaSpec.hk h k).val / 64, by omega⟩ : Fin 8) = h := Fin.ext (by show (64 * h.val + k.val) / 64 = h.val; omega)
  have e2 : (⟨(GsaSpec.hk h k).val % 64, by omega⟩ : Fin 64) = k := Fin.ext (by show (64 * h.val + k.val) % 64 = k.val; omega)
  rw [e1, e2]

end Cert.KernelIdeal.KIn

end
-- ==== Proof.KerAccBlocks.lean ====
/-
  The blocks at a grid point, named once at their literal types, are the inputs' at the point's batch and head:
  so the point's share of the specification is the specification's at that batch and head.
-/
import proofs.«105714_j66872640798820_2_alg».proof.Proof.KerBlocksA
import proofs.«105714_j66872640798820_2_alg».proof.Proof.KerBlocksB
import proofs.«105714_j66872640798820_2_alg».proof.Proof.KerInputs
import proofs.«105714_j66872640798820_2_alg».proof.Proof.BlockSpec

set_option maxRecDepth 16384

noncomputable section

namespace Cert.KernelIdeal.Acc

open Idealize.ShloMosaic Idealize.ShloMosaic.TcCoe Idealize.ShloMosaic.ValueIdx Idealize.SL.Sem
open Cert.KernelIdeal Cert.KernelIdeal.Gen Cert.KernelIdeal.Blk Cert.KernelIdeal.BlkSpec Cert.KernelIdeal.KIn

variable (m : (ℓ : Loc nD τ sig) → Buf (Elt Ideal) ℓ) (c : Dev nD)

/-- Operand 0's block at point `t`. -/
def B0 (t : Fin cfg0.N) : Vec Ideal S1x1024x512 .f32 := iblk m c 0 t
/-- Operand 1's block at point `t`. -/
def B1 (t : Fin cfg0.N) : Vec Ideal S1x1024x256 .f32 := iblk m c 1 t
/-- Operand 2's block at point `t`. -/
def B2 (t : Fin cfg0.N) : Vec Ideal S1x1024x128 .f32 := iblk m c 2 t
/-- Operand 3's block at point `t`. -/
def B3 (t : Fin cfg0.N) : Vec Ideal S1x64x512 .bf16 := iblk m c 3 t
/-- Operand 4's block at point `t`. -/
def B4 (t : Fin cfg0.N) : Vec Ideal S1x1x64 .f32 := iblk m c 4 t
/-- Operand 5's block at point `t`. -/
def B5 (t : Fin cfg0.N) : Vec Ideal S1x64x512 .bf16 := iblk m c 5 t
/-- Operand 6's block at point `t`. -/
def B6 (t : Fin cfg0.N) : Vec Ideal S1x1x64 .f32 := iblk m c 6 t
/-- Operand 7's block at point `t`. -/
def B7 (t : Fin cfg0.N) : Vec Ideal S1x64x512 .bf16 := iblk m c 7 t
/-- Operand 8's block at point `t`. -/
def B8 (t : Fin cfg0.N) : Vec Ideal S1x1x64 .f32 := iblk m c 8 t
/-- Operand 9's block at point `t`. -/
def B9 (t : Fin cfg0.N) : Vec Ideal S1x32x256 .bf16 := iblk m c 9 t
/-- Operand 10's block at point `t`. -/
def B10 (t : Fin cfg0.N) : Vec Ideal S1x1x32 .f32 := iblk m c 10 t
/-- Operand 11's block at point `t`. -/
def B11 (t : Fin cfg0.N) : Vec Ideal S1x32x256 .bf16 := iblk m c 11 t
/-- Operand 12's block at point `t`. -/
def B12 (t : Fin cfg0.N) : Vec Ideal S1x1x32 .f32 := iblk m c 12 t
/-- Operand 13's block at point `t`. -/
def B13 (t : Fin cfg0.N) : Vec Ideal S1x16x128 .bf16 := iblk m c 13 t
/-- Operand 14's block at point `t`. -/
def B14 (t : Fin cfg0.N) : Vec Ideal S1x1x16 .f32 := iblk m c 14 t
/-- Operand 15's block at point `t`. -/
def B15 (t : Fin cfg0.N) : Vec Ideal S1x16x128 .bf16 := iblk m c 15 t
/-- Operand 16's block at point `t`. -/
def B16 (t : Fin cfg0.N) : Vec Ideal S1x1x16 .f32 := iblk m c 16 t
/-- Operand 17's block at point `t`. -/
def B17 (t : Fin cfg0.N) : Vec Ideal S1x512x64 .bf16 := iblk m c 17 t
/-- Operand 18's block at point `t`. -/
def B18 (t : Fin cfg0.N) : Vec Ideal S512 .f32 := iblk m c 18 t
/-- Operand 19's block at point `t`. -/
def B19 (t : Fin cfg0.N) : Vec Ideal S1x1 .f32 := iblk m c 19 t
/-- Operand 20's block at point `t`. -/
def B20 (t : Fin cfg0.N) : Vec Ideal S1x1 .f32 := iblk m c 20 t
/-- Operand 21's block at point `t`. -/
def B21 (t : Fin cfg0.N) : Vec Ideal S1x1 .f32 := iblk m c 21 t
/-- Operand 22's block at point `t`. -/
def B22 (t : Fin cfg0.N) : Vec Ideal S1024x1024 .f32 := iblk m c 22 t

/-! ### Each block, entry by entry, is the inputs' at the point's batch or head -/

theorem B0_apply (t : Fin cfg0.N) (p : Fin 1024) (q : Fin 512) : B0 m c t (ix3 0 p q) = (kin m c).x (bOf t) p q :=
  (iblk0_apply m c t p q).trans (kin_x m c (bOf t) p q).symm
theorem B1_apply (t : Fin cfg0.N) (p : Fin 1024) (q : Fin 256) : B1 m c t (ix3 0 p q) = (kin m c).aux (bOf t) p q :=
  (iblk1_apply m c t p q).trans (kin_aux m c (bOf t) p q).symm
theorem B2_apply (t : Fin cfg0.N) (p : Fin 1024) (q : Fin 128) : B2 m c t (ix3 0 p q) = (kin m c).pos (bOf t) p q :=
  (iblk2_apply m c t p q).trans (kin_pos m c (bOf t) p q).symm
theorem B3_apply (t : Fin cfg0.N) (p : Fin 64) (q : Fin 512) : B3 m c t (ix3 0 p q) = (kin m c).MQ (hOf t) p q :=
  (iblk3_apply m c t p q).trans (kin_MQ m c (hOf t) p q).symm
theorem B5_apply (t : Fin cfg0.N) (p : Fin 64) (q : Fin 512) : B5 m c t (ix3 0 p q) = (kin m c).MK (hOf t) p q :=
  (iblk5_apply m c t p q).trans (kin_MK m c (hOf t) p q).symm
theorem B7_apply (t : Fin cfg0.N) (p : Fin 64) (q : Fin 512) : B7 m c t (ix3 0 p q) = (kin m c).MV (hOf t) p q :=
  (iblk7_apply m c t p q).trans (kin_MV m c (hOf t) p q).symm
theorem B9_apply (t : Fin cfg0.N) (p : Fin 32) (q : Fin 256) : B9 m c t (ix3 0 p q) = (kin m c).Wqa (hOf t) p q :=
  (iblk9_apply m c t p q).trans (kin_Wqa m c (hOf t) p q).symm
theorem B11_apply (t : Fin cfg0.N) (p : Fin 32) (q : Fin 256) : B11 m c t (ix3 0 p q) = (kin m c).Wka (hOf t) p q :=
  (iblk11_apply m c t p q).trans (kin_Wka m c (hOf t) p q).symm
theorem B13_apply (t : Fin cfg0.N) (p : Fin 16) (q : Fin 128) : B13 m c t (ix3 0 p q) = (kin m c).Wqp (hOf t) p q :=
  (iblk13_apply m c t p q).trans (kin_Wqp m c (hOf t) p q).symm
theorem B15_apply (t : Fin cfg0.N) (p : Fin 16) (q : Fin 128) : B15 m c t (ix3 0 p q) = (kin m c).Wkp (hOf t) p q :=
  (iblk15_apply m c t p q).trans (kin_Wkp m c (hOf t) p q).symm
theorem B4_apply (t : Fin cfg0.N) (k : Fin 64) : B4 m c t (ix3 0 0 k) = (kin m c).bq (hOf t) k :=
  (iblk4_apply m c t 0 k).trans (kin_bq m c (hOf t) k).symm
theorem B6_apply (t : Fin cfg0.N) (k : Fin 64) : B6 m c t (ix3 0 0 k) = (kin m c).bk (hOf t) k :=
  (iblk6_apply m c t 0 k).trans (kin_bk m c (hOf t) k).symm
theorem B8_apply (t : Fin cfg0.N) (k : Fin 64) : B8 m c t (ix3 0 0 k) = (kin m c).bv (hOf t) k :=
  (iblk8_apply m c t 0 k).trans (kin_bv m c (hOf t) k).symm
theorem B10_apply (t : Fin cfg0.N) (k : Fin 32) : B10 m c t (ix3 0 0 k) = (kin m c).bqa (hOf t) k :=
  (iblk10_apply m c t 0 k).trans (kin_bqa m c (hOf t) k).symm
theorem B12_apply (t : Fin cfg0.N) (k : Fin 32) : B12 m c t (ix3 0 0 k) = (kin m c).bka (hOf t) k :=
  (iblk12_apply m c t 0 k).trans (kin_bka m c (hOf t) k).symm
theorem B14_apply (t : Fin cfg0.N) (k : Fin 16) : B14 m c t (ix3 0 0 k) = (kin m c).bqp (hOf t) k :=
  (iblk14_apply m c t 0 k).trans (kin_bqp m c (hOf t) k).symm
theorem B16_apply (t : Fin cfg0.N) (k : Fin 16) : B16 m c t (ix3 0 0 k) = (kin m c).bkp (hOf t) k :=
  (iblk16_apply m c t 0 k).trans (kin_bkp m c (hOf t) k).symm
theorem B17_apply (t : Fin cfg0.N) (e : Fin 512) (k : Fin 64) : B17 m c t (ix3 0 e k) = (kin m c).MO e (GsaSpec.hk (hOf t) k) :=
  (iblk17_apply m c t e k).trans (MO_hk m c e (hOf t) k).symm
theorem B18_apply (t : Fin cfg0.N) (e : Fin 512) : B18 m c t (ix1 e) = (kin m c).bO e :=
  (iblk18_apply m c t e).trans (kin_bO m c e).symm
theorem B19_apply (t : Fin cfg0.N) : B19 m c t (ix2 0 0) = (kin m c).w := (iblk19_apply m c t).trans (kin_w m c).symm
theorem B20_apply (t : Fin cfg0.N) : B20 m c t (ix2 0 0) = (kin m c).wa := (iblk20_apply m c t).trans (kin_wa m c).symm
theorem B21_apply (t : Fin cfg0.N) : B21 m c t (ix2 0 0) = (kin m c).wp := (iblk21_apply m c t).trans (kin_wp m c).symm
theorem B22_apply (t : Fin cfg0.N) (a b : Fin 1024) : B22 m c t (ix2 a b) = (kin m c).cnt a b :=
  (iblk22_apply m c t a b).trans (kin_cnt m c a b).symm

/-! ### The point's share is the specification's at its batch and head -/

theorem att_blocks (t : Fin cfg0.N) : attB (B0 m c t) (B1 m c t) (B2 m c t) (B3 m c t) (B4 m c t) (B5 m c t) (B6 m c t) (B9 m c t) (B10 m c t) (B11 m c t) (B12 m c t) (B13 m c t) (B14 m c t) (B15 m c t) (B16 m c t) (B19 m c t) (B20 m c t) (B21 m c t) (B22 m c t) = GsaSpec.att (kin m c) (bOf t) (hOf t) :=
  attB_eq (B0 m c t) (B1 m c t) (B2 m c t) (B3 m c t) (B4 m c t) (B5 m c t) (B6 m c t) (B9 m c t) (B10 m c t) (B11 m c t) (B12 m c t) (B13 m c t) (B14 m c t) (B15 m c t) (B16 m c t) (B19 m c t) (B20 m c t) (B21 m c t) (B22 m c t) (kin m c) (bOf t) (hOf t) (B0_apply m c t) (B1_apply m c t) (B2_apply m c t) (B3_apply m c t) (B4_apply m c t) (B5_apply m c t) (B6_apply m c t) (B9_apply m c t) (B10_apply m c t) (B11_apply m c t) (B12_apply m c t) (B13_apply m c t) (B14_apply m c t) (B15_apply m c t) (B16_apply m c t) (B19_apply m c t) (B20_apply m c t) (B21_apply m c t) (B22_apply m c t)

theorem det_blocks (t : Fin cfg0.N) : detB (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B19 m c t) (B20 m c t) (B21 m c t) (B22 m c t) = GsaSpec.det (kin m c) (bOf t) (hOf t) :=
  detB_eq (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B19 m c t) (B20 m c t) (B21 m c t) (B22 m c t) (kin m c) (bOf t) (hOf t) (B0_apply m c t) (B1_apply m c t) (B2_apply m c t) (B3_apply m c t) (B4_apply m c t) (B5_apply m c t) (B6_apply m c t) (B7_apply m c t) (B8_apply m c t) (B9_apply m c t) (B10_apply m c t) (B11_apply m c t) (B12_apply m c t) (B13_apply m c t) (B14_apply m c t) (B15_apply m c t) (B16_apply m c t) (B19_apply m c t) (B20_apply m c t) (B21_apply m c t) (B22_apply m c t)

theorem con_blocks (t : Fin cfg0.N) : conB (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B17 m c t) (B19 m c t) (B20 m c t) (B21 m c t) (B22 m c t) = GsaSpec.con (kin m c) (bOf t) (hOf t) :=
  conB_eq (B0 m c t) (B1 m c t) (B2 m c t) (B3 m c t) (B4 m c t) (B5 m c t) (B6 m c t) (B7 m c t) (B8 m c t) (B9 m c t) (B10 m c t) (B11 m c t) (B12 m c t) (B13 m c t) (B14 m c t) (B15 m c t) (B16 m c t) (B17 m c t) (B19 m c t) (B20 m c t) (B21 m c t) (B22 m c t) (kin m c) (bOf t) (hOf t) (B0_apply m c t) (B1_apply m c t) (B2_apply m c t) (B3_apply m c t) (B4_apply m c t) (B5_apply m c t) (B6_apply m c t) (B7_apply m c t) (B8_apply m c t) (B9_apply m c t) (B10_apply m c t) (B11_apply m c t) (B12_apply m c t) (B13_apply m c t) (B14_apply m c t) (B15_apply m c t) (B16_apply m c t) (B17_apply m c t) (B19_apply m c t) (B20_apply m c t) (B21_apply m c t) (B22_apply m c t)

end Cert.KernelIdeal.Acc

end
-- ==== Proof.SpecAcc.lean ====
/-
  The output block as a running sum over the heads. After head `j` the accumulator holds `0 + con 0 + … + con j`;
  after the last head the residual and the bias are added. This is GsaSpec.out, cut at each head.
-/
import proofs.«105714_j66872640798820_2_alg».proof.Proof.Spec

noncomputable section

namespace GsaSpec

variable (I : Inputs)

/-- The accumulator after head `j` (heads counted modulo eight). -/
def acc (b : Fin 8) : Nat → Fin 1024 → Fin 512 → EReal
  | 0 => fun t e => 0 + con I b 0 t e
  | j + 1 => fun t e => acc b j t e + con I b ⟨(j + 1) % 8, Nat.mod_lt _ (by decide)⟩ t e

theorem acc_zero (b : Fin 8) (t : Fin 1024) (e : Fin 512) : acc I b 0 t e = 0 + con I b 0 t e := rfl

theorem acc_succ (b : Fin 8) (j : Nat) (t : Fin 1024) (e : Fin 512) :
    acc I b (j + 1) t e = acc I b j t e + con I b ⟨(j + 1) % 8, Nat.mod_lt _ (by decide)⟩ t e := rfl

/-- After the eighth head, with the residual and the bias: the output. -/
theorem out_eq_acc (b : Fin 8) (t : Fin 1024) (e : Fin 512) :
    out I b t e = acc I b 7 t e + I.x b t e + I.bO e := rfl

end GsaSpec

end
-- ==== Proof.KerAcc.lean ====
/-
  The three output blocks after the body at grid point `t` (batch `t / 8`, head `t % 8`), in terms of the
  specification over the arrays the region is handed: the attention block and the value-product block are the
  specification's at that batch and head; the output block holds the running sum of the heads' shares of the batch
  up to this head, and after the last head the output itself. The first two are read off the case at `t`; the third
  by induction on the point, each middle and last head adding to what the previous point left.
-/
import proofs.«105714_j66872640798820_2_alg».proof.Proof.KerCases
import proofs.«105714_j66872640798820_2_alg».proof.Proof.KerAccBlocks
import proofs.«105714_j66872640798820_2_alg».proof.Proof.SpecAcc

set_option maxRecDepth 16384

noncomputable section

namespace Cert.KernelIdeal.Acc

open Idealize.ShloMosaic Idealize.ShloMosaic.TcCoe Idealize.ShloMosaic.ValueIdx Idealize.SL.Sem
open Cert.KernelIdeal Cert.KernelIdeal.Gen Cert.KernelIdeal.Blk Cert.KernelIdeal.BlkSpec Cert.KernelIdeal.Cases Cert.KernelIdeal.KIn

variable (m : (ℓ : Loc nD τ sig) → Buf (Elt Ideal) ℓ) (c : Dev nD)

/-! ### The attention block and the value-product block -/

set_option maxHeartbeats 4000000 in
theorem att_at (t : Fin cfg0.N) (p s : Fin 1024) :
    (outsAt0 m c t.val t.isLt).2.2 (ix4 0 0 p s) = GsaSpec.att (kin m c) (bOf t) (hOf t) p s := by
  by_cases h0 : t.val % 8 = 0
  · have h1 : ¬t.val % 8 = 7 := by omega
    rw [outsAt0_A m c t h0 h1]
    dsimp only
    refine (caseA_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p s).trans ?_
    exact congrFun (congrFun (att_blocks m c t) p) s
  · by_cases h1 : t.val % 8 = 7
    · rw [outsAt0_C m c t h0 h1]
      dsimp only
      refine (caseC_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).1 p s).trans ?_
      exact congrFun (congrFun (att_blocks m c t) p) s
    · rw [outsAt0_B m c t h0 h1]
      dsimp only
      refine (caseB_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).1 p s).trans ?_
      exact congrFun (congrFun (att_blocks m c t) p) s

set_option maxHeartbeats 4000000 in
theorem det_at (t : Fin cfg0.N) (p : Fin 1024) (k : Fin 64) :
    (outsAt0 m c t.val t.isLt).2.1 (ix4 0 0 p k) = GsaSpec.det (kin m c) (bOf t) (hOf t) p k := by
  by_cases h0 : t.val % 8 = 0
  · have h1 : ¬t.val % 8 = 7 := by omega
    rw [outsAt0_A m c t h0 h1]
    dsimp only
    refine (caseA_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p k).trans ?_
    exact congrFun (congrFun (det_blocks m c t) p) k
  · by_cases h1 : t.val % 8 = 7
    · rw [outsAt0_C m c t h0 h1]
      dsimp only
      refine (caseC_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).1 p k).trans ?_
      exact congrFun (congrFun (det_blocks m c t) p) k
    · rw [outsAt0_B m c t h0 h1]
      dsimp only
      refine (caseB_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).1 p k).trans ?_
      exact congrFun (congrFun (det_blocks m c t) p) k

/-! ### The output block, case by case -/

set_option maxHeartbeats 4000000 in
/-- First head: the head's share added to zero. -/
theorem out_A (t : Fin cfg0.N) (h0 : t.val % 8 = 0) (h1 : ¬t.val % 8 = 7) (p : Fin 1024) (e : Fin 512) :
    (outsAt0 m c t.val t.isLt).1 (ix3 0 p e) = 0 + GsaSpec.con (kin m c) (bOf t) (hOf t) p e := by
  rw [outsAt0_A m c t h0 h1]
  dsimp only
  refine (caseA_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p e).trans ?_
  exact congrArg (0 + ·) (congrFun (congrFun (con_blocks m c t) p) e)

set_option maxHeartbeats 4000000 in
/-- A middle head: the head's share added to what the previous point left. -/
theorem out_B (t : Fin cfg0.N) (h0 : ¬t.val % 8 = 0) (h1 : ¬t.val % 8 = 7) (p : Fin 1024) (e : Fin 512) :
    (outsAt0 m c t.val t.isLt).1 (ix3 0 p e)
      = (outsAt0 m c (t.val - 1) (Nat.lt_of_le_of_lt (Nat.sub_le _ _) t.isLt)).1 (ix3 0 p e) + GsaSpec.con (kin m c) (bOf t) (hOf t) p e := by
  rw [outsAt0_B m c t h0 h1]
  dsimp only
  refine (caseB_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).1 p e).trans ?_
  exact congrArg ((outsAt0 m c (t.val - 1) (Nat.lt_of_le_of_lt (Nat.sub_le _ _) t.isLt)).1 (ix3 0 p e) + ·) (congrFun (congrFun (con_blocks m c t) p) e)

set_option maxHeartbeats 4000000 in
/-- The last head: its share added to what the previous point left, then the residual and the bias. -/
theorem out_C (t : Fin cfg0.N) (h0 : ¬t.val % 8 = 0) (h1 : t.val % 8 = 7) (p : Fin 1024) (e : Fin 512) :
    (outsAt0 m c t.val t.isLt).1 (ix3 0 p e)
      = (outsAt0 m c (t.val - 1) (Nat.lt_of_le_of_lt (Nat.sub_le _ _) t.isLt)).1 (ix3 0 p e) + GsaSpec.con (kin m c) (bOf t) (hOf t) p e
        + (kin m c).x (bOf t) p e + (kin m c).bO e := by
  rw [outsAt0_C m c t h0 h1]
  dsimp only
  refine (caseC_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (outsAt0 m c (t.val - 1) (Nat.lt_of_le_of_lt (Nat.sub_le _ _) t.isLt)).1 p e).trans ?_
  have hcon := congrFun (congrFun (con_blocks m c t) p) e
  have hx : (iblk m c 0 t : Vec Ideal S1x1024x512 .f32) (ix3 0 p e) = (kin m c).x (bOf t) p e := B0_apply m c t p e
  have hb : (iblk m c 18 t : Vec Ideal S512 .f32) (ix1 e) = (kin m c).bO e := B18_apply m c t e
  rw [hx, hb]
  exact congrArg (fun u => (outsAt0 m c (t.val - 1) (Nat.lt_of_le_of_lt (Nat.sub_le _ _) t.isLt)).1 (ix3 0 p e) + u + (kin m c).x (bOf t) p e + (kin m c).bO e) hcon

/-! ### The output block: the running sum over the heads -/

/-- What the output block holds after point `n`: the running sum up to head `n % 8` of batch `n / 8`, and after
    the last head the output. -/
def outAfter (n : Nat) (hn : n < cfg0.N) (p : Fin 1024) (e : Fin 512) : EReal :=
  if n % 8 = 7 then GsaSpec.out (kin m c) (bOf ⟨n, hn⟩) p e else GsaSpec.acc (kin m c) (bOf ⟨n, hn⟩) (n % 8) p e

theorem out_at : ∀ (n : Nat) (hn : n < cfg0.N) (p : Fin 1024) (e : Fin 512),
    (outsAt0 m c n hn).1 (ix3 0 p e) = outAfter m c n hn p e
  | 0, hn, p, e => by
    have h0 : (⟨0, hn⟩ : Fin cfg0.N).val % 8 = 0 := rfl
    have h1 : ¬(⟨0, hn⟩ : Fin cfg0.N).val % 8 = 7 := by show ¬(0 % 8 = 7); decide
    have hh : hOf (⟨0, hn⟩ : Fin cfg0.N) = 0 := rfl
    refine (out_A m c ⟨0, hn⟩ h0 h1 p e).trans ?_
    rw [hh]
    rfl
  | n + 1, hn, p, e => by
    have hN : n + 1 < 64 := lt_of_lt_of_eq hn (show cfg0.N = 64 from N_0)
    have ih := out_at n (Nat.lt_of_succ_lt hn) p e
    by_cases h0 : (⟨n + 1, hn⟩ : Fin cfg0.N).val % 8 = 0
    · have h0' : (n + 1) % 8 = 0 := h0
      have h1 : ¬(⟨n + 1, hn⟩ : Fin cfg0.N).val % 8 = 7 := by show ¬((n + 1) % 8 = 7); omega
      have hh : hOf (⟨n + 1, hn⟩ : Fin cfg0.N) = 0 := Fin.ext h0
      refine (out_A m c ⟨n + 1, hn⟩ h0 h1 p e).trans ?_
      rw [hh]
      unfold outAfter
      rw [if_neg (show ¬(n + 1) % 8 = 7 from h1), h0']
      rfl
    · have h0' : ¬(n + 1) % 8 = 0 := h0
      have hbe : bOf (⟨n + 1, hn⟩ : Fin cfg0.N) = bOf (⟨n, Nat.lt_of_succ_lt hn⟩ : Fin cfg0.N) :=
        Fin.ext (by show (n + 1) / 8 = n / 8; omega)
      have hn7 : ¬n % 8 = 7 := by omega
      have ih' : (outsAt0 m c n (Nat.lt_of_succ_lt hn)).1 (ix3 0 p e)
          = GsaSpec.acc (kin m c) (bOf (⟨n + 1, hn⟩ : Fin cfg0.N)) (n % 8) p e := by
        rw [ih]; unfold outAfter; rw [if_neg hn7, hbe]
      have hh : hOf (⟨n + 1, hn⟩ : Fin cfg0.N) = ⟨(n % 8 + 1) % 8, Nat.mod_lt _ (by decide)⟩ :=
        Fin.ext (by show (n + 1) % 8 = (n % 8 + 1) % 8; omega)
      by_cases h1 : (⟨n + 1, hn⟩ : Fin cfg0.N).val % 8 = 7
      · have h1' : (n + 1) % 8 = 7 := h1
        have h6 : n % 8 = 6 := by omega
        refine (out_C m c ⟨n + 1, hn⟩ h0 h1 p e).trans ?_
        have ihx : (outsAt0 m c ((⟨n + 1, hn⟩ : Fin cfg0.N).val - 1) (Nat.lt_of_le_of_lt (Nat.sub_le _ _) (⟨n + 1, hn⟩ : Fin cfg0.N).isLt)).1 (ix3 0 p e)
            = GsaSpec.acc (kin m c) (bOf (⟨n + 1, hn⟩ : Fin cfg0.N)) (n % 8) p e := ih'
        rw [ihx, hh]
        unfold outAfter
        rw [if_pos h1', GsaSpec.out_eq_acc, h6]
        rfl
      · have h1' : ¬(n + 1) % 8 = 7 := h1
        refine (out_B m c ⟨n + 1, hn⟩ h0 h1 p e).trans ?_
        have ihx : (outsAt0 m c ((⟨n + 1, hn⟩ : Fin cfg0.N).val - 1) (Nat.lt_of_le_of_lt (Nat.sub_le _ _) (⟨n + 1, hn⟩ : Fin cfg0.N).isLt)).1 (ix3 0 p e)
            = GsaSpec.acc (kin m c) (bOf (⟨n + 1, hn⟩ : Fin cfg0.N)) (n % 8) p e := ih'
        rw [ihx, hh]
        unfold outAfter
        rw [if_neg h1', show (n + 1) % 8 = n % 8 + 1 from by omega]
        rfl

end Cert.KernelIdeal.Acc

end
-- ==== Proof.KerFinal.lean ====
/-
  From the blocks to the arrays. Point `t` writes the attention block and the value-product block back at block
  (t / 8, t % 8) of their [8, 8, 1024, ·] arrays, and every index of those arrays lies in exactly such a block; the
  output block is written back after each batch's last head, at block t / 8 of the [8, 1024, 512] array. So the three
  arrays end holding the specification's attention, value product and output. The two results behind the region's
  host tail are a transpose and a reshape of the first two arrays.
-/
import proofs.«105714_j66872640798820_2_alg».proof.Proof.KerAcc

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blk Cert.KernelIdeal.KIn Cert.KernelIdeal.Acc

variable (m : (ℓ : Loc nD τ sig) → Buf (Elt Ideal) ℓ) (c : Dev nD)

/-- The three arrays' final contents. -/
def G25 : Buf (Elt Ideal) ((c : Thread nD τ).loc main_v55_2) :=
  show S8x8x1024x1024.Idx → EReal from fun i => GsaSpec.att (kin m c) (i 0) (i 1) (i 2) (i 3)
def G24 : Buf (Elt Ideal) ((c : Thread nD τ).loc main_v55_1) :=
  show S8x8x1024x64.Idx → EReal from fun i => GsaSpec.det (kin m c) (i 0) (i 1) (i 2) (i 3)
def G23 : Buf (Elt Ideal) ((c : Thread nD τ).loc main_v55_0) :=
  show S8x1024x512.Idx → EReal from fun i => GsaSpec.out (kin m c) (i 0) (i 1) (i 2)

theorem pt_lt (b h : Nat) (hb : b < 8) (hh : h < 8) : 8 * b + h < cfg0.N :=
  lt_of_lt_of_eq (by omega : 8 * b + h < 64) (show cfg0.N = 64 from N_0).symm

/-! ### The attention array -/

set_option maxHeartbeats 4000000 in
theorem flushed25_eq (t : Fin cfg0.N) :
    (dats m 0 c).flushed 25 t = ((cfg0.win 25).blk t).view.read (Elt Ideal) (G25 m c) := by
  obtain ⟨e0, e1, e2, e3⟩ := idx25 t
  show (cfg0.win 25).cut (grid0.coords t) ((dats m 0 c).after 25 t) = _
  rw [after0_25]
  have key : ∀ j : S1x1x1024x1024.Idx, (outsAt0 m c t.val t.isLt).2.2 j = G25 m c (((cfg0.win 25).blk t).view.emb j) := by
    intro j
    obtain ⟨a0, a1, p, s, rfl⟩ : ∃ (a0 a1 : Fin 1) (p s : Fin 1024), j = ix4 a0 a1 p s := ⟨j 0, j 1, j 2, j 3, eq_ix4 j⟩
    obtain rfl : a0 = 0 := Subsingleton.elim _ _
    obtain rfl : a1 = 0 := Subsingleton.elim _ _
    rw [att_at m c t p s]
    have he : ((cfg0.win 25).blk t).view.emb (ix4 0 0 p s) = ix4 (bOf t) (hOf t) p s := by
      funext a; apply Fin.ext
      match a with
      | ⟨0, _⟩ => show win0_25.index t (0 : Fin 4) * 1 + 1 * 0 = t.val / 8; rw [e0]; omega
      | ⟨1, _⟩ => show win0_25.index t (1 : Fin 4) * 1 + 1 * 0 = t.val % 8; rw [e1]; omega
      | ⟨2, _⟩ => show win0_25.index t (2 : Fin 4) * 1024 + 1 * p.val = p.val; rw [e2]; omega
      | ⟨3, _⟩ => show win0_25.index t (3 : Fin 4) * 1024 + 1 * s.val = s.val; rw [e3]; omega
    rw [he]
    rfl
  exact funext key

set_option maxHeartbeats 4000000 in
theorem mem_blk25 (t : Fin cfg0.N) (i : S8x8x1024x1024.Idx) :
    i ∈ ((cfg0.win 25).blk t).view.set ↔ ∀ a : Fin 4, win0_25.index t a * S1x1x1024x1024.size a ≤ (i a).val ∧ (i a).val < win0_25.index t a * S1x1x1024x1024.size a + S1x1x1024x1024.size a := by
  show i ∈ ((View.whole main_v55_2).slice (win0_25.rect t)).set ↔ _
  rw [View.set_slice_whole, Rect.mem_set_unit]
  exact Iff.rfl

set_option maxHeartbeats 4000000 in
theorem cover25 (i : S8x8x1024x1024.Idx) :
    ∃ t : Fin cfg0.N, (cfg0.win 25).flush t = true ∧ i ∈ ((cfg0.win 25).blk t).view.set := by
  have h0 : (i 0).val < 8 := (i 0).isLt
  have h1 : (i 1).val < 8 := (i 1).isLt
  have h2 : (i 2).val < 1024 := (i 2).isLt
  have h3 : (i 3).val < 1024 := (i 3).isLt
  refine ⟨⟨8 * (i 0).val + (i 1).val, pt_lt _ _ h0 h1⟩, flush0_25 _, ?_⟩
  obtain ⟨e0, e1, e2, e3⟩ := idx25 ⟨8 * (i 0).val + (i 1).val, pt_lt _ _ h0 h1⟩
  rw [mem_blk25]
  intro a
  match a with
  | ⟨0, _⟩ => show win0_25.index _ (0 : Fin 4) * 1 ≤ (i 0).val ∧ (i 0).val < win0_25.index _ (0 : Fin 4) * 1 + 1; rw [e0]; dsimp only; omega
  | ⟨1, _⟩ => show win0_25.index _ (1 : Fin 4) * 1 ≤ (i 1).val ∧ (i 1).val < win0_25.index _ (1 : Fin 4) * 1 + 1; rw [e1]; dsimp only; omega
  | ⟨2, _⟩ => show win0_25.index _ (2 : Fin 4) * 1024 ≤ (i 2).val ∧ (i 2).val < win0_25.index _ (2 : Fin 4) * 1024 + 1024; rw [e2]; omega
  | ⟨3, _⟩ => show win0_25.index _ (3 : Fin 4) * 1024 ≤ (i 3).val ∧ (i 3).val < win0_25.index _ (3 : Fin 4) * 1024 + 1024; rw [e3]; omega

set_option maxHeartbeats 4000000 in
theorem final25 : (dats m 0 c).arrAt 25 cfg0.N = G25 m c :=
  (dats m 0 c).arrAt_eq_of_cover 25 (G25 m c) (fun t _ => flushed25_eq m c t) (cover25)

/-! ### The value-product array -/

set_option maxHeartbeats 4000000 in
theorem flushed24_eq (t : Fin cfg0.N) :
    (dats m 0 c).flushed 24 t = ((cfg0.win 24).blk t).view.read (Elt Ideal) (G24 m c) := by
  obtain ⟨e0, e1, e2, e3⟩ := idx24 t
  show (cfg0.win 24).cut (grid0.coords t) ((dats m 0 c).after 24 t) = _
  rw [after0_24]
  have key : ∀ j : S1x1x1024x64.Idx, (outsAt0 m c t.val t.isLt).2.1 j = G24 m c (((cfg0.win 24).blk t).view.emb j) := by
    intro j
    obtain ⟨a0, a1, p, k, rfl⟩ : ∃ (a0 a1 : Fin 1) (p : Fin 1024) (k : Fin 64), j = ix4 a0 a1 p k := ⟨j 0, j 1, j 2, j 3, eq_ix4 j⟩
    obtain rfl : a0 = 0 := Subsingleton.elim _ _
    obtain rfl : a1 = 0 := Subsingleton.elim _ _
    rw [det_at m c t p k]
    have he : ((cfg0.win 24).blk t).view.emb (ix4 0 0 p k) = ix4 (bOf t) (hOf t) p k := by
      funext a; apply Fin.ext
      match a with
      | ⟨0, _⟩ => show win0_24.index t (0 : Fin 4) * 1 + 1 * 0 = t.val / 8; rw [e0]; omega
      | ⟨1, _⟩ => show win0_24.index t (1 : Fin 4) * 1 + 1 * 0 = t.val % 8; rw [e1]; omega
      | ⟨2, _⟩ => show win0_24.index t (2 : Fin 4) * 1024 + 1 * p.val = p.val; rw [e2]; omega
      | ⟨3, _⟩ => show win0_24.index t (3 : Fin 4) * 64 + 1 * k.val = k.val; rw [e3]; omega
    rw [he]
    rfl
  exact funext key

set_option maxHeartbeats 4000000 in
theorem mem_blk24 (t : Fin cfg0.N) (i : S8x8x1024x64.Idx) :
    i ∈ ((cfg0.win 24).blk t).view.set ↔ ∀ a : Fin 4, win0_24.index t a * S1x1x1024x64.size a ≤ (i a).val ∧ (i a).val < win0_24.index t a * S1x1x1024x64.size a + S1x1x1024x64.size a := by
  show i ∈ ((View.whole main_v55_1).slice (win0_24.rect t)).set ↔ _
  rw [View.set_slice_whole, Rect.mem_set_unit]
  exact Iff.rfl

set_option maxHeartbeats 4000000 in
theorem cover24 (i : S8x8x1024x64.Idx) :
    ∃ t : Fin cfg0.N, (cfg0.win 24).flush t = true ∧ i ∈ ((cfg0.win 24).blk t).view.set := by
  have h0 : (i 0).val < 8 := (i 0).isLt
  have h1 : (i 1).val < 8 := (i 1).isLt
  have h2 : (i 2).val < 1024 := (i 2).isLt
  have h3 : (i 3).val < 64 := (i 3).isLt
  refine ⟨⟨8 * (i 0).val + (i 1).val, pt_lt _ _ h0 h1⟩, flush0_24 _, ?_⟩
  obtain ⟨e0, e1, e2, e3⟩ := idx24 ⟨8 * (i 0).val + (i 1).val, pt_lt _ _ h0 h1⟩
  rw [mem_blk24]
  intro a
  match a with
  | ⟨0, _⟩ => show win0_24.index _ (0 : Fin 4) * 1 ≤ (i 0).val ∧ (i 0).val < win0_24.index _ (0 : Fin 4) * 1 + 1; rw [e0]; dsimp only; omega
  | ⟨1, _⟩ => show win0_24.index _ (1 : Fin 4) * 1 ≤ (i 1).val ∧ (i 1).val < win0_24.index _ (1 : Fin 4) * 1 + 1; rw [e1]; dsimp only; omega
  | ⟨2, _⟩ => show win0_24.index _ (2 : Fin 4) * 1024 ≤ (i 2).val ∧ (i 2).val < win0_24.index _ (2 : Fin 4) * 1024 + 1024; rw [e2]; omega
  | ⟨3, _⟩ => show win0_24.index _ (3 : Fin 4) * 64 ≤ (i 3).val ∧ (i 3).val < win0_24.index _ (3 : Fin 4) * 64 + 64; rw [e3]; omega

set_option maxHeartbeats 4000000 in
theorem final24 : (dats m 0 c).arrAt 24 cfg0.N = G24 m c :=
  (dats m 0 c).arrAt_eq_of_cover 24 (G24 m c) (fun t _ => flushed24_eq m c t) (cover24)

/-! ### The output array -/

set_option maxHeartbeats 4000000 in
theorem flushed23_eq (t : Fin cfg0.N) (hf : (cfg0.win 23).flush t = true) :
    (dats m 0 c).flushed 23 t = ((cfg0.win 23).blk t).view.read (Elt Ideal) (G23 m c) := by
  have h7 : t.val % 8 = 7 := (flush0_23 t).mp hf
  obtain ⟨e0, e1, e2⟩ := idx23 t
  show (cfg0.win 23).cut (grid0.coords t) ((dats m 0 c).after 23 t) = _
  rw [after0_23]
  have key : ∀ j : S1x1024x512.Idx, (outsAt0 m c t.val t.isLt).1 j = G23 m c (((cfg0.win 23).blk t).view.emb j) := by
    intro j
    obtain ⟨a0, p, e, rfl⟩ : ∃ (a0 : Fin 1) (p : Fin 1024) (e : Fin 512), j = ix3 a0 p e := ⟨j 0, j 1, j 2, eq_ix3 j⟩
    obtain rfl : a0 = 0 := Subsingleton.elim _ _
    rw [out_at m c t.val t.isLt p e]
    unfold outAfter
    rw [if_pos h7]
    have he : ((cfg0.win 23).blk t).view.emb (ix3 0 p e) = ix3 (bOf t) p e := by
      funext a; apply Fin.ext
      match a with
      | ⟨0, _⟩ => show win0_23.index t (0 : Fin 3) * 1 + 1 * 0 = t.val / 8; rw [e0]; omega
      | ⟨1, _⟩ => show win0_23.index t (1 : Fin 3) * 1024 + 1 * p.val = p.val; rw [e1]; omega
      | ⟨2, _⟩ => show win0_23.index t (2 : Fin 3) * 512 + 1 * e.val = e.val; rw [e2]; omega
    rw [he]
    rfl
  exact funext key

set_option maxHeartbeats 4000000 in
theorem mem_blk23 (t : Fin cfg0.N) (i : S8x1024x512.Idx) :
    i ∈ ((cfg0.win 23).blk t).view.set ↔ ∀ a : Fin 3, win0_23.index t a * S1x1024x512.size a ≤ (i a).val ∧ (i a).val < win0_23.index t a * S1x1024x512.size a + S1x1024x512.size a := by
  show i ∈ ((View.whole main_v55_0).slice (win0_23.rect t)).set ↔ _
  rw [View.set_slice_whole, Rect.mem_set_unit]
  exact Iff.rfl

set_option maxHeartbeats 4000000 in
theorem cover23 (i : S8x1024x512.Idx) :
    ∃ t : Fin cfg0.N, (cfg0.win 23).flush t = true ∧ i ∈ ((cfg0.win 23).blk t).view.set := by
  have h0 : (i 0).val < 8 := (i 0).isLt
  have h1 : (i 1).val < 1024 := (i 1).isLt
  have h2 : (i 2).val < 512 := (i 2).isLt
  refine ⟨⟨8 * (i 0).val + 7, pt_lt _ _ h0 (by decide)⟩, (flush0_23 _).mpr (by show (8 * (i 0).val + 7) % 8 = 7; omega), ?_⟩
  obtain ⟨e0, e1, e2⟩ := idx23 ⟨8 * (i 0).val + 7, pt_lt _ _ h0 (by decide)⟩
  rw [mem_blk23]
  intro a
  match a with
  | ⟨0, _⟩ => show win0_23.index _ (0 : Fin 3) * 1 ≤ (i 0).val ∧ (i 0).val < win0_23.index _ (0 : Fin 3) * 1 + 1; rw [e0]; dsimp only; omega
  | ⟨1, _⟩ => show win0_23.index _ (1 : Fin 3) * 1024 ≤ (i 1).val ∧ (i 1).val < win0_23.index _ (1 : Fin 3) * 1024 + 1024; rw [e1]; omega
  | ⟨2, _⟩ => show win0_23.index _ (2 : Fin 3) * 512 ≤ (i 2).val ∧ (i 2).val < win0_23.index _ (2 : Fin 3) * 512 + 512; rw [e2]; omega

set_option maxHeartbeats 4000000 in
theorem final23 : (dats m 0 c).arrAt 23 cfg0.N = G23 m c :=
  (dats m 0 c).arrAt_eq_of_cover 23 (G23 m c) (flushed23_eq m c) (cover23)

end Cert.KernelIdeal.Final

end
-- ==== Proof.KerTail.lean ====
/-
  The region's host tail. After the region two of its output arrays are transposed ([b, h, t, ·] ↦ [b, t, h, ·]) and
  flattened over the last two axes; those are the second and third results. The first result is the region's first
  output array itself.
-/
import proofs.«105714_j66872640798820_2_alg».proof.Proof.Patched.KernelIdeal.Frame
import Idealize.ShloMosaic.Lib.StableHlo.Run
import Idealize.ShloMosaic.Lib.Pipeline.Value

set_option maxRecDepth 16384

noncomputable section

namespace Cert.KernelIdeal.Tail

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- Heads moved behind time, then the last two axes flattened: [b, h, t, k] ↦ [b, t, 64 h + k]. -/
def flat57 (X : (⟨S8x8x1024x64, .f32⟩ : BufTy).Contents (Elt F)) : (⟨S8x1024x512, .f32⟩ : BufTy).Contents (Elt F) :=
  shapeCast S8x1024x512 (transpose S8x1024x8x64 [0, 2, 1, 3] X transposes_S8x8x1024x64_S8x1024x8x64_0_2_1_3) shapeCasts_S8x1024x8x64_S8x1024x512

/-- The same for the attention matrices: [b, h, t, s] ↦ [b, t, 1024 h + s]. -/
def flat59 (X : (⟨S8x8x1024x1024, .f32⟩ : BufTy).Contents (Elt F)) : (⟨S8x1024x8192, .f32⟩ : BufTy).Contents (Elt F) :=
  shapeCast S8x1024x8192 (transpose S8x1024x8x1024 [0, 2, 1, 3] X transposes_S8x8x1024x1024_S8x1024x8x1024_0_2_1_3) shapeCasts_S8x1024x8x1024_S8x1024x8192

/-- The third result: the value-product array (window 24) as the region leaves it, transposed and flattened. -/
theorem tail57 (c : Dev nD) :
    Pipeline.afterTail₀ cfgs (dats m) 0 (V0 m) [hostOps1] c main_v57 = flat57 ((dats m 0 c).arrAt 24 cfg0.N) := by
  unfold Pipeline.afterTail₀
  show StableHlo.after hostOps1 _ (Proc.devRef .tc main_v57) = _
  after_results
  exact congrArg flat57
    (Pipeline.withArrays_arr spec0 launch0.win.arr_inj c (V0 m c) (fun w => (dats m 0 c).arrAt w cfg0.N) 24)

/-- The second result: the attention array (window 25) as the region leaves it, transposed and flattened. -/
theorem tail59 (c : Dev nD) :
    Pipeline.afterTail₀ cfgs (dats m) 0 (V0 m) [hostOps1] c main_v59 = flat59 ((dats m 0 c).arrAt 25 cfg0.N) := by
  unfold Pipeline.afterTail₀
  show StableHlo.after hostOps1 _ (Proc.devRef .tc main_v59) = _
  after_results
  exact congrArg flat59
    (Pipeline.withArrays_arr spec0 launch0.win.arr_inj c (V0 m c) (fun w => (dats m 0 c).arrAt w cfg0.N) 25)

set_option maxHeartbeats 2000000 in
/-- The kernel program's run, with its three results named: from any memory with zero counters every weakly fair
    execution terminates with the first result at the region's first output array, the second and third at the
    attention and value-product arrays transposed and flattened, and every argument as launched. -/
theorem run_post (ρ : Dev nD → PrngReg) :
    θ_run defs (onTc (τ := τ) (main (F := F))) ⟨m, fun _ => 0, ρ⟩ (fun r => ∀ c : Dev nD,
      r.2.mem ((c.tc : Thread nD τ).loc main_v55_0) = (dats m 0 c).arrAt 23 cfg0.N
      ∧ r.2.mem ((c.tc : Thread nD τ).loc main_v59) = flat59 ((dats m 0 c).arrAt 25 cfg0.N)
      ∧ r.2.mem ((c.tc : Thread nD τ).loc main_v57) = flat57 ((dats m 0 c).arrAt 24 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨(h c).1 23,
      ((h c).2 main_v59 (Pipeline.mem_restRefs_of main_v59 (by decide) (by decide))).trans (tail59 m c),
      ((h c).2 main_v57 (Pipeline.mem_restRefs_of main_v57 (by decide) (by decide))).trans (tail57 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      ((h c).1 18).trans (((dats m 0 c).arrAt_in 18 rfl _).trans ((A_eq m c 18).trans (V_main_arg18 m c))),
      ((h c).1 19).trans (((dats m 0 c).arrAt_in 19 rfl _).trans ((A_eq m c 19).trans (V_main_arg19 m c))),
      ((h c).1 20).trans (((dats m 0 c).arrAt_in 20 rfl _).trans ((A_eq m c 20).trans (V_main_arg20 m c))),
      ((h c).1 21).trans (((dats m 0 c).arrAt_in 21 rfl _).trans ((A_eq m c 21).trans (V_main_arg21 m c))),
      (((h c).2 main_arg22 (Pipeline.mem_restRefs_of main_arg22 (by decide) (by decide))).trans (W_main_arg22 m (dats m) c))⟩) (run_main m ρ)

end Cert.KernelIdeal.Tail

end
-- ==== Proof.RefProj.lean ====
/-
  The reference program's projections, normalisations and Gram matrices, read at plain coordinates.

  For batch `b`, head `h`, position `t` and feature `k`:
    * each of the seven projections (content query, key and value; auxiliary query and key; positional query
      and key) is `GsaSpec.proj` of the token row against the head's weight rows, plus the head's bias; the
      program contracts with the weight as the left factor, so each product is commuted once;
    * each of the six normalised projections is `GsaSpec.l2n` of the projection: the squares of a row are added
      from the zero constant, the root is floored at `GsaSpec.eps`, and the row is divided by the result;
    * each of the three similarity matrices is `GsaSpec.gram` of a normalised query against a normalised key.
-/
import proofs.«105714_j66872640798820_2_alg».proof.Proof.Patched.ReferenceIdeal.Read
import proofs.«105714_j66872640798820_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

variable (x0 : (⟨S8x1024x512, .f32⟩ : BufTy).Contents (Elt Ideal))
  (x1 : (⟨S8x1024x256, .f32⟩ : BufTy).Contents (Elt Ideal))
  (x2 : (⟨S8x1024x128, .f32⟩ : BufTy).Contents (Elt Ideal))
  (x3 : (⟨S8x64x512, .f32⟩ : BufTy).Contents (Elt Ideal)) (x4 : (⟨S8x64, .f32⟩ : BufTy).Contents (Elt Ideal))
  (x5 : (⟨S8x64x512, .f32⟩ : BufTy).Contents (Elt Ideal)) (x6 : (⟨S8x64, .f32⟩ : BufTy).Contents (Elt Ideal))
  (x7 : (⟨S8x64x512, .f32⟩ : BufTy).Contents (Elt Ideal)) (x8 : (⟨S8x64, .f32⟩ : BufTy).Contents (Elt Ideal))
  (x9 : (⟨S8x32x256, .f32⟩ : BufTy).Contents (Elt Ideal)) (x10 : (⟨S8x32, .f32⟩ : BufTy).Contents (Elt Ideal))
  (x11 : (⟨S8x32x256, .f32⟩ : BufTy).Contents (Elt Ideal)) (x12 : (⟨S8x32, .f32⟩ : BufTy).Contents (Elt Ideal))
  (x13 : (⟨S8x16x128, .f32⟩ : BufTy).Contents (Elt Ideal)) (x14 : (⟨S8x16, .f32⟩ : BufTy).Contents (Elt Ideal))
  (x15 : (⟨S8x16x128, .f32⟩ : BufTy).Contents (Elt Ideal)) (x16 : (⟨S8x16, .f32⟩ : BufTy).Contents (Elt Ideal))
  (x22 : (⟨S64x64, .i32⟩ : BufTy).Contents (Elt Ideal))

/-- The content query projection: the token row against the masked query weights of head `h`, plus the bias. -/
theorem v14_apply (b h : Fin 8) (t : Fin 1024) (k : Fin 64) :
    val_main_v14 (F := Ideal) x0 x3 x4 x22 (ix4 b h t k)
      = GsaSpec.proj (fun t m => x0 (ix3 b t m)) (fun k m => val_main_v9 (F := Ideal) x3 x22 (ix3 h k m))
          (fun k => x4 (ix2 h k)) t k := by
  have el : ∀ m : Fin 512, lidx_main_v10 (idx_main_v11 (ix4 b h t k)) m = ix3 h k m := fun m =>
    funext fun a => Fin.ext (by match a with | ⟨0, _⟩ => rfl | ⟨1, _⟩ => rfl | ⟨2, _⟩ => rfl)
  have er : ∀ m : Fin 512, ridx_main_v10 (idx_main_v11 (ix4 b h t k)) m = ix3 b t m := fun m =>
    funext fun a => Fin.ext (by match a with | ⟨0, _⟩ => rfl | ⟨1, _⟩ => rfl | ⟨2, _⟩ => rfl)
  have eb : idx_main_v12 (idx_main_v13 (ix4 b h t k)) = ix2 h k :=
    funext fun a => Fin.ext (by match a with | ⟨0, _⟩ => rfl | ⟨1, _⟩ => rfl)
  rw [val_main_v14_apply, val_main_v11_apply, val_main_v10_apply, val_main_v13_apply, val_main_v12_apply]
  simp only [el, er, eb, Ideal.addf_def, GsaSpec.proj]
  exact congrArg (· + x4 (ix2 h k)) (Finset.sum_congr rfl fun m _ => mul_comm _ _)

/-- The content key projection: the token row against the masked key weights of head `h`, plus the bias. -/
theorem v27_apply (b h : Fin 8) (t : Fin 1024) (k : Fin 64) :
    val_main_v27 (F := Ideal) x0 x5 x6 x22 (ix4 b h t k)
      = GsaSpec.proj (fun t m => x0 (ix3 b t m)) (fun k m => val_main_v22 (F := Ideal) x5 x22 (ix3 h k m))
          (fun k => x6 (ix2 h k)) t k := by
  have el : ∀ m : Fin 512, lidx_main_v23 (idx_main_v24 (ix4 b h t k)) m = ix3 h k m := fun m =>
    funext fun a => Fin.ext (by match a with | ⟨0, _⟩ => rfl | ⟨1, _⟩ => rfl | ⟨2, _⟩ => rfl)
  have er : ∀ m : Fin 512, ridx_main_v23 (idx_main_v24 (ix4 b h t k)) m = ix3 b t m := fun m =>
    funext fun a => Fin.ext (by match a with | ⟨0, _⟩ => rfl | ⟨1, _⟩ => rfl | ⟨2, _⟩ => rfl)
  have eb : idx_main_v25 (idx_main_v26 (ix4 b h t k)) = ix2 h k :=
    funext fun a => Fin.ext (by match a with | ⟨0, _⟩ => rfl | ⟨1, _⟩ => rfl)
  rw [val_main_v27_apply, val_main_v24_apply, val_main_v23_apply, val_main_v26_apply, val_main_v25_apply]
  simp only [el, er, eb, Ideal.addf_def, GsaSpec.proj]
  exact congrArg (· + x6 (ix2 h k)) (Finset.sum_congr rfl fun m _ => mul_comm _ _)

/-- The value projection: the token row against the masked value weights of head `h`, plus the bias. -/
theorem v40_apply (b h : Fin 8) (t : Fin 1024) (k : Fin 64) :
    val_main_v40 (F := Ideal) x0 x7 x8 x22 (ix4 b h t k)
      = GsaSpec.proj (fun t m => x0 (ix3 b t m)) (fun k m => val_main_v35 (F := Ideal) x7 x22 (ix3 h k m))
          (fun k => x8 (ix2 h k)) t k := by
  have el : ∀ m : Fin 512, lidx_main_v36 (idx_main_v37 (ix4 b h t k)) m = ix3 h k m := fun m =>
    funext fun a => Fin.ext (by match a with | ⟨0, _⟩ => rfl | ⟨1, _⟩ => rfl | ⟨2, _⟩ => rfl)
  have er : ∀ m : Fin 512, ridx_main_v36 (idx_main_v37 (ix4 b h t k)) m = ix3 b t m := fun m =>
    funext fun a => Fin.ext (by match a with | ⟨0, _⟩ => rfl | ⟨1, _⟩ => rfl | ⟨2, _⟩ => rfl)
  have eb : idx_main_v38 (idx_main_v39 (ix4 b h t k)) = ix2 h k :=
    funext fun a => Fin.ext (by match a with | ⟨0, _⟩ => rfl | ⟨1, _⟩ => rfl)
  rw [val_main_v40_apply, val_main_v37_apply, val_main_v36_apply, val_main_v39_apply, val_main_v38_apply]
  simp only [el, er, eb, Ideal.addf_def, GsaSpec.proj]
  exact congrArg (· + x8 (ix2 h k)) (Finset.sum_congr rfl fun m _ => mul_comm _ _)

/-- The normalised content query: each row of the projection divided by the larger of its norm and `eps`. -/
theorem v19_apply (b h : Fin 8) (t : Fin 1024) (k : Fin 64) :
    val_main_v19 (F := Ideal) x0 x3 x4 x22 (ix4 b h t k)
      = GsaSpec.l2n (fun t k => val_main_v14 (F := Ideal) x0 x3 x4 x22 (ix4 b h t k)) t k := by
  have e3 : idx_main_call0_v2 (idx_main_v18 (ix4 b h t k)) = ix3 b h t :=
    funext fun a => Fin.ext (by match a with | ⟨0, _⟩ => rfl | ⟨1, _⟩ => rfl | ⟨2, _⟩ => rfl)
  have e4 : ∀ k' : Fin 64, idx_main_call0_v1 (ix3 b h t) k' = ix4 b h t k' := fun k' =>
    funext fun a => Fin.ext (by match a with | ⟨0, _⟩ => rfl | ⟨1, _⟩ => rfl | ⟨2, _⟩ => rfl | ⟨3, _⟩ => rfl)
  rw [val_main_v19_apply, val_main_v18_apply, val_main_v17_apply, val_main_v15_apply,
    val_main_call0_v2_apply, e3, val_main_call0_v1_apply, val_main_call0_cst_apply, val_main_v16_apply,
    val_main_cst_apply]
  simp only [e4, val_main_call0_v0_apply, Ideal.hostDivf_def, Ideal.maximumf_def, Ideal.hostUnary_sqrt_def,
    Ideal.mulf_def, Ideal.ofBits_def, Ideal.ofBits_zero_f32, zero_add]
  rfl

/-- The normalised content key. -/
theorem v32_apply (b h : Fin 8) (t : Fin 1024) (k : Fin 64) :
    val_main_v32 (F := Ideal) x0 x5 x6 x22 (ix4 b h t k)
      = GsaSpec.l2n (fun t k => val_main_v27 (F := Ideal) x0 x5 x6 x22 (ix4 b h t k)) t k := by
  have e3 : idx_main_call1_v2 (idx_main_v31 (ix4 b h t k)) = ix3 b h t :=
    funext fun a => Fin.ext (by match a with | ⟨0, _⟩ => rfl | ⟨1, _⟩ => rfl | ⟨2, _⟩ => rfl)
  have e4 : ∀ k' : Fin 64, idx_main_call1_v1 (ix3 b h t) k' = ix4 b h t k' := fun k' =>
    funext fun a => Fin.ext (by match a with | ⟨0, _⟩ => rfl | ⟨1, _⟩ => rfl | ⟨2, _⟩ => rfl | ⟨3, _⟩ => rfl)
  rw [val_main_v32_apply, val_main_v31_apply, val_main_v30_apply, val_main_v28_apply,
    val_main_call1_v2_apply, e3, val_main_call1_v1_apply, val_main_call1_cst_apply, val_main_v29_apply,
    val_main_cst_0_apply]
  simp only [e4, val_main_call1_v0_apply, Ideal.hostDivf_def, Ideal.maximumf_def, Ideal.hostUnary_sqrt_def,
    Ideal.mulf_def, Ideal.ofBits_def, Ideal.ofBits_zero_f32, zero_add]
  rfl

/-- The auxiliary query projection. -/
theorem v152_apply (b h : Fin 8) (t : Fin 1024) (k : Fin 32) :
    val_main_v152 (F := Ideal) x1 x9 x10 (ix4 b h t k)
      = GsaSpec.proj (fun t m => x1 (ix3 b t m)) (fun k m => x9 (ix3 h k m)) (fun k => x10 (ix2 h k)) t k := by
  have el : ∀ m : Fin 256, lidx_main_v148 (idx_main_v149 (ix4 b h t k)) m = ix3 h k m := fun m =>
    funext fun a => Fin.ext (by match a with | ⟨0, _⟩ => rfl | ⟨1, _⟩ => rfl | ⟨2, _⟩ => rfl)
  have er : ∀ m : Fin 256, ridx_main_v148 (idx_main_v149 (ix4 b h t k)) m = ix3 b t m := fun m =>
    funext fun a => Fin.ext (by match a with | ⟨0, _⟩ => rfl | ⟨1, _⟩ => rfl | ⟨2, _⟩ => rfl)
  have eb : idx_main_v150 (idx_main_v151 (ix4 b h t k)) = ix2 h k :=
    funext fun a => Fin.ext (by match a with | ⟨0, _⟩ => rfl | ⟨1, _⟩ => rfl)
  rw [val_main_v152_apply, val_main_v149_apply, val_main_v148_apply, val_main_v151_apply, val_main_v150_apply]
  simp only [el, er, eb, Ideal.addf_def, GsaSpec.proj]
  exact congrArg (· + x10 (ix2 h k)) (Finset.sum_congr rfl fun m _ => mul_comm _ _)

/-- The normalised auxiliary query. -/
theorem v157_apply (b h : Fin 8) (t : Fin 1024) (k : Fin 32) :
    val_main_v157 (F := Ideal) x1 x9 x10 (ix4 b h t k)
      = GsaSpec.l2n (fun t k => val_main_v152 (F := Ideal) x1 x9 x10 (ix4 b h t k)) t k := by
  have e3 : idx_main_call2_v2 (idx_main_v156 (ix4 b h t k)) = ix3 b h t :=
    funext fun a => Fin.ext (by match a with | ⟨0, _⟩ => rfl | ⟨1, _⟩ => rfl | ⟨2, _⟩ => rfl)
  have e4 : ∀ k' : Fin 32, idx_main_call2_v1 (ix3 b h t) k' = ix4 b h t k' := fun k' =>
    funext fun a => Fin.ext (by match a with | ⟨0, _⟩ => rfl | ⟨1, _⟩ => rfl | ⟨2, _⟩ => rfl | ⟨3, _⟩ => rfl)
  rw [val_main_v157_apply, val_main_v156_apply, val_main_v155_apply, val_main_v153_apply,
    val_main_call2_v2_apply, e3, val_main_call2_v1_apply, val_main_call2_cst_apply, val_main_v154_apply,
    val_main_cst_38_apply]
  simp only [e4, val_main_call2_v0_apply, Ideal.hostDivf_def, Ideal.maximumf_def, Ideal.hostUnary_sqrt_def,
    Ideal.mulf_def, Ideal.ofBits_def, Ideal.ofBits_zero_f32, zero_add]
  rfl

/-- The auxiliary key projection. -/
theorem v162_apply (b h : Fin 8) (t : Fin 1024) (k : Fin 32) :
    val_main_v162 (F := Ideal) x1 x11 x12 (ix4 b h t k)
      = GsaSpec.proj (fun t m => x1 (ix3 b t m)) (fun k m => x11 (ix3 h k m)) (fun k => x12 (ix2 h k)) t k := by
  have el : ∀ m : Fin 256, lidx_main_v158 (idx_main_v159 (ix4 b h t k)) m = ix3 h k m := fun m =>
    funext fun a => Fin.ext (by match a with | ⟨0, _⟩ => rfl | ⟨1, _⟩ => rfl | ⟨2, _⟩ => rfl)
  have er : ∀ m : Fin 256, ridx_main_v158 (idx_main_v159 (ix4 b h t k)) m = ix3 b t m := fun m =>
    funext fun a => Fin.ext (by match a with | ⟨0, _⟩ => rfl | ⟨1, _⟩ => rfl | ⟨2, _⟩ => rfl)
  have eb : idx_main_v160 (idx_main_v161 (ix4 b h t k)) = ix2 h k :=
    funext fun a => Fin.ext (by match a with | ⟨0, _⟩ => rfl | ⟨1, _⟩ => rfl)
  rw [val_main_v162_apply, val_main_v159_apply, val_main_v158_apply, val_main_v161_apply, val_main_v160_apply]
  simp only [el, er, eb, Ideal.addf_def, GsaSpec.proj]
  exact congrArg (· + x12 (ix2 h k)) (Finset.sum_congr rfl fun m _ => mul_comm _ _)

/-- The normalised auxiliary key. -/
theorem v167_apply (b h : Fin 8) (t : Fin 1024) (k : Fin 32) :
    val_main_v167 (F := Ideal) x1 x11 x12 (ix4 b h t k)
      = GsaSpec.l2n (fun t k => val_main_v162 (F := Ideal) x1 x11 x12 (ix4 b h t k)) t k := by
  have e3 : idx_main_call3_v2 (idx_main_v166 (ix4 b h t k)) = ix3 b h t :=
    funext fun a => Fin.ext (by match a with | ⟨0, _⟩ => rfl | ⟨1, _⟩ => rfl | ⟨2, _⟩ => rfl)
  have e4 : ∀ k' : Fin 32, idx_main_call3_v1 (ix3 b h t) k' = ix4 b h t k' := fun k' =>
    funext fun a => Fin.ext (by match a with | ⟨0, _⟩ => rfl | ⟨1, _⟩ => rfl | ⟨2, _⟩ => rfl | ⟨3, _⟩ => rfl)
  rw [val_main_v167_apply, val_main_v166_apply, val_main_v165_apply, val_main_v163_apply,
    val_main_call3_v2_apply, e3, val_main_call3_v1_apply, val_main_call3_cst_apply, val_main_v164_apply,
    val_main_cst_39_apply]
  simp only [e4, val_main_call3_v0_apply, Ideal.hostDivf_def, Ideal.maximumf_def, Ideal.hostUnary_sqrt_def,
    Ideal.mulf_def, Ideal.ofBits_def, Ideal.ofBits_zero_f32, zero_add]
  rfl

/-- The positional query projection. -/
theorem v172_apply (b h : Fin 8) (t : Fin 1024) (k : Fin 16) :
    val_main_v172 (F := Ideal) x2 x13 x14 (ix4 b h t k)
      = GsaSpec.proj (fun t m => x2 (ix3 b t m)) (fun k m => x13 (ix3 h k m)) (fun k => x14 (ix2 h k)) t k := by
  have el : ∀ m : Fin 128, lidx_main_v168 (idx_main_v169 (ix4 b h t k)) m = ix3 h k m := fun m =>
    funext fun a => Fin.ext (by match a with | ⟨0, _⟩ => rfl | ⟨1, _⟩ => rfl | ⟨2, _⟩ => rfl)
  have er : ∀ m : Fin 128, ridx_main_v168 (idx_main_v169 (ix4 b h t k)) m = ix3 b t m := fun m =>
    funext fun a => Fin.ext (by match a with | ⟨0, _⟩ => rfl | ⟨1, _⟩ => rfl | ⟨2, _⟩ => rfl)
  have eb : idx_main_v170 (idx_main_v171 (ix4 b h t k)) = ix2 h k :=
    funext fun a => Fin.ext (by match a with | ⟨0, _⟩ => rfl | ⟨1, _⟩ => rfl)
  rw [val_main_v172_apply, val_main_v169_apply, val_main_v168_apply, val_main_v171_apply, val_main_v170_apply]
  simp only [el, er, eb, Ideal.addf_def, GsaSpec.proj]
  exact congrArg (· + x14 (ix2 h k)) (Finset.sum_congr rfl fun m _ => mul_comm _ _)

/-- The normalised positional query. -/
theorem v177_apply (b h : Fin 8) (t : Fin 1024) (k : Fin 16) :
    val_main_v177 (F := Ideal) x2 x13 x14 (ix4 b h t k)
      = GsaSpec.l2n (fun t k => val_main_v172 (F := Ideal) x2 x13 x14 (ix4 b h t k)) t k := by
  have e3 : idx_main_call4_v2 (idx_main_v176 (ix4 b h t k)) = ix3 b h t :=
    funext fun a => Fin.ext (by match a with | ⟨0, _⟩ => rfl | ⟨1, _⟩ => rfl | ⟨2, _⟩ => rfl)
  have e4 : ∀ k' : Fin 16, idx_main_call4_v1 (ix3 b h t) k' = ix4 b h t k' := fun k' =>
    funext fun a => Fin.ext (by match a with | ⟨0, _⟩ => rfl | ⟨1, _⟩ => rfl | ⟨2, _⟩ => rfl | ⟨3, _⟩ => rfl)
  rw [val_main_v177_apply, val_main_v176_apply, val_main_v175_apply, val_main_v173_apply,
    val_main_call4_v2_apply, e3, val_main_call4_v1_apply, val_main_call4_cst_apply, val_main_v174_apply,
    val_main_cst_40_apply]
  simp only [e4, val_main_call4_v0_apply, Ideal.hostDivf_def, Ideal.maximumf_def, Ideal.hostUnary_sqrt_def,
    Ideal.mulf_def, Ideal.ofBits_def, Ideal.ofBits_zero_f32, zero_add]
  rfl

/-- The positional key projection. -/
theorem v182_apply (b h : Fin 8) (t : Fin 1024) (k : Fin 16) :
    val_main_v182 (F := Ideal) x2 x15 x16 (ix4 b h t k)
      = GsaSpec.proj (fun t m => x2 (ix3 b t m)) (fun k m => x15 (ix3 h k m)) (fun k => x16 (ix2 h k)) t k := by
  have el : ∀ m : Fin 128, lidx_main_v178 (idx_main_v179 (ix4 b h t k)) m = ix3 h k m := fun m =>
    funext fun a => Fin.ext (by match a with | ⟨0, _⟩ => rfl | ⟨1, _⟩ => rfl | ⟨2, _⟩ => rfl)
  have er : ∀ m : Fin 128, ridx_main_v178 (idx_main_v179 (ix4 b h t k)) m = ix3 b t m := fun m =>
    funext fun a => Fin.ext (by match a with | ⟨0, _⟩ => rfl | ⟨1, _⟩ => rfl | ⟨2, _⟩ => rfl)
  have eb : idx_main_v180 (idx_main_v181 (ix4 b h t k)) = ix2 h k :=
    funext fun a => Fin.ext (by match a with | ⟨0, _⟩ => rfl | ⟨1, _⟩ => rfl)
  rw [val_main_v182_apply, val_main_v179_apply, val_main_v178_apply, val_main_v181_apply, val_main_v180_apply]
  simp only [el, er, eb, Ideal.addf_def, GsaSpec.proj]
  exact congrArg (· + x16 (ix2 h k)) (Finset.sum_congr rfl fun m _ => mul_comm _ _)

/-- The normalised positional key. -/
theorem v187_apply (b h : Fin 8) (t : Fin 1024) (k : Fin 16) :
    val_main_v187 (F := Ideal) x2 x15 x16 (ix4 b h t k)
      = GsaSpec.l2n (fun t k => val_main_v182 (F := Ideal) x2 x15 x16 (ix4 b h t k)) t k := by
  have e3 : idx_main_call5_v2 (idx_main_v186 (ix4 b h t k)) = ix3 b h t :=
    funext fun a => Fin.ext (by match a with | ⟨0, _⟩ => rfl | ⟨1, _⟩ => rfl | ⟨2, _⟩ => rfl)
  have e4 : ∀ k' : Fin 16, idx_main_call5_v1 (ix3 b h t) k' = ix4 b h t k' := fun k' =>
    funext fun a => Fin.ext (by match a with | ⟨0, _⟩ => rfl | ⟨1, _⟩ => rfl | ⟨2, _⟩ => rfl | ⟨3, _⟩ => rfl)
  rw [val_main_v187_apply, val_main_v186_apply, val_main_v185_apply, val_main_v183_apply,
    val_main_call5_v2_apply, e3, val_main_call5_v1_apply, val_main_call5_cst_apply, val_main_v184_apply,
    val_main_cst_41_apply]
  simp only [e4, val_main_call5_v0_apply, Ideal.hostDivf_def, Ideal.maximumf_def, Ideal.hostUnary_sqrt_def,
    Ideal.mulf_def, Ideal.ofBits_def, Ideal.ofBits_zero_f32, zero_add]
  rfl

/-- The content similarity: inner products of normalised queries with normalised keys. -/
theorem v41_apply (b h : Fin 8) (t s : Fin 1024) :
    val_main_v41 (F := Ideal) x0 x3 x4 x5 x6 x22 (ix4 b h t s)
      = GsaSpec.gram (fun t k => val_main_v19 (F := Ideal) x0 x3 x4 x22 (ix4 b h t k))
          (fun t k => val_main_v32 (F := Ideal) x0 x5 x6 x22 (ix4 b h t k)) t s := by
  have el : ∀ k : Fin 64, lidx_main_v41 (ix4 b h t s) k = ix4 b h t k := fun k =>
    funext fun a => Fin.ext (by match a with | ⟨0, _⟩ => rfl | ⟨1, _⟩ => rfl | ⟨2, _⟩ => rfl | ⟨3, _⟩ => rfl)
  have er : ∀ k : Fin 64, ridx_main_v41 (ix4 b h t s) k = ix4 b h s k := fun k =>
    funext fun a => Fin.ext (by match a with | ⟨0, _⟩ => rfl | ⟨1, _⟩ => rfl | ⟨2, _⟩ => rfl | ⟨3, _⟩ => rfl)
  rw [val_main_v41_apply]
  simp only [el, er]
  rfl

/-- The auxiliary similarity. -/
theorem v192_apply (b h : Fin 8) (t s : Fin 1024) :
    val_main_v192 (F := Ideal) x1 x9 x10 x11 x12 (ix4 b h t s)
      = GsaSpec.gram (fun t k => val_main_v157 (F := Ideal) x1 x9 x10 (ix4 b h t k))
          (fun t k => val_main_v167 (F := Ideal) x1 x11 x12 (ix4 b h t k)) t s := by
  have el : ∀ k : Fin 32, lidx_main_v192 (ix4 b h t s) k = ix4 b h t k := fun k =>
    funext fun a => Fin.ext (by match a with | ⟨0, _⟩ => rfl | ⟨1, _⟩ => rfl | ⟨2, _⟩ => rfl | ⟨3, _⟩ => rfl)
  have er : ∀ k : Fin 32, ridx_main_v192 (ix4 b h t s) k = ix4 b h s k := fun k =>
    funext fun a => Fin.ext (by match a with | ⟨0, _⟩ => rfl | ⟨1, _⟩ => rfl | ⟨2, _⟩ => rfl | ⟨3, _⟩ => rfl)
  rw [val_main_v192_apply]
  simp only [el, er]
  rfl

/-- The positional similarity. -/
theorem v197_apply (b h : Fin 8) (t s : Fin 1024) :
    val_main_v197 (F := Ideal) x2 x13 x14 x15 x16 (ix4 b h t s)
      = GsaSpec.gram (fun t k => val_main_v177 (F := Ideal) x2 x13 x14 (ix4 b h t k))
          (fun t k => val_main_v187 (F := Ideal) x2 x15 x16 (ix4 b h t k)) t s := by
  have el : ∀ k : Fin 16, lidx_main_v197 (ix4 b h t s) k = ix4 b h t k := fun k =>
    funext fun a => Fin.ext (by match a with | ⟨0, _⟩ => rfl | ⟨1, _⟩ => rfl | ⟨2, _⟩ => rfl | ⟨3, _⟩ => rfl)
  have er : ∀ k : Fin 16, ridx_main_v197 (ix4 b h t s) k = ix4 b h s k := fun k =>
    funext fun a => Fin.ext (by match a with | ⟨0, _⟩ => rfl | ⟨1, _⟩ => rfl | ⟨2, _⟩ => rfl | ⟨3, _⟩ => rfl)
  rw [val_main_v197_apply]
  simp only [el, er]
  rfl

end Cert.ReferenceIdeal.RefValue

end
-- ==== Proof.LibScatter.lean ====
/-
  A host scatter read at an index.

  `Host.scatter d f x idx upd` is the left fold, over the update positions in row-major order, of the step
  "if update `j` lands inside the operand at `i`, replace the element at `i` by `f` of it and `upd j`".
  When at most one update lands on any element (one scatter index: the landing map `j ↦ start + window j` is
  injective), the fold read at `i` is

    * `x i` when no update lands on `i`, and
    * `f (x i) (upd j)` when update `j` does,

  whatever `f` is: no commutativity or associativity is used, only that each element is met at most once.
  The two statements are first proved for the fold over any list without repetition, then specialised.
-/
import Idealize.ShloMosaic.PureOps.ShapeOps
import Idealize.ShloMosaic.Lib.ValueIdx

namespace Idealize.ShloMosaic.ScatterRead

variable {ι κ α : Type} [DecidableEq ι]

/-- One step of the fold: position `n` lands at `g n` (or nowhere) and carries the value `v n`. -/
def step (f : α → α → α) (g : κ → Option ι) (v : κ → α) (r : ι → α) (n : κ) : ι → α :=
  match g n with
  | some i => fun i' => if i' = i then f (r i) (v n) else r i'
  | none => r

/-- A step whose position does not land on `i` leaves the element at `i` alone. -/
theorem step_of_ne (f : α → α → α) (g : κ → Option ι) (v : κ → α) (r : ι → α) (n : κ) (i : ι)
    (h : g n ≠ some i) : step f g v r n i = r i := by
  unfold step
  cases hg : g n with
  | none => rfl
  | some i₀ =>
    have hne : i ≠ i₀ := fun e => h (by rw [hg, e])
    simp only [if_neg hne]

/-- A step whose position lands on `i` combines the element at `i` with the position's value. -/
theorem step_of_eq (f : α → α → α) (g : κ → Option ι) (v : κ → α) (r : ι → α) (n : κ) (i : ι)
    (h : g n = some i) : step f g v r n i = f (r i) (v n) := by
  unfold step
  rw [h]
  simp only [if_true]

/-- MISS: no position of the list lands on `i`, so the fold leaves the element at `i` as it was. -/
theorem foldl_miss (f : α → α → α) (g : κ → Option ι) (v : κ → α) (i : ι) :
    ∀ (l : List κ) (x : ι → α), (∀ n ∈ l, g n ≠ some i) → l.foldl (step f g v) x i = x i
  | [], _, _ => rfl
  | a :: t, x, h => by
    rw [List.foldl_cons, foldl_miss f g v i t _ (fun n hn => h n (List.mem_cons_of_mem _ hn))]
    exact step_of_ne f g v x a i (h a List.mem_cons_self)

/-- HIT: exactly one position `n₀` of a list without repetition lands on `i`; the fold leaves there the start
    value combined with that position's value. -/
theorem foldl_hit (f : α → α → α) (g : κ → Option ι) (v : κ → α) (i : ι) (n₀ : κ) (h₀ : g n₀ = some i) :
    ∀ (l : List κ) (x : ι → α), l.Nodup → n₀ ∈ l → (∀ n ∈ l, g n = some i → n = n₀) →
      l.foldl (step f g v) x i = f (x i) (v n₀)
  | [], _, _, hm, _ => absurd hm List.not_mem_nil
  | a :: t, x, hnd, hm, huniq => by
    rw [List.foldl_cons]
    have hnd' := List.nodup_cons.mp hnd
    by_cases ha : a = n₀
    · subst ha
      rw [foldl_miss f g v i t _ (fun n hn e => hnd'.1 (by
        have := huniq n (List.mem_cons_of_mem _ hn) e; rw [← this]; exact hn))]
      exact step_of_eq f g v x a i h₀
    · have hmt : n₀ ∈ t := by
        rcases List.mem_cons.mp hm with e | e
        · exact absurd e.symm ha
        · exact e
      rw [foldl_hit f g v i n₀ h₀ t _ hnd'.2 hmt (fun n hn => huniq n (List.mem_cons_of_mem _ hn))]
      rw [step_of_ne f g v x a i (fun e => ha (huniq a List.mem_cons_self e))]

end Idealize.ShloMosaic.ScatterRead

namespace Idealize.ShloMosaic

open ScatterRead

variable {α : Type} {s si u : Shape} {w : Nat}

/-- `Host.scatter` is the fold of `ScatterRead.step` over the row-major positions of the update. -/
theorem Host.scatter_eq_foldl_step (d : ScatterDims s si u) (f : α → α → α) (x : s.Idx → α) (idx : IVec si w)
    (upd : u.Idx → α) :
    Host.scatter d f x idx upd =
      (List.finRange u.numel).foldl
        (step f (fun n => d.resultIdx? (u.rowMajor.symm n) idx) (fun n => upd (u.rowMajor.symm n))) x := by
  unfold Host.scatter
  congr 1
  funext r n
  unfold step
  dsimp only
  cases d.resultIdx? (u.rowMajor.symm n) idx <;> rfl

/-- No update lands on `i`: the scatter leaves the operand's element. -/
theorem Host.scatter_apply_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  rw [Host.scatter_eq_foldl_step]
  exact foldl_miss f _ _ i _ x (fun n _ => h _)

/-- Update `j` lands on `i`, and it is the only one that does: the scatter combines the operand's element with it. -/
theorem Host.scatter_apply_hit (d : ScatterDims s si u) (f : α → α → α) (x : s.Idx → α) (idx : IVec si w)
    (upd : u.Idx → α) (i : s.Idx) (j : u.Idx) (hj : d.resultIdx? j idx = some i)
    (huniq : ∀ j' : u.Idx, d.resultIdx? j' idx = some i → j' = j) :
    Host.scatter d f x idx upd i = f (x i) (upd j) := by
  rw [Host.scatter_eq_foldl_step]
  have h := foldl_hit f (fun n => d.resultIdx? (u.rowMajor.symm n) idx) (fun n => upd (u.rowMajor.symm n)) i
    (u.rowMajor j) (by simp only [Equiv.symm_apply_apply]; exact hj) (List.finRange u.numel) x
    (List.nodup_finRange _) (List.mem_finRange _)
    (fun n _ e => by
      have := huniq _ e
      rw [← this, Equiv.apply_symm_apply])
  rw [h]
  simp only [Equiv.symm_apply_apply]

end Idealize.ShloMosaic

/-! ## A whole window scattered at one constant start: rank 2

  The update is a rank-2 window `h × w`, scattered whole into an `H × W` operand at the start `(s0, s1)`, the window
  inside the operand. Update `(a, b)` lands on `(s0 + a, s1 + b)`: the landing map is a translation, so it is
  injective, and element `(p, q)` is met exactly when `s0 ≤ p < s0 + h` and `s1 ≤ q < s1 + w`, by update
  `(p - s0, q - s1)`. -/

namespace Idealize.ShloMosaic

open ValueIdx

section Rank2

variable {α : Type} {H W h w : Nat} {si : Shape} {wd : Nat}

/-- Every update of the window lands inside the operand, at its own coordinates moved by the start. -/
theorem ScatterDims.resultIdx?_window2 (d : ScatterDims ⟨2, ![H, W]⟩ si ⟨2, ![h, w]⟩) (idx : IVec si wd) (s0 s1 : Nat)
    (hw0 : ∀ j, d.window j 0 = (j 0).val) (hw1 : ∀ j, d.window j 1 = (j 1).val)
    (hs0 : ∀ j, d.start j idx 0 = (s0 : Int)) (hs1 : ∀ j, d.start j idx 1 = (s1 : Int))
    (hb0 : s0 + h ≤ H) (hb1 : s1 + w ≤ W) (j : (⟨2, ![h, w]⟩ : Shape).Idx) :
    d.resultIdx? j idx =
      some (ix2 (⟨s0 + (j 0).val, by have := idx2_lt0 j; omega⟩ : Fin H)
                (⟨s1 + (j 1).val, by have := idx2_lt1 j; omega⟩ : Fin W)) := by
  have h0 := idx2_lt0 j
  have h1 := idx2_lt1 j
  unfold ScatterDims.resultIdx?
  have hall : ∀ a, 0 ≤ d.start j idx a + d.window j a ∧
      d.start j idx a + d.window j a < (⟨2, ![H, W]⟩ : Shape).size a := by
    intro a
    match a with
    | ⟨0, _⟩ =>
      show 0 ≤ d.start j idx 0 + (d.window j 0 : Int) ∧ d.start j idx 0 + (d.window j 0 : Int) < (H : Int)
      rw [hs0, hw0]; omega
    | ⟨1, _⟩ =>
      show 0 ≤ d.start j idx 1 + (d.window j 1 : Int) ∧ d.start j idx 1 + (d.window j 1 : Int) < (W : Int)
      rw [hs1, hw1]; omega
  rw [dif_pos hall]
  refine congrArg some (funext fun a => ?_)
  match a with
  | ⟨0, _⟩ =>
    refine Fin.ext ?_
    show (d.start j idx 0 + (d.window j 0 : Int)).toNat = s0 + (j 0).val
    rw [hs0, hw0]; omega
  | ⟨1, _⟩ =>
    refine Fin.ext ?_
    show (d.start j idx 1 + (d.window j 1 : Int)).toNat = s1 + (j 1).val
    rw [hs1, hw1]; omega

/-- The scatter of a whole rank-2 window at a constant start, read at `(p, q)`. -/
theorem Host.scatter_window2_apply (d : ScatterDims ⟨2, ![H, W]⟩ si ⟨2, ![h, w]⟩) (f : α → α → α)
    (x : (⟨2, ![H, W]⟩ : Shape).Idx → α) (idx : IVec si wd) (upd : (⟨2, ![h, w]⟩ : Shape).Idx → α) (s0 s1 : Nat)
    (hw0 : ∀ j, d.window j 0 = (j 0).val) (hw1 : ∀ j, d.window j 1 = (j 1).val)
    (hs0 : ∀ j, d.start j idx 0 = (s0 : Int)) (hs1 : ∀ j, d.start j idx 1 = (s1 : Int))
    (hb0 : s0 + h ≤ H) (hb1 : s1 + w ≤ W) (p : Fin H) (q : Fin W) :
    Host.scatter d f x idx upd (ix2 p q) =
      if hin : s0 ≤ p.val ∧ p.val < s0 + h ∧ s1 ≤ q.val ∧ q.val < s1 + w then
        f (x (ix2 p q)) (upd (ix2 (⟨p.val - s0, by omega⟩ : Fin h) (⟨q.val - s1, by omega⟩ : Fin w)))
      else x (ix2 p q) := by
  have hres := ScatterDims.resultIdx?_window2 d idx s0 s1 hw0 hw1 hs0 hs1 hb0 hb1
  by_cases hin : s0 ≤ p.val ∧ p.val < s0 + h ∧ s1 ≤ q.val ∧ q.val < s1 + w
  · rw [dif_pos hin]
    refine Host.scatter_apply_hit d f x idx upd _ _ ?_ ?_
    · rw [hres]
      refine congrArg some (funext fun a => ?_)
      match a with
      | ⟨0, _⟩ => refine Fin.ext ?_; show s0 + (p.val - s0) = p.val; omega
      | ⟨1, _⟩ => refine Fin.ext ?_; show s1 + (q.val - s1) = q.val; omega
    · intro j' hj'
      rw [hres] at hj'
      have e := Option.some.inj hj'
      have e0 : s0 + (j' 0).val = p.val := congrArg Fin.val (congrFun e 0)
      have e1 : s1 + (j' 1).val = q.val := congrArg Fin.val (congrFun e 1)
      rw [eq_ix2 j']
      refine funext fun a => ?_
      match a with
      | ⟨0, _⟩ => refine Fin.ext ?_; show (j' 0).val = p.val - s0; omega
      | ⟨1, _⟩ => refine Fin.ext ?_; show (j' 1).val = q.val - s1; omega
  · rw [dif_neg hin]
    refine Host.scatter_apply_miss d f x idx upd _ (fun j' hj' => hin ?_)
    rw [hres] at hj'
    have e := Option.some.inj hj'
    have e0 : s0 + (j' 0).val = p.val := congrArg Fin.val (congrFun e 0)
    have e1 : s1 + (j' 1).val = q.val := congrArg Fin.val (congrFun e 1)
    have h0 := idx2_lt0 j'
    have h1 := idx2_lt1 j'
    omega

end Rank2

end Idealize.ShloMosaic

/-! ## The same at rank 4, the two leading axes whole

  The operand is `B × Z × H × W`, the update `B × Z × h × w`, the start `(0, 0, s2, s3)`: update `(b, z, a, c)` lands on
  `(b, z, s2 + a, s3 + c)`. -/

namespace Idealize.ShloMosaic

open ValueIdx

section Rank4

variable {α : Type} {B Z H W h w : Nat} {si : Shape} {wd : Nat}

/-- Every update of the window lands inside the operand, its two trailing coordinates moved by the start. -/
theorem ScatterDims.resultIdx?_window4 (d : ScatterDims ⟨4, ![B, Z, H, W]⟩ si ⟨4, ![B, Z, h, w]⟩) (idx : IVec si wd)
    (s2 s3 : Nat)
    (hw0 : ∀ j, d.window j 0 = (j 0).val) (hw1 : ∀ j, d.window j 1 = (j 1).val)
    (hw2 : ∀ j, d.window j 2 = (j 2).val) (hw3 : ∀ j, d.window j 3 = (j 3).val)
    (hs0 : ∀ j, d.start j idx 0 = 0) (hs1 : ∀ j, d.start j idx 1 = 0)
    (hs2 : ∀ j, d.start j idx 2 = (s2 : Int)) (hs3 : ∀ j, d.start j idx 3 = (s3 : Int))
    (hb2 : s2 + h ≤ H) (hb3 : s3 + w ≤ W) (j : (⟨4, ![B, Z, h, w]⟩ : Shape).Idx) :
    d.resultIdx? j idx =
      some (ix4 (⟨(j 0).val, (j 0).isLt⟩ : Fin B) (⟨(j 1).val, (j 1).isLt⟩ : Fin Z)
                (⟨s2 + (j 2).val, by have : (j 2).val < h := (j 2).isLt; omega⟩ : Fin H)
                (⟨s3 + (j 3).val, by have : (j 3).val < w := (j 3).isLt; omega⟩ : Fin W)) := by
  have h0 : (j 0).val < B := (j 0).isLt
  have h1 : (j 1).val < Z := (j 1).isLt
  have h2 : (j 2).val < h := (j 2).isLt
  have h3 : (j 3).val < w := (j 3).isLt
  unfold ScatterDims.resultIdx?
  have hall : ∀ a, 0 ≤ d.start j idx a + d.window j a ∧
      d.start j idx a + d.window j a < (⟨4, ![B, Z, H, W]⟩ : Shape).size a := by
    intro a
    match a with
    | ⟨0, _⟩ =>
      show 0 ≤ d.start j idx 0 + (d.window j 0 : Int) ∧ d.start j idx 0 + (d.window j 0 : Int) < (B : Int)
      rw [hs0, hw0]; omega
    | ⟨1, _⟩ =>
      show 0 ≤ d.start j idx 1 + (d.window j 1 : Int) ∧ d.start j idx 1 + (d.window j 1 : Int) < (Z : Int)
      rw [hs1, hw1]; omega
    | ⟨2, _⟩ =>
      show 0 ≤ d.start j idx 2 + (d.window j 2 : Int) ∧ d.start j idx 2 + (d.window j 2 : Int) < (H : Int)
      rw [hs2, hw2]; omega
    | ⟨3, _⟩ =>
      show 0 ≤ d.start j idx 3 + (d.window j 3 : Int) ∧ d.start j idx 3 + (d.window j 3 : Int) < (W : Int)
      rw [hs3, hw3]; omega
  rw [dif_pos hall]
  refine congrArg some (funext fun a => ?_)
  match a with
  | ⟨0, _⟩ =>
    refine Fin.ext ?_
    show (d.start j idx 0 + (d.window j 0 : Int)).toNat = (j 0).val
    rw [hs0, hw0]; omega
  | ⟨1, _⟩ =>
    refine Fin.ext ?_
    show (d.start j idx 1 + (d.window j 1 : Int)).toNat = (j 1).val
    rw [hs1, hw1]; omega
  | ⟨2, _⟩ =>
    refine Fin.ext ?_
    show (d.start j idx 2 + (d.window j 2 : Int)).toNat = s2 + (j 2).val
    rw [hs2, hw2]; omega
  | ⟨3, _⟩ =>
    refine Fin.ext ?_
    show (d.start j idx 3 + (d.window j 3 : Int)).toNat = s3 + (j 3).val
    rw [hs3, hw3]; omega

/-- The scatter of a whole rank-4 window at a constant start on the two trailing axes, read at `(b, z, p, q)`. -/
theorem Host.scatter_window4_apply (d : ScatterDims ⟨4, ![B, Z, H, W]⟩ si ⟨4, ![B, Z, h, w]⟩) (f : α → α → α)
    (x : (⟨4, ![B, Z, H, W]⟩ : Shape).Idx → α) (idx : IVec si wd) (upd : (⟨4, ![B, Z, h, w]⟩ : Shape).Idx → α)
    (s2 s3 : Nat)
    (hw0 : ∀ j, d.window j 0 = (j 0).val) (hw1 : ∀ j, d.window j 1 = (j 1).val)
    (hw2 : ∀ j, d.window j 2 = (j 2).val) (hw3 : ∀ j, d.window j 3 = (j 3).val)
    (hs0 : ∀ j, d.start j idx 0 = 0) (hs1 : ∀ j, d.start j idx 1 = 0)
    (hs2 : ∀ j, d.start j idx 2 = (s2 : Int)) (hs3 : ∀ j, d.start j idx 3 = (s3 : Int))
    (hb2 : s2 + h ≤ H) (hb3 : s3 + w ≤ W) (b : Fin B) (z : Fin Z) (p : Fin H) (q : Fin W) :
    Host.scatter d f x idx upd (ix4 b z p q) =
      if hin : s2 ≤ p.val ∧ p.val < s2 + h ∧ s3 ≤ q.val ∧ q.val < s3 + w then
        f (x (ix4 b z p q)) (upd (ix4 b z (⟨p.val - s2, by omega⟩ : Fin h) (⟨q.val - s3, by omega⟩ : Fin w)))
      else x (ix4 b z p q) := by
  have hres := ScatterDims.resultIdx?_window4 d idx s2 s3 hw0 hw1 hw2 hw3 hs0 hs1 hs2 hs3 hb2 hb3
  by_cases hin : s2 ≤ p.val ∧ p.val < s2 + h ∧ s3 ≤ q.val ∧ q.val < s3 + w
  · rw [dif_pos hin]
    refine Host.scatter_apply_hit d f x idx upd _ _ ?_ ?_
    · rw [hres]
      refine congrArg some (funext fun a => ?_)
      match a with
      | ⟨0, _⟩ => rfl
      | ⟨1, _⟩ => rfl
      | ⟨2, _⟩ => refine Fin.ext ?_; show s2 + (p.val - s2) = p.val; omega
      | ⟨3, _⟩ => refine Fin.ext ?_; show s3 + (q.val - s3) = q.val; omega
    · intro j' hj'
      rw [hres] at hj'
      have e := Option.some.inj hj'
      have e0 : (j' 0).val = b.val := congrArg Fin.val (congrFun e 0)
      have e1 : (j' 1).val = z.val := congrArg Fin.val (congrFun e 1)
      have e2 : s2 + (j' 2).val = p.val := congrArg Fin.val (congrFun e 2)
      have e3 : s3 + (j' 3).val = q.val := congrArg Fin.val (congrFun e 3)
      rw [eq_ix4 j']
      refine funext fun a => ?_
      match a with
      | ⟨0, _⟩ => exact Fin.ext e0
      | ⟨1, _⟩ => exact Fin.ext e1
      | ⟨2, _⟩ => refine Fin.ext ?_; show (j' 2).val = p.val - s2; omega
      | ⟨3, _⟩ => refine Fin.ext ?_; show (j' 3).val = q.val - s3; omega
  · rw [dif_neg hin]
    refine Host.scatter_apply_miss d f x idx upd _ (fun j' hj' => hin ?_)
    rw [hres] at hj'
    have e := Option.some.inj hj'
    have e2 : s2 + (j' 2).val = p.val := congrArg Fin.val (congrFun e 2)
    have e3 : s3 + (j' 3).val = q.val := congrArg Fin.val (congrFun e 3)
    have h2 : (j' 2).val < h := (j' 2).isLt
    have h3 : (j' 3).val < w := (j' 3).isLt
    omega

end Rank4

end Idealize.ShloMosaic
-- ==== Proof.RefBand.lean ====
/-
  The reference's banded diagonal sum, read at an index.

  The reference forms the tensor `S` of pairwise inner products (operation %41, kept opaque here), starts from a
  zero tensor (%42) and performs seventeen scatter-adds. Step `j` (`j = 0 … 16`) adds a square slice of `S` into the
  running tensor on the two trailing axes:

    * for `j ≤ 7` the slice `S[0 : 1016 + j, 0 : 1016 + j]` at the start `(8 - j, 8 - j)`;
    * for `j = 8` the whole of `S` at the start `(0, 0)` (an empty start vector);
    * for `j ≥ 9` the slice `S[j - 8 : 1024, j - 8 : 1024]` at the start `(0, 0)`.

  At the coordinates `(a, c)` step `j` therefore adds `S (a + j - 8) (c + j - 8)` exactly when both shifted
  coordinates lie in `[0, 1024)`, and leaves the entry alone otherwise: it adds `GsaSpec.tap S a c j`, a missing
  entry being zero. The seventeen steps from zero are `GsaSpec.band S a c`, and the next operation divides by the
  table of neighbour counts.
-/
import proofs.«105714_j66872640798820_2_alg».proof.Proof.Patched.ReferenceIdeal.Read
import proofs.«105714_j66872640798820_2_alg».proof.Proof.Spec
import proofs.«105714_j66872640798820_2_alg».proof.Proof.LibScatter
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## Three general facts -/

/-- Two one-element pieces holding the same value, joined: every entry of the pair is that value. -/
theorem concat_pair_const {α : Type} (u v : S1.Idx → α) (k : α) (hu : ∀ i, u i = k) (hv : ∀ i, v i = k)
    (i : S2.Idx) : concatenate S2 0 [⟨S1, u⟩, ⟨S1, v⟩] concatenates_S1_S1_S2_d0 i = k := by
  have h2 : (i 0).val < 2 := (i 0).isLt
  by_cases h0 : (i 0).val < 1
  · rw [concatenate_pair_apply_left (0 : Fin S2.rank) u v concatenates_S1_S1_S2_d0 i rfl (ix1 (⟨0, Nat.one_pos⟩ : Fin 1))
      (fun b => by match b with | ⟨0, _⟩ => show 0 = (i 0).val; omega)]
    exact hu _
  · rw [concatenate_pair_apply_right (0 : Fin S2.rank) u v concatenates_S1_S1_S2_d0 i rfl rfl
      (ix1 (⟨0, Nat.one_pos⟩ : Fin 1))
      (fun b hb => by match b with | ⟨0, _⟩ => exact absurd rfl hb)
      (by show 0 + 1 = (i 0).val; omega)]
    exact hv _

/-- The start of a scatter window whose start vector holds one value `k` in every entry: `k`, read signed, on the
    axes the start vector names, and zero on the others. -/
theorem start_of_const {s si u : Shape} {w : Nat} (d : ScatterDims s si u) (idx : IVec si w) (k : BitVec w)
    (hidx : ∀ i, idx i = k) (j : u.Idx) (a : Fin s.rank) :
    d.start j idx a = if a ∈ d.scatterDimsToOperandDims then k.toInt else 0 := by
  unfold ScatterDims.start
  by_cases ha : a ∈ d.scatterDimsToOperandDims
  · rw [dif_pos ha, if_pos ha, hidx]
  · rw [dif_neg ha, if_neg ha]

/-- A square window of extent `n` placed at `(s, s)`, holding the entries of `S` moved by `(o, o)`, adds the `j`-th
    diagonal neighbour: the window covers `(a, c)` exactly when `(a + j - 8, c + j - 8)` lies in the square, and
    the entry it holds there is `S (a + j - 8) (c + j - 8)`. -/
theorem window_eq_tap (S : Fin 1024 → Fin 1024 → EReal) (acc : EReal) (a c : Fin 1024) (j s n o : Nat)
    (h1 : s + j = 8 + o) (h2 : s + n + o = 1024) (h3 : s = 0 ∨ o = 0)
    (upd : Fin n → Fin n → EReal)
    (hupd : ∀ (p q : Fin n), upd p q =
      S ⟨o + p.val, by have := p.isLt; omega⟩ ⟨o + q.val, by have := q.isLt; omega⟩) :
    (if hin : s ≤ a.val ∧ a.val < s + n ∧ s ≤ c.val ∧ c.val < s + n then
        acc + upd ⟨a.val - s, by omega⟩ ⟨c.val - s, by omega⟩
      else acc) = acc + GsaSpec.tap S a c j := by
  have ha := a.isLt
  have hc := c.isLt
  unfold GsaSpec.tap
  by_cases hin : s ≤ a.val ∧ a.val < s + n ∧ s ≤ c.val ∧ c.val < s + n
  · have hin' : 8 ≤ a.val + j ∧ a.val + j < 1032 ∧ 8 ≤ c.val + j ∧ c.val + j < 1032 := by omega
    rw [dif_pos hin, dif_pos hin', hupd]
    congr 3 <;> (dsimp only; omega)
  · have hin' : ¬ (8 ≤ a.val + j ∧ a.val + j < 1032 ∧ 8 ≤ c.val + j ∧ c.val + j < 1032) := by omega
    rw [dif_neg hin, dif_neg hin', add_zero]

/-! ## The nine scatter records, each read at an index -/

/-- A square window of extent 1016 scatter-added at `(s, s)` on the two trailing axes, the start vector holding `s` in
    both entries, read at `(b, h, a, c)`: whatever the tensors are. -/
theorem scatter1016_apply (x : S8x8x1024x1024.Idx → EReal) (idx : IVec S2 32) (upd : S8x8x1016x1016.Idx → EReal)
    (k : BitVec 32) (s : Nat) (hidx : ∀ i, idx i = k) (hk : k.toInt = (s : Int)) (hb : s + 1016 ≤ 1024)
    (b h : Fin 8) (a c : Fin 1024) :
    Host.scatter scatter_S8x8x1024x1024_S2_S8x8x1016x1016_0123_n_23_0 (fun u v : EReal => u + v) x idx upd (ix4 b h a c) =
      if hin : s ≤ a.val ∧ a.val < s + 1016 ∧ s ≤ c.val ∧ c.val < s + 1016 then
        x (ix4 b h a c) + upd (ix4 b h (⟨a.val - s, by omega⟩ : Fin 1016) (⟨c.val - s, by omega⟩ : Fin 1016))
      else x (ix4 b h a c) :=
  Host.scatter_window4_apply scatter_S8x8x1024x1024_S2_S8x8x1016x1016_0123_n_23_0 (fun u v : EReal => u + v) x idx upd s s
    (fun _ => rfl) (fun _ => rfl) (fun _ => rfl) (fun _ => rfl)
    (fun j => (start_of_const scatter_S8x8x1024x1024_S2_S8x8x1016x1016_0123_n_23_0 idx k hidx j 0).trans rfl)
    (fun j => (start_of_const scatter_S8x8x1024x1024_S2_S8x8x1016x1016_0123_n_23_0 idx k hidx j 1).trans rfl)
    (fun j => (start_of_const scatter_S8x8x1024x1024_S2_S8x8x1016x1016_0123_n_23_0 idx k hidx j 2).trans hk)
    (fun j => (start_of_const scatter_S8x8x1024x1024_S2_S8x8x1016x1016_0123_n_23_0 idx k hidx j 3).trans hk)
    hb hb b h a c

/-- A square window of extent 1017 scatter-added at `(s, s)` on the two trailing axes, the start vector holding `s` in
    both entries, read at `(b, h, a, c)`: whatever the tensors are. -/
theorem scatter1017_apply (x : S8x8x1024x1024.Idx → EReal) (idx : IVec S2 32) (upd : S8x8x1017x1017.Idx → EReal)
    (k : BitVec 32) (s : Nat) (hidx : ∀ i, idx i = k) (hk : k.toInt = (s : Int)) (hb : s + 1017 ≤ 1024)
    (b h : Fin 8) (a c : Fin 1024) :
    Host.scatter scatter_S8x8x1024x1024_S2_S8x8x1017x1017_0123_n_23_0 (fun u v : EReal => u + v) x idx upd (ix4 b h a c) =
      if hin : s ≤ a.val ∧ a.val < s + 1017 ∧ s ≤ c.val ∧ c.val < s + 1017 then
        x (ix4 b h a c) + upd (ix4 b h (⟨a.val - s, by omega⟩ : Fin 1017) (⟨c.val - s, by omega⟩ : Fin 1017))
      else x (ix4 b h a c) :=
  Host.scatter_window4_apply scatter_S8x8x1024x1024_S2_S8x8x1017x1017_0123_n_23_0 (fun u v : EReal => u + v) x idx upd s s
    (fun _ => rfl) (fun _ => rfl) (fun _ => rfl) (fun _ => rfl)
    (fun j => (start_of_const scatter_S8x8x1024x1024_S2_S8x8x1017x1017_0123_n_23_0 idx k hidx j 0).trans rfl)
    (fun j => (start_of_const scatter_S8x8x1024x1024_S2_S8x8x1017x1017_0123_n_23_0 idx k hidx j 1).trans rfl)
    (fun j => (start_of_const scatter_S8x8x1024x1024_S2_S8x8x1017x1017_0123_n_23_0 idx k hidx j 2).trans hk)
    (fun j => (start_of_const scatter_S8x8x1024x1024_S2_S8x8x1017x1017_0123_n_23_0 idx k hidx j 3).trans hk)
    hb hb b h a c

/-- A square window of extent 1018 scatter-added at `(s, s)` on the two trailing axes, the start vector holding `s` in
    both entries, read at `(b, h, a, c)`: whatever the tensors are. -/
theorem scatter1018_apply (x : S8x8x1024x1024.Idx → EReal) (idx : IVec S2 32) (upd : S8x8x1018x1018.Idx → EReal)
    (k : BitVec 32) (s : Nat) (hidx : ∀ i, idx i = k) (hk : k.toInt = (s : Int)) (hb : s + 1018 ≤ 1024)
    (b h : Fin 8) (a c : Fin 1024) :
    Host.scatter scatter_S8x8x1024x1024_S2_S8x8x1018x1018_0123_n_23_0 (fun u v : EReal => u + v) x idx upd (ix4 b h a c) =
      if hin : s ≤ a.val ∧ a.val < s + 1018 ∧ s ≤ c.val ∧ c.val < s + 1018 then
        x (ix4 b h a c) + upd (ix4 b h (⟨a.val - s, by omega⟩ : Fin 1018) (⟨c.val - s, by omega⟩ : Fin 1018))
      else x (ix4 b h a c) :=
  Host.scatter_window4_apply scatter_S8x8x1024x1024_S2_S8x8x1018x1018_0123_n_23_0 (fun u v : EReal => u + v) x idx upd s s
    (fun _ => rfl) (fun _ => rfl) (fun _ => rfl) (fun _ => rfl)
    (fun j => (start_of_const scatter_S8x8x1024x1024_S2_S8x8x1018x1018_0123_n_23_0 idx k hidx j 0).trans rfl)
    (fun j => (start_of_const scatter_S8x8x1024x1024_S2_S8x8x1018x1018_0123_n_23_0 idx k hidx j 1).trans rfl)
    (fun j => (start_of_const scatter_S8x8x1024x1024_S2_S8x8x1018x1018_0123_n_23_0 idx k hidx j 2).trans hk)
    (fun j => (start_of_const scatter_S8x8x1024x1024_S2_S8x8x1018x1018_0123_n_23_0 idx k hidx j 3).trans hk)
    hb hb b h a c

/-- A square window of extent 1019 scatter-added at `(s, s)` on the two trailing axes, the start vector holding `s` in
    both entries, read at `(b, h, a, c)`: whatever the tensors are. -/
theorem scatter1019_apply (x : S8x8x1024x1024.Idx → EReal) (idx : IVec S2 32) (upd : S8x8x1019x1019.Idx → EReal)
    (k : BitVec 32) (s : Nat) (hidx : ∀ i, idx i = k) (hk : k.toInt = (s : Int)) (hb : s + 1019 ≤ 1024)
    (b h : Fin 8) (a c : Fin 1024) :
    Host.scatter scatter_S8x8x1024x1024_S2_S8x8x1019x1019_0123_n_23_0 (fun u v : EReal => u + v) x idx upd (ix4 b h a c) =
      if hin : s ≤ a.val ∧ a.val < s + 1019 ∧ s ≤ c.val ∧ c.val < s + 1019 then
        x (ix4 b h a c) + upd (ix4 b h (⟨a.val - s, by omega⟩ : Fin 1019) (⟨c.val - s, by omega⟩ : Fin 1019))
      else x (ix4 b h a c) :=
  Host.scatter_window4_apply scatter_S8x8x1024x1024_S2_S8x8x1019x1019_0123_n_23_0 (fun u v : EReal => u + v) x idx upd s s
    (fun _ => rfl) (fun _ => rfl) (fun _ => rfl) (fun _ => rfl)
    (fun j => (start_of_const scatter_S8x8x1024x1024_S2_S8x8x1019x1019_0123_n_23_0 idx k hidx j 0).trans rfl)
    (fun j => (start_of_const scatter_S8x8x1024x1024_S2_S8x8x1019x1019_0123_n_23_0 idx k hidx j 1).trans rfl)
    (fun j => (start_of_const scatter_S8x8x1024x1024_S2_S8x8x1019x1019_0123_n_23_0 idx k hidx j 2).trans hk)
    (fun j => (start_of_const scatter_S8x8x1024x1024_S2_S8x8x1019x1019_0123_n_23_0 idx k hidx j 3).trans hk)
    hb hb b h a c

/-- A square window of extent 1020 scatter-added at `(s, s)` on the two trailing axes, the start vector holding `s` in
    both entries, read at `(b, h, a, c)`: whatever the tensors are. -/
theorem scatter1020_apply (x : S8x8x1024x1024.Idx → EReal) (idx : IVec S2 32) (upd : S8x8x1020x1020.Idx → EReal)
    (k : BitVec 32) (s : Nat) (hidx : ∀ i, idx i = k) (hk : k.toInt = (s : Int)) (hb : s + 1020 ≤ 1024)
    (b h : Fin 8) (a c : Fin 1024) :
    Host.scatter scatter_S8x8x1024x1024_S2_S8x8x1020x1020_0123_n_23_0 (fun u v : EReal => u + v) x idx upd (ix4 b h a c) =
      if hin : s ≤ a.val ∧ a.val < s + 1020 ∧ s ≤ c.val ∧ c.val < s + 1020 then
        x (ix4 b h a c) + upd (ix4 b h (⟨a.val - s, by omega⟩ : Fin 1020) (⟨c.val - s, by omega⟩ : Fin 1020))
      else x (ix4 b h a c) :=
  Host.scatter_window4_apply scatter_S8x8x1024x1024_S2_S8x8x1020x1020_0123_n_23_0 (fun u v : EReal => u + v) x idx upd s s
    (fun _ => rfl) (fun _ => rfl) (fun _ => rfl) (fun _ => rfl)
    (fun j => (start_of_const scatter_S8x8x1024x1024_S2_S8x8x1020x1020_0123_n_23_0 idx k hidx j 0).trans rfl)
    (fun j => (start_of_const scatter_S8x8x1024x1024_S2_S8x8x1020x1020_0123_n_23_0 idx k hidx j 1).trans rfl)
    (fun j => (start_of_const scatter_S8x8x1024x1024_S2_S8x8x1020x1020_0123_n_23_0 idx k hidx j 2).trans hk)
    (fun j => (start_of_const scatter_S8x8x1024x1024_S2_S8x8x1020x1020_0123_n_23_0 idx k hidx j 3).trans hk)
    hb hb b h a c

/-- A square window of extent 1021 scatter-added at `(s, s)` on the two trailing axes, the start vector holding `s` in
    both entries, read at `(b, h, a, c)`: whatever the tensors are. -/
theorem scatter1021_apply (x : S8x8x1024x1024.Idx → EReal) (idx : IVec S2 32) (upd : S8x8x1021x1021.Idx → EReal)
    (k : BitVec 32) (s : Nat) (hidx : ∀ i, idx i = k) (hk : k.toInt = (s : Int)) (hb : s + 1021 ≤ 1024)
    (b h : Fin 8) (a c : Fin 1024) :
    Host.scatter scatter_S8x8x1024x1024_S2_S8x8x1021x1021_0123_n_23_0 (fun u v : EReal => u + v) x idx upd (ix4 b h a c) =
      if hin : s ≤ a.val ∧ a.val < s + 1021 ∧ s ≤ c.val ∧ c.val < s + 1021 then
        x (ix4 b h a c) + upd (ix4 b h (⟨a.val - s, by omega⟩ : Fin 1021) (⟨c.val - s, by omega⟩ : Fin 1021))
      else x (ix4 b h a c) :=
  Host.scatter_window4_apply scatter_S8x8x1024x1024_S2_S8x8x1021x1021_0123_n_23_0 (fun u v : EReal => u + v) x idx upd s s
    (fun _ => rfl) (fun _ => rfl) (fun _ => rfl) (fun _ => rfl)
    (fun j => (start_of_const scatter_S8x8x1024x1024_S2_S8x8x1021x1021_0123_n_23_0 idx k hidx j 0).trans rfl)
    (fun j => (start_of_const scatter_S8x8x1024x1024_S2_S8x8x1021x1021_0123_n_23_0 idx k hidx j 1).trans rfl)
    (fun j => (start_of_const scatter_S8x8x1024x1024_S2_S8x8x1021x1021_0123_n_23_0 idx k hidx j 2).trans hk)
    (fun j => (start_of_const scatter_S8x8x1024x1024_S2_S8x8x1021x1021_0123_n_23_0 idx k hidx j 3).trans hk)
    hb hb b h a c

/-- A square window of extent 1022 scatter-added at `(s, s)` on the two trailing axes, the start vector holding `s` in
    both entries, read at `(b, h, a, c)`: whatever the tensors are. -/
theorem scatter1022_apply (x : S8x8x1024x1024.Idx → EReal) (idx : IVec S2 32) (upd : S8x8x1022x1022.Idx → EReal)
    (k : BitVec 32) (s : Nat) (hidx : ∀ i, idx i = k) (hk : k.toInt = (s : Int)) (hb : s + 1022 ≤ 1024)
    (b h : Fin 8) (a c : Fin 1024) :
    Host.scatter scatter_S8x8x1024x1024_S2_S8x8x1022x1022_0123_n_23_0 (fun u v : EReal => u + v) x idx upd (ix4 b h a c) =
      if hin : s ≤ a.val ∧ a.val < s + 1022 ∧ s ≤ c.val ∧ c.val < s + 1022 then
        x (ix4 b h a c) + upd (ix4 b h (⟨a.val - s, by omega⟩ : Fin 1022) (⟨c.val - s, by omega⟩ : Fin 1022))
      else x (ix4 b h a c) :=
  Host.scatter_window4_apply scatter_S8x8x1024x1024_S2_S8x8x1022x1022_0123_n_23_0 (fun u v : EReal => u + v) x idx upd s s
    (fun _ => rfl) (fun _ => rfl) (fun _ => rfl) (fun _ => rfl)
    (fun j => (start_of_const scatter_S8x8x1024x1024_S2_S8x8x1022x1022_0123_n_23_0 idx k hidx j 0).trans rfl)
    (fun j => (start_of_const scatter_S8x8x1024x1024_S2_S8x8x1022x1022_0123_n_23_0 idx k hidx j 1).trans rfl)
    (fun j => (start_of_const scatter_S8x8x1024x1024_S2_S8x8x1022x1022_0123_n_23_0 idx k hidx j 2).trans hk)
    (fun j => (start_of_const scatter_S8x8x1024x1024_S2_S8x8x1022x1022_0123_n_23_0 idx k hidx j 3).trans hk)
    hb hb b h a c

/-- A square window of extent 1023 scatter-added at `(s, s)` on the two trailing axes, the start vector holding `s` in
    both entries, read at `(b, h, a, c)`: whatever the tensors are. -/
theorem scatter1023_apply (x : S8x8x1024x1024.Idx → EReal) (idx : IVec S2 32) (upd : S8x8x1023x1023.Idx → EReal)
    (k : BitVec 32) (s : Nat) (hidx : ∀ i, idx i = k) (hk : k.toInt = (s : Int)) (hb : s + 1023 ≤ 1024)
    (b h : Fin 8) (a c : Fin 1024) :
    Host.scatter scatter_S8x8x1024x1024_S2_S8x8x1023x1023_0123_n_23_0 (fun u v : EReal => u + v) x idx upd (ix4 b h a c) =
      if hin : s ≤ a.val ∧ a.val < s + 1023 ∧ s ≤ c.val ∧ c.val < s + 1023 then
        x (ix4 b h a c) + upd (ix4 b h (⟨a.val - s, by omega⟩ : Fin 1023) (⟨c.val - s, by omega⟩ : Fin 1023))
      else x (ix4 b h a c) :=
  Host.scatter_window4_apply scatter_S8x8x1024x1024_S2_S8x8x1023x1023_0123_n_23_0 (fun u v : EReal => u + v) x idx upd s s
    (fun _ => rfl) (fun _ => rfl) (fun _ => rfl) (fun _ => rfl)
    (fun j => (start_of_const scatter_S8x8x1024x1024_S2_S8x8x1023x1023_0123_n_23_0 idx k hidx j 0).trans rfl)
    (fun j => (start_of_const scatter_S8x8x1024x1024_S2_S8x8x1023x1023_0123_n_23_0 idx k hidx j 1).trans rfl)
    (fun j => (start_of_const scatter_S8x8x1024x1024_S2_S8x8x1023x1023_0123_n_23_0 idx k hidx j 2).trans hk)
    (fun j => (start_of_const scatter_S8x8x1024x1024_S2_S8x8x1023x1023_0123_n_23_0 idx k hidx j 3).trans hk)
    hb hb b h a c

/-- The whole tensor scatter-added with an empty start vector (the start is `(0, 0)`), read at `(b, h, a, c)`. -/
theorem scatterWhole_apply (x : S8x8x1024x1024.Idx → EReal) (idx : IVec S0 32) (upd : S8x8x1024x1024.Idx → EReal)
    (b h : Fin 8) (a c : Fin 1024) :
    Host.scatter scatter_S8x8x1024x1024_S0_S8x8x1024x1024_0123_n_n_0 (fun u v : EReal => u + v) x idx upd (ix4 b h a c) =
      if hin : 0 ≤ a.val ∧ a.val < 0 + 1024 ∧ 0 ≤ c.val ∧ c.val < 0 + 1024 then
        x (ix4 b h a c) + upd (ix4 b h (⟨a.val - 0, by omega⟩ : Fin 1024) (⟨c.val - 0, by omega⟩ : Fin 1024))
      else x (ix4 b h a c) :=
  Host.scatter_window4_apply scatter_S8x8x1024x1024_S0_S8x8x1024x1024_0123_n_n_0 (fun u v : EReal => u + v) x idx upd 0 0
    (fun _ => rfl) (fun _ => rfl) (fun _ => rfl) (fun _ => rfl)
    (fun _ => rfl) (fun _ => rfl) (fun _ => rfl) (fun _ => rfl)
    (by decide) (by decide) b h a c

/-! ## The seventeen steps -/

variable (x0 : (⟨S8x1024x512, .f32⟩ : BufTy).Contents (Elt Ideal))
  (x3 : (⟨S8x64x512, .f32⟩ : BufTy).Contents (Elt Ideal)) (x4 : (⟨S8x64, .f32⟩ : BufTy).Contents (Elt Ideal))
  (x5 : (⟨S8x64x512, .f32⟩ : BufTy).Contents (Elt Ideal)) (x6 : (⟨S8x64, .f32⟩ : BufTy).Contents (Elt Ideal))
  (x22 : (⟨S64x64, .i32⟩ : BufTy).Contents (Elt Ideal))

/-- Both entries of step 0's start vector are `8`. -/
theorem v46_eq (i : S2.Idx) : val_main_v46 (F := Ideal) i = 8#32 := by
  unfold val_main_v46
  exact concat_pair_const _ _ _ (fun i => by rw [val_main_v44_apply]; rfl) (fun i => by rw [val_main_v45_apply]; rfl) i

/-- Step 0 adds the slice `S[0 : 1016, 0 : 1016]` at the start `(8, 8)`: the diagonal neighbour number 0. -/
theorem v47_apply (b h : Fin 8) (a c : Fin 1024) :
    val_main_v47 (F := Ideal) x0 x3 x4 x5 x6 x22 (ix4 b h a c) =
      val_main_v42 (F := Ideal) (ix4 b h a c) +
        GsaSpec.tap (fun t s => val_main_v41 (F := Ideal) x0 x3 x4 x5 x6 x22 (ix4 b h t s)) a c 0 := by
  show Host.scatter scatter_S8x8x1024x1024_S2_S8x8x1016x1016_0123_n_23_0 (fun u v : EReal => u + v)
    (val_main_v42 (F := Ideal)) (val_main_v46 (F := Ideal)) (val_main_v43 (F := Ideal) x0 x3 x4 x5 x6 x22) (ix4 b h a c) = _
  refine (scatter1016_apply (val_main_v42 (F := Ideal)) (val_main_v46 (F := Ideal)) (val_main_v43 (F := Ideal) x0 x3 x4 x5 x6 x22) 8#32 8
    v46_eq rfl (by decide) b h a c).trans ?_
  refine window_eq_tap (fun t s => val_main_v41 (F := Ideal) x0 x3 x4 x5 x6 x22 (ix4 b h t s))
    (val_main_v42 (F := Ideal) (ix4 b h a c)) a c 0 8 1016 0 rfl rfl (Or.inr rfl)
    (fun p q => val_main_v43 (F := Ideal) x0 x3 x4 x5 x6 x22 (ix4 b h p q)) (fun p q => ?_)
  show val_main_v43 (F := Ideal) x0 x3 x4 x5 x6 x22 (ix4 b h p q) = _
  rw [val_main_v43_apply]
  exact congrArg (val_main_v41 (F := Ideal) x0 x3 x4 x5 x6 x22) (funext fun k => by
    match k with
    | ⟨0, _⟩ => rfl
    | ⟨1, _⟩ => rfl
    | ⟨2, _⟩ => exact Fin.ext (by show p.val = 0 + p.val; omega)
    | ⟨3, _⟩ => exact Fin.ext (by show q.val = 0 + q.val; omega))

/-- Both entries of step 1's start vector are `7`. -/
theorem v51_eq (i : S2.Idx) : val_main_v51 (F := Ideal) i = 7#32 := by
  unfold val_main_v51
  exact concat_pair_const _ _ _ (fun i => by rw [val_main_v49_apply]; rfl) (fun i => by rw [val_main_v50_apply]; rfl) i

/-- Step 1 adds the slice `S[0 : 1017, 0 : 1017]` at the start `(7, 7)`: the diagonal neighbour number 1. -/
theorem v52_apply (b h : Fin 8) (a c : Fin 1024) :
    val_main_v52 (F := Ideal) x0 x3 x4 x5 x6 x22 (ix4 b h a c) =
      val_main_v47 (F := Ideal) x0 x3 x4 x5 x6 x22 (ix4 b h a c) +
        GsaSpec.tap (fun t s => val_main_v41 (F := Ideal) x0 x3 x4 x5 x6 x22 (ix4 b h t s)) a c 1 := by
  show Host.scatter scatter_S8x8x1024x1024_S2_S8x8x1017x1017_0123_n_23_0 (fun u v : EReal => u + v)
    (val_main_v47 (F := Ideal) x0 x3 x4 x5 x6 x22) (val_main_v51 (F := Ideal)) (val_main_v48 (F := Ideal) x0 x3 x4 x5 x6 x22) (ix4 b h a c) = _
  refine (scatter1017_apply (val_main_v47 (F := Ideal) x0 x3 x4 x5 x6 x22) (val_main_v51 (F := Ideal)) (val_main_v48 (F := Ideal) x0 x3 x4 x5 x6 x22) 7#32 7
    v51_eq rfl (by decide) b h a c).trans ?_
  refine window_eq_tap (fun t s => val_main_v41 (F := Ideal) x0 x3 x4 x5 x6 x22 (ix4 b h t s))
    (val_main_v47 (F := Ideal) x0 x3 x4 x5 x6 x22 (ix4 b h a c)) a c 1 7 1017 0 rfl rfl (Or.inr rfl)
    (fun p q => val_main_v48 (F := Ideal) x0 x3 x4 x5 x6 x22 (ix4 b h p q)) (fun p q => ?_)
  show val_main_v48 (F := Ideal) x0 x3 x4 x5 x6 x22 (ix4 b h p q) = _
  rw [val_main_v48_apply]
  exact congrArg (val_main_v41 (F := Ideal) x0 x3 x4 x5 x6 x22) (funext fun k => by
    match k with
    | ⟨0, _⟩ => rfl
    | ⟨1, _⟩ => rfl
    | ⟨2, _⟩ => exact Fin.ext (by show p.val = 0 + p.val; omega)
    | ⟨3, _⟩ => exact Fin.ext (by show q.val = 0 + q.val; omega))

/-- Both entries of step 2's start vector are `6`. -/
theorem v56_eq (i : S2.Idx) : val_main_v56 (F := Ideal) i = 6#32 := by
  unfold val_main_v56
  exact concat_pair_const _ _ _ (fun i => by rw [val_main_v54_apply]; rfl) (fun i => by rw [val_main_v55_apply]; rfl) i

/-- Step 2 adds the slice `S[0 : 1018, 0 : 1018]` at the start `(6, 6)`: the diagonal neighbour number 2. -/
theorem v57_apply (b h : Fin 8) (a c : Fin 1024) :
    val_main_v57 (F := Ideal) x0 x3 x4 x5 x6 x22 (ix4 b h a c) =
      val_main_v52 (F := Ideal) x0 x3 x4 x5 x6 x22 (ix4 b h a c) +
        GsaSpec.tap (fun t s => val_main_v41 (F := Ideal) x0 x3 x4 x5 x6 x22 (ix4 b h t s)) a c 2 := by
  show Host.scatter scatter_S8x8x1024x1024_S2_S8x8x1018x1018_0123_n_23_0 (fun u v : EReal => u + v)
    (val_main_v52 (F := Ideal) x0 x3 x4 x5 x6 x22) (val_main_v56 (F := Ideal)) (val_main_v53 (F := Ideal) x0 x3 x4 x5 x6 x22) (ix4 b h a c) = _
  refine (scatter1018_apply (val_main_v52 (F := Ideal) x0 x3 x4 x5 x6 x22) (val_main_v56 (F := Ideal)) (val_main_v53 (F := Ideal) x0 x3 x4 x5 x6 x22) 6#32 6
    v56_eq rfl (by decide) b h a c).trans ?_
  refine window_eq_tap (fun t s => val_main_v41 (F := Ideal) x0 x3 x4 x5 x6 x22 (ix4 b h t s))
    (val_main_v52 (F := Ideal) x0 x3 x4 x5 x6 x22 (ix4 b h a c)) a c 2 6 1018 0 rfl rfl (Or.inr rfl)
    (fun p q => val_main_v53 (F := Ideal) x0 x3 x4 x5 x6 x22 (ix4 b h p q)) (fun p q => ?_)
  show val_main_v53 (F := Ideal) x0 x3 x4 x5 x6 x22 (ix4 b h p q) = _
  rw [val_main_v53_apply]
  exact congrArg (val_main_v41 (F := Ideal) x0 x3 x4 x5 x6 x22) (funext fun k => by
    match k with
    | ⟨0, _⟩ => rfl
    | ⟨1, _⟩ => rfl
    | ⟨2, _⟩ => exact Fin.ext (by show p.val = 0 + p.val; omega)
    | ⟨3, _⟩ => exact Fin.ext (by show q.val = 0 + q.val; omega))

/-- Both entries of step 3's start vector are `5`. -/
theorem v61_eq (i : S2.Idx) : val_main_v61 (F := Ideal) i = 5#32 := by
  unfold val_main_v61
  exact concat_pair_const _ _ _ (fun i => by rw [val_main_v59_apply]; rfl) (fun i => by rw [val_main_v60_apply]; rfl) i

/-- Step 3 adds the slice `S[0 : 1019, 0 : 1019]` at the start `(5, 5)`: the diagonal neighbour number 3. -/
theorem v62_apply (b h : Fin 8) (a c : Fin 1024) :
    val_main_v62 (F := Ideal) x0 x3 x4 x5 x6 x22 (ix4 b h a c) =
      val_main_v57 (F := Ideal) x0 x3 x4 x5 x6 x22 (ix4 b h a c) +
        GsaSpec.tap (fun t s => val_main_v41 (F := Ideal) x0 x3 x4 x5 x6 x22 (ix4 b h t s)) a c 3 := by
  show Host.scatter scatter_S8x8x1024x1024_S2_S8x8x1019x1019_0123_n_23_0 (fun u v : EReal => u + v)
    (val_main_v57 (F := Ideal) x0 x3 x4 x5 x6 x22) (val_main_v61 (F := Ideal)) (val_main_v58 (F := Ideal) x0 x3 x4 x5 x6 x22) (ix4 b h a c) = _
  refine (scatter1019_apply (val_main_v57 (F := Ideal) x0 x3 x4 x5 x6 x22) (val_main_v61 (F := Ideal)) (val_main_v58 (F := Ideal) x0 x3 x4 x5 x6 x22) 5#32 5
    v61_eq rfl (by decide) b h a c).trans ?_
  refine window_eq_tap (fun t s => val_main_v41 (F := Ideal) x0 x3 x4 x5 x6 x22 (ix4 b h t s))
    (val_main_v57 (F := Ideal) x0 x3 x4 x5 x6 x22 (ix4 b h a c)) a c 3 5 1019 0 rfl rfl (Or.inr rfl)
    (fun p q => val_main_v58 (F := Ideal) x0 x3 x4 x5 x6 x22 (ix4 b h p q)) (fun p q => ?_)
  show val_main_v58 (F := Ideal) x0 x3 x4 x5 x6 x22 (ix4 b h p q) = _
  rw [val_main_v58_apply]
  exact congrArg (val_main_v41 (F := Ideal) x0 x3 x4 x5 x6 x22) (funext fun k => by
    match k with
    | ⟨0, _⟩ => rfl
    | ⟨1, _⟩ => rfl
    | ⟨2, _⟩ => exact Fin.ext (by show p.val = 0 + p.val; omega)
    | ⟨3, _⟩ => exact Fin.ext (by show q.val = 0 + q.val; omega))

/-- Both entries of step 4's start vector are `4`. -/
theorem v66_eq (i : S2.Idx) : val_main_v66 (F := Ideal) i = 4#32 := by
  unfold val_main_v66
  exact concat_pair_const _ _ _ (fun i => by rw [val_main_v64_apply]; rfl) (fun i => by rw [val_main_v65_apply]; rfl) i

/-- Step 4 adds the slice `S[0 : 1020, 0 : 1020]` at the start `(4, 4)`: the diagonal neighbour number 4. -/
theorem v67_apply (b h : Fin 8) (a c : Fin 1024) :
    val_main_v67 (F := Ideal) x0 x3 x4 x5 x6 x22 (ix4 b h a c) =
      val_main_v62 (F := Ideal) x0 x3 x4 x5 x6 x22 (ix4 b h a c) +
        GsaSpec.tap (fun t s => val_main_v41 (F := Ideal) x0 x3 x4 x5 x6 x22 (ix4 b h t s)) a c 4 := by
  show Host.scatter scatter_S8x8x1024x1024_S2_S8x8x1020x1020_0123_n_23_0 (fun u v : EReal => u + v)
    (val_main_v62 (F := Ideal) x0 x3 x4 x5 x6 x22) (val_main_v66 (F := Ideal)) (val_main_v63 (F := Ideal) x0 x3 x4 x5 x6 x22) (ix4 b h a c) = _
  refine (scatter1020_apply (val_main_v62 (F := Ideal) x0 x3 x4 x5 x6 x22) (val_main_v66 (F := Ideal)) (val_main_v63 (F := Ideal) x0 x3 x4 x5 x6 x22) 4#32 4
    v66_eq rfl (by decide) b h a c).trans ?_
  refine window_eq_tap (fun t s => val_main_v41 (F := Ideal) x0 x3 x4 x5 x6 x22 (ix4 b h t s))
    (val_main_v62 (F := Ideal) x0 x3 x4 x5 x6 x22 (ix4 b h a c)) a c 4 4 1020 0 rfl rfl (Or.inr rfl)
    (fun p q => val_main_v63 (F := Ideal) x0 x3 x4 x5 x6 x22 (ix4 b h p q)) (fun p q => ?_)
  show val_main_v63 (F := Ideal) x0 x3 x4 x5 x6 x22 (ix4 b h p q) = _
  rw [val_main_v63_apply]
  exact congrArg (val_main_v41 (F := Ideal) x0 x3 x4 x5 x6 x22) (funext fun k => by
    match k with
    | ⟨0, _⟩ => rfl
    | ⟨1, _⟩ => rfl
    | ⟨2, _⟩ => exact Fin.ext (by show p.val = 0 + p.val; omega)
    | ⟨3, _⟩ => exact Fin.ext (by show q.val = 0 + q.val; omega))

/-- Both entries of step 5's start vector are `3`. -/
theorem v71_eq (i : S2.Idx) : val_main_v71 (F := Ideal) i = 3#32 := by
  unfold val_main_v71
  exact concat_pair_const _ _ _ (fun i => by rw [val_main_v69_apply]; rfl) (fun i => by rw [val_main_v70_apply]; rfl) i

/-- Step 5 adds the slice `S[0 : 1021, 0 : 1021]` at the start `(3, 3)`: the diagonal neighbour number 5. -/
theorem v72_apply (b h : Fin 8) (a c : Fin 1024) :
    val_main_v72 (F := Ideal) x0 x3 x4 x5 x6 x22 (ix4 b h a c) =
      val_main_v67 (F := Ideal) x0 x3 x4 x5 x6 x22 (ix4 b h a c) +
        GsaSpec.tap (fun t s => val_main_v41 (F := Ideal) x0 x3 x4 x5 x6 x22 (ix4 b h t s)) a c 5 := by
  show Host.scatter scatter_S8x8x1024x1024_S2_S8x8x1021x1021_0123_n_23_0 (fun u v : EReal => u + v)
    (val_main_v67 (F := Ideal) x0 x3 x4 x5 x6 x22) (val_main_v71 (F := Ideal)) (val_main_v68 (F := Ideal) x0 x3 x4 x5 x6 x22) (ix4 b h a c) = _
  refine (scatter1021_apply (val_main_v67 (F := Ideal) x0 x3 x4 x5 x6 x22) (val_main_v71 (F := Ideal)) (val_main_v68 (F := Ideal) x0 x3 x4 x5 x6 x22) 3#32 3
    v71_eq rfl (by decide) b h a c).trans ?_
  refine window_eq_tap (fun t s => val_main_v41 (F := Ideal) x0 x3 x4 x5 x6 x22 (ix4 b h t s))
    (val_main_v67 (F := Ideal) x0 x3 x4 x5 x6 x22 (ix4 b h a c)) a c 5 3 1021 0 rfl rfl (Or.inr rfl)
    (fun p q => val_main_v68 (F := Ideal) x0 x3 x4 x5 x6 x22 (ix4 b h p q)) (fun p q => ?_)
  show val_main_v68 (F := Ideal) x0 x3 x4 x5 x6 x22 (ix4 b h p q) = _
  rw [val_main_v68_apply]
  exact congrArg (val_main_v41 (F := Ideal) x0 x3 x4 x5 x6 x22) (funext fun k => by
    match k with
    | ⟨0, _⟩ => rfl
    | ⟨1, _⟩ => rfl
    | ⟨2, _⟩ => exact Fin.ext (by show p.val = 0 + p.val; omega)
    | ⟨3, _⟩ => exact Fin.ext (by show q.val = 0 + q.val; omega))

/-- Both entries of step 6's start vector are `2`. -/
theorem v76_eq (i : S2.Idx) : val_main_v76 (F := Ideal) i = 2#32 := by
  unfold val_main_v76
  exact concat_pair_const _ _ _ (fun i => by rw [val_main_v74_apply]; rfl) (fun i => by rw [val_main_v75_apply]; rfl) i

/-- Step 6 adds the slice `S[0 : 1022, 0 : 1022]` at the start `(2, 2)`: the diagonal neighbour number 6. -/
theorem v77_apply (b h : Fin 8) (a c : Fin 1024) :
    val_main_v77 (F := Ideal) x0 x3 x4 x5 x6 x22 (ix4 b h a c) =
      val_main_v72 (F := Ideal) x0 x3 x4 x5 x6 x22 (ix4 b h a c) +
        GsaSpec.tap (fun t s => val_main_v41 (F := Ideal) x0 x3 x4 x5 x6 x22 (ix4 b h t s)) a c 6 := by
  show Host.scatter scatter_S8x8x1024x1024_S2_S8x8x1022x1022_0123_n_23_0 (fun u v : EReal => u + v)
    (val_main_v72 (F := Ideal) x0 x3 x4 x5 x6 x22) (val_main_v76 (F := Ideal)) (val_main_v73 (F := Ideal) x0 x3 x4 x5 x6 x22) (ix4 b h a c) = _
  refine (scatter1022_apply (val_main_v72 (F := Ideal) x0 x3 x4 x5 x6 x22) (val_main_v76 (F := Ideal)) (val_main_v73 (F := Ideal) x0 x3 x4 x5 x6 x22) 2#32 2
    v76_eq rfl (by decide) b h a c).trans ?_
  refine window_eq_tap (fun t s => val_main_v41 (F := Ideal) x0 x3 x4 x5 x6 x22 (ix4 b h t s))
    (val_main_v72 (F := Ideal) x0 x3 x4 x5 x6 x22 (ix4 b h a c)) a c 6 2 1022 0 rfl rfl (Or.inr rfl)
    (fun p q => val_main_v73 (F := Ideal) x0 x3 x4 x5 x6 x22 (ix4 b h p q)) (fun p q => ?_)
  show val_main_v73 (F := Ideal) x0 x3 x4 x5 x6 x22 (ix4 b h p q) = _
  rw [val_main_v73_apply]
  exact congrArg (val_main_v41 (F := Ideal) x0 x3 x4 x5 x6 x22) (funext fun k => by
    match k with
    | ⟨0, _⟩ => rfl
    | ⟨1, _⟩ => rfl
    | ⟨2, _⟩ => exact Fin.ext (by show p.val = 0 + p.val; omega)
    | ⟨3, _⟩ => exact Fin.ext (by show q.val = 0 + q.val; omega))

/-- Both entries of step 7's start vector are `1`. -/
theorem v81_eq (i : S2.Idx) : val_main_v81 (F := Ideal) i = 1#32 := by
  unfold val_main_v81
  exact concat_pair_const _ _ _ (fun i => by rw [val_main_v79_apply]; rfl) (fun i => by rw [val_main_v80_apply]; rfl) i

/-- Step 7 adds the slice `S[0 : 1023, 0 : 1023]` at the start `(1, 1)`: the diagonal neighbour number 7. -/
theorem v82_apply (b h : Fin 8) (a c : Fin 1024) :
    val_main_v82 (F := Ideal) x0 x3 x4 x5 x6 x22 (ix4 b h a c) =
      val_main_v77 (F := Ideal) x0 x3 x4 x5 x6 x22 (ix4 b h a c) +
        GsaSpec.tap (fun t s => val_main_v41 (F := Ideal) x0 x3 x4 x5 x6 x22 (ix4 b h t s)) a c 7 := by
  show Host.scatter scatter_S8x8x1024x1024_S2_S8x8x1023x1023_0123_n_23_0 (fun u v : EReal => u + v)
    (val_main_v77 (F := Ideal) x0 x3 x4 x5 x6 x22) (val_main_v81 (F := Ideal)) (val_main_v78 (F := Ideal) x0 x3 x4 x5 x6 x22) (ix4 b h a c) = _
  refine (scatter1023_apply (val_main_v77 (F := Ideal) x0 x3 x4 x5 x6 x22) (val_main_v81 (F := Ideal)) (val_main_v78 (F := Ideal) x0 x3 x4 x5 x6 x22) 1#32 1
    v81_eq rfl (by decide) b h a c).trans ?_
  refine window_eq_tap (fun t s => val_main_v41 (F := Ideal) x0 x3 x4 x5 x6 x22 (ix4 b h t s))
    (val_main_v77 (F := Ideal) x0 x3 x4 x5 x6 x22 (ix4 b h a c)) a c 7 1 1023 0 rfl rfl (Or.inr rfl)
    (fun p q => val_main_v78 (F := Ideal) x0 x3 x4 x5 x6 x22 (ix4 b h p q)) (fun p q => ?_)
  show val_main_v78 (F := Ideal) x0 x3 x4 x5 x6 x22 (ix4 b h p q) = _
  rw [val_main_v78_apply]
  exact congrArg (val_main_v41 (F := Ideal) x0 x3 x4 x5 x6 x22) (funext fun k => by
    match k with
    | ⟨0, _⟩ => rfl
    | ⟨1, _⟩ => rfl
    | ⟨2, _⟩ => exact Fin.ext (by show p.val = 0 + p.val; omega)
    | ⟨3, _⟩ => exact Fin.ext (by show q.val = 0 + q.val; omega))

/-- Step 8 adds the whole of `S` at the start `(0, 0)`: the diagonal neighbour number 8. -/
theorem v83_apply (b h : Fin 8) (a c : Fin 1024) :
    val_main_v83 (F := Ideal) x0 x3 x4 x5 x6 x22 (ix4 b h a c) =
      val_main_v82 (F := Ideal) x0 x3 x4 x5 x6 x22 (ix4 b h a c) +
        GsaSpec.tap (fun t s => val_main_v41 (F := Ideal) x0 x3 x4 x5 x6 x22 (ix4 b h t s)) a c 8 := by
  show Host.scatter scatter_S8x8x1024x1024_S0_S8x8x1024x1024_0123_n_n_0 (fun u v : EReal => u + v)
    (val_main_v82 (F := Ideal) x0 x3 x4 x5 x6 x22) (val_main_c (F := Ideal)) (val_main_v41 (F := Ideal) x0 x3 x4 x5 x6 x22) (ix4 b h a c) = _
  refine (scatterWhole_apply (val_main_v82 (F := Ideal) x0 x3 x4 x5 x6 x22) (val_main_c (F := Ideal)) (val_main_v41 (F := Ideal) x0 x3 x4 x5 x6 x22) b h a c).trans ?_
  refine window_eq_tap (fun t s => val_main_v41 (F := Ideal) x0 x3 x4 x5 x6 x22 (ix4 b h t s))
    (val_main_v82 (F := Ideal) x0 x3 x4 x5 x6 x22 (ix4 b h a c)) a c 8 0 1024 0 rfl rfl (Or.inr rfl)
    (fun p q => val_main_v41 (F := Ideal) x0 x3 x4 x5 x6 x22 (ix4 b h p q)) (fun p q => ?_)
  exact congrArg (val_main_v41 (F := Ideal) x0 x3 x4 x5 x6 x22) (funext fun k => by
    match k with
    | ⟨0, _⟩ => rfl
    | ⟨1, _⟩ => rfl
    | ⟨2, _⟩ => exact Fin.ext (by show p.val = 0 + p.val; omega)
    | ⟨3, _⟩ => exact Fin.ext (by show q.val = 0 + q.val; omega))

/-- Both entries of step 9's start vector are `0`. -/
theorem v87_eq (i : S2.Idx) : val_main_v87 (F := Ideal) i = 0#32 := by
  unfold val_main_v87
  exact concat_pair_const _ _ _ (fun i => by rw [val_main_v85_apply]; rfl) (fun i => by rw [val_main_v86_apply]; rfl) i

/-- Step 9 adds the slice `S[1 : 1024, 1 : 1024]` at the start `(0, 0)`: the diagonal neighbour number 9. -/
theorem v88_apply (b h : Fin 8) (a c : Fin 1024) :
    val_main_v88 (F := Ideal) x0 x3 x4 x5 x6 x22 (ix4 b h a c) =
      val_main_v83 (F := Ideal) x0 x3 x4 x5 x6 x22 (ix4 b h a c) +
        GsaSpec.tap (fun t s => val_main_v41 (F := Ideal) x0 x3 x4 x5 x6 x22 (ix4 b h t s)) a c 9 := by
  show Host.scatter scatter_S8x8x1024x1024_S2_S8x8x1023x1023_0123_n_23_0 (fun u v : EReal => u + v)
    (val_main_v83 (F := Ideal) x0 x3 x4 x5 x6 x22) (val_main_v87 (F := Ideal)) (val_main_v84 (F := Ideal) x0 x3 x4 x5 x6 x22) (ix4 b h a c) = _
  refine (scatter1023_apply (val_main_v83 (F := Ideal) x0 x3 x4 x5 x6 x22) (val_main_v87 (F := Ideal)) (val_main_v84 (F := Ideal) x0 x3 x4 x5 x6 x22) 0#32 0
    v87_eq rfl (by decide) b h a c).trans ?_
  refine window_eq_tap (fun t s => val_main_v41 (F := Ideal) x0 x3 x4 x5 x6 x22 (ix4 b h t s))
    (val_main_v83 (F := Ideal) x0 x3 x4 x5 x6 x22 (ix4 b h a c)) a c 9 0 1023 1 rfl rfl (Or.inl rfl)
    (fun p q => val_main_v84 (F := Ideal) x0 x3 x4 x5 x6 x22 (ix4 b h p q)) (fun p q => ?_)
  show val_main_v84 (F := Ideal) x0 x3 x4 x5 x6 x22 (ix4 b h p q) = _
  rw [val_main_v84_apply]
  exact congrArg (val_main_v41 (F := Ideal) x0 x3 x4 x5 x6 x22) (funext fun k => by
    match k with
    | ⟨0, _⟩ => rfl
    | ⟨1, _⟩ => rfl
    | ⟨2, _⟩ => exact Fin.ext (by show 1 + p.val = 1 + p.val; omega)
    | ⟨3, _⟩ => exact Fin.ext (by show 1 + q.val = 1 + q.val; omega))

/-- Both entries of step 10's start vector are `0`. -/
theorem v92_eq (i : S2.Idx) : val_main_v92 (F := Ideal) i = 0#32 := by
  unfold val_main_v92
  exact concat_pair_const _ _ _ (fun i => by rw [val_main_v90_apply]; rfl) (fun i => by rw [val_main_v91_apply]; rfl) i

/-- Step 10 adds the slice `S[2 : 1024, 2 : 1024]` at the start `(0, 0)`: the diagonal neighbour number 10. -/
theorem v93_apply (b h : Fin 8) (a c : Fin 1024) :
    val_main_v93 (F := Ideal) x0 x3 x4 x5 x6 x22 (ix4 b h a c) =
      val_main_v88 (F := Ideal) x0 x3 x4 x5 x6 x22 (ix4 b h a c) +
        GsaSpec.tap (fun t s => val_main_v41 (F := Ideal) x0 x3 x4 x5 x6 x22 (ix4 b h t s)) a c 10 := by
  show Host.scatter scatter_S8x8x1024x1024_S2_S8x8x1022x1022_0123_n_23_0 (fun u v : EReal => u + v)
    (val_main_v88 (F := Ideal) x0 x3 x4 x5 x6 x22) (val_main_v92 (F := Ideal)) (val_main_v89 (F := Ideal) x0 x3 x4 x5 x6 x22) (ix4 b h a c) = _
  refine (scatter1022_apply (val_main_v88 (F := Ideal) x0 x3 x4 x5 x6 x22) (val_main_v92 (F := Ideal)) (val_main_v89 (F := Ideal) x0 x3 x4 x5 x6 x22) 0#32 0
    v92_eq rfl (by decide) b h a c).trans ?_
  refine window_eq_tap (fun t s => val_main_v41 (F := Ideal) x0 x3 x4 x5 x6 x22 (ix4 b h t s))
    (val_main_v88 (F := Ideal) x0 x3 x4 x5 x6 x22 (ix4 b h a c)) a c 10 0 1022 2 rfl rfl (Or.inl rfl)
    (fun p q => val_main_v89 (F := Ideal) x0 x3 x4 x5 x6 x22 (ix4 b h p q)) (fun p q => ?_)
  show val_main_v89 (F := Ideal) x0 x3 x4 x5 x6 x22 (ix4 b h p q) = _
  rw [val_main_v89_apply]
  exact congrArg (val_main_v41 (F := Ideal) x0 x3 x4 x5 x6 x22) (funext fun k => by
    match k with
    | ⟨0, _⟩ => rfl
    | ⟨1, _⟩ => rfl
    | ⟨2, _⟩ => exact Fin.ext (by show 2 + p.val = 2 + p.val; omega)
    | ⟨3, _⟩ => exact Fin.ext (by show 2 + q.val = 2 + q.val; omega))

/-- Both entries of step 11's start vector are `0`. -/
theorem v97_eq (i : S2.Idx) : val_main_v97 (F := Ideal) i = 0#32 := by
  unfold val_main_v97
  exact concat_pair_const _ _ _ (fun i => by rw [val_main_v95_apply]; rfl) (fun i => by rw [val_main_v96_apply]; rfl) i

/-- Step 11 adds the slice `S[3 : 1024, 3 : 1024]` at the start `(0, 0)`: the diagonal neighbour number 11. -/
theorem v98_apply (b h : Fin 8) (a c : Fin 1024) :
    val_main_v98 (F := Ideal) x0 x3 x4 x5 x6 x22 (ix4 b h a c) =
      val_main_v93 (F := Ideal) x0 x3 x4 x5 x6 x22 (ix4 b h a c) +
        GsaSpec.tap (fun t s => val_main_v41 (F := Ideal) x0 x3 x4 x5 x6 x22 (ix4 b h t s)) a c 11 := by
  show Host.scatter scatter_S8x8x1024x1024_S2_S8x8x1021x1021_0123_n_23_0 (fun u v : EReal => u + v)
    (val_main_v93 (F := Ideal) x0 x3 x4 x5 x6 x22) (val_main_v97 (F := Ideal)) (val_main_v94 (F := Ideal) x0 x3 x4 x5 x6 x22) (ix4 b h a c) = _
  refine (scatter1021_apply (val_main_v93 (F := Ideal) x0 x3 x4 x5 x6 x22) (val_main_v97 (F := Ideal)) (val_main_v94 (F := Ideal) x0 x3 x4 x5 x6 x22) 0#32 0
    v97_eq rfl (by decide) b h a c).trans ?_
  refine window_eq_tap (fun t s => val_main_v41 (F := Ideal) x0 x3 x4 x5 x6 x22 (ix4 b h t s))
    (val_main_v93 (F := Ideal) x0 x3 x4 x5 x6 x22 (ix4 b h a c)) a c 11 0 1021 3 rfl rfl (Or.inl rfl)
    (fun p q => val_main_v94 (F := Ideal) x0 x3 x4 x5 x6 x22 (ix4 b h p q)) (fun p q => ?_)
  show val_main_v94 (F := Ideal) x0 x3 x4 x5 x6 x22 (ix4 b h p q) = _
  rw [val_main_v94_apply]
  exact congrArg (val_main_v41 (F := Ideal) x0 x3 x4 x5 x6 x22) (funext fun k => by
    match k with
    | ⟨0, _⟩ => rfl
    | ⟨1, _⟩ => rfl
    | ⟨2, _⟩ => exact Fin.ext (by show 3 + p.val = 3 + p.val; omega)
    | ⟨3, _⟩ => exact Fin.ext (by show 3 + q.val = 3 + q.val; omega))

/-- Both entries of step 12's start vector are `0`. -/
theorem v102_eq (i : S2.Idx) : val_main_v102 (F := Ideal) i = 0#32 := by
  unfold val_main_v102
  exact concat_pair_const _ _ _ (fun i => by rw [val_main_v100_apply]; rfl) (fun i => by rw [val_main_v101_apply]; rfl) i

/-- Step 12 adds the slice `S[4 : 1024, 4 : 1024]` at the start `(0, 0)`: the diagonal neighbour number 12. -/
theorem v103_apply (b h : Fin 8) (a c : Fin 1024) :
    val_main_v103 (F := Ideal) x0 x3 x4 x5 x6 x22 (ix4 b h a c) =
      val_main_v98 (F := Ideal) x0 x3 x4 x5 x6 x22 (ix4 b h a c) +
        GsaSpec.tap (fun t s => val_main_v41 (F := Ideal) x0 x3 x4 x5 x6 x22 (ix4 b h t s)) a c 12 := by
  show Host.scatter scatter_S8x8x1024x1024_S2_S8x8x1020x1020_0123_n_23_0 (fun u v : EReal => u + v)
    (val_main_v98 (F := Ideal) x0 x3 x4 x5 x6 x22) (val_main_v102 (F := Ideal)) (val_main_v99 (F := Ideal) x0 x3 x4 x5 x6 x22) (ix4 b h a c) = _
  refine (scatter1020_apply (val_main_v98 (F := Ideal) x0 x3 x4 x5 x6 x22) (val_main_v102 (F := Ideal)) (val_main_v99 (F := Ideal) x0 x3 x4 x5 x6 x22) 0#32 0
    v102_eq rfl (by decide) b h a c).trans ?_
  refine window_eq_tap (fun t s => val_main_v41 (F := Ideal) x0 x3 x4 x5 x6 x22 (ix4 b h t s))
    (val_main_v98 (F := Ideal) x0 x3 x4 x5 x6 x22 (ix4 b h a c)) a c 12 0 1020 4 rfl rfl (Or.inl rfl)
    (fun p q => val_main_v99 (F := Ideal) x0 x3 x4 x5 x6 x22 (ix4 b h p q)) (fun p q => ?_)
  show val_main_v99 (F := Ideal) x0 x3 x4 x5 x6 x22 (ix4 b h p q) = _
  rw [val_main_v99_apply]
  exact congrArg (val_main_v41 (F := Ideal) x0 x3 x4 x5 x6 x22) (funext fun k => by
    match k with
    | ⟨0, _⟩ => rfl
    | ⟨1, _⟩ => rfl
    | ⟨2, _⟩ => exact Fin.ext (by show 4 + p.val = 4 + p.val; omega)
    | ⟨3, _⟩ => exact Fin.ext (by show 4 + q.val = 4 + q.val; omega))

/-- Both entries of step 13's start vector are `0`. -/
theorem v107_eq (i : S2.Idx) : val_main_v107 (F := Ideal) i = 0#32 := by
  unfold val_main_v107
  exact concat_pair_const _ _ _ (fun i => by rw [val_main_v105_apply]; rfl) (fun i => by rw [val_main_v106_apply]; rfl) i

/-- Step 13 adds the slice `S[5 : 1024, 5 : 1024]` at the start `(0, 0)`: the diagonal neighbour number 13. -/
theorem v108_apply (b h : Fin 8) (a c : Fin 1024) :
    val_main_v108 (F := Ideal) x0 x3 x4 x5 x6 x22 (ix4 b h a c) =
      val_main_v103 (F := Ideal) x0 x3 x4 x5 x6 x22 (ix4 b h a c) +
        GsaSpec.tap (fun t s => val_main_v41 (F := Ideal) x0 x3 x4 x5 x6 x22 (ix4 b h t s)) a c 13 := by
  show Host.scatter scatter_S8x8x1024x1024_S2_S8x8x1019x1019_0123_n_23_0 (fun u v : EReal => u + v)
    (val_main_v103 (F := Ideal) x0 x3 x4 x5 x6 x22) (val_main_v107 (F := Ideal)) (val_main_v104 (F := Ideal) x0 x3 x4 x5 x6 x22) (ix4 b h a c) = _
  refine (scatter1019_apply (val_main_v103 (F := Ideal) x0 x3 x4 x5 x6 x22) (val_main_v107 (F := Ideal)) (val_main_v104 (F := Ideal) x0 x3 x4 x5 x6 x22) 0#32 0
    v107_eq rfl (by decide) b h a c).trans ?_
  refine window_eq_tap (fun t s => val_main_v41 (F := Ideal) x0 x3 x4 x5 x6 x22 (ix4 b h t s))
    (val_main_v103 (F := Ideal) x0 x3 x4 x5 x6 x22 (ix4 b h a c)) a c 13 0 1019 5 rfl rfl (Or.inl rfl)
    (fun p q => val_main_v104 (F := Ideal) x0 x3 x4 x5 x6 x22 (ix4 b h p q)) (fun p q => ?_)
  show val_main_v104 (F := Ideal) x0 x3 x4 x5 x6 x22 (ix4 b h p q) = _
  rw [val_main_v104_apply]
  exact congrArg (val_main_v41 (F := Ideal) x0 x3 x4 x5 x6 x22) (funext fun k => by
    match k with
    | ⟨0, _⟩ => rfl
    | ⟨1, _⟩ => rfl
    | ⟨2, _⟩ => exact Fin.ext (by show 5 + p.val = 5 + p.val; omega)
    | ⟨3, _⟩ => exact Fin.ext (by show 5 + q.val = 5 + q.val; omega))

/-- Both entries of step 14's start vector are `0`. -/
theorem v112_eq (i : S2.Idx) : val_main_v112 (F := Ideal) i = 0#32 := by
  unfold val_main_v112
  exact concat_pair_const _ _ _ (fun i => by rw [val_main_v110_apply]; rfl) (fun i => by rw [val_main_v111_apply]; rfl) i

/-- Step 14 adds the slice `S[6 : 1024, 6 : 1024]` at the start `(0, 0)`: the diagonal neighbour number 14. -/
theorem v113_apply (b h : Fin 8) (a c : Fin 1024) :
    val_main_v113 (F := Ideal) x0 x3 x4 x5 x6 x22 (ix4 b h a c) =
      val_main_v108 (F := Ideal) x0 x3 x4 x5 x6 x22 (ix4 b h a c) +
        GsaSpec.tap (fun t s => val_main_v41 (F := Ideal) x0 x3 x4 x5 x6 x22 (ix4 b h t s)) a c 14 := by
  show Host.scatter scatter_S8x8x1024x1024_S2_S8x8x1018x1018_0123_n_23_0 (fun u v : EReal => u + v)
    (val_main_v108 (F := Ideal) x0 x3 x4 x5 x6 x22) (val_main_v112 (F := Ideal)) (val_main_v109 (F := Ideal) x0 x3 x4 x5 x6 x22) (ix4 b h a c) = _
  refine (scatter1018_apply (val_main_v108 (F := Ideal) x0 x3 x4 x5 x6 x22) (val_main_v112 (F := Ideal)) (val_main_v109 (F := Ideal) x0 x3 x4 x5 x6 x22) 0#32 0
    v112_eq rfl (by decide) b h a c).trans ?_
  refine window_eq_tap (fun t s => val_main_v41 (F := Ideal) x0 x3 x4 x5 x6 x22 (ix4 b h t s))
    (val_main_v108 (F := Ideal) x0 x3 x4 x5 x6 x22 (ix4 b h a c)) a c 14 0 1018 6 rfl rfl (Or.inl rfl)
    (fun p q => val_main_v109 (F := Ideal) x0 x3 x4 x5 x6 x22 (ix4 b h p q)) (fun p q => ?_)
  show val_main_v109 (F := Ideal) x0 x3 x4 x5 x6 x22 (ix4 b h p q) = _
  rw [val_main_v109_apply]
  exact congrArg (val_main_v41 (F := Ideal) x0 x3 x4 x5 x6 x22) (funext fun k => by
    match k with
    | ⟨0, _⟩ => rfl
    | ⟨1, _⟩ => rfl
    | ⟨2, _⟩ => exact Fin.ext (by show 6 + p.val = 6 + p.val; omega)
    | ⟨3, _⟩ => exact Fin.ext (by show 6 + q.val = 6 + q.val; omega))

/-- Both entries of step 15's start vector are `0`. -/
theorem v117_eq (i : S2.Idx) : val_main_v117 (F := Ideal) i = 0#32 := by
  unfold val_main_v117
  exact concat_pair_const _ _ _ (fun i => by rw [val_main_v115_apply]; rfl) (fun i => by rw [val_main_v116_apply]; rfl) i

/-- Step 15 adds the slice `S[7 : 1024, 7 : 1024]` at the start `(0, 0)`: the diagonal neighbour number 15. -/
theorem v118_apply (b h : Fin 8) (a c : Fin 1024) :
    val_main_v118 (F := Ideal) x0 x3 x4 x5 x6 x22 (ix4 b h a c) =
      val_main_v113 (F := Ideal) x0 x3 x4 x5 x6 x22 (ix4 b h a c) +
        GsaSpec.tap (fun t s => val_main_v41 (F := Ideal) x0 x3 x4 x5 x6 x22 (ix4 b h t s)) a c 15 := by
  show Host.scatter scatter_S8x8x1024x1024_S2_S8x8x1017x1017_0123_n_23_0 (fun u v : EReal => u + v)
    (val_main_v113 (F := Ideal) x0 x3 x4 x5 x6 x22) (val_main_v117 (F := Ideal)) (val_main_v114 (F := Ideal) x0 x3 x4 x5 x6 x22) (ix4 b h a c) = _
  refine (scatter1017_apply (val_main_v113 (F := Ideal) x0 x3 x4 x5 x6 x22) (val_main_v117 (F := Ideal)) (val_main_v114 (F := Ideal) x0 x3 x4 x5 x6 x22) 0#32 0
    v117_eq rfl (by decide) b h a c).trans ?_
  refine window_eq_tap (fun t s => val_main_v41 (F := Ideal) x0 x3 x4 x5 x6 x22 (ix4 b h t s))
    (val_main_v113 (F := Ideal) x0 x3 x4 x5 x6 x22 (ix4 b h a c)) a c 15 0 1017 7 rfl rfl (Or.inl rfl)
    (fun p q => val_main_v114 (F := Ideal) x0 x3 x4 x5 x6 x22 (ix4 b h p q)) (fun p q => ?_)
  show val_main_v114 (F := Ideal) x0 x3 x4 x5 x6 x22 (ix4 b h p q) = _
  rw [val_main_v114_apply]
  exact congrArg (val_main_v41 (F := Ideal) x0 x3 x4 x5 x6 x22) (funext fun k => by
    match k with
    | ⟨0, _⟩ => rfl
    | ⟨1, _⟩ => rfl
    | ⟨2, _⟩ => exact Fin.ext (by show 7 + p.val = 7 + p.val; omega)
    | ⟨3, _⟩ => exact Fin.ext (by show 7 + q.val = 7 + q.val; omega))

/-- Both entries of step 16's start vector are `0`. -/
theorem v122_eq (i : S2.Idx) : val_main_v122 (F := Ideal) i = 0#32 := by
  unfold val_main_v122
  exact concat_pair_const _ _ _ (fun i => by rw [val_main_v120_apply]; rfl) (fun i => by rw [val_main_v121_apply]; rfl) i

/-- Step 16 adds the slice `S[8 : 1024, 8 : 1024]` at the start `(0, 0)`: the diagonal neighbour number 16. -/
theorem v123_apply (b h : Fin 8) (a c : Fin 1024) :
    val_main_v123 (F := Ideal) x0 x3 x4 x5 x6 x22 (ix4 b h a c) =
      val_main_v118 (F := Ideal) x0 x3 x4 x5 x6 x22 (ix4 b h a c) +
        GsaSpec.tap (fun t s => val_main_v41 (F := Ideal) x0 x3 x4 x5 x6 x22 (ix4 b h t s)) a c 16 := by
  show Host.scatter scatter_S8x8x1024x1024_S2_S8x8x1016x1016_0123_n_23_0 (fun u v : EReal => u + v)
    (val_main_v118 (F := Ideal) x0 x3 x4 x5 x6 x22) (val_main_v122 (F := Ideal)) (val_main_v119 (F := Ideal) x0 x3 x4 x5 x6 x22) (ix4 b h a c) = _
  refine (scatter1016_apply (val_main_v118 (F := Ideal) x0 x3 x4 x5 x6 x22) (val_main_v122 (F := Ideal)) (val_main_v119 (F := Ideal) x0 x3 x4 x5 x6 x22) 0#32 0
    v122_eq rfl (by decide) b h a c).trans ?_
  refine window_eq_tap (fun t s => val_main_v41 (F := Ideal) x0 x3 x4 x5 x6 x22 (ix4 b h t s))
    (val_main_v118 (F := Ideal) x0 x3 x4 x5 x6 x22 (ix4 b h a c)) a c 16 0 1016 8 rfl rfl (Or.inl rfl)
    (fun p q => val_main_v119 (F := Ideal) x0 x3 x4 x5 x6 x22 (ix4 b h p q)) (fun p q => ?_)
  show val_main_v119 (F := Ideal) x0 x3 x4 x5 x6 x22 (ix4 b h p q) = _
  rw [val_main_v119_apply]
  exact congrArg (val_main_v41 (F := Ideal) x0 x3 x4 x5 x6 x22) (funext fun k => by
    match k with
    | ⟨0, _⟩ => rfl
    | ⟨1, _⟩ => rfl
    | ⟨2, _⟩ => exact Fin.ext (by show 8 + p.val = 8 + p.val; omega)
    | ⟨3, _⟩ => exact Fin.ext (by show 8 + q.val = 8 + q.val; omega))

/-! ## The seventeen steps from zero -/

/-- The running tensor after the last step is the banded sum of `S`: zero plus the seventeen neighbours in order. -/
theorem band_apply (b h : Fin 8) (a c : Fin 1024) :
    val_main_v123 (F := Ideal) x0 x3 x4 x5 x6 x22 (ix4 b h a c) =
      GsaSpec.band (fun t s => val_main_v41 (F := Ideal) x0 x3 x4 x5 x6 x22 (ix4 b h t s)) a c := by
  rw [v123_apply, v118_apply, v113_apply, v108_apply, v103_apply, v98_apply, v93_apply, v88_apply, v83_apply,
    v82_apply, v77_apply, v72_apply, v67_apply, v62_apply, v57_apply, v52_apply, v47_apply,
    val_main_v42_apply, val_main_cst_1_apply, Ideal.ofBits_def, Ideal.ofBits_zero_f32]
  rfl

/-! ## Divided by the neighbour counts -/

/-- The count table is broadcast over batch and head, and the banded sum is divided by it entry by entry. -/
theorem v147_apply (b h : Fin 8) (a c : Fin 1024) :
    val_main_v147 (F := Ideal) x0 x3 x4 x5 x6 x22 (ix4 b h a c) =
      Ideal.div (GsaSpec.band (fun t s => val_main_v41 (F := Ideal) x0 x3 x4 x5 x6 x22 (ix4 b h t s)) a c)
        (val_main_v144 (F := Ideal) (ix2 a c)) := by
  rw [val_main_v147_apply, val_main_v146_apply, val_main_v145_apply, band_apply, Ideal.hostDivf_def]
  refine congrArg (Ideal.div _) (congrArg (val_main_v144 (F := Ideal)) (funext fun k => ?_))
  match k with
  | ⟨0, _⟩ => rfl
  | ⟨1, _⟩ => rfl

end Cert.ReferenceIdeal.RefValue

end
-- ==== Proof.RefTail.lean ====
/-
  The tail of the reference program, read at plain coordinates: the mix of the three similarity matrices, the row
  maximum, the softmax, the product with the values, and the output projection with residual and bias. Each lemma is
  local: the tensors it starts from stay opaque, so the lemmas compose by rewriting.
-/
import proofs.«105714_j66872640798820_2_alg».proof.Proof.Patched.ReferenceIdeal.Read
import proofs.«105714_j66872640798820_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-! ## Three facts about shapes, independent of the program -/

/-- A reshape of a one-entry matrix to a scalar reads the matrix's only entry. -/
theorem shapeCast_oneByOne_scalar {α : Type} (x : (⟨2, ![1, 1]⟩ : Shape).Idx → α)
    (hc : (⟨2, ![1, 1]⟩ : Shape).ShapeCasts ⟨0, ![]⟩) (j : (⟨0, ![]⟩ : Shape).Idx) :
    shapeCast ⟨0, ![]⟩ x hc j = x (ix2 0 0) := by
  refine shapeCast_apply x hc j (ix2 0 0) ?_
  have h0 : ((⟨0, ![]⟩ : Shape).rowMajor j).val = 0 := Shape.rowMajorPi_zero _ _
  rw [Shape.rowMajor_val_two, h0]
  rfl

/-- The index `(b, h, t)` with `k` put back on the last axis is `(b, h, t, k)`. -/
theorem lift_last (hr : (⟨4, ![8, 8, 1024, 1024]⟩ : Shape).Reduces [3] ⟨3, ![8, 8, 1024]⟩) (b h : Fin 8) (t : Fin 1024)
    (k : Fin ((⟨4, ![8, 8, 1024, 1024]⟩ : Shape).size 3)) :
    hr.lift (ix3 b h t) k = ix4 b h t (⟨k.val, k.isLt⟩ : Fin 1024) := by
  funext c; apply Fin.ext
  match c with
  | ⟨0, _⟩ => rfl
  | ⟨1, _⟩ => rfl
  | ⟨2, _⟩ => rfl
  | ⟨3, _⟩ => rfl

/-- The host's maximum over the last axis, at `(b, h, t)`: the fold of `max` over that row from the initial value. -/
theorem hostReduce_max_last (x : FVec Ideal ⟨4, ![8, 8, 1024, 1024]⟩ .f32) (init : FVec Ideal ⟨0, ![]⟩ .f32)
    (h' : (⟨4, ![8, 8, 1024, 1024]⟩ : Shape).ReducesTo [3] ⟨3, ![8, 8, 1024]⟩) (hu : 0 < (⟨0, ![]⟩ : Shape).numel)
    (b h : Fin 8) (t : Fin 1024) :
    Host.reduce FloatOps.maximumf x init h' hu (ix3 b h t)
      = (Finset.univ : Finset (Fin 1024)).fold max (init (Shape.Idx.first hu)) (fun s => x (ix4 b h t s)) := by
  have hr : (⟨4, ![8, 8, 1024, 1024]⟩ : Shape).Reduces [3] ⟨3, ![8, 8, 1024]⟩ := by decide
  rw [Host.reduce_eq_fold_single FloatOps.maximumf x init h' hr hu]
  have hf : (x ∘ hr.lift (ix3 b h t)) = fun s : Fin 1024 => x (ix4 b h t s) :=
    funext fun k => congrArg x (lift_last hr b h t k)
  exact congrArg (fun f => Finset.fold max (init (Shape.Idx.first hu)) f (Finset.univ : Finset (Fin 1024))) hf

/-- A fold of `max` that starts from the most negative value is not below it: taking the maximum with that value
    once more changes nothing. -/
theorem max_ninf_fold (f : Fin 1024 → EReal) :
    max GsaSpec.ninf ((Finset.univ : Finset (Fin 1024)).fold max GsaSpec.ninf f)
      = (Finset.univ : Finset (Fin 1024)).fold max GsaSpec.ninf f :=
  max_eq_right ((Finset.le_fold_max _).2 (Or.inl le_rfl))

/-! ## The arguments of the reference program -/

variable (x0 : (⟨S8x1024x512, .f32⟩ : BufTy).Contents (Elt Ideal)) (x1 : (⟨S8x1024x256, .f32⟩ : BufTy).Contents (Elt Ideal))
  (x2 : (⟨S8x1024x128, .f32⟩ : BufTy).Contents (Elt Ideal))
  (x3 : (⟨S8x64x512, .f32⟩ : BufTy).Contents (Elt Ideal)) (x4 : (⟨S8x64, .f32⟩ : BufTy).Contents (Elt Ideal))
  (x5 : (⟨S8x64x512, .f32⟩ : BufTy).Contents (Elt Ideal)) (x6 : (⟨S8x64, .f32⟩ : BufTy).Contents (Elt Ideal))
  (x7 : (⟨S8x64x512, .f32⟩ : BufTy).Contents (Elt Ideal)) (x8 : (⟨S8x64, .f32⟩ : BufTy).Contents (Elt Ideal))
  (x9 : (⟨S8x32x256, .f32⟩ : BufTy).Contents (Elt Ideal)) (x10 : (⟨S8x32, .f32⟩ : BufTy).Contents (Elt Ideal))
  (x11 : (⟨S8x32x256, .f32⟩ : BufTy).Contents (Elt Ideal)) (x12 : (⟨S8x32, .f32⟩ : BufTy).Contents (Elt Ideal))
  (x13 : (⟨S8x16x128, .f32⟩ : BufTy).Contents (Elt Ideal)) (x14 : (⟨S8x16, .f32⟩ : BufTy).Contents (Elt Ideal))
  (x15 : (⟨S8x16x128, .f32⟩ : BufTy).Contents (Elt Ideal)) (x16 : (⟨S8x16, .f32⟩ : BufTy).Contents (Elt Ideal))
  (x17 : (⟨S512x512, .f32⟩ : BufTy).Contents (Elt Ideal)) (x18 : (⟨S512, .f32⟩ : BufTy).Contents (Elt Ideal))
  (x19 x20 x21 : (⟨S1x1, .f32⟩ : BufTy).Contents (Elt Ideal)) (x22 : (⟨S64x64, .i32⟩ : BufTy).Contents (Elt Ideal))

/-! ## The mixed similarity -/

/-- A mixing weight, reshaped from its one-entry matrix to a scalar, is that entry. -/
theorem scalar_apply (w : (⟨S1x1, .f32⟩ : BufTy).Contents (Elt Ideal)) (j : S_.Idx) :
    shapeCast S_ w shapeCasts_S1x1_S_ j = w (ix2 0 0) :=
  shapeCast_oneByOne_scalar _ _ _

/-- The similarity at `(b, h, t, s)`: the three matrices there, each times its mixing weight, added left to right. -/
theorem v200_apply (b h : Fin 8) (t s : Fin 1024) :
    val_main_v200 (F := Ideal) x0 x1 x2 x3 x4 x5 x6 x9 x10 x11 x12 x13 x14 x15 x16 x19 x20 x21 x22 (ix4 b h t s)
      = x19 (ix2 0 0) * val_main_v147 (F := Ideal) x0 x3 x4 x5 x6 x22 (ix4 b h t s)
        + x20 (ix2 0 0) * val_main_v192 (F := Ideal) x1 x9 x10 x11 x12 (ix4 b h t s)
        + x21 (ix2 0 0) * val_main_v197 (F := Ideal) x2 x13 x14 x15 x16 (ix4 b h t s) := by
  rw [val_main_v200_apply, val_main_v195_apply, val_main_v190_apply, val_main_v194_apply, val_main_v199_apply,
    val_main_v189_apply, val_main_v193_apply, val_main_v198_apply]
  unfold val_main_v188 val_main_v191 val_main_v196
  rw [scalar_apply, scalar_apply, scalar_apply]
  rfl

/-! ## The row maximum -/

/-- The host's maximum of row `(b, h, t)` of the similarity: the fold of `max` over the row from the most negative
    value. -/
theorem v201_apply (b h : Fin 8) (t : Fin 1024) :
    val_main_v201 (F := Ideal) x0 x1 x2 x3 x4 x5 x6 x9 x10 x11 x12 x13 x14 x15 x16 x19 x20 x21 x22 (ix3 b h t)
      = (Finset.univ : Finset (Fin 1024)).fold max GsaSpec.ninf (fun s => val_main_v200 (F := Ideal) x0 x1 x2 x3 x4 x5 x6 x9 x10 x11 x12 x13 x14 x15 x16 x19 x20 x21 x22 (ix4 b h t s)) := by
  unfold val_main_v201
  exact hostReduce_max_last _ _ _ _ b h t

/-- The maximum of that fold with the most negative value is the specification's row maximum. -/
theorem v203_apply (b h : Fin 8) (t : Fin 1024) :
    val_main_v203 (F := Ideal) x0 x1 x2 x3 x4 x5 x6 x9 x10 x11 x12 x13 x14 x15 x16 x19 x20 x21 x22 (ix3 b h t) = GsaSpec.rowmax (fun t s => val_main_v200 (F := Ideal) x0 x1 x2 x3 x4 x5 x6 x9 x10 x11 x12 x13 x14 x15 x16 x19 x20 x21 x22 (ix4 b h t s)) t := by
  rw [val_main_v203_apply, val_main_v202_apply, val_main_cst_43_apply, v201_apply]
  exact max_ninf_fold _

/-! ## The softmax -/

/-- The row maximum broadcast back along the row. -/
theorem v205_apply (b h : Fin 8) (t s : Fin 1024) :
    val_main_v205 (F := Ideal) x0 x1 x2 x3 x4 x5 x6 x9 x10 x11 x12 x13 x14 x15 x16 x19 x20 x21 x22 (ix4 b h t s) = val_main_v203 (F := Ideal) x0 x1 x2 x3 x4 x5 x6 x9 x10 x11 x12 x13 x14 x15 x16 x19 x20 x21 x22 (ix3 b h t) := by
  rw [val_main_v205_apply, val_main_v204_apply]
  exact congrArg _ (funext fun a => Fin.ext (by match a with | ⟨0, _⟩ => rfl | ⟨1, _⟩ => rfl | ⟨2, _⟩ => rfl))

/-- The exponential of the shifted similarity. -/
theorem v207_apply (b h : Fin 8) (t s : Fin 1024) :
    val_main_v207 (F := Ideal) x0 x1 x2 x3 x4 x5 x6 x9 x10 x11 x12 x13 x14 x15 x16 x19 x20 x21 x22 (ix4 b h t s)
      = Ideal.exp (val_main_v200 (F := Ideal) x0 x1 x2 x3 x4 x5 x6 x9 x10 x11 x12 x13 x14 x15 x16 x19 x20 x21 x22 (ix4 b h t s) - GsaSpec.rowmax (fun t s => val_main_v200 (F := Ideal) x0 x1 x2 x3 x4 x5 x6 x9 x10 x11 x12 x13 x14 x15 x16 x19 x20 x21 x22 (ix4 b h t s)) t) := by
  rw [val_main_v207_apply, val_main_v206_apply, v205_apply, v203_apply]
  rfl

/-- The row's normaliser, broadcast back along the row: the sum of those exponentials (the sum starts from zero). -/
theorem v210_apply (b h : Fin 8) (t s : Fin 1024) :
    val_main_v210 (F := Ideal) x0 x1 x2 x3 x4 x5 x6 x9 x10 x11 x12 x13 x14 x15 x16 x19 x20 x21 x22 (ix4 b h t s)
      = ∑ s' : Fin 1024, Ideal.exp (val_main_v200 (F := Ideal) x0 x1 x2 x3 x4 x5 x6 x9 x10 x11 x12 x13 x14 x15 x16 x19 x20 x21 x22 (ix4 b h t s') - GsaSpec.rowmax (fun t s => val_main_v200 (F := Ideal) x0 x1 x2 x3 x4 x5 x6 x9 x10 x11 x12 x13 x14 x15 x16 x19 x20 x21 x22 (ix4 b h t s)) t) := by
  rw [val_main_v210_apply, val_main_v209_apply, val_main_v208_apply, val_main_cst_44_apply, Ideal.ofBits_def,
    Ideal.ofBits_zero_f32, zero_add]
  refine Finset.sum_congr rfl fun s' _ => ?_
  have hi : idx_main_v208 (idx_main_v209 (idx_main_v210 (ix4 b h t s))) s' = ix4 b h t s' :=
    funext fun a => Fin.ext (by match a with | ⟨0, _⟩ => rfl | ⟨1, _⟩ => rfl | ⟨2, _⟩ => rfl | ⟨3, _⟩ => rfl)
  rw [hi, v207_apply]

/-- The attention weights are the specification's softmax of the similarity. -/
theorem v211_apply (b h : Fin 8) (t s : Fin 1024) :
    val_main_v211 (F := Ideal) x0 x1 x2 x3 x4 x5 x6 x9 x10 x11 x12 x13 x14 x15 x16 x19 x20 x21 x22 (ix4 b h t s) = GsaSpec.softmax (fun t s => val_main_v200 (F := Ideal) x0 x1 x2 x3 x4 x5 x6 x9 x10 x11 x12 x13 x14 x15 x16 x19 x20 x21 x22 (ix4 b h t s)) t s := by
  rw [val_main_v211_apply, v207_apply, v210_apply]
  rfl

/-! ## Attention applied to the values -/

/-- Entry `(b, h, t, k)` of the product: row `t` of the attention weights against column `k` of the values. -/
theorem v212_apply (b h : Fin 8) (t : Fin 1024) (k : Fin 64) :
    val_main_v212 (F := Ideal) x0 x1 x2 x3 x4 x5 x6 x7 x8 x9 x10 x11 x12 x13 x14 x15 x16 x19 x20 x21 x22 (ix4 b h t k)
      = ∑ s : Fin 1024, val_main_v211 (F := Ideal) x0 x1 x2 x3 x4 x5 x6 x9 x10 x11 x12 x13 x14 x15 x16 x19 x20 x21 x22 (ix4 b h t s) * val_main_v40 (F := Ideal) x0 x7 x8 x22 (ix4 b h s k) := by
  rw [val_main_v212_apply]
  refine Finset.sum_congr rfl fun s _ => ?_
  have hl : lidx_main_v212 (ix4 b h t k) s = ix4 b h t s := funext fun a => Fin.ext (by match a with | ⟨0, _⟩ => rfl | ⟨1, _⟩ => rfl | ⟨2, _⟩ => rfl | ⟨3, _⟩ => rfl)
  have hr : ridx_main_v212 (ix4 b h t k) s = ix4 b h s k := funext fun a => Fin.ext (by match a with | ⟨0, _⟩ => rfl | ⟨1, _⟩ => rfl | ⟨2, _⟩ => rfl | ⟨3, _⟩ => rfl)
  rw [hl, hr]

/-! ## The output projection -/

/-- The per-head products laid out along the model axis: model coordinate `64 h + k` holds feature `k` of head `h`. -/
theorem v214_hk (b : Fin 8) (t : Fin 1024) (h : Fin 8) (k : Fin 64) :
    val_main_v214 (F := Ideal) x0 x1 x2 x3 x4 x5 x6 x7 x8 x9 x10 x11 x12 x13 x14 x15 x16 x19 x20 x21 x22 (ix3 b t (GsaSpec.hk h k)) = val_main_v212 (F := Ideal) x0 x1 x2 x3 x4 x5 x6 x7 x8 x9 x10 x11 x12 x13 x14 x15 x16 x19 x20 x21 x22 (ix4 b h t k) := by
  rw [val_main_v214_apply, val_main_v213_apply]
  refine congrArg _ (funext fun a => Fin.ext ?_)
  have hb := b.isLt
  have ht := t.isLt
  have hh := h.isLt
  have hk := k.isLt
  match a with
  | ⟨0, _⟩ => show ((b.val * 1024 + t.val) * 512 + (64 * h.val + k.val)) / 524288 = b.val; omega
  | ⟨1, _⟩ => show ((b.val * 1024 + t.val) * 512 + (64 * h.val + k.val)) / 64 % 8 = h.val; omega
  | ⟨2, _⟩ => show ((b.val * 1024 + t.val) * 512 + (64 * h.val + k.val)) / 512 % 1024 = t.val; omega
  | ⟨3, _⟩ => show ((b.val * 1024 + t.val) * 512 + (64 * h.val + k.val)) % 64 = k.val; omega

/-- The contraction over the model axis, split into heads and features. -/
theorem v216_apply (b : Fin 8) (t : Fin 1024) (e : Fin 512) :
    val_main_v216 (F := Ideal) x0 x1 x2 x3 x4 x5 x6 x7 x8 x9 x10 x11 x12 x13 x14 x15 x16 x17 x19 x20 x21 x22 (ix3 b t e)
      = ∑ h : Fin 8, ∑ k : Fin 64, val_main_v212 (F := Ideal) x0 x1 x2 x3 x4 x5 x6 x7 x8 x9 x10 x11 x12 x13 x14 x15 x16 x19 x20 x21 x22 (ix4 b h t k) * val_main_v215 (F := Ideal) x17 x22 (ix2 e (GsaSpec.hk h k)) := by
  rw [val_main_v216_apply]
  refine (GsaSpec.sum_model _).trans (Finset.sum_congr rfl fun h _ => Finset.sum_congr rfl fun k _ => ?_)
  have hl : lidx_main_v216 (ix3 b t e) (GsaSpec.hk h k) = ix3 b t (GsaSpec.hk h k) :=
    funext fun a => Fin.ext (by match a with | ⟨0, _⟩ => rfl | ⟨1, _⟩ => rfl | ⟨2, _⟩ => rfl)
  have hr : ridx_main_v216 (ix3 b t e) (GsaSpec.hk h k) = ix2 e (GsaSpec.hk h k) :=
    funext fun a => Fin.ext (by match a with | ⟨0, _⟩ => rfl | ⟨1, _⟩ => rfl)
  show val_main_v214 (F := Ideal) x0 x1 x2 x3 x4 x5 x6 x7 x8 x9 x10 x11 x12 x13 x14 x15 x16 x19 x20 x21 x22 (lidx_main_v216 (ix3 b t e) (GsaSpec.hk h k)) * val_main_v215 (F := Ideal) x17 x22 (ridx_main_v216 (ix3 b t e) (GsaSpec.hk h k)) = _
  rw [hl, hr, v214_hk]

/-- The output at `(b, t, e)`: the tokens, plus the projected heads, plus the bias. -/
theorem v220_apply (b : Fin 8) (t : Fin 1024) (e : Fin 512) :
    val_main_v220 (F := Ideal) x0 x1 x2 x3 x4 x5 x6 x7 x8 x9 x10 x11 x12 x13 x14 x15 x16 x17 x18 x19 x20 x21 x22 (ix3 b t e)
      = x0 (ix3 b t e)
        + (∑ h : Fin 8, ∑ k : Fin 64, val_main_v212 (F := Ideal) x0 x1 x2 x3 x4 x5 x6 x7 x8 x9 x10 x11 x12 x13 x14 x15 x16 x19 x20 x21 x22 (ix4 b h t k) * val_main_v215 (F := Ideal) x17 x22 (ix2 e (GsaSpec.hk h k)))
        + x18 (ix1 e) := by
  rw [val_main_v220_apply, val_main_v217_apply, v216_apply, val_main_v219_apply, val_main_v218_apply]
  have hb : idx_main_v218 (idx_main_v219 (ix3 b t e)) = ix1 e := funext fun a => Fin.ext (by match a with | ⟨0, _⟩ => rfl)
  rw [hb]
  rfl

/-! ## The two layout tails, at any index -/

/-- The model-axis layout of the per-head products reads the product at the transposed, un-flattened index. -/
theorem v214_apply (i : S8x1024x512.Idx) :
    val_main_v214 (F := Ideal) x0 x1 x2 x3 x4 x5 x6 x7 x8 x9 x10 x11 x12 x13 x14 x15 x16 x19 x20 x21 x22 i = val_main_v212 (F := Ideal) x0 x1 x2 x3 x4 x5 x6 x7 x8 x9 x10 x11 x12 x13 x14 x15 x16 x19 x20 x21 x22 (idx_main_v213 (idx_main_v214 i)) := by
  rw [val_main_v214_apply, val_main_v213_apply]

/-- The flattened attention weights read the weights at the transposed, un-flattened index. -/
theorem v222_apply (i : S8x1024x8192.Idx) :
    val_main_v222 (F := Ideal) x0 x1 x2 x3 x4 x5 x6 x9 x10 x11 x12 x13 x14 x15 x16 x19 x20 x21 x22 i = val_main_v211 (F := Ideal) x0 x1 x2 x3 x4 x5 x6 x9 x10 x11 x12 x13 x14 x15 x16 x19 x20 x21 x22 (idx_main_v221 (idx_main_v222 i)) := by
  rw [val_main_v222_apply, val_main_v221_apply]

/-- In coordinates: position `1024 h + s` of the flattened axis holds the weight of head `h` at key position `s`. -/
theorem v222_hs (b : Fin 8) (t : Fin 1024) (h : Fin 8) (s : Fin 1024) :
    val_main_v222 (F := Ideal) x0 x1 x2 x3 x4 x5 x6 x9 x10 x11 x12 x13 x14 x15 x16 x19 x20 x21 x22 (ix3 b t (⟨1024 * h.val + s.val, by omega⟩ : Fin 8192)) = val_main_v211 (F := Ideal) x0 x1 x2 x3 x4 x5 x6 x9 x10 x11 x12 x13 x14 x15 x16 x19 x20 x21 x22 (ix4 b h t s) := by
  rw [val_main_v222_apply, val_main_v221_apply]
  refine congrArg _ (funext fun a => Fin.ext ?_)
  have hb := b.isLt
  have ht := t.isLt
  have hh := h.isLt
  have hs := s.isLt
  match a with
  | ⟨0, _⟩ => show ((b.val * 1024 + t.val) * 8192 + (1024 * h.val + s.val)) / 8388608 = b.val; omega
  | ⟨1, _⟩ => show ((b.val * 1024 + t.val) * 8192 + (1024 * h.val + s.val)) / 1024 % 8 = h.val; omega
  | ⟨2, _⟩ => show ((b.val * 1024 + t.val) * 8192 + (1024 * h.val + s.val)) / 8192 % 1024 = t.val; omega
  | ⟨3, _⟩ => show ((b.val * 1024 + t.val) * 8192 + (1024 * h.val + s.val)) % 1024 = s.val; omega

end Cert.ReferenceIdeal.RefValue

end
-- ==== Proof.RefInputs.lean ====
/-
  What the reference is given, as the specification's inputs: the argument arrays read by plain coordinates; the
  three masked content weights, the masked output matrix and the table of diagonal-neighbour counts are the
  reference's own intermediate arrays (its operations %9, %22, %35, %215 and %144), left as they are computed.
-/
import proofs.«105714_j66872640798820_2_alg».proof.Proof.Patched.ReferenceIdeal.Read
import proofs.«105714_j66872640798820_2_alg».proof.Proof.Spec
import Idealize.ShloMosaic.Lib.ValueIdx

noncomputable section

namespace Cert.ReferenceIdeal.RefValue

open Idealize.ShloMosaic Idealize.ShloMosaic.ValueIdx
open Cert.ReferenceIdeal Cert.ReferenceIdeal.Read

variable (x0 : (⟨S8x1024x512, .f32⟩ : BufTy).Contents (Elt Ideal)) (x1 : (⟨S8x1024x256, .f32⟩ : BufTy).Contents (Elt Ideal)) (x2 : (⟨S8x1024x128, .f32⟩ : BufTy).Contents (Elt Ideal)) (x3 : (⟨S8x64x512, .f32⟩ : BufTy).Contents (Elt Ideal)) (x4 : (⟨S8x64, .f32⟩ : BufTy).Contents (Elt Ideal)) (x5 : (⟨S8x64x512, .f32⟩ : BufTy).Contents (Elt Ideal)) (x6 : (⟨S8x64, .f32⟩ : BufTy).Contents (Elt Ideal)) (x7 : (⟨S8x64x512, .f32⟩ : BufTy).Contents (Elt Ideal)) (x8 : (⟨S8x64, .f32⟩ : BufTy).Contents (Elt Ideal)) (x9 : (⟨S8x32x256, .f32⟩ : BufTy).Contents (Elt Ideal)) (x10 : (⟨S8x32, .f32⟩ : BufTy).Contents (Elt Ideal)) (x11 : (⟨S8x32x256, .f32⟩ : BufTy).Contents (Elt Ideal)) (x12 : (⟨S8x32, .f32⟩ : BufTy).Contents (Elt Ideal)) (x13 : (⟨S8x16x128, .f32⟩ : BufTy).Contents (Elt Ideal)) (x14 : (⟨S8x16, .f32⟩ : BufTy).Contents (Elt Ideal)) (x15 : (⟨S8x16x128, .f32⟩ : BufTy).Contents (Elt Ideal)) (x16 : (⟨S8x16, .f32⟩ : BufTy).Contents (Elt Ideal)) (x17 : (⟨S512x512, .f32⟩ : BufTy).Contents (Elt Ideal)) (x18 : (⟨S512, .f32⟩ : BufTy).Contents (Elt Ideal)) (x19 : (⟨S1x1, .f32⟩ : BufTy).Contents (Elt Ideal)) (x20 : (⟨S1x1, .f32⟩ : BufTy).Contents (Elt Ideal)) (x21 : (⟨S1x1, .f32⟩ : BufTy).Contents (Elt Ideal)) (x22 : (⟨S64x64, .i32⟩ : BufTy).Contents (Elt Ideal))

def rin : GsaSpec.Inputs where
  x := fun b t q => x0 (ix3 b t q)
  aux := fun b t q => x1 (ix3 b t q)
  pos := fun b t q => x2 (ix3 b t q)
  MQ := fun h k q => val_main_v9 (F := Ideal) x3 x22 (ix3 h k q)
  bq := fun h k => x4 (ix2 h k)
  MK := fun h k q => val_main_v22 (F := Ideal) x5 x22 (ix3 h k q)
  bk := fun h k => x6 (ix2 h k)
  MV := fun h k q => val_main_v35 (F := Ideal) x7 x22 (ix3 h k q)
  bv := fun h k => x8 (ix2 h k)
  Wqa := fun h k q => x9 (ix3 h k q)
  bqa := fun h k => x10 (ix2 h k)
  Wka := fun h k q => x11 (ix3 h k q)
  bka := fun h k => x12 (ix2 h k)
  Wqp := fun h k q => x13 (ix3 h k q)
  bqp := fun h k => x14 (ix2 h k)
  Wkp := fun h k q => x15 (ix3 h k q)
  bkp := fun h k => x16 (ix2 h k)
  MO := fun e d => val_main_v215 (F := Ideal) x17 x22 (ix2 e d)
  bO := fun e => x18 (ix1 e)
  w := x19 (ix2 0 0)
  wa := x20 (ix2 0 0)
  wp := x21 (ix2 0 0)
  cnt := fun a b => val_main_v144 (F := Ideal) (ix2 a b)

end Cert.ReferenceIdeal.RefValue

end
-- ==== Proof.RefSpec.lean ====
/-
  The reference is the specification. Its projections, normalisations and Gram matrices, its banded sum, its mix,
  softmax, value product and output projection — each read at an index in its own module — compose into GsaSpec's
  `att`, `det` and `out` of the reference's inputs. The only algebra is in the output: the reference contracts the
  whole model axis at once and adds the tokens on the left, the specification adds the eight heads' shares in order
  from zero and then the tokens; over the extended reals both are the tokens plus the sum of the shares.
-/
import proofs.«105714_j66872640798820_2_alg».proof.Proof.RefProj
import proofs.«105714_j66872640798820_2_alg».proof.Proof.RefBand
import proofs.«105714_j66872640798820_2_alg».proof.Proof.RefTail
import proofs.«105714_j66872640798820_2_alg».proof.Proof.RefInputs

noncomputable section

namespace Cert.ReferenceIdeal.RefValue

open Idealize.ShloMosaic Idealize.ShloMosaic.ValueIdx Cert.ReferenceIdeal Cert.ReferenceIdeal.Read

variable (x0 : (⟨S8x1024x512, .f32⟩ : BufTy).Contents (Elt Ideal)) (x1 : (⟨S8x1024x256, .f32⟩ : BufTy).Contents (Elt Ideal)) (x2 : (⟨S8x1024x128, .f32⟩ : BufTy).Contents (Elt Ideal)) (x3 : (⟨S8x64x512, .f32⟩ : BufTy).Contents (Elt Ideal)) (x4 : (⟨S8x64, .f32⟩ : BufTy).Contents (Elt Ideal)) (x5 : (⟨S8x64x512, .f32⟩ : BufTy).Contents (Elt Ideal)) (x6 : (⟨S8x64, .f32⟩ : BufTy).Contents (Elt Ideal)) (x7 : (⟨S8x64x512, .f32⟩ : BufTy).Contents (Elt Ideal)) (x8 : (⟨S8x64, .f32⟩ : BufTy).Contents (Elt Ideal)) (x9 : (⟨S8x32x256, .f32⟩ : BufTy).Contents (Elt Ideal)) (x10 : (⟨S8x32, .f32⟩ : BufTy).Contents (Elt Ideal)) (x11 : (⟨S8x32x256, .f32⟩ : BufTy).Contents (Elt Ideal)) (x12 : (⟨S8x32, .f32⟩ : BufTy).Contents (Elt Ideal)) (x13 : (⟨S8x16x128, .f32⟩ : BufTy).Contents (Elt Ideal)) (x14 : (⟨S8x16, .f32⟩ : BufTy).Contents (Elt Ideal)) (x15 : (⟨S8x16x128, .f32⟩ : BufTy).Contents (Elt Ideal)) (x16 : (⟨S8x16, .f32⟩ : BufTy).Contents (Elt Ideal)) (x17 : (⟨S512x512, .f32⟩ : BufTy).Contents (Elt Ideal)) (x18 : (⟨S512, .f32⟩ : BufTy).Contents (Elt Ideal)) (x19 : (⟨S1x1, .f32⟩ : BufTy).Contents (Elt Ideal)) (x20 : (⟨S1x1, .f32⟩ : BufTy).Contents (Elt Ideal)) (x21 : (⟨S1x1, .f32⟩ : BufTy).Contents (Elt Ideal)) (x22 : (⟨S64x64, .i32⟩ : BufTy).Contents (Elt Ideal))

/-- The reference's inputs. -/
local notation "𝓘" => rin x0 x1 x2 x3 x4 x5 x6 x7 x8 x9 x10 x11 x12 x13 x14 x15 x16 x17 x18 x19 x20 x21 x22

theorem Qn_ref (b h : Fin 8) : (fun t k => val_main_v19 (F := Ideal) x0 x3 x4 x22 (ix4 b h t k)) = GsaSpec.Qn 𝓘 b h :=
  funext fun t => funext fun k => (v19_apply x0 x3 x4 x22 b h t k).trans
    (congrArg (fun f => GsaSpec.l2n f t k) (funext fun t => funext fun k => v14_apply x0 x3 x4 x22 b h t k))

theorem Kn_ref (b h : Fin 8) : (fun t k => val_main_v32 (F := Ideal) x0 x5 x6 x22 (ix4 b h t k)) = GsaSpec.Kn 𝓘 b h :=
  funext fun t => funext fun k => (v32_apply x0 x5 x6 x22 b h t k).trans
    (congrArg (fun f => GsaSpec.l2n f t k) (funext fun t => funext fun k => v27_apply x0 x5 x6 x22 b h t k))

theorem Vv_ref (b h : Fin 8) : (fun t k => val_main_v40 (F := Ideal) x0 x7 x8 x22 (ix4 b h t k)) = GsaSpec.Vv 𝓘 b h :=
  funext fun t => funext fun k => v40_apply x0 x7 x8 x22 b h t k

theorem QAn_ref (b h : Fin 8) : (fun t k => val_main_v157 (F := Ideal) x1 x9 x10 (ix4 b h t k)) = GsaSpec.QAn 𝓘 b h :=
  funext fun t => funext fun k => (v157_apply x1 x9 x10 b h t k).trans
    (congrArg (fun f => GsaSpec.l2n f t k) (funext fun t => funext fun k => v152_apply x1 x9 x10 b h t k))

theorem KAn_ref (b h : Fin 8) : (fun t k => val_main_v167 (F := Ideal) x1 x11 x12 (ix4 b h t k)) = GsaSpec.KAn 𝓘 b h :=
  funext fun t => funext fun k => (v167_apply x1 x11 x12 b h t k).trans
    (congrArg (fun f => GsaSpec.l2n f t k) (funext fun t => funext fun k => v162_apply x1 x11 x12 b h t k))

theorem QPn_ref (b h : Fin 8) : (fun t k => val_main_v177 (F := Ideal) x2 x13 x14 (ix4 b h t k)) = GsaSpec.QPn 𝓘 b h :=
  funext fun t => funext fun k => (v177_apply x2 x13 x14 b h t k).trans
    (congrArg (fun f => GsaSpec.l2n f t k) (funext fun t => funext fun k => v172_apply x2 x13 x14 b h t k))

theorem KPn_ref (b h : Fin 8) : (fun t k => val_main_v187 (F := Ideal) x2 x15 x16 (ix4 b h t k)) = GsaSpec.KPn 𝓘 b h :=
  funext fun t => funext fun k => (v187_apply x2 x15 x16 b h t k).trans
    (congrArg (fun f => GsaSpec.l2n f t k) (funext fun t => funext fun k => v182_apply x2 x15 x16 b h t k))

theorem gramS_ref (b h : Fin 8) : (fun t s => val_main_v41 (F := Ideal) x0 x3 x4 x5 x6 x22 (ix4 b h t s))
    = GsaSpec.gram (GsaSpec.Qn 𝓘 b h) (GsaSpec.Kn 𝓘 b h) :=
  funext fun t => funext fun s => (v41_apply x0 x3 x4 x5 x6 x22 b h t s).trans (by rw [Qn_ref, Kn_ref])

theorem gramA_ref (b h : Fin 8) : (fun t s => val_main_v192 (F := Ideal) x1 x9 x10 x11 x12 (ix4 b h t s))
    = GsaSpec.gram (GsaSpec.QAn 𝓘 b h) (GsaSpec.KAn 𝓘 b h) :=
  funext fun t => funext fun s => (v192_apply x1 x9 x10 x11 x12 b h t s).trans (by rw [QAn_ref, KAn_ref])

theorem gramP_ref (b h : Fin 8) : (fun t s => val_main_v197 (F := Ideal) x2 x13 x14 x15 x16 (ix4 b h t s))
    = GsaSpec.gram (GsaSpec.QPn 𝓘 b h) (GsaSpec.KPn 𝓘 b h) :=
  funext fun t => funext fun s => (v197_apply x2 x13 x14 x15 x16 b h t s).trans (by rw [QPn_ref, KPn_ref])

theorem sim_ref (b h : Fin 8) : (fun t s => val_main_v200 (F := Ideal) x0 x1 x2 x3 x4 x5 x6 x9 x10 x11 x12 x13 x14 x15 x16 x19 x20 x21 x22 (ix4 b h t s)) = GsaSpec.sim 𝓘 b h := by
  funext t s
  rw [v200_apply, v147_apply, gramS_ref x0 x1 x2 x3 x4 x5 x6 x7 x8 x9 x10 x11 x12 x13 x14 x15 x16 x17 x18 x19 x20 x21 x22 b h]
  have eA := congrFun (congrFun (gramA_ref x0 x1 x2 x3 x4 x5 x6 x7 x8 x9 x10 x11 x12 x13 x14 x15 x16 x17 x18 x19 x20 x21 x22 b h) t) s
  have eP := congrFun (congrFun (gramP_ref x0 x1 x2 x3 x4 x5 x6 x7 x8 x9 x10 x11 x12 x13 x14 x15 x16 x17 x18 x19 x20 x21 x22 b h) t) s
  dsimp only at eA eP
  rw [eA, eP]
  rfl

theorem att_ref (b h : Fin 8) (t s : Fin 1024) :
    val_main_v211 (F := Ideal) x0 x1 x2 x3 x4 x5 x6 x9 x10 x11 x12 x13 x14 x15 x16 x19 x20 x21 x22 (ix4 b h t s) = GsaSpec.att 𝓘 b h t s := by
  rw [v211_apply, sim_ref x0 x1 x2 x3 x4 x5 x6 x7 x8 x9 x10 x11 x12 x13 x14 x15 x16 x17 x18 x19 x20 x21 x22 b h]
  rfl

theorem det_ref (b h : Fin 8) (t : Fin 1024) (k : Fin 64) :
    val_main_v212 (F := Ideal) x0 x1 x2 x3 x4 x5 x6 x7 x8 x9 x10 x11 x12 x13 x14 x15 x16 x19 x20 x21 x22 (ix4 b h t k) = GsaSpec.det 𝓘 b h t k := by
  rw [v212_apply]
  unfold GsaSpec.det
  refine Finset.sum_congr rfl fun s _ => ?_
  rw [att_ref x0 x1 x2 x3 x4 x5 x6 x7 x8 x9 x10 x11 x12 x13 x14 x15 x16 x17 x18 x19 x20 x21 x22 b h t s]
  exact congrArg (GsaSpec.att 𝓘 b h t s * ·) (congrFun (congrFun (Vv_ref x0 x1 x2 x3 x4 x5 x6 x7 x8 x9 x10 x11 x12 x13 x14 x15 x16 x17 x18 x19 x20 x21 x22 b h) s) k)

theorem out_ref (b : Fin 8) (t : Fin 1024) (e : Fin 512) :
    val_main_v220 (F := Ideal) x0 x1 x2 x3 x4 x5 x6 x7 x8 x9 x10 x11 x12 x13 x14 x15 x16 x17 x18 x19 x20 x21 x22 (ix3 b t e) = GsaSpec.out 𝓘 b t e := by
  rw [v220_apply]
  refine Eq.trans ?_ (congrArg (· + (𝓘).bO e)
    (GsaSpec.heads_then_residual (fun h => GsaSpec.con 𝓘 b h t e) ((𝓘).x b t e)).symm)
  refine congrArg (fun z => x0 (ix3 b t e) + z + x18 (ix1 e)) ?_
  refine Finset.sum_congr rfl fun h _ => ?_
  unfold GsaSpec.con
  refine Finset.sum_congr rfl fun k _ => ?_
  rw [det_ref x0 x1 x2 x3 x4 x5 x6 x7 x8 x9 x10 x11 x12 x13 x14 x15 x16 x17 x18 x19 x20 x21 x22 b h t k]
  rfl

/-! ### The three tensors as whole arrays -/

theorem v211_fun : val_main_v211 (F := Ideal) x0 x1 x2 x3 x4 x5 x6 x9 x10 x11 x12 x13 x14 x15 x16 x19 x20 x21 x22
    = fun i => GsaSpec.att 𝓘 (i 0) (i 1) (i 2) (i 3) :=
  funext fun i => (congrArg _ (eq_ix4 i)).trans
    (att_ref x0 x1 x2 x3 x4 x5 x6 x7 x8 x9 x10 x11 x12 x13 x14 x15 x16 x17 x18 x19 x20 x21 x22 (i 0) (i 1) (i 2) (i 3))

theorem v212_fun : val_main_v212 (F := Ideal) x0 x1 x2 x3 x4 x5 x6 x7 x8 x9 x10 x11 x12 x13 x14 x15 x16 x19 x20 x21 x22
    = fun i => GsaSpec.det 𝓘 (i 0) (i 1) (i 2) (i 3) :=
  funext fun i => (congrArg _ (eq_ix4 i)).trans
    (det_ref x0 x1 x2 x3 x4 x5 x6 x7 x8 x9 x10 x11 x12 x13 x14 x15 x16 x17 x18 x19 x20 x21 x22 (i 0) (i 1) (i 2) (i 3))

theorem v220_fun : val_main_v220 (F := Ideal) x0 x1 x2 x3 x4 x5 x6 x7 x8 x9 x10 x11 x12 x13 x14 x15 x16 x17 x18 x19 x20 x21 x22
    = fun i => GsaSpec.out 𝓘 (i 0) (i 1) (i 2) :=
  funext fun i => (congrArg _ (eq_ix3 i)).trans
    (out_ref x0 x1 x2 x3 x4 x5 x6 x7 x8 x9 x10 x11 x12 x13 x14 x15 x16 x17 x18 x19 x20 x21 x22 (i 0) (i 1) (i 2))

end Cert.ReferenceIdeal.RefValue

end
-- ==== Proof.RefRun.lean ====
/-
  The reference program's run with each result stated as its value function of the launch contents of the arguments;
  the reference's frame claim, which is the argument part of that run; and the reference's two layout tails — a
  transpose of the head and time axes followed by a flattening of the last two axes — written with the other program's
  shape names, which denote the same shapes.
-/
import proofs.«105714_j66872640798820_2_alg».proof.Defs
import proofs.«105714_j66872640798820_2_alg».proof.Proof.Patched.ReferenceIdeal.Read
import proofs.«105714_j66872640798820_2_alg».proof.Proof.Gen.ReferenceIdeal
import proofs.«105714_j66872640798820_2_alg».proof.Proof.Gen.Pre_finite_inputs
import proofs.«105714_j66872640798820_2_alg».proof.KernelIdeal
import proofs.«105714_j66872640798820_2_alg».proof.Proof.Gen.KernelIdeal

noncomputable section

namespace Cert.RefRun

open Idealize.ShloMosaic Idealize.ShloMosaic.TcCoe Idealize.SL.Sem

/-! ## The run -/

/-- Every weakly fair execution of the reference terminates with its three results at their value functions of the
    arguments' launch contents, and the arguments unchanged: the generated run, with each result's composed term
    replaced by the value function it equals. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v220) = Cert.ReferenceIdeal.Read.val_main_v220 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22))
      ∧ r.2.mem ((c.tc : Thread Cert.ReferenceIdeal.nD Cert.ReferenceIdeal.τ).loc Cert.ReferenceIdeal.main_v222) = Cert.ReferenceIdeal.Read.val_main_v222 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22))
      ∧ r.2.mem ((c.tc : Thread Cert.ReferenceIdeal.nD Cert.ReferenceIdeal.τ).loc Cert.ReferenceIdeal.main_v214) = Cert.ReferenceIdeal.Read.val_main_v214 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)) :=
  (θ_run Cert.ReferenceIdeal.defs _ _).mono
    (fun _ h c => ⟨(h c).1.trans (Cert.ReferenceIdeal.Read.val_main_v220_eq m' c),
      (h c).2.1.trans (Cert.ReferenceIdeal.Read.val_main_v222_eq m' c),
      (h c).2.2.1.trans (Cert.ReferenceIdeal.Read.val_main_v214_eq m' c),
      (h c).2.2.2⟩)
    (Cert.ReferenceIdeal.Value.run (F := Ideal) m' ρ')

/-! ## The two layout tails in the other program's shape names -/

variable (x0 : (⟨Cert.ReferenceIdeal.S8x1024x512, .f32⟩ : BufTy).Contents (Elt Ideal)) (x1 : (⟨Cert.ReferenceIdeal.S8x1024x256, .f32⟩ : BufTy).Contents (Elt Ideal))
  (x2 : (⟨Cert.ReferenceIdeal.S8x1024x128, .f32⟩ : BufTy).Contents (Elt Ideal))
  (x3 : (⟨Cert.ReferenceIdeal.S8x64x512, .f32⟩ : BufTy).Contents (Elt Ideal)) (x4 : (⟨Cert.ReferenceIdeal.S8x64, .f32⟩ : BufTy).Contents (Elt Ideal))
  (x5 : (⟨Cert.ReferenceIdeal.S8x64x512, .f32⟩ : BufTy).Contents (Elt Ideal)) (x6 : (⟨Cert.ReferenceIdeal.S8x64, .f32⟩ : BufTy).Contents (Elt Ideal))
  (x7 : (⟨Cert.ReferenceIdeal.S8x64x512, .f32⟩ : BufTy).Contents (Elt Ideal)) (x8 : (⟨Cert.ReferenceIdeal.S8x64, .f32⟩ : BufTy).Contents (Elt Ideal))
  (x9 : (⟨Cert.ReferenceIdeal.S8x32x256, .f32⟩ : BufTy).Contents (Elt Ideal)) (x10 : (⟨Cert.ReferenceIdeal.S8x32, .f32⟩ : BufTy).Contents (Elt Ideal))
  (x11 : (⟨Cert.ReferenceIdeal.S8x32x256, .f32⟩ : BufTy).Contents (Elt Ideal)) (x12 : (⟨Cert.ReferenceIdeal.S8x32, .f32⟩ : BufTy).Contents (Elt Ideal))
  (x13 : (⟨Cert.ReferenceIdeal.S8x16x128, .f32⟩ : BufTy).Contents (Elt Ideal)) (x14 : (⟨Cert.ReferenceIdeal.S8x16, .f32⟩ : BufTy).Contents (Elt Ideal))
  (x15 : (⟨Cert.ReferenceIdeal.S8x16x128, .f32⟩ : BufTy).Contents (Elt Ideal)) (x16 : (⟨Cert.ReferenceIdeal.S8x16, .f32⟩ : BufTy).Contents (Elt Ideal))
  (x19 x20 x21 : (⟨Cert.ReferenceIdeal.S1x1, .f32⟩ : BufTy).Contents (Elt Ideal)) (x22 : (⟨Cert.ReferenceIdeal.S64x64, .i32⟩ : BufTy).Contents (Elt Ideal))

/-- The transpose-then-flatten of a `[8, 8, 1024, 64]` array, for any witnesses of the two shape relations: applied to
    the per-head products it is the reference's third result. -/
theorem flat57_ref' (ht : Cert.KernelIdeal.S8x8x1024x64.Transposes [0, 2, 1, 3] Cert.KernelIdeal.S8x1024x8x64)
    (hc : Cert.KernelIdeal.S8x1024x8x64.ShapeCasts Cert.KernelIdeal.S8x1024x512) :
    shapeCast Cert.KernelIdeal.S8x1024x512 (transpose Cert.KernelIdeal.S8x1024x8x64 [0, 2, 1, 3] (Cert.ReferenceIdeal.Read.val_main_v212 (F := Ideal) x0 x1 x2 x3 x4 x5 x6 x7 x8 x9 x10 x11 x12 x13 x14 x15 x16 x19 x20 x21 x22) ht) hc
      = Cert.ReferenceIdeal.Read.val_main_v214 (F := Ideal) x0 x1 x2 x3 x4 x5 x6 x7 x8 x9 x10 x11 x12 x13 x14 x15 x16 x19 x20 x21 x22 := by
  unfold Cert.ReferenceIdeal.Read.val_main_v214 Cert.ReferenceIdeal.Read.val_main_v213
  rfl

/-- The transpose-then-flatten of a `[8, 8, 1024, 1024]` array, for any witnesses of the two shape relations: applied
    to the attention weights it is the reference's second result. -/
theorem flat59_ref' (ht : Cert.KernelIdeal.S8x8x1024x1024.Transposes [0, 2, 1, 3] Cert.KernelIdeal.S8x1024x8x1024)
    (hc : Cert.KernelIdeal.S8x1024x8x1024.ShapeCasts Cert.KernelIdeal.S8x1024x8192) :
    shapeCast Cert.KernelIdeal.S8x1024x8192 (transpose Cert.KernelIdeal.S8x1024x8x1024 [0, 2, 1, 3] (Cert.ReferenceIdeal.Read.val_main_v211 (F := Ideal) x0 x1 x2 x3 x4 x5 x6 x9 x10 x11 x12 x13 x14 x15 x16 x19 x20 x21 x22) ht) hc
      = Cert.ReferenceIdeal.Read.val_main_v222 (F := Ideal) x0 x1 x2 x3 x4 x5 x6 x9 x10 x11 x12 x13 x14 x15 x16 x19 x20 x21 x22 := by
  unfold Cert.ReferenceIdeal.Read.val_main_v222 Cert.ReferenceIdeal.Read.val_main_v221
  rfl

/-- The layout of the per-head products along the model axis. -/
def kflat57 (X : (⟨Cert.KernelIdeal.S8x8x1024x64, .f32⟩ : BufTy).Contents (Elt Ideal)) : (⟨Cert.KernelIdeal.S8x1024x512, .f32⟩ : BufTy).Contents (Elt Ideal) :=
  shapeCast Cert.KernelIdeal.S8x1024x512 (transpose Cert.KernelIdeal.S8x1024x8x64 [0, 2, 1, 3] X Cert.KernelIdeal.Gen.transposes_S8x8x1024x64_S8x1024x8x64_0_2_1_3)
    Cert.KernelIdeal.Gen.shapeCasts_S8x1024x8x64_S8x1024x512

/-- The layout of the attention weights with heads and key positions flattened. -/
def kflat59 (X : (⟨Cert.KernelIdeal.S8x8x1024x1024, .f32⟩ : BufTy).Contents (Elt Ideal)) : (⟨Cert.KernelIdeal.S8x1024x8192, .f32⟩ : BufTy).Contents (Elt Ideal) :=
  shapeCast Cert.KernelIdeal.S8x1024x8192 (transpose Cert.KernelIdeal.S8x1024x8x1024 [0, 2, 1, 3] X Cert.KernelIdeal.Gen.transposes_S8x8x1024x1024_S8x1024x8x1024_0_2_1_3)
    Cert.KernelIdeal.Gen.shapeCasts_S8x1024x8x1024_S8x1024x8192

theorem flat57_ref : kflat57 (Cert.ReferenceIdeal.Read.val_main_v212 (F := Ideal) x0 x1 x2 x3 x4 x5 x6 x7 x8 x9 x10 x11 x12 x13 x14 x15 x16 x19 x20 x21 x22) = Cert.ReferenceIdeal.Read.val_main_v214 (F := Ideal) x0 x1 x2 x3 x4 x5 x6 x7 x8 x9 x10 x11 x12 x13 x14 x15 x16 x19 x20 x21 x22 :=
  flat57_ref' x0 x1 x2 x3 x4 x5 x6 x7 x8 x9 x10 x11 x12 x13 x14 x15 x16 x19 x20 x21 x22 _ _

theorem flat59_ref : kflat59 (Cert.ReferenceIdeal.Read.val_main_v211 (F := Ideal) x0 x1 x2 x3 x4 x5 x6 x9 x10 x11 x12 x13 x14 x15 x16 x19 x20 x21 x22) = Cert.ReferenceIdeal.Read.val_main_v222 (F := Ideal) x0 x1 x2 x3 x4 x5 x6 x9 x10 x11 x12 x13 x14 x15 x16 x19 x20 x21 x22 :=
  flat59_ref' x0 x1 x2 x3 x4 x5 x6 x9 x10 x11 x12 x13 x14 x15 x16 x19 x20 x21 x22 _ _

/-! ## The frame claim -/

/-- The reference runs and leaves its arguments unchanged: the argument components of the run above. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (ref_run m ρ)

end Cert.RefRun

end
-- ==== Proof.Bridge.lean ====
/-
  The two programs are given the same inputs.

  Before its one region the kernel's entry point prepares the arrays the region reads: it reshapes the per-head
  biases, narrows the auxiliary and positional weights (the identity on extended reals), multiplies the content
  weights and the output matrix by the tiled dependency mask, and tabulates the diagonal-neighbour counts. Each
  prepared array, read at plain coordinates, is the corresponding argument array or the reference's own
  intermediate array.
-/
import proofs.«105714_j66872640798820_2_alg».proof.Proof.Patched.KernelIdeal.Runs
import proofs.«105714_j66872640798820_2_alg».proof.Proof.Patched.ReferenceIdeal.Read
import proofs.«105714_j66872640798820_2_alg».proof.Proof.KerInputs
import proofs.«105714_j66872640798820_2_alg».proof.Proof.RefInputs
import proofs.«105714_j66872640798820_2_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-! ## The biases: `[8, n]` reshaped to `[8, 1, n]` -/

section Layout
variable {α : Type}

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Layout

theorem V_v27 (c : Dev nD) : (V m c main_v27 : S8x1x64.Idx → EReal)
    = shapeCast S8x1x64 (m ((c : Thread nD τ).loc main_arg4)) shapeCasts_S8x64_S8x1x64 := by
  show StableHlo.after hostOps0 (fun b => m (c, b)) (Proc.devRef .tc main_v27) = _
  after_results_simp
  first | done | rfl

theorem bq_eq (c : Dev nD) (h : Fin 8) (k : Fin 64) :
    V m c main_v27 (ix3 h 0 k) = m ((c : Thread nD τ).loc main_arg4) (ix2 h k) := by
  rw [V_v27]
  exact shapeCast_ab_a1b_apply _ _ h 0 k

theorem V_v28 (c : Dev nD) : (V m c main_v28 : S8x1x64.Idx → EReal)
    = shapeCast S8x1x64 (m ((c : Thread nD τ).loc main_arg6)) shapeCasts_S8x64_S8x1x64 := by
  show StableHlo.after hostOps0 (fun b => m (c, b)) (Proc.devRef .tc main_v28) = _
  after_results_simp
  first | done | rfl

theorem bk_eq (c : Dev nD) (h : Fin 8) (k : Fin 64) :
    V m c main_v28 (ix3 h 0 k) = m ((c : Thread nD τ).loc main_arg6) (ix2 h k) := by
  rw [V_v28]
  exact shapeCast_ab_a1b_apply _ _ h 0 k

theorem V_v29 (c : Dev nD) : (V m c main_v29 : S8x1x64.Idx → EReal)
    = shapeCast S8x1x64 (m ((c : Thread nD τ).loc main_arg8)) shapeCasts_S8x64_S8x1x64 := by
  show StableHlo.after hostOps0 (fun b => m (c, b)) (Proc.devRef .tc main_v29) = _
  after_results_simp
  first | done | rfl

theorem bv_eq (c : Dev nD) (h : Fin 8) (k : Fin 64) :
    V m c main_v29 (ix3 h 0 k) = m ((c : Thread nD τ).loc main_arg8) (ix2 h k) := by
  rw [V_v29]
  exact shapeCast_ab_a1b_apply _ _ h 0 k

theorem V_v30 (c : Dev nD) : (V m c main_v30 : S8x1x32.Idx → EReal)
    = shapeCast S8x1x32 (m ((c : Thread nD τ).loc main_arg10)) shapeCasts_S8x32_S8x1x32 := by
  show StableHlo.after hostOps0 (fun b => m (c, b)) (Proc.devRef .tc main_v30) = _
  after_results_simp
  first | done | rfl

theorem bqa_eq (c : Dev nD) (h : Fin 8) (k : Fin 32) :
    V m c main_v30 (ix3 h 0 k) = m ((c : Thread nD τ).loc main_arg10) (ix2 h k) := by
  rw [V_v30]
  exact shapeCast_ab_a1b_apply _ _ h 0 k

theorem V_v31 (c : Dev nD) : (V m c main_v31 : S8x1x32.Idx → EReal)
    = shapeCast S8x1x32 (m ((c : Thread nD τ).loc main_arg12)) shapeCasts_S8x32_S8x1x32 := by
  show StableHlo.after hostOps0 (fun b => m (c, b)) (Proc.devRef .tc main_v31) = _
  after_results_simp
  first | done | rfl

theorem bka_eq (c : Dev nD) (h : Fin 8) (k : Fin 32) :
    V m c main_v31 (ix3 h 0 k) = m ((c : Thread nD τ).loc main_arg12) (ix2 h k) := by
  rw [V_v31]
  exact shapeCast_ab_a1b_apply _ _ h 0 k

theorem V_v32 (c : Dev nD) : (V m c main_v32 : S8x1x16.Idx → EReal)
    = shapeCast S8x1x16 (m ((c : Thread nD τ).loc main_arg14)) shapeCasts_S8x16_S8x1x16 := by
  show StableHlo.after hostOps0 (fun b => m (c, b)) (Proc.devRef .tc main_v32) = _
  after_results_simp
  first | done | rfl

theorem bqp_eq (c : Dev nD) (h : Fin 8) (k : Fin 16) :
    V m c main_v32 (ix3 h 0 k) = m ((c : Thread nD τ).loc main_arg14) (ix2 h k) := by
  rw [V_v32]
  exact shapeCast_ab_a1b_apply _ _ h 0 k

theorem V_v33 (c : Dev nD) : (V m c main_v33 : S8x1x16.Idx → EReal)
    = shapeCast S8x1x16 (m ((c : Thread nD τ).loc main_arg16)) shapeCasts_S8x16_S8x1x16 := by
  show StableHlo.after hostOps0 (fun b => m (c, b)) (Proc.devRef .tc main_v33) = _
  after_results_simp
  first | done | rfl

theorem bkp_eq (c : Dev nD) (h : Fin 8) (k : Fin 16) :
    V m c main_v33 (ix3 h 0 k) = m ((c : Thread nD τ).loc main_arg16) (ix2 h k) := by
  rw [V_v33]
  exact shapeCast_ab_a1b_apply _ _ h 0 k

/-! ## The auxiliary and positional weights: narrowed to bf16, the identity on extended reals -/

theorem V_v23 (c : Dev nD) : (V m c main_v23 : S8x32x256.Idx → EReal)
    = truncf (F := Ideal) .bf16 (m ((c : Thread nD τ).loc main_arg9) : FVec Ideal S8x32x256 .f32) bitsLt_bf16_f32 := by
  show StableHlo.after hostOps0 (fun b => m (c, b)) (Proc.devRef .tc main_v23) = _
  after_results_simp
  first | done | rfl

theorem Wqa_eq (c : Dev nD) (h : Fin 8) (k : Fin 32) (q : Fin 256) :
    V m c main_v23 (ix3 h k q) = m ((c : Thread nD τ).loc main_arg9) (ix3 h k q) := by
  rw [V_v23]
  rfl

theorem V_v24 (c : Dev nD) : (V m c main_v24 : S8x32x256.Idx → EReal)
    = truncf (F := Ideal) .bf16 (m ((c : Thread nD τ).loc main_arg11) : FVec Ideal S8x32x256 .f32) bitsLt_bf16_f32 := by
  show StableHlo.after hostOps0 (fun b => m (c, b)) (Proc.devRef .tc main_v24) = _
  after_results_simp
  first | done | rfl

theorem Wka_eq (c : Dev nD) (h : Fin 8) (k : Fin 32) (q : Fin 256) :
    V m c main_v24 (ix3 h k q) = m ((c : Thread nD τ).loc main_arg11) (ix3 h k q) := by
  rw [V_v24]
  rfl

theorem V_v25 (c : Dev nD) : (V m c main_v25 : S8x16x128.Idx → EReal)
    = truncf (F := Ideal) .bf16 (m ((c : Thread nD τ).loc main_arg13) : FVec Ideal S8x16x128 .f32) bitsLt_bf16_f32 := by
  show StableHlo.after hostOps0 (fun b => m (c, b)) (Proc.devRef .tc main_v25) = _
  after_results_simp
  first | done | rfl

theorem Wqp_eq (c : Dev nD) (h : Fin 8) (k : Fin 16) (q : Fin 128) :
    V m c main_v25 (ix3 h k q) = m ((c : Thread nD τ).loc main_arg13) (ix3 h k q) := by
  rw [V_v25]
  rfl

theorem V_v26 (c : Dev nD) : (V m c main_v26 : S8x16x128.Idx → EReal)
    = truncf (F := Ideal) .bf16 (m ((c : Thread nD τ).loc main_arg15) : FVec Ideal S8x16x128 .f32) bitsLt_bf16_f32 := by
  show StableHlo.after hostOps0 (fun b => m (c, b)) (Proc.devRef .tc main_v26) = _
  after_results_simp
  first | done | rfl

theorem Wkp_eq (c : Dev nD) (h : Fin 8) (k : Fin 16) (q : Fin 128) :
    V m c main_v26 (ix3 h k q) = m ((c : Thread nD τ).loc main_arg15) (ix3 h k q) := by
  rw [V_v26]
  rfl

/-! ## The prepared arrays as terms of the arguments -/

/-- The dependency mask as floats, each row repeated for the eight heads: `[64, 64] → [64, 512]`. -/
def maskRows (x22 : IVec S64x64 32) : FVec Ideal S64x512 .f32 :=
  shapeCast S64x512
    (broadcastInDim S1x64x8x64 ![0, 1, 2, 3] bcast_S1x64x1x64_S1x64x8x64_0_1_2_3
      (shapeCast S1x64x1x64 (sitofp (F := Ideal) .f32 x22) shapeCasts_S64x64_S1x64x1x64))
    shapeCasts_S1x64x8x64_S64x512

/-- A content weight `[8, 64, 512]` times the tiled mask. -/
def maskedW (x : FVec Ideal S8x64x512 .f32) (x22 : IVec S64x64 32) : FVec Ideal S8x64x512 .f32 :=
  mulf x
    (broadcastInDim S8x64x512 ![0, 1, 2] bcast_S1x64x512_S8x64x512_0_1_2
      (broadcastInDim S1x64x512 ![1, 2] bcast_S64x512_S1x64x512_1_2 (maskRows x22)))

/-- The output matrix `[512, 512]` times the mask tiled both ways. -/
def maskedO (x17 : FVec Ideal S512x512 .f32) (x22 : IVec S64x64 32) : FVec Ideal S512x512 .f32 :=
  mulf x17
    (shapeCast S512x512
      (broadcastInDim S8x64x8x64 ![0, 1, 2, 3] bcast_S1x64x1x64_S8x64x8x64_0_1_2_3
        (shapeCast S1x64x1x64 (sitofp (F := Ideal) .f32 x22) shapeCasts_S64x64_S1x64x1x64))
      shapeCasts_S8x64x8x64_S512x512)

/-- The row index and the column index of a `[1024, 1024]` table, as integer arrays. -/
def rowIx : IVec S1024x1024 32 :=
  broadcastInDim S1024x1024 ![0, 1] bcast_S1024x1_S1024x1024_0_1
    (broadcastInDim S1024x1 ![0] bcast_S1024_S1024x1_0 (iotaInDim S1024 32 0))
def colIx : IVec S1024x1024 32 :=
  broadcastInDim S1024x1024 ![0, 1] bcast_S1x1024_S1024x1024_0_1
    (broadcastInDim S1x1024 ![1] bcast_S1024_S1x1024_1 (iotaInDim S1024 32 0))
/-- An integer constant at every entry of the table. -/
def splat (b : BitVec 32) : IVec S1024x1024 32 :=
  broadcastInDim S1024x1024 ![] bcast_S_S1024x1024 (constantI S_ 32 b)

/-- The table of diagonal-neighbour counts: `min 8 (min a b) + min 8 (1023 - max a b) + 1`, as floats. -/
def cntK : FVec Ideal S1024x1024 .f32 :=
  sitofp (F := Ideal) .f32
    (addi (addi (minsi (splat 8#32) (minsi rowIx colIx))
                (minsi (splat 8#32) (subi (splat 1023#32) (maxsi rowIx colIx))))
          (splat 1#32))

theorem V_v10 (c : Dev nD) : (V m c main_v10 : S8x64x512.Idx → EReal)
    = maskedW (m ((c : Thread nD τ).loc main_arg3)) (m ((c : Thread nD τ).loc main_arg22)) := by
  show StableHlo.after hostOps0 (fun b => m (c, b)) (Proc.devRef .tc main_v10) = _
  after_results_simp
  first | done | rfl

theorem V_v14 (c : Dev nD) : (V m c main_v14 : S8x64x512.Idx → EReal)
    = maskedW (m ((c : Thread nD τ).loc main_arg5)) (m ((c : Thread nD τ).loc main_arg22)) := by
  show StableHlo.after hostOps0 (fun b => m (c, b)) (Proc.devRef .tc main_v14) = _
  after_results_simp
  first | done | rfl

theorem V_v18 (c : Dev nD) : (V m c main_v18 : S8x64x512.Idx → EReal)
    = maskedW (m ((c : Thread nD τ).loc main_arg7)) (m ((c : Thread nD τ).loc main_arg22)) := by
  show StableHlo.after hostOps0 (fun b => m (c, b)) (Proc.devRef .tc main_v18) = _
  after_results_simp
  first | done | rfl

theorem V_v22 (c : Dev nD) : (V m c main_v22 : S8x512x64.Idx → EReal)
    = transpose S8x512x64 [1, 0, 2]
        (shapeCast S512x8x64 (maskedO (m ((c : Thread nD τ).loc main_arg17)) (m ((c : Thread nD τ).loc main_arg22)))
          shapeCasts_S512x512_S512x8x64)
        transposes_S512x8x64_S8x512x64_1_0_2 := by
  show StableHlo.after hostOps0 (fun b => m (c, b)) (Proc.devRef .tc main_v22) = _
  after_results_simp
  first | done | rfl

theorem V_v54 (c : Dev nD) : (V m c main_v54 : S1024x1024.Idx → EReal) = cntK := by
  show StableHlo.after hostOps0 (fun b => m (c, b)) (Proc.devRef .tc main_v54) = _
  after_results_simp
  first | done | rfl

/-! ## The masked output matrix: head-major, feature `64 h + k` of the model axis at `(h, ·, k)` -/

theorem MO_eq (c : Dev nD) (h : Fin 8) (e : Fin 512) (k : Fin 64) :
    V m c main_v22 (ix3 h e k)
      = maskedO (m ((c : Thread nD τ).loc main_arg17)) (m ((c : Thread nD τ).loc main_arg22)) (ix2 e (GsaSpec.hk h k)) := by
  rw [V_v22]
  refine (transpose_apply [1, 0, 2] _ transposes_S512x8x64_S8x512x64_1_0_2 (ix3 h e k) (ix3 e h k)
    (fun b => match b with | ⟨0, _⟩ => rfl | ⟨1, _⟩ => rfl | ⟨2, _⟩ => rfl)).trans ?_
  exact shapeCast_apply _ shapeCasts_S512x512_S512x8x64 (ix3 e h k) (ix2 e (GsaSpec.hk h k)) (by
    rw [Shape.rowMajor_val_two, Shape.rowMajor_val_three]
    show e.val * 512 + (64 * h.val + k.val) = (e.val * 8 + h.val) * 64 + k.val
    omega)

/-! ## The reference computes the same arrays

The reference's own intermediate arrays are the same chains of operations over the same arguments; the two
programs' copies of the shapes reduce to the same literals. -/

theorem maskedW_eq_v9 (x : FVec Ideal S8x64x512 .f32) (x22 : IVec S64x64 32) :
    maskedW x x22 = Cert.ReferenceIdeal.Read.val_main_v9 (F := Ideal) x x22 := rfl
theorem maskedW_eq_v22 (x : FVec Ideal S8x64x512 .f32) (x22 : IVec S64x64 32) :
    maskedW x x22 = Cert.ReferenceIdeal.Read.val_main_v22 (F := Ideal) x x22 := rfl
theorem maskedW_eq_v35 (x : FVec Ideal S8x64x512 .f32) (x22 : IVec S64x64 32) :
    maskedW x x22 = Cert.ReferenceIdeal.Read.val_main_v35 (F := Ideal) x x22 := rfl
theorem maskedO_eq_v215 (x17 : FVec Ideal S512x512 .f32) (x22 : IVec S64x64 32) :
    maskedO x17 x22 = Cert.ReferenceIdeal.Read.val_main_v215 (F := Ideal) x17 x22 := rfl
theorem cntK_eq_v144 : cntK = Cert.ReferenceIdeal.Read.val_main_v144 (F := Ideal) := rfl

/-! ## The two records of inputs are one -/

theorem kin_eq_rin (c : Dev nD) :
    Cert.KernelIdeal.KIn.kin m c = Cert.ReferenceIdeal.RefValue.rin
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  unfold Cert.KernelIdeal.KIn.kin Cert.ReferenceIdeal.RefValue.rin
  rw [GsaSpec.Inputs.mk.injEq]
  refine ⟨?_, ?_, ?_, ?_, ?_, ?_, ?_, ?_, ?_, ?_, ?_, ?_, ?_, ?_, ?_, ?_, ?_, ?_, ?_, ?_, ?_, ?_, ?_⟩
  · rw [V_main_arg0]
  · rw [V_main_arg1]
  · rw [V_main_arg2]
  · funext h k q
    exact (congrFun (V_v10 m c) (ix3 h k q)).trans (congrFun (maskedW_eq_v9 _ _) (ix3 h k q))
  · funext h k
    exact bq_eq m c h k
  · funext h k q
    exact (congrFun (V_v14 m c) (ix3 h k q)).trans (congrFun (maskedW_eq_v22 _ _) (ix3 h k q))
  · funext h k
    exact bk_eq m c h k
  · funext h k q
    exact (congrFun (V_v18 m c) (ix3 h k q)).trans (congrFun (maskedW_eq_v35 _ _) (ix3 h k q))
  · funext h k
    exact bv_eq m c h k
  · funext h k q
    exact Wqa_eq m c h k q
  · funext h k
    exact bqa_eq m c h k
  · funext h k q
    exact Wka_eq m c h k q
  · funext h k
    exact bka_eq m c h k
  · funext h k q
    exact Wqp_eq m c h k q
  · funext h k
    exact bqp_eq m c h k
  · funext h k q
    exact Wkp_eq m c h k q
  · funext h k
    exact bkp_eq m c h k
  · funext e d
    have hd : GsaSpec.hk (⟨d.val / 64, by omega⟩ : Fin 8) (⟨d.val % 64, by omega⟩ : Fin 64) = d :=
      Fin.ext (by show 64 * (d.val / 64) + d.val % 64 = d.val; omega)
    refine (MO_eq m c _ e _).trans ?_
    rw [hd, maskedO_eq_v215]
  · rw [V_main_arg18]
  · rw [V_main_arg19]
  · rw [V_main_arg20]
  · rw [V_main_arg21]
  · funext a b
    exact (congrFun (V_v54 m c) (ix2 a b)).trans (congrFun cntK_eq_v144 (ix2 a b))

end Cert.Bridge

end
-- ==== Proof.lean ====
/-
  The certificate: the attention kernel and its reference compute the same three results over the extended reals.

  Both programs are shown equal to one specification (Proof/Spec.lean): per batch and head, three pairs of
  normalised projections, their Gram matrices, the seventeen-tap diagonal band of the content one divided by the
  neighbour counts, the mixed similarity, its row softmax, the product with the values, and the output projection
  summed over the heads plus the residual and the bias.

  The kernel side reads the frame run's three output arrays block by block (Proof/KerCases.lean, KerAcc.lean,
  KerFinal.lean) over the arrays the region is handed, and the host tail after it (KerTail.lean). The reference side
  reads its run operation by operation (RefProj.lean, RefBand.lean, RefTail.lean, composed in RefSpec.lean). The two
  programs are handed the same inputs (Bridge.lean). The two differ only in the order and grouping of sums, in adding
  zeros where the reference skips, and in one redundant maximum: nothing in the argument uses that the inputs are finite.
  The three frames are the generated frame certificates and the reference's generated run; the idealization rewrote
  nothing.
-/
import proofs.«105714_j66872640798820_2_alg».proof.Defs
import proofs.«105714_j66872640798820_2_alg».proof.Proof.Gen.Kernel
import proofs.«105714_j66872640798820_2_alg».proof.Proof.Gen.KernelIdeal
import proofs.«105714_j66872640798820_2_alg».proof.Proof.Gen.ReferenceIdeal
import proofs.«105714_j66872640798820_2_alg».proof.Proof.Gen.Pre_finite_inputs
import proofs.«105714_j66872640798820_2_alg».proof.Proof.Patched.Kernel.Frame
import proofs.«105714_j66872640798820_2_alg».proof.Proof.Patched.KernelIdeal.Frame
import proofs.«105714_j66872640798820_2_alg».proof.Proof.KerFinal
import proofs.«105714_j66872640798820_2_alg».proof.Proof.KerTail
import proofs.«105714_j66872640798820_2_alg».proof.Proof.RefSpec
import proofs.«105714_j66872640798820_2_alg».proof.Proof.RefRun
import proofs.«105714_j66872640798820_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel's three results are the reference's, as functions of the kernel's argument arrays. -/
theorem out_eq (m : (ℓ : Loc Cert.KernelIdeal.nD Cert.KernelIdeal.τ Cert.KernelIdeal.sig) → Buf (Elt Ideal) ℓ) (c : Dev Cert.KernelIdeal.nD) :
    Cert.KernelIdeal.Final.G23 m c = Cert.ReferenceIdeal.Read.val_main_v220 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
  rw [Cert.ReferenceIdeal.RefValue.v220_fun, ← Cert.Bridge.kin_eq_rin m c]
  rfl

theorem att_eq (m : (ℓ : Loc Cert.KernelIdeal.nD Cert.KernelIdeal.τ Cert.KernelIdeal.sig) → Buf (Elt Ideal) ℓ) (c : Dev Cert.KernelIdeal.nD) :
    Cert.KernelIdeal.Final.G25 m c = Cert.ReferenceIdeal.Read.val_main_v211 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
  rw [Cert.ReferenceIdeal.RefValue.v211_fun (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ← Cert.Bridge.kin_eq_rin m c]
  rfl

theorem det_eq (m : (ℓ : Loc Cert.KernelIdeal.nD Cert.KernelIdeal.τ Cert.KernelIdeal.sig) → Buf (Elt Ideal) ℓ) (c : Dev Cert.KernelIdeal.nD) :
    Cert.KernelIdeal.Final.G24 m c = Cert.ReferenceIdeal.Read.val_main_v212 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
  rw [Cert.ReferenceIdeal.RefValue.v212_fun (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ← Cert.Bridge.kin_eq_rin m c]
  rfl

set_option maxHeartbeats 8000000 in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v220 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)),
    fun c => Cert.ReferenceIdeal.Read.val_main_v222 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)),
    fun c => Cert.ReferenceIdeal.Read.val_main_v214 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · refine (θ_run Cert.KernelIdeal.defs _ _).mono (fun r h c => ?_) (Cert.KernelIdeal.Tail.run_post (F := Ideal) m ρ)
    obtain ⟨h0, h1, h2, hargs⟩ := h c
    refine ⟨h0.trans ?_, h1.trans ?_, h2.trans ?_, hargs⟩
    · exact (Cert.KernelIdeal.Final.final23 m c).trans (out_eq m c)
    · rw [Cert.KernelIdeal.Final.final25 m c, att_eq m c]
      exact Cert.RefRun.flat59_ref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))
    · rw [Cert.KernelIdeal.Final.final24 m c, det_eq m c]
      exact Cert.RefRun.flat57_ref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))
  · refine (θ_run Cert.ReferenceIdeal.defs _ _).mono (fun r h c => ?_) (Cert.RefRun.ref_run m' ρ')
    obtain ⟨e0, e1, e2, e3, e4, e5, e6, e7, e8, e9, e10, e11, e12, e13, e14, e15, e16, e17, e18, e19, e20, e21, e22⟩ := hagree c
    obtain ⟨r0, r1, r2, rargs⟩ := h c
    refine ⟨r0.trans ?_, r1.trans ?_, r2.trans ?_, rargs⟩
    · simp only [e0, e1, e2, e3, e4, e5, e6, e7, e8, e9, e10, e11, e12, e13, e14, e15, e16, e17, e18, e19, e20, e21, e22]
    · simp only [e0, e1, e2, e3, e4, e5, e6, e7, e8, e9, e10, e11, e12, e13, e14, e15, e16, e17, e18, e19, e20, e21, e22]
    · simp only [e0, e1, e2, e3, e4, e5, e6, e7, e8, e9, e10, e11, e12, e13, e14, e15, e16, e17, e18, e19, e20, e21, e22]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.RefRun.frame_ri,
    trivial,
    algebraic⟩

end Cert.Proof

end
